-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v121)) (v1 : (c : Dev Cert.KernelIdeal.nD) → Buf (Elt Ideal) ((c.tc : Thread Cert.KernelIdeal.nD Cert.KernelIdeal.τ).loc Cert.KernelIdeal.main_v123)) (v2 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_v123) = v1 c
          ∧ r.2.mem ((c.tc : Thread Cert.KernelIdeal.nD Cert.KernelIdeal.τ).loc Cert.KernelIdeal.main_v125) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x20000 : Shape := ⟨2, ![128, 20000]⟩
abbrev S384x20000 : Shape := ⟨2, ![384, 20000]⟩
abbrev S1024x1536 : Shape := ⟨2, ![1024, 1536]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S128x20000 : S_.BroadcastsInDim S128x20000 (![] : Fin 0 → Fin S128x20000.rank)
  reducesTo_S128x20000_S_d0_1 : S128x20000.ReducesTo [0, 1] S_
  h_S_ : 0 < S_.numel
  bcast_S_S384x20000 : S_.BroadcastsInDim S384x20000 (![] : Fin 0 → Fin S384x20000.rank)
  reducesTo_S384x20000_S_d0_1 : S384x20000.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg18 : FVec F S1 .f32) (main_arg19 : FVec F S1x1024 .f32) (main_arg20 : FVec F S1 .f32) (main_v83 : IVec S_ 1) (main_v84 : FVec F S1x1024 .f32) (main_cst_32 : FVec F S_ .f32) : IVec S_ 1 :=
  let main_v85 : FVec F S1x1024 .f32 := broadcastInDim S1x1024 ![] bcast_S_S1x1024 main_cst_32
  let main_v86 : IVec S1x1024 1 := cmpf .olt main_v84 main_v85
  let main_c_33 : IVec S_ 1 := constantI S_ 1 1#1
  let main_v87 : IVec S_ 1 := (fun x v => Host.reduce IntOp.andi x v reducesTo_S1x1024_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S1x1024 .f32 := Host.absf main_arg19
  let main_cst_36 : FVec F S_ .f32 := constant S_ .f32 0x7F800000#32
  let main_v95 : FVec F S1x1024 .f32 := broadcastInDim S1x1024 ![] bcast_S_S1x1024 main_cst_36
  let main_v96 : IVec S1x1024 1 := cmpf .olt main_v94 main_v95
  let main_c_37 : IVec S_ 1 := constantI S_ 1 1#1
  let main_v97 : IVec S_ 1 := (fun x v => Host.reduce IntOp.andi x v reducesTo_S1x1024_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg14 : FVec F S1024 .f32) (main_arg15 : FVec F S1x1024 .f32) (main_arg16 : FVec F S1 .f32) (main_arg17 : FVec F S1x1024 .f32) (main_arg18 : FVec F S1 .f32) (main_arg19 : FVec F S1x1024 .f32) (main_arg20 : FVec F S1 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1x1024 .f32 := Host.absf main_arg15
  let main_cst_28 : FVec F S_ .f32 := constant S_ .f32 0x7F800000#32
  let main_v75 : FVec F S1x1024 .f32 := broadcastInDim S1x1024 ![] bcast_S_S1x1024 main_cst_28
  let main_v76 : IVec S1x1024 1 := cmpf .olt main_v74 main_v75
  let main_c_29 : IVec S_ 1 := constantI S_ 1 1#1
  let main_v77 : IVec S_ 1 := (fun x v => Host.reduce IntOp.andi x v reducesTo_S1x1024_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1x1024 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S1024x1536 .f32) (main_arg12 : FVec F S1024 .f32) (main_arg13 : FVec F S1024x1536 .f32) (main_arg14 : FVec F S1024 .f32) (main_arg15 : FVec F S1x1024 .f32) (main_arg16 : FVec F S1 .f32) (main_arg17 : FVec F S1x1024 .f32) (main_arg18 : FVec F S1 .f32) (main_arg19 : FVec F S1x1024 .f32) (main_arg20 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1536 .f32 := Host.absf main_arg11
  let main_cst_20 : FVec F S_ .f32 := constant S_ .f32 0x7F800000#32
  let main_v55 : FVec F S1024x1536 .f32 := broadcastInDim S1024x1536 ![] bcast_S_S1024x1536 main_cst_20
  let main_v56 : IVec S1024x1536 1 := cmpf .olt main_v54 main_v55
  let main_c_21 : IVec S_ 1 := constantI S_ 1 1#1
  let main_v57 : IVec S_ 1 := (fun x v => Host.reduce IntOp.andi x v reducesTo_S1024x1536_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1536 .f32 := Host.absf main_arg13
  let main_cst_24 : FVec F S_ .f32 := constant S_ .f32 0x7F800000#32
  let main_v65 : FVec F S1024x1536 .f32 := broadcastInDim S1024x1536 ![] bcast_S_S1024x1536 main_cst_24
  let main_v66 : IVec S1024x1536 1 := cmpf .olt main_v64 main_v65
  let main_c_25 : IVec S_ 1 := constantI S_ 1 1#1
  let main_v67 : IVec S_ 1 := (fun x v => Host.reduce IntOp.andi x v reducesTo_S1024x1536_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S384x20000 .f32) (main_arg8 : FVec F S384x20000 .f32) (main_arg9 : FVec F S1024x1536 .f32) (main_arg10 : FVec F S1024 .f32) (main_arg11 : FVec F S1024x1536 .f32) (main_arg12 : FVec F S1024 .f32) (main_arg13 : FVec F S1024x1536 .f32) (main_arg14 : FVec F S1024 .f32) (main_arg15 : FVec F S1x1024 .f32) (main_arg16 : FVec F S1 .f32) (main_arg17 : FVec F S1x1024 .f32) (main_arg18 : FVec F S1 .f32) (main_arg19 : FVec F S1x1024 .f32) (main_arg20 : FVec F S1 .f32) (main_v33 : IVec S_ 1) : IVec S_ 1 :=
  let main_v34 : FVec F S384x20000 .f32 := Host.absf main_arg7
  let main_cst_12 : FVec F S_ .f32 := constant S_ .f32 0x7F800000#32
  let main_v35 : FVec F S384x20000 .f32 := broadcastInDim S384x20000 ![] bcast_S_S384x20000 main_cst_12
  let main_v36 : IVec S384x20000 1 := cmpf .olt main_v34 main_v35
  let main_c_13 : IVec S_ 1 := constantI S_ 1 1#1
  let main_v37 : IVec S_ 1 := (fun x v => Host.reduce IntOp.andi x v reducesTo_S384x20000_S_d0_1 h_S_) main_v36 main_c_13
  let main_v38 : IVec S_ 1 := andi main_v33 main_v37
  let main_v39 : FVec F S384x20000 .f32 := Host.absf main_arg8
  let main_cst_14 : FVec F S_ .f32 := constant S_ .f32 0x7F800000#32
  let main_v40 : FVec F S384x20000 .f32 := broadcastInDim S384x20000 ![] bcast_S_S384x20000 main_cst_14
  let main_v41 : IVec S384x20000 1 := cmpf .olt main_v39 main_v40
  let main_c_15 : IVec S_ 1 := constantI S_ 1 1#1
  let main_v42 : IVec S_ 1 := (fun x v => Host.reduce IntOp.andi x v reducesTo_S384x20000_S_d0_1 h_S_) main_v41 main_c_15
  let main_v43 : IVec S_ 1 := andi main_v38 main_v42
  let main_v44 : FVec F S1024x1536 .f32 := Host.absf main_arg9
  let main_cst_16 : FVec F S_ .f32 := constant S_ .f32 0x7F800000#32
  let main_v45 : FVec F S1024x1536 .f32 := broadcastInDim S1024x1536 ![] bcast_S_S1024x1536 main_cst_16
  let main_v46 : IVec S1024x1536 1 := cmpf .olt main_v44 main_v45
  let main_c_17 : IVec S_ 1 := constantI S_ 1 1#1
  let main_v47 : IVec S_ 1 := (fun x v => Host.reduce IntOp.andi x v reducesTo_S1024x1536_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S384x20000 .f32) (main_arg5 : FVec F S384x20000 .f32) (main_arg6 : FVec F S384x20000 .f32) (main_arg7 : FVec F S384x20000 .f32) (main_arg8 : FVec F S384x20000 .f32) (main_arg9 : FVec F S1024x1536 .f32) (main_arg10 : FVec F S1024 .f32) (main_arg11 : FVec F S1024x1536 .f32) (main_arg12 : FVec F S1024 .f32) (main_arg13 : FVec F S1024x1536 .f32) (main_arg14 : FVec F S1024 .f32) (main_arg15 : FVec F S1x1024 .f32) (main_arg16 : FVec F S1 .f32) (main_arg17 : FVec F S1x1024 .f32) (main_arg18 : FVec F S1 .f32) (main_arg19 : FVec F S1x1024 .f32) (main_arg20 : FVec F S1 .f32) (main_v13 : IVec S_ 1) (main_v16 : IVec S384x20000 1) : IVec S_ 1 :=
  let main_c_5 : IVec S_ 1 := constantI S_ 1 1#1
  let main_v17 : IVec S_ 1 := (fun x v => Host.reduce IntOp.andi x v reducesTo_S384x20000_S_d0_1 h_S_) main_v16 main_c_5
  let main_v18 : IVec S_ 1 := andi main_v13 main_v17
  let main_v19 : FVec F S384x20000 .f32 := Host.absf main_arg4
  let main_cst_6 : FVec F S_ .f32 := constant S_ .f32 0x7F800000#32
  let main_v20 : FVec F S384x20000 .f32 := broadcastInDim S384x20000 ![] bcast_S_S384x20000 main_cst_6
  let main_v21 : IVec S384x20000 1 := cmpf .olt main_v19 main_v20
  let main_c_7 : IVec S_ 1 := constantI S_ 1 1#1
  let main_v22 : IVec S_ 1 := (fun x v => Host.reduce IntOp.andi x v reducesTo_S384x20000_S_d0_1 h_S_) main_v21 main_c_7
  let main_v23 : IVec S_ 1 := andi main_v18 main_v22
  let main_v24 : FVec F S384x20000 .f32 := Host.absf main_arg5
  let main_cst_8 : FVec F S_ .f32 := constant S_ .f32 0x7F800000#32
  let main_v25 : FVec F S384x20000 .f32 := broadcastInDim S384x20000 ![] bcast_S_S384x20000 main_cst_8
  let main_v26 : IVec S384x20000 1 := cmpf .olt main_v24 main_v25
  let main_c_9 : IVec S_ 1 := constantI S_ 1 1#1
  let main_v27 : IVec S_ 1 := (fun x v => Host.reduce IntOp.andi x v reducesTo_S384x20000_S_d0_1 h_S_) main_v26 main_c_9
  let main_v28 : IVec S_ 1 := andi main_v23 main_v27
  let main_v29 : FVec F S384x20000 .f32 := Host.absf main_arg6
  let main_cst_10 : FVec F S_ .f32 := constant S_ .f32 0x7F800000#32
  let main_v30 : FVec F S384x20000 .f32 := broadcastInDim S384x20000 ![] bcast_S_S384x20000 main_cst_10
  let main_v31 : IVec S384x20000 1 := cmpf .olt main_v29 main_v30
  let main_c_11 : IVec S_ 1 := constantI S_ 1 1#1
  let main_v32 : IVec S_ 1 := (fun x v => Host.reduce IntOp.andi x v reducesTo_S384x20000_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S128x20000 .f32) (main_arg1 : FVec F S128x20000 .f32) (main_arg2 : FVec F S128x20000 .f32) (main_arg3 : FVec F S384x20000 .f32) (main_arg4 : FVec F S384x20000 .f32) (main_arg5 : FVec F S384x20000 .f32) (main_arg6 : FVec F S384x20000 .f32) (main_arg7 : FVec F S384x20000 .f32) (main_arg8 : FVec F S384x20000 .f32) (main_arg9 : FVec F S1024x1536 .f32) (main_arg10 : FVec F S1024 .f32) (main_arg11 : FVec F S1024x1536 .f32) (main_arg12 : FVec F S1024 .f32) (main_arg13 : FVec F S1024x1536 .f32) (main_arg14 : FVec F S1024 .f32) (main_arg15 : FVec F S1x1024 .f32) (main_arg16 : FVec F S1 .f32) (main_arg17 : FVec F S1x1024 .f32) (main_arg18 : FVec F S1 .f32) (main_arg19 : FVec F S1x1024 .f32) (main_arg20 : FVec F S1 .f32) : IVec S_ 1 :=
  let main_v0 : FVec F S128x20000 .f32 := Host.absf main_arg0
  let main_cst : FVec F S_ .f32 := constant S_ .f32 0x7F800000#32
  let main_v1 : FVec F S128x20000 .f32 := broadcastInDim S128x20000 ![] bcast_S_S128x20000 main_cst
  let main_v2 : IVec S128x20000 1 := cmpf .olt main_v0 main_v1
  let main_c : IVec S_ 1 := constantI S_ 1 1#1
  let main_v3 : IVec S_ 1 := (fun x v => Host.reduce IntOp.andi x v reducesTo_S128x20000_S_d0_1 h_S_) main_v2 main_c
  let main_v4 : FVec F S128x20000 .f32 := Host.absf main_arg1
  let main_cst_0 : FVec F S_ .f32 := constant S_ .f32 0x7F800000#32
  let main_v5 : FVec F S128x20000 .f32 := broadcastInDim S128x20000 ![] bcast_S_S128x20000 main_cst_0
  let main_v6 : IVec S128x20000 1 := cmpf .olt main_v4 main_v5
  let main_c_1 : IVec S_ 1 := constantI S_ 1 1#1
  let main_v7 : IVec S_ 1 := (fun x v => Host.reduce IntOp.andi x v reducesTo_S128x20000_S_d0_1 h_S_) main_v6 main_c_1
  let main_v8 : IVec S_ 1 := andi main_v3 main_v7
  let main_v9 : FVec F S128x20000 .f32 := Host.absf main_arg2
  let main_cst_2 : FVec F S_ .f32 := constant S_ .f32 0x7F800000#32
  let main_v10 : FVec F S128x20000 .f32 := broadcastInDim S128x20000 ![] bcast_S_S128x20000 main_cst_2
  let main_v11 : IVec S128x20000 1 := cmpf .olt main_v9 main_v10
  let main_c_3 : IVec S_ 1 := constantI S_ 1 1#1
  let main_v12 : IVec S_ 1 := (fun x v => Host.reduce IntOp.andi x v reducesTo_S128x20000_S_d0_1 h_S_) main_v11 main_c_3
  let main_v13 : IVec S_ 1 := andi main_v8 main_v12
  let main_v14 : FVec F S384x20000 .f32 := Host.absf main_arg3
  let main_cst_4 : FVec F S_ .f32 := constant S_ .f32 0x7F800000#32
  let main_v15 : FVec F S384x20000 .f32 := broadcastInDim S384x20000 ![] bcast_S_S384x20000 main_cst_4
  let main_v16 : IVec S384x20000 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S128x20000 : Shape := ⟨2, ![128, 20000]⟩
abbrev S384x20000 : Shape := ⟨2, ![384, 20000]⟩
abbrev S1024x1536 : Shape := ⟨2, ![1024, 1536]⟩
abbrev S1024 : Shape := ⟨1, ![1024]⟩
abbrev S1x1024 : Shape := ⟨2, ![1, 1024]⟩
abbrev S1 : Shape := ⟨1, ![1]⟩
abbrev S_ : Shape := ⟨0, ![]⟩
abbrev S128x20480 : Shape := ⟨2, ![128, 20480]⟩
abbrev S1x128x20480 : Shape := ⟨3, ![1, 128, 20480]⟩
abbrev S3x128x20480 : Shape := ⟨3, ![3, 128, 20480]⟩
abbrev S768x20000 : Shape := ⟨2, ![768, 20000]⟩
abbrev S768x20480 : Shape := ⟨2, ![768, 20480]⟩
abbrev S1x768x20480 : Shape := ⟨3, ![1, 768, 20480]⟩
abbrev S3x768x20480 : Shape := ⟨3, ![3, 768, 20480]⟩
abbrev S3x128x768 : Shape := ⟨3, ![3, 128, 768]⟩
abbrev S1x128x2560 : Shape := ⟨3, ![1, 128, 2560]⟩
abbrev S1x768x2560 : Shape := ⟨3, ![1, 768, 2560]⟩
abbrev S1x128x768 : Shape := ⟨3, ![1, 128, 768]⟩
abbrev S128x768 : Shape := ⟨2, ![128, 768]⟩
abbrev S128x2560 : Shape := ⟨2, ![128, 2560]⟩
abbrev S768x2560 : Shape := ⟨2, ![768, 2560]⟩
abbrev S128x2x384 : Shape := ⟨3, ![128, 2, 384]⟩
abbrev S128x384 : Shape := ⟨2, ![128, 384]⟩
abbrev S128x1x384 : Shape := ⟨3, ![128, 1, 384]⟩
abbrev S128x384x384 : Shape := ⟨3, ![128, 384, 384]⟩
abbrev S128x384x1 : Shape := ⟨3, ![128, 384, 1]⟩
abbrev S128x4x384 : Shape := ⟨3, ![128, 4, 384]⟩
abbrev S128x1536 : Shape := ⟨2, ![128, 1536]⟩
abbrev S128x1 : Shape := ⟨2, ![128, 1]⟩
abbrev S128x1024 : Shape := ⟨2, ![128, 1024]⟩
abbrev S128 : Shape := ⟨1, ![128]⟩
abbrev S1x1 : Shape := ⟨2, ![1, 1]⟩

abbrev nBuf : Space → Nat
  | .hbm => 189
  | .vmem => 24
  | .smem => 0
  | _ => 0

abbrev hbmTy0_0 (i : Nat) : BufTy := match i % 128 with
  | 0 => ⟨S128x20000, .f32⟩
  | 1 => ⟨S128x20000, .f32⟩
  | 2 => ⟨S128x20000, .f32⟩
  | 3 => ⟨S384x20000, .f32⟩
  | 4 => ⟨S384x20000, .f32⟩
  | 5 => ⟨S384x20000, .f32⟩
  | 6 => ⟨S384x20000, .f32⟩
  | 7 => ⟨S384x20000, .f32⟩
  | 8 => ⟨S384x20000, .f32⟩
  | 9 => ⟨S1024x1536, .f32⟩
  | 10 => ⟨S1024, .f32⟩
  | 11 => ⟨S1024x1536, .f32⟩
  | 12 => ⟨S1024, .f32⟩
  | 13 => ⟨S1024x1536, .f32⟩
  | 14 => ⟨S1024, .f32⟩
  | 15 => ⟨S1x1024, .f32⟩
  | 16 => ⟨S1, .f32⟩
  | 17 => ⟨S1x1024, .f32⟩
  | 18 => ⟨S1, .f32⟩
  | 19 => ⟨S1x1024, .f32⟩
  | 20 => ⟨S1, .f32⟩
  | 21 => ⟨S_, .i32⟩
  | 22 => ⟨S_, .f32⟩
  | 23 => ⟨S128x20480, .f32⟩
  | 24 => ⟨S_, .i32⟩
  | 25 => ⟨S_, .f32⟩
  | 26 => ⟨S128x20480, .f32⟩
  | 27 => ⟨S_, .i32⟩
  | 28 => ⟨S_, .f32⟩
  | 29 => ⟨S128x20480, .f32⟩
  | 30 => ⟨S1x128x20480, .f32⟩
  | 31 => ⟨S1x128x20480, .f32⟩
  | 32 => ⟨S1x128x20480, .f32⟩
  | 33 => ⟨S3x128x20480, .f32⟩
  | 34 => ⟨S768x20000, .f32⟩
  | 35 => ⟨S_, .i32⟩
  | 36 => ⟨S_, .f32⟩
  | 37 => ⟨S768x20480, .f32⟩
  | 38 => ⟨S768x20000, .f32⟩
  | 39 => ⟨S_, .i32⟩
  | 40 => ⟨S_, .f32⟩
  | 41 => ⟨S768x20480, .f32⟩
  | 42 => ⟨S768x20000, .f32⟩
  | 43 => ⟨S_, .i32⟩
  | 44 => ⟨S_, .f32⟩
  | 45 => ⟨S768x20480, .f32⟩
  | 46 => ⟨S1x768x20480, .f32⟩
  | 47 => ⟨S1x768x20480, .f32⟩
  | 48 => ⟨S1x768x20480, .f32⟩
  | 49 => ⟨S3x768x20480, .f32⟩
  | 50 => ⟨S3x128x768, .f32⟩
  | 51 => ⟨S1x128x768, .f32⟩
  | 52 => ⟨S128x768, .f32⟩
  | 53 => ⟨S128x2x384, .f32⟩
  | 54 => ⟨S128x2x384, .f32⟩
  | 55 => ⟨S_, .f32⟩
  | 56 => ⟨S128x384, .f32⟩
  | 57 => ⟨S128x1x384, .f32⟩
  | 58 => ⟨S128x1x384, .f32⟩
  | 59 => ⟨S128x2x384, .f32⟩
  | 60 => ⟨S128x2x384, .f32⟩
  | 61 => ⟨S1x128x768, .f32⟩
  | 62 => ⟨S128x768, .f32⟩
  | 63 => ⟨S128x2x384, .f32⟩
  | 64 => ⟨S128x2x384, .f32⟩
  | 65 => ⟨S_, .f32⟩
  | 66 => ⟨S128x384, .f32⟩
  | 67 => ⟨S128x1x384, .f32⟩
  | 68 => ⟨S128x1x384, .f32⟩
  | 69 => ⟨S128x2x384, .f32⟩
  | 70 => ⟨S128x2x384, .f32⟩
  | 71 => ⟨S1x128x768, .f32⟩
  | 72 => ⟨S128x768, .f32⟩
  | 73 => ⟨S128x2x384, .f32⟩
  | 74 => ⟨S128x2x384, .f32⟩
  | 75 => ⟨S_, .f32⟩
  | 76 => ⟨S128x384, .f32⟩
  | 77 => ⟨S128x1x384, .f32⟩
  | 78 => ⟨S128x1x384, .f32⟩
  | 79 => ⟨S128x2x384, .f32⟩
  | 80 => ⟨S128x2x384, .f32⟩
  | 81 => ⟨S128x384x384, .f32⟩
  | 82 => ⟨S128x384x384, .f32⟩
  | 83 => ⟨S128x384x384, .f32⟩
  | 84 => ⟨S_, .f32⟩
  | 85 => ⟨S128x384, .f32⟩
  | 86 => ⟨S_, .f32⟩
  | 87 => ⟨S128x384, .f32⟩
  | 88 => ⟨S128x384, .f32⟩
  | 89 => ⟨S128x1x384, .f32⟩
  | 90 => ⟨S128x384x384, .f32⟩
  | 91 => ⟨S128x384x384, .f32⟩
  | 92 => ⟨S128x384x384, .f32⟩
  | 93 => ⟨S_, .f32⟩
  | 94 => ⟨S128x384, .f32⟩
  | 95 => ⟨S128x1x384, .f32⟩
  | 96 => ⟨S128x384x384, .f32⟩
  | 97 => ⟨S128x384x384, .f32⟩
  | 98 => ⟨S_, .f32⟩
  | 99 => ⟨S128x384, .f32⟩
  | 100 => ⟨S_, .f32⟩
  | 101 => ⟨S128x384, .f32⟩
  | 102 => ⟨S128x384, .f32⟩
  | 103 => ⟨S128x1x384, .f32⟩
  | 104 => ⟨S128x384x384, .f32⟩
  | 105 => ⟨S128x384x384, .f32⟩
  | 106 => ⟨S128x384x384, .f32⟩
  | 107 => ⟨S_, .f32⟩
  | 108 => ⟨S128x384, .f32⟩
  | 109 => ⟨S128x1x384, .f32⟩
  | 110 => ⟨S128x384x384, .f32⟩
  | 111 => ⟨S128x384x384, .f32⟩
  | 112 => ⟨S_, .f32⟩
  | 113 => ⟨S128x384, .f32⟩
  | 114 => ⟨S_, .f32⟩
  | 115 => ⟨S128x384, .f32⟩
  | 116 => ⟨S128x384, .f32⟩
  | 117 => ⟨S128x384x1, .f32⟩
  | 118 => ⟨S128x384x384, .f32⟩
  | 119 => ⟨S128x384x384, .f32⟩
  | 120 => ⟨S128x384x384, .f32⟩
  | 121 => ⟨S_, .f32⟩
  | 122 => ⟨S128x384, .f32⟩
  | 123 => ⟨S128x384x1, .f32⟩
  | 124 => ⟨S128x384x384, .f32⟩
  | 125 => ⟨S128x384x384, .f32⟩
  | 126 => ⟨S128x384x384, .f32⟩
  | 127 => ⟨S_, .f32⟩
  | _ => ⟨S128x20000, .f32⟩

abbrev hbmTy0_1 (i : Nat) : BufTy := match i % 128 with
  | 0 => ⟨S128x384, .f32⟩
  | 1 => ⟨S_, .f32⟩
  | 2 => ⟨S128x384, .f32⟩
  | 3 => ⟨S128x384, .f32⟩
  | 4 => ⟨S128x384x1, .f32⟩
  | 5 => ⟨S128x384x384, .f32⟩
  | 6 => ⟨S128x384x384, .f32⟩
  | 7 => ⟨S128x384x384, .f32⟩
  | 8 => ⟨S_, .f32⟩
  | 9 => ⟨S128x384, .f32⟩
  | 10 => ⟨S128x384x1, .f32⟩
  | 11 => ⟨S128x384x384, .f32⟩
  | 12 => ⟨S128x384x384, .f32⟩
  | 13 => ⟨S_, .f32⟩
  | 14 => ⟨S128x384, .f32⟩
  | 15 => ⟨S_, .f32⟩
  | 16 => ⟨S128x384, .f32⟩
  | 17 => ⟨S128x384, .f32⟩
  | 18 => ⟨S128x384x1, .f32⟩
  | 19 => ⟨S128x384x384, .f32⟩
  | 20 => ⟨S128x384x384, .f32⟩
  | 21 => ⟨S128x384x384, .f32⟩
  | 22 => ⟨S_, .f32⟩
  | 23 => ⟨S128x384, .f32⟩
  | 24 => ⟨S128x384x1, .f32⟩
  | 25 => ⟨S128x384x384, .f32⟩
  | 26 => ⟨S128x384x384, .f32⟩
  | 27 => ⟨S128x384x384, .f32⟩
  | 28 => ⟨S_, .f32⟩
  | 29 => ⟨S128x384, .f32⟩
  | 30 => ⟨S_, .f32⟩
  | 31 => ⟨S128x384, .f32⟩
  | 32 => ⟨S128x384, .f32⟩
  | 33 => ⟨S128x384x1, .f32⟩
  | 34 => ⟨S128x384x384, .f32⟩
  | 35 => ⟨S128x384x384, .f32⟩
  | 36 => ⟨S128x384x384, .f32⟩
  | 37 => ⟨S_, .f32⟩
  | 38 => ⟨S128x384, .f32⟩
  | 39 => ⟨S128x384x1, .f32⟩
  | 40 => ⟨S128x384x384, .f32⟩
  | 41 => ⟨S128x384x384, .f32⟩
  | 42 => ⟨S128x384x384, .f32⟩
  | 43 => ⟨S128x2x384, .f32⟩
  | 44 => ⟨S128x2x384, .f32⟩
  | 45 => ⟨S128x4x384, .f32⟩
  | 46 => ⟨S128x1536, .f32⟩
  | 47 => ⟨S128x2x384, .f32⟩
  | 48 => ⟨S128x2x384, .f32⟩
  | 49 => ⟨S128x4x384, .f32⟩
  | 50 => ⟨S128x1536, .f32⟩
  | 51 => ⟨S128x2x384, .f32⟩
  | 52 => ⟨S128x2x384, .f32⟩
  | 53 => ⟨S128x4x384, .f32⟩
  | 54 => ⟨S128x1536, .f32⟩
  | 55 => ⟨S128x1, .f32⟩
  | 56 => ⟨S128, .f32⟩
  | 57 => ⟨S128x1, .f32⟩
  | 58 => ⟨S128, .f32⟩
  | 59 => ⟨S128x1, .f32⟩
  | 60 => ⟨S128, .f32⟩
  | _ => ⟨S128x20000, .f32⟩

abbrev hbmTy (i : Nat) : BufTy := match i / 128 with
  | 0 => hbmTy0_0 i
  | 1 => hbmTy0_1 i
  | _ => ⟨S128x20000, .f32⟩

abbrev bufTy : (tb : Table) → Fin (tcTables nBuf tb) → BufTy
  | .hbm, ⟨i, _⟩ => hbmTy i
  | .local _ .vmem, ⟨0, _⟩ => ⟨S1x128x2560, .f32⟩
  | .local _ .vmem, ⟨1, _⟩ => ⟨S1x128x2560, .f32⟩
  | .local _ .vmem, ⟨2, _⟩ => ⟨S1x768x2560, .f32⟩
  | .local _ .vmem, ⟨3, _⟩ => ⟨S1x768x2560, .f32⟩
  | .local _ .vmem, ⟨4, _⟩ => ⟨S1x128x768, .f32⟩
  | .local _ .vmem, ⟨5, _⟩ => ⟨S1x128x768, .f32⟩
  | .local _ .vmem, ⟨6, _⟩ => ⟨S128x1536, .f32⟩
  | .local _ .vmem, ⟨7, _⟩ => ⟨S1024x1536, .f32⟩
  | .local _ .vmem, ⟨8, _⟩ => ⟨S1024, .f32⟩
  | .local _ .vmem, ⟨9, _⟩ => ⟨S1x1024, .f32⟩
  | .local _ .vmem, ⟨10, _⟩ => ⟨S1, .f32⟩
  | .local _ .vmem, ⟨11, _⟩ => ⟨S128x1, .f32⟩
  | .local _ .vmem, ⟨12, _⟩ => ⟨S128x1536, .f32⟩
  | .local _ .vmem, ⟨13, _⟩ => ⟨S1024x1536, .f32⟩
  | .local _ .vmem, ⟨14, _⟩ => ⟨S1024, .f32⟩
  | .local _ .vmem, ⟨15, _⟩ => ⟨S1x1024, .f32⟩
  | .local _ .vmem, ⟨16, _⟩ => ⟨S1, .f32⟩
  | .local _ .vmem, ⟨17, _⟩ => ⟨S128x1, .f32⟩
  | .local _ .vmem, ⟨18, _⟩ => ⟨S128x1536, .f32⟩
  | .local _ .vmem, ⟨19, _⟩ => ⟨S1024x1536, .f32⟩
  | .local _ .vmem, ⟨20, _⟩ => ⟨S1024, .f32⟩
  | .local _ .vmem, ⟨21, _⟩ => ⟨S1x1024, .f32⟩
  | .local _ .vmem, ⟨22, _⟩ => ⟨S1, .f32⟩
  | .local _ .vmem, ⟨23, _⟩ => ⟨S128x1, .f32⟩
  | _, _ => ⟨S128x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_v0 : Ref sig .tc := ⟨.hbm, 23, rfl⟩
abbrev main_c_0 : Ref sig .tc := ⟨.hbm, 24, rfl⟩
abbrev main_call1_v0 : Ref sig .tc := ⟨.hbm, 25, rfl⟩
abbrev main_v1 : Ref sig .tc := ⟨.hbm, 26, rfl⟩
abbrev main_c_1 : Ref sig .tc := ⟨.hbm, 27, rfl⟩
abbrev main_call2_v0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c_2 : Ref sig .tc := ⟨.hbm, 35, rfl⟩
abbrev main_call3_v0 : Ref sig .tc := ⟨.hbm, 36, rfl⟩
abbrev main_v8 : Ref sig .tc := ⟨.hbm, 37, rfl⟩
abbrev main_v9 : Ref sig .tc := ⟨.hbm, 38, rfl⟩
abbrev main_c_3 : Ref sig .tc := ⟨.hbm, 39, rfl⟩
abbrev main_call4_v0 : Ref sig .tc := ⟨.hbm, 40, rfl⟩
abbrev main_v10 : Ref sig .tc := ⟨.hbm, 41, rfl⟩
abbrev main_v11 : Ref sig .tc := ⟨.hbm, 42, rfl⟩
abbrev main_c_4 : Ref sig .tc := ⟨.hbm, 43, rfl⟩
abbrev main_call5_v0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_call6_v0 : Ref sig .tc := ⟨.hbm, 54, rfl⟩
abbrev main_call6_cst : Ref sig .tc := ⟨.hbm, 55, rfl⟩
abbrev main_call6_v1 : Ref sig .tc := ⟨.hbm, 56, rfl⟩
abbrev main_call6_v2 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_call7_v0 : Ref sig .tc := ⟨.hbm, 64, rfl⟩
abbrev main_call7_cst : Ref sig .tc := ⟨.hbm, 65, rfl⟩
abbrev main_call7_v1 : Ref sig .tc := ⟨.hbm, 66, rfl⟩
abbrev main_call7_v2 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_call8_v0 : Ref sig .tc := ⟨.hbm, 74, rfl⟩
abbrev main_call8_cst : Ref sig .tc := ⟨.hbm, 75, rfl⟩
abbrev main_call8_v1 : Ref sig .tc := ⟨.hbm, 76, rfl⟩
abbrev main_call8_v2 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst : Ref sig .tc := ⟨.hbm, 84, rfl⟩
abbrev main_v39 : Ref sig .tc := ⟨.hbm, 85, rfl⟩
abbrev main_cst_5 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_6 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_7 : Ref sig .tc := ⟨.hbm, 98, rfl⟩
abbrev main_v50 : Ref sig .tc := ⟨.hbm, 99, rfl⟩
abbrev main_cst_8 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_9 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_10 : Ref sig .tc := ⟨.hbm, 112, rfl⟩
abbrev main_v61 : Ref sig .tc := ⟨.hbm, 113, rfl⟩
abbrev main_cst_11 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_12 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_13 : Ref sig .tc := ⟨.hbm, 127, rfl⟩
abbrev main_v73 : Ref sig .tc := ⟨.hbm, 128, rfl⟩
abbrev main_cst_14 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_15 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_16 : Ref sig .tc := ⟨.hbm, 141, rfl⟩
abbrev main_v84 : Ref sig .tc := ⟨.hbm, 142, rfl⟩
abbrev main_cst_17 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_18 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_cst_19 : Ref sig .tc := ⟨.hbm, 156, rfl⟩
abbrev main_v96 : Ref sig .tc := ⟨.hbm, 157, rfl⟩
abbrev main_cst_20 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_cst_21 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x1536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x1536 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1536 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x1536 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x1536 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  pads_S128x20000_S128x20480_000_04800 : S128x20000.Pads (![0, 0] : Fin 2 → Nat) ![0, 480] ![0, 0] S128x20480
  h_S_ : 0 < S_.numel
  bcast_S128x20480_S1x128x20480_1_2 : S128x20480.BroadcastsInDim S1x128x20480 (![1, 2] : Fin 2 → Fin S1x128x20480.rank)
  concatenates_S1x128x20480_S1x128x20480_S1x128x20480_S3x128x20480_d0 : Shape.Concatenates [S1x128x20480, S1x128x20480, S1x128x20480] S3x128x20480 0
  concatenates_S384x20000_S384x20000_S768x20000_d0 : Shape.Concatenates [S384x20000, S384x20000] S768x20000 0
  pads_S768x20000_S768x20480_000_04800 : S768x20000.Pads (![0, 0] : Fin 2 → Nat) ![0, 480] ![0, 0] S768x20480
  bcast_S768x20480_S1x768x20480_1_2 : S768x20480.BroadcastsInDim S1x768x20480 (![1, 2] : Fin 2 → Fin S1x768x20480.rank)
  concatenates_S1x768x20480_S1x768x20480_S1x768x20480_S3x768x20480_d0 : Shape.Concatenates [S1x768x20480, S1x768x20480, S1x768x20480] S3x768x20480 0
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S128x768_S1x128x768 : S128x768.ShapeCasts S1x128x768
  inb_S1x128x2560_S1x128x2560_0_0_0 : ∀ a, (![0, 0, 0] : Fin 3 → Nat) a + S1x128x2560.size a ≤ S1x128x2560.size a
  h_S1x128x2560 : 0 < S1x128x2560.numel
  shapeCasts_S1x128x2560_S128x2560 : S1x128x2560.ShapeCasts S128x2560
  bitsLt_bf16_f32 : FTy.bits .bf16 < FTy.bits .f32
  inb_S1x768x2560_S1x768x2560_0_0_0 : ∀ a, (![0, 0, 0] : Fin 3 → Nat) a + S1x768x2560.size a ≤ S1x768x2560.size a
  h_S1x768x2560 : 0 < S1x768x2560.numel
  shapeCasts_S1x768x2560_S768x2560 : S1x768x2560.ShapeCasts S768x2560
  slices_S3x128x768_S1x128x768_0_0_0 : S3x128x768.Slices ![0, 0, 0] S1x128x768
  shapeCasts_S128x768_S128x2x384 : S128x768.ShapeCasts S128x2x384
  reducesTo_S128x2x384_S128x384_d1 : S128x2x384.ReducesTo [1] S128x384
  bcast_S128x384_S128x1x384_0_2 : S128x384.BroadcastsInDim S128x1x384 (![0, 2] : Fin 2 → Fin S128x1x384.rank)
  bcast_S128x1x384_S128x2x384_0_1_2 : S128x1x384.BroadcastsInDim S128x2x384 (![0, 1, 2] : Fin 3 → Fin S128x2x384.rank)
  slices_S3x128x768_S1x128x768_1_0_0 : S3x128x768.Slices ![1, 0, 0] S1x128x768
  slices_S3x128x768_S1x128x768_2_0_0 : S3x128x768.Slices ![2, 0, 0] S1x128x768
  reducesTo_S128x384x384_S128x384_d1 : S128x384x384.ReducesTo [1] S128x384
  bcast_S_S128x384 : S_.BroadcastsInDim S128x384 (![] : Fin 0 → Fin S128x384.rank)
  bcast_S128x1x384_S128x384x384_0_1_2 : S128x1x384.BroadcastsInDim S128x384x384 (![0, 1, 2] : Fin 3 → Fin S128x384x384.rank)
  reducesTo_S128x384x384_S128x384_d2 : S128x384x384.ReducesTo [2] S128x384
  bcast_S128x384_S128x384x1_0_1 : S128x384.BroadcastsInDim S128x384x1 (![0, 1] : Fin 2 → Fin S128x384x1.rank)
  bcast_S128x384x1_S128x384x384_0_1_2 : S128x384x1.BroadcastsInDim S128x384x384 (![0, 1, 2] : Fin 3 → Fin S128x384x384.rank)
  transposes_S128x384x384_S128x384x384_0_2_1 : S128x384x384.Transposes [0, 2, 1] S128x384x384
  concatenates_S128x2x384_S128x2x384_S128x4x384_d1 : Shape.Concatenates [S128x2x384, S128x2x384] S128x4x384 1
  shapeCasts_S128x4x384_S128x1536 : S128x4x384.ShapeCasts S128x1536
  inb_S128x1536_S128x1536_0_0 : ∀ a, (![0, 0] : Fin 2 → Nat) a + S128x1536.size a ≤ S128x1536.size a
  h_S128x1536 : 0 < S128x1536.numel
  shapeCasts_S128x1536_S128x1536 : S128x1536.ShapeCasts S128x1536
  inb_S1024x1536_S1024x1536_0_0 : ∀ a, (![0, 0] : Fin 2 → Nat) a + S1024x1536.size a ≤ S1024x1536.size a
  h_S1024x1536 : 0 < S1024x1536.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S1x1024_S1x1024_0_0 : ∀ a, (![0, 0] : Fin 2 → Nat) a + S1x1024.size a ≤ S1x1024.size a
  h_S1x1024 : 0 < S1x1024.numel
  reduces_S128x1024_S128 : S128x1024.Reduces [1] S128
  shapeCasts_S128_S128x1 : S128.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  shapeCasts_S128x1_S128 : S128x1.ShapeCasts S128
  dot_S128x2560_S768x2560_S128x768_1_1_0_0_n_n_wf : DotDims.WF S128x2560 S768x2560 S128x768 [1] [1] [0] [0] [] []
  dot_S128x2x384_S128x2x384_S128x384x384_1_1_2_2_0_0_wf : DotDims.WF S128x2x384 S128x2x384 S128x384x384 [1] [1] [2] [2] [0] [0]
  dot_S128x2x384_S128x384x384_S128x2x384_2_1_1_2_0_0_wf : DotDims.WF S128x2x384 S128x384x384 S128x2x384 [2] [1] [1] [2] [0] [0]
  dot_S128x1536_S1024x1536_S128x1024_1_1_0_0_n_n_wf : DotDims.WF S128x1536 S1024x1536 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2560.size a ≤ S3x128x20480.size a
  hwx0_0 : ∀ i : grid0.Coords, EltTy.bits .f32 = 32 ∨ (Rect.block (s := S3x128x20480) S1x128x2560.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x2560.size a ≤ S3x768x20480.size a
  hwx0_1 : ∀ i : grid0.Coords, EltTy.bits .f32 = 32 ∨ (Rect.block (s := S3x768x20480) S1x768x2560.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x768.size a ≤ S3x128x768.size a
  hwx0_2 : ∀ i : grid0.Coords, EltTy.bits .f32 = 32 ∨ (Rect.block (s := S3x128x768) S1x128x768.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1536.size a ≤ S128x1536.size a
  hwx1_0 : ∀ i : grid1.Coords, EltTy.bits .f32 = 32 ∨ (Rect.block (s := S128x1536) S128x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1536.size a ≤ S1024x1536.size a
  hwx1_1 : ∀ i : grid1.Coords, EltTy.bits .f32 = 32 ∨ (Rect.block (s := S1024x1536) S1024x1536.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x1536.size a ≤ S128x1536.size a
  hwx2_0 : ∀ i : grid2.Coords, EltTy.bits .f32 = 32 ∨ (Rect.block (s := S128x1536) S128x1536.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1536.size a ≤ S1024x1536.size a
  hwx2_1 : ∀ i : grid2.Coords, EltTy.bits .f32 = 32 ∨ (Rect.block (s := S1024x1536) S1024x1536.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x1536.size a ≤ S128x1536.size a
  hwx3_0 : ∀ i : grid3.Coords, EltTy.bits .f32 = 32 ∨ (Rect.block (s := S128x1536) S128x1536.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1536.size a ≤ S1024x1536.size a
  hwx3_1 : ∀ i : grid3.Coords, EltTy.bits .f32 = 32 ∨ (Rect.block (s := S1024x1536) S1024x1536.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S1024.size a
  hwx3_2 : ∀ i : grid3.Coords, EltTy.bits .f32 = 32 ∨ (Rect.block (s := S1024) S1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1.size a ≤ S1.size a
  hwx3_4 : ∀ i : grid3.Coords, EltTy.bits .f32 = 32 ∨ (Rect.block (s := S1) S1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)

variable [Facts₀]

def dot_S128x2560_S768x2560_S128x768_1_1_0_0_n_n : DotDims S128x2560 S768x2560 S128x768 where
  lhsContracting := [1]
  rhsContracting := [1]
  lhsNonContracting := [0]
  rhsNonContracting := [0]
  lhsBatch := []
  rhsBatch := []
  wf := dot_S128x2560_S768x2560_S128x768_1_1_0_0_n_n_wf
def dot_S128x2x384_S128x2x384_S128x384x384_1_1_2_2_0_0 : DotDims S128x2x384 S128x2x384 S128x384x384 where
  lhsContracting := [1]
  rhsContracting := [1]
  lhsNonContracting := [2]
  rhsNonContracting := [2]
  lhsBatch := [0]
  rhsBatch := [0]
  wf := dot_S128x2x384_S128x2x384_S128x384x384_1_1_2_2_0_0_wf
def dot_S128x2x384_S128x384x384_S128x2x384_2_1_1_2_0_0 : DotDims S128x2x384 S128x384x384 S128x2x384 where
  lhsContracting := [2]
  rhsContracting := [1]
  lhsNonContracting := [1]
  rhsNonContracting := [2]
  lhsBatch := [0]
  rhsBatch := [0]
  wf := dot_S128x2x384_S128x384x384_S128x2x384_2_1_1_2_0_0_wf
def dot_S128x1536_S1024x1536_S128x1024_1_1_0_0_n_n : DotDims S128x1536 S1024x1536 S128x1024 where
  lhsContracting := [1]
  rhsContracting := [1]
  lhsNonContracting := [0]
  rhsNonContracting := [0]
  lhsBatch := []
  rhsBatch := []
  wf := dot_S128x1536_S1024x1536_S128x1024_1_1_0_0_n_n_wf

abbrev win0_0 : Pipeline.Window sig grid0 :=
  Pipeline.Window.ofSpec (Memref.whole main_v6) S1x128x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x768x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v111) S128x1536.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S1024x1536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v120) S128x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v115) S128x1536.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S1024x1536.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v122) S128x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v119) S128x1536.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S1024x1536.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg19) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg20) S1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v124) S128x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S128x20000 : Shape := ⟨2, ![128, 20000]⟩
abbrev S384x20000 : Shape := ⟨2, ![384, 20000]⟩
abbrev S1024x1536 : Shape := ⟨2, ![1024, 1536]⟩
abbrev S1024 : Shape := ⟨1, ![1024]⟩
abbrev S1x1024 : Shape := ⟨2, ![1, 1024]⟩
abbrev S1 : Shape := ⟨1, ![1]⟩
abbrev S20000x384 : Shape := ⟨2, ![20000, 384]⟩
abbrev S128x384 : Shape := ⟨2, ![128, 384]⟩
abbrev S128x1x384 : Shape := ⟨3, ![128, 1, 384]⟩
abbrev S128x2x384 : Shape := ⟨3, ![128, 2, 384]⟩
abbrev S_ : Shape := ⟨0, ![]⟩
abbrev S128x384x384 : Shape := ⟨3, ![128, 384, 384]⟩
abbrev S128x384x1 : Shape := ⟨3, ![128, 384, 1]⟩
abbrev S128x4x384 : Shape := ⟨3, ![128, 4, 384]⟩
abbrev S128x1536 : Shape := ⟨2, ![128, 1536]⟩
abbrev S1536x1024 : Shape := ⟨2, ![1536, 1024]⟩
abbrev S128x1024 : Shape := ⟨2, ![128, 1024]⟩
abbrev S1024x1 : Shape := ⟨2, ![1024, 1]⟩
abbrev S128x1 : Shape := ⟨2, ![128, 1]⟩
abbrev S1x1 : Shape := ⟨2, ![1, 1]⟩
abbrev S128 : Shape := ⟨1, ![128]⟩

abbrev nBuf : Space → Nat
  | .hbm => 231
  | .vmem => 0
  | .smem => 0
  | _ => 0

abbrev hbmTy0_0 (i : Nat) : BufTy := match i % 128 with
  | 0 => ⟨S128x20000, .f32⟩
  | 1 => ⟨S128x20000, .f32⟩
  | 2 => ⟨S128x20000, .f32⟩
  | 3 => ⟨S384x20000, .f32⟩
  | 4 => ⟨S384x20000, .f32⟩
  | 5 => ⟨S384x20000, .f32⟩
  | 6 => ⟨S384x20000, .f32⟩
  | 7 => ⟨S384x20000, .f32⟩
  | 8 => ⟨S384x20000, .f32⟩
  | 9 => ⟨S1024x1536, .f32⟩
  | 10 => ⟨S1024, .f32⟩
  | 11 => ⟨S1024x1536, .f32⟩
  | 12 => ⟨S1024, .f32⟩
  | 13 => ⟨S1024x1536, .f32⟩
  | 14 => ⟨S1024, .f32⟩
  | 15 => ⟨S1x1024, .f32⟩
  | 16 => ⟨S1, .f32⟩
  | 17 => ⟨S1x1024, .f32⟩
  | 18 => ⟨S1, .f32⟩
  | 19 => ⟨S1x1024, .f32⟩
  | 20 => ⟨S1, .f32⟩
  | 21 => ⟨S20000x384, .f32⟩
  | 22 => ⟨S128x384, .f32⟩
  | 23 => ⟨S20000x384, .f32⟩
  | 24 => ⟨S128x384, .f32⟩
  | 25 => ⟨S128x1x384, .f32⟩
  | 26 => ⟨S128x1x384, .f32⟩
  | 27 => ⟨S128x2x384, .f32⟩
  | 28 => ⟨S128x2x384, .f32⟩
  | 29 => ⟨S_, .f32⟩
  | 30 => ⟨S128x384, .f32⟩
  | 31 => ⟨S128x1x384, .f32⟩
  | 32 => ⟨S128x1x384, .f32⟩
  | 33 => ⟨S128x2x384, .f32⟩
  | 34 => ⟨S128x2x384, .f32⟩
  | 35 => ⟨S20000x384, .f32⟩
  | 36 => ⟨S128x384, .f32⟩
  | 37 => ⟨S20000x384, .f32⟩
  | 38 => ⟨S128x384, .f32⟩
  | 39 => ⟨S128x1x384, .f32⟩
  | 40 => ⟨S128x1x384, .f32⟩
  | 41 => ⟨S128x2x384, .f32⟩
  | 42 => ⟨S128x2x384, .f32⟩
  | 43 => ⟨S_, .f32⟩
  | 44 => ⟨S128x384, .f32⟩
  | 45 => ⟨S128x1x384, .f32⟩
  | 46 => ⟨S128x1x384, .f32⟩
  | 47 => ⟨S128x2x384, .f32⟩
  | 48 => ⟨S128x2x384, .f32⟩
  | 49 => ⟨S20000x384, .f32⟩
  | 50 => ⟨S128x384, .f32⟩
  | 51 => ⟨S20000x384, .f32⟩
  | 52 => ⟨S128x384, .f32⟩
  | 53 => ⟨S128x1x384, .f32⟩
  | 54 => ⟨S128x1x384, .f32⟩
  | 55 => ⟨S128x2x384, .f32⟩
  | 56 => ⟨S128x2x384, .f32⟩
  | 57 => ⟨S_, .f32⟩
  | 58 => ⟨S128x384, .f32⟩
  | 59 => ⟨S128x1x384, .f32⟩
  | 60 => ⟨S128x1x384, .f32⟩
  | 61 => ⟨S128x2x384, .f32⟩
  | 62 => ⟨S128x2x384, .f32⟩
  | 63 => ⟨S128x384x384, .f32⟩
  | 64 => ⟨S128x384x384, .f32⟩
  | 65 => ⟨S128x384x384, .f32⟩
  | 66 => ⟨S_, .f32⟩
  | 67 => ⟨S128x384, .f32⟩
  | 68 => ⟨S_, .f32⟩
  | 69 => ⟨S128x384, .f32⟩
  | 70 => ⟨S128x384, .f32⟩
  | 71 => ⟨S128x1x384, .f32⟩
  | 72 => ⟨S128x384x384, .f32⟩
  | 73 => ⟨S128x384x384, .f32⟩
  | 74 => ⟨S128x384x384, .f32⟩
  | 75 => ⟨S_, .f32⟩
  | 76 => ⟨S128x384, .f32⟩
  | 77 => ⟨S128x1x384, .f32⟩
  | 78 => ⟨S128x384x384, .f32⟩
  | 79 => ⟨S128x384x384, .f32⟩
  | 80 => ⟨S_, .f32⟩
  | 81 => ⟨S128x384, .f32⟩
  | 82 => ⟨S_, .f32⟩
  | 83 => ⟨S128x384, .f32⟩
  | 84 => ⟨S128x384, .f32⟩
  | 85 => ⟨S128x1x384, .f32⟩
  | 86 => ⟨S128x384x384, .f32⟩
  | 87 => ⟨S128x384x384, .f32⟩
  | 88 => ⟨S128x384x384, .f32⟩
  | 89 => ⟨S_, .f32⟩
  | 90 => ⟨S128x384, .f32⟩
  | 91 => ⟨S128x1x384, .f32⟩
  | 92 => ⟨S128x384x384, .f32⟩
  | 93 => ⟨S128x384x384, .f32⟩
  | 94 => ⟨S_, .f32⟩
  | 95 => ⟨S128x384, .f32⟩
  | 96 => ⟨S_, .f32⟩
  | 97 => ⟨S128x384, .f32⟩
  | 98 => ⟨S128x384, .f32⟩
  | 99 => ⟨S128x384x1, .f32⟩
  | 100 => ⟨S128x384x384, .f32⟩
  | 101 => ⟨S128x384x384, .f32⟩
  | 102 => ⟨S128x384x384, .f32⟩
  | 103 => ⟨S_, .f32⟩
  | 104 => ⟨S128x384, .f32⟩
  | 105 => ⟨S128x384x1, .f32⟩
  | 106 => ⟨S128x384x384, .f32⟩
  | 107 => ⟨S128x384x384, .f32⟩
  | 108 => ⟨S128x384x384, .f32⟩
  | 109 => ⟨S_, .f32⟩
  | 110 => ⟨S128x384, .f32⟩
  | 111 => ⟨S_, .f32⟩
  | 112 => ⟨S128x384, .f32⟩
  | 113 => ⟨S128x384, .f32⟩
  | 114 => ⟨S128x384x1, .f32⟩
  | 115 => ⟨S128x384x384, .f32⟩
  | 116 => ⟨S128x384x384, .f32⟩
  | 117 => ⟨S128x384x384, .f32⟩
  | 118 => ⟨S_, .f32⟩
  | 119 => ⟨S128x384, .f32⟩
  | 120 => ⟨S128x384x1, .f32⟩
  | 121 => ⟨S128x384x384, .f32⟩
  | 122 => ⟨S128x384x384, .f32⟩
  | 123 => ⟨S_, .f32⟩
  | 124 => ⟨S128x384, .f32⟩
  | 125 => ⟨S_, .f32⟩
  | 126 => ⟨S128x384, .f32⟩
  | 127 => ⟨S128x384, .f32⟩
  | _ => ⟨S128x20000, .f32⟩

abbrev hbmTy0_1 (i : Nat) : BufTy := match i % 128 with
  | 0 => ⟨S128x384x1, .f32⟩
  | 1 => ⟨S128x384x384, .f32⟩
  | 2 => ⟨S128x384x384, .f32⟩
  | 3 => ⟨S128x384x384, .f32⟩
  | 4 => ⟨S_, .f32⟩
  | 5 => ⟨S128x384, .f32⟩
  | 6 => ⟨S128x384x1, .f32⟩
  | 7 => ⟨S128x384x384, .f32⟩
  | 8 => ⟨S128x384x384, .f32⟩
  | 9 => ⟨S128x384x384, .f32⟩
  | 10 => ⟨S_, .f32⟩
  | 11 => ⟨S128x384, .f32⟩
  | 12 => ⟨S_, .f32⟩
  | 13 => ⟨S128x384, .f32⟩
  | 14 => ⟨S128x384, .f32⟩
  | 15 => ⟨S128x384x1, .f32⟩
  | 16 => ⟨S128x384x384, .f32⟩
  | 17 => ⟨S128x384x384, .f32⟩
  | 18 => ⟨S128x384x384, .f32⟩
  | 19 => ⟨S_, .f32⟩
  | 20 => ⟨S128x384, .f32⟩
  | 21 => ⟨S128x384x1, .f32⟩
  | 22 => ⟨S128x384x384, .f32⟩
  | 23 => ⟨S128x384x384, .f32⟩
  | 24 => ⟨S128x384x384, .f32⟩
  | 25 => ⟨S128x2x384, .f32⟩
  | 26 => ⟨S128x2x384, .f32⟩
  | 27 => ⟨S128x4x384, .f32⟩
  | 28 => ⟨S128x1536, .f32⟩
  | 29 => ⟨S128x2x384, .f32⟩
  | 30 => ⟨S128x2x384, .f32⟩
  | 31 => ⟨S128x4x384, .f32⟩
  | 32 => ⟨S128x1536, .f32⟩
  | 33 => ⟨S128x2x384, .f32⟩
  | 34 => ⟨S128x2x384, .f32⟩
  | 35 => ⟨S128x4x384, .f32⟩
  | 36 => ⟨S128x1536, .f32⟩
  | 37 => ⟨S1536x1024, .f32⟩
  | 38 => ⟨S128x1024, .f32⟩
  | 39 => ⟨S1x1024, .f32⟩
  | 40 => ⟨S128x1024, .f32⟩
  | 41 => ⟨S128x1024, .f32⟩
  | 42 => ⟨S_, .f32⟩
  | 43 => ⟨S128x1024, .f32⟩
  | 44 => ⟨S128x1024, .f32⟩
  | 45 => ⟨S1024x1, .f32⟩
  | 46 => ⟨S128x1, .f32⟩
  | 47 => ⟨S1x1, .f32⟩
  | 48 => ⟨S128x1, .f32⟩
  | 49 => ⟨S128x1, .f32⟩
  | 50 => ⟨S128x1, .f32⟩
  | 51 => ⟨S128x1, .f32⟩
  | 52 => ⟨S_, .f32⟩
  | 53 => ⟨S128x1, .f32⟩
  | 54 => ⟨S128x1, .f32⟩
  | 55 => ⟨S_, .f32⟩
  | 56 => ⟨S128x1, .f32⟩
  | 57 => ⟨S128x1, .f32⟩
  | 58 => ⟨S128, .f32⟩
  | 59 => ⟨S1536x1024, .f32⟩
  | 60 => ⟨S128x1024, .f32⟩
  | 61 => ⟨S1x1024, .f32⟩
  | 62 => ⟨S128x1024, .f32⟩
  | 63 => ⟨S128x1024, .f32⟩
  | 64 => ⟨S_, .f32⟩
  | 65 => ⟨S128x1024, .f32⟩
  | 66 => ⟨S128x1024, .f32⟩
  | 67 => ⟨S1024x1, .f32⟩
  | 68 => ⟨S128x1, .f32⟩
  | 69 => ⟨S1x1, .f32⟩
  | 70 => ⟨S128x1, .f32⟩
  | 71 => ⟨S128x1, .f32⟩
  | 72 => ⟨S128x1, .f32⟩
  | 73 => ⟨S128x1, .f32⟩
  | 74 => ⟨S_, .f32⟩
  | 75 => ⟨S128x1, .f32⟩
  | 76 => ⟨S128x1, .f32⟩
  | 77 => ⟨S_, .f32⟩
  | 78 => ⟨S128x1, .f32⟩
  | 79 => ⟨S128x1, .f32⟩
  | 80 => ⟨S128, .f32⟩
  | 81 => ⟨S1536x1024, .f32⟩
  | 82 => ⟨S128x1024, .f32⟩
  | 83 => ⟨S1x1024, .f32⟩
  | 84 => ⟨S128x1024, .f32⟩
  | 85 => ⟨S128x1024, .f32⟩
  | 86 => ⟨S_, .f32⟩
  | 87 => ⟨S128x1024, .f32⟩
  | 88 => ⟨S128x1024, .f32⟩
  | 89 => ⟨S1024x1, .f32⟩
  | 90 => ⟨S128x1, .f32⟩
  | 91 => ⟨S1x1, .f32⟩
  | 92 => ⟨S128x1, .f32⟩
  | 93 => ⟨S128x1, .f32⟩
  | 94 => ⟨S128x1, .f32⟩
  | 95 => ⟨S128x1, .f32⟩
  | 96 => ⟨S_, .f32⟩
  | 97 => ⟨S128x1, .f32⟩
  | 98 => ⟨S128x1, .f32⟩
  | 99 => ⟨S_, .f32⟩
  | 100 => ⟨S128x1, .f32⟩
  | 101 => ⟨S128x1, .f32⟩
  | 102 => ⟨S128, .f32⟩
  | _ => ⟨S128x20000, .f32⟩

abbrev hbmTy (i : Nat) : BufTy := match i / 128 with
  | 0 => hbmTy0_0 i
  | 1 => hbmTy0_1 i
  | _ => ⟨S128x20000, .f32⟩

abbrev bufTy : (tb : Table) → Fin (tcTables nBuf tb) → BufTy
  | .hbm, ⟨i, _⟩ => hbmTy i
  | _, _ => ⟨S128x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call2_v0 : Ref sig .tc := ⟨.hbm, 56, rfl⟩
abbrev main_call2_cst : Ref sig .tc := ⟨.hbm, 57, rfl⟩
abbrev main_call2_v1 : Ref sig .tc := ⟨.hbm, 58, rfl⟩
abbrev main_call2_v2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst : Ref sig .tc := ⟨.hbm, 66, rfl⟩
abbrev main_v33 : Ref sig .tc := ⟨.hbm, 67, rfl⟩
abbrev main_cst_0 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_1 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_2 : Ref sig .tc := ⟨.hbm, 80, rfl⟩
abbrev main_v44 : Ref sig .tc := ⟨.hbm, 81, rfl⟩
abbrev main_cst_3 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_4 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_5 : Ref sig .tc := ⟨.hbm, 94, rfl⟩
abbrev main_v55 : Ref sig .tc := ⟨.hbm, 95, rfl⟩
abbrev main_cst_6 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_7 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_8 : Ref sig .tc := ⟨.hbm, 109, rfl⟩
abbrev main_v67 : Ref sig .tc := ⟨.hbm, 110, rfl⟩
abbrev main_cst_9 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_10 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_11 : Ref sig .tc := ⟨.hbm, 123, rfl⟩
abbrev main_v78 : Ref sig .tc := ⟨.hbm, 124, rfl⟩
abbrev main_cst_12 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_13 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_14 : Ref sig .tc := ⟨.hbm, 138, rfl⟩
abbrev main_v90 : Ref sig .tc := ⟨.hbm, 139, rfl⟩
abbrev main_cst_15 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_16 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_call3_cst : Ref sig .tc := ⟨.hbm, 170, rfl⟩
abbrev main_call3_v0 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_17 : Ref sig .tc := ⟨.hbm, 180, rfl⟩
abbrev main_v127 : Ref sig .tc := ⟨.hbm, 181, rfl⟩
abbrev main_v128 : Ref sig .tc := ⟨.hbm, 182, rfl⟩
abbrev main_cst_18 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_call4_cst : Ref sig .tc := ⟨.hbm, 192, rfl⟩
abbrev main_call4_v0 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_19 : Ref sig .tc := ⟨.hbm, 202, rfl⟩
abbrev main_v145 : Ref sig .tc := ⟨.hbm, 203, rfl⟩
abbrev main_v146 : Ref sig .tc := ⟨.hbm, 204, rfl⟩
abbrev main_cst_20 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_call5_cst : Ref sig .tc := ⟨.hbm, 214, rfl⟩
abbrev main_call5_v0 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_21 : Ref sig .tc := ⟨.hbm, 224, rfl⟩
abbrev main_v163 : Ref sig .tc := ⟨.hbm, 225, rfl⟩
abbrev main_v164 : Ref sig .tc := ⟨.hbm, 226, rfl⟩
abbrev main_cst_22 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩

abbrev nD : Nat := 1
abbrev τ : Topo := Topo.v7x

variable {F : FTy → Type} [FloatOps F]

class Facts₀ : Prop where
  transposes_S384x20000_S20000x384_1_0 : S384x20000.Transposes [1, 0] S20000x384
  bcast_S128x384_S128x1x384_0_2 : S128x384.BroadcastsInDim S128x1x384 (![0, 2] : Fin 2 → Fin S128x1x384.rank)
  concatenates_S128x1x384_S128x1x384_S128x2x384_d1 : Shape.Concatenates [S128x1x384, S128x1x384] S128x2x384 1
  reducesTo_S128x2x384_S128x384_d1 : S128x2x384.ReducesTo [1] S128x384
  h_S_ : 0 < S_.numel
  bcast_S128x1x384_S128x2x384_0_1_2 : S128x1x384.BroadcastsInDim S128x2x384 (![0, 1, 2] : Fin 3 → Fin S128x2x384.rank)
  reducesTo_S128x384x384_S128x384_d1 : S128x384x384.ReducesTo [1] S128x384
  bcast_S_S128x384 : S_.BroadcastsInDim S128x384 (![] : Fin 0 → Fin S128x384.rank)
  bcast_S128x1x384_S128x384x384_0_1_2 : S128x1x384.BroadcastsInDim S128x384x384 (![0, 1, 2] : Fin 3 → Fin S128x384x384.rank)
  reducesTo_S128x384x384_S128x384_d2 : S128x384x384.ReducesTo [2] S128x384
  bcast_S128x384_S128x384x1_0_1 : S128x384.BroadcastsInDim S128x384x1 (![0, 1] : Fin 2 → Fin S128x384x1.rank)
  bcast_S128x384x1_S128x384x384_0_1_2 : S128x384x1.BroadcastsInDim S128x384x384 (![0, 1, 2] : Fin 3 → Fin S128x384x384.rank)
  transposes_S128x384x384_S128x384x384_0_2_1 : S128x384x384.Transposes [0, 2, 1] S128x384x384
  concatenates_S128x2x384_S128x2x384_S128x4x384_d1 : Shape.Concatenates [S128x2x384, S128x2x384] S128x4x384 1
  shapeCasts_S128x4x384_S128x1536 : S128x4x384.ShapeCasts S128x1536
  transposes_S1024x1536_S1536x1024_1_0 : S1024x1536.Transposes [1, 0] S1536x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  transposes_S1x1024_S1024x1_1_0 : S1x1024.Transposes [1, 0] S1024x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  shapeCasts_S128x1_S128 : S128x1.ShapeCasts S128
  dot_S128x20000_S20000x384_S128x384_1_0_0_1_n_n_wf : DotDims.WF S128x20000 S20000x384 S128x384 [1] [0] [0] [1] [] []
  dot_S128x2x384_S128x2x384_S128x384x384_1_1_2_2_0_0_wf : DotDims.WF S128x2x384 S128x2x384 S128x384x384 [1] [1] [2] [2] [0] [0]
  dot_S128x2x384_S128x384x384_S128x2x384_2_1_1_2_0_0_wf : DotDims.WF S128x2x384 S128x384x384 S128x2x384 [2] [1] [1] [2] [0] [0]
  dot_S128x1536_S1536x1024_S128x1024_1_0_0_1_n_n_wf : DotDims.WF S128x1536 S1536x1024 S128x1024 [1] [0] [0] [1] [] []
  dot_S128x1024_S1024x1_S128x1_1_0_0_1_n_n_wf : DotDims.WF S128x1024 S1024x1 S128x1 [1] [0] [0] [1] [] []

variable [Facts₀]

def dot_S128x20000_S20000x384_S128x384_1_0_0_1_n_n : DotDims S128x20000 S20000x384 S128x384 where
  lhsContracting := [1]
  rhsContracting := [0]
  lhsNonContracting := [0]
  rhsNonContracting := [1]
  lhsBatch := []
  rhsBatch := []
  wf := dot_S128x20000_S20000x384_S128x384_1_0_0_1_n_n_wf
def dot_S128x2x384_S128x2x384_S128x384x384_1_1_2_2_0_0 : DotDims S128x2x384 S128x2x384 S128x384x384 where
  lhsContracting := [1]
  rhsContracting := [1]
  lhsNonContracting := [2]
  rhsNonContracting := [2]
  lhsBatch := [0]
  rhsBatch := [0]
  wf := dot_S128x2x384_S128x2x384_S128x384x384_1_1_2_2_0_0_wf
def dot_S128x2x384_S128x384x384_S128x2x384_2_1_1_2_0_0 : DotDims S128x2x384 S128x384x384 S128x2x384 where
  lhsContracting := [2]
  rhsContracting := [1]
  lhsNonContracting := [1]
  rhsNonContracting := [2]
  lhsBatch := [0]
  rhsBatch := [0]
  wf := dot_S128x2x384_S128x384x384_S128x2x384_2_1_1_2_0_0_wf
def dot_S128x1536_S1536x1024_S128x1024_1_0_0_1_n_n : DotDims S128x1536 S1536x1024 S128x1024 where
  lhsContracting := [1]
  rhsContracting := [0]
  lhsNonContracting := [0]
  rhsNonContracting := [1]
  lhsBatch := []
  rhsBatch := []
  wf := dot_S128x1536_S1536x1024_S128x1024_1_0_0_1_n_n_wf
def dot_S128x1024_S1024x1_S128x1_1_0_0_1_n_n : DotDims S128x1024 S1024x1 S128x1 where
  lhsContracting := [1]
  rhsContracting := [0]
  lhsNonContracting := [0]
  rhsNonContracting := [1]
  lhsBatch := []
  rhsBatch := []
  wf := dot_S128x1024_S1024x1_S128x1_1_0_0_1_n_n_wf

class Facts : Prop extends Facts₀ where

variable [Facts]
-- ==== Proof.KProj.lean ====
import proofs.«172187_j12206297055645_2_alg».proof.Proof.Gen.Kernel.Skeleton
import proofs.«172187_j12206297055645_2_alg».proof.Proof.Gen.Kernel.Launch
import proofs.«172187_j12206297055645_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: the projection kernel on its 3 × 8 grid

The projection kernel accumulates, over the eight K-steps of each of the three modalities, a product
of its two input blocks into its output block: at the first K-step of a modality it clears the block, at
every K-step it adds the step's product to what the block holds. This module states, at the buffer
contents `V` the region is entered with, what each staging buffer holds around the body at every grid
point, and proves the body's triple there: the half of the frame that belongs to this region. -/

-- membership in a rectangle of the block's extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's current staging buffer holds its block at every point, fetched there or
    not, for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition under which the body clears its output block, from the grid coordinates: the K-step
    (coordinate 1) compared with zero, as the body computes it. -/
abbrev cond0_0 (i : grid0.Coords) : Prop := (Scalar.cmpi .ne (Scalar.extui (Scalar.cmpi .eq (BitVec.ofNat 32 (i 1).val) 0#32)) 0#32) = 1#1
/-- It holds at the first K-step of each modality: the points that are multiples of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The kernel body on any staging memrefs -/

/-- One staging buffer of the output window, through which its contents are stated (the choice does
    not matter: covering writes read back the same through any view of the shape). -/
abbrev VO0_2 : View sig .tc .vmem S1x128x768 .f32 := (Memref.whole cc0_stg2_0 : Memref sig .tc .vmem S1x128x768 .f32).view
/-- Each window's current staging memref at point `t`, as the pipeline passes it, and its wholeness. -/
abbrev ms0_0 (t : Fin cfg0.N) : Memref sig .tc .vmem S1x128x2560 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x768x2560 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x768 .f32 := win0_2.stage (cfg0.slots t 2)
abbrev hs0_2 (t : Fin cfg0.N) : (ms0_2 t).IsWhole := hstage0_2 ((cfg0.slots t 2).cast nbuf0_2)

-- (the run's proof term is large)
set_option maxHeartbeats 1000000 in
/-- CASE A, the first K-step of a modality (the body clears the block before accumulating). What the
    body's stores leave in the output's staging memref, as pieces (last first), with the proof that on
    whole staging memrefs — the inputs' at their contents, the output's at anything — the body runs to
    the continuation holding the inputs' as they were and the output's buffer with the pieces written. -/
noncomputable def kernelRun0_A (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : cond0_0 i)
    (x0 : Vec F S1x128x2560 .f32) (x1 : Vec F S1x768x2560 .f32) :
    { L2 : List (View.Piece (Elt F) S1x128x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__proj_kernel i arg2 harg2 arg3 harg3 arg4 harg4) K } := by
  refine ⟨?_, fun E K => ?run⟩
  case run =>
    simp only [cc0__proj_kernel_eq_skeleton]; unfold cc0__proj_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

-- (the run's proof term is large)
set_option maxHeartbeats 1000000 in
/-- CASE B, a later K-step (the body accumulates into what the block holds). The same, with the
    output's staging memref at its running contents `xo2`, which the body reads before it stores. -/
noncomputable def kernelRun0_B (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : ¬cond0_0 i)
    (x0 : Vec F S1x128x2560 .f32) (x1 : Vec F S1x768x2560 .f32) (xo2 : Vec F S1x128x768 .f32) :
    { L2 : List (View.Piece (Elt F) S1x128x768 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__proj_kernel i arg2 harg2 arg3 harg3 arg4 harg4) K } := by
  refine ⟨?_, fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## What each case leaves in the output's staging buffer -/

/-- Case A's pieces (the clearing store and the accumulating store, each of the whole block) tile the
    block, so they cover it. -/
theorem cover0_A_2 (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : cond0_0 i)
    (x0 : Vec F S1x128x2560 .f32) (x1 : Vec F S1x768x2560 .f32) (y : S1x128x768.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x128x768.size (by sl_kernel_rfl) y

/-- What case A leaves in the output's staging buffer: its pieces read back over junk. -/
def out0_A_2 (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : cond0_0 i)
    (x0 : Vec F S1x128x2560 .f32) (x1 : Vec F S1x768x2560 .f32) : Vec F S1x128x768 .f32 :=
  VO0_2.read (Elt F) (VO0_2.writes (Elt F) VO0_2.junk (kernelRun0_A c i arg2 harg2 arg3 harg3 arg4 harg4 hc0 x0 x1).1)

/-- Case B's one piece (the accumulating store of the whole block) covers the block. -/
theorem cover0_B_2 (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : ¬cond0_0 i)
    (x0 : Vec F S1x128x2560 .f32) (x1 : Vec F S1x768x2560 .f32) (xo2 : Vec F S1x128x768 .f32) (y : S1x128x768.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x128x768.size (by sl_kernel_rfl) y

/-- What case B leaves in the output's staging buffer: its piece read back over junk. -/
def out0_B_2 (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : ¬cond0_0 i)
    (x0 : Vec F S1x128x2560 .f32) (x1 : Vec F S1x768x2560 .f32) (xo2 : Vec F S1x128x768 .f32) : Vec F S1x128x768 .f32 :=
  VO0_2.read (Elt F) (VO0_2.writes (Elt F) VO0_2.junk (kernelRun0_B c i arg2 harg2 arg3 harg3 arg4 harg4 hc0 x0 x1 xo2).1)

/-! ## The values -/

/-- The body's loads and stores go through the whole-block rectangle at zero offsets. -/
theorem proj_offsets_zero : (![0, 0, 0] : Fin 3 → Nat) = fun _ => 0 := funext fun a => by fin_cases a <;> rfl

/-- CASE B's value: over the running contents `xo2` the body leaves the payload of its one covering
    store, the step's product added to `xo2`; its loads read the whole buffers. -/
theorem out0_B_2_eq (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : ¬cond0_0 i)
    (x0 : Vec F S1x128x2560 .f32) (x1 : Vec F S1x768x2560 .f32) (xo2 : Vec F S1x128x768 .f32) :
    out0_B_2 c i arg2 harg2 arg3 harg3 arg4 harg4 hc0 x0 x1 xo2 = k0_pay2 x0 x1 xo2 := by
  unfold out0_B_2
  rw [View.read_writes_eq_canon _ _ _ (cover0_B_2 c i arg2 harg2 arg3 harg3 arg4 harg4 hc0 x0 x1 xo2)]
  unfold kernelRun0_B
  dsimp only
  rw [View.canon_unit_zero (S := S1x128x768) proj_offsets_zero]
  simp only [View.readAt_eq_ld, harg2.read_unread, harg3.read_unread, harg4.read_unread,
    View.ld_unit_zero (S := S1x128x2560) proj_offsets_zero, View.ld_unit_zero (S := S1x768x2560) proj_offsets_zero, View.ld_unit_zero (S := S1x128x768) proj_offsets_zero]

/-- CASE A's value: the body stores the zero block, reads it back, and leaves the step's product added
    to it: the accumulating store's payload over the zeros just stored. -/
theorem out0_A_2_eq (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : cond0_0 i)
    (x0 : Vec F S1x128x2560 .f32) (x1 : Vec F S1x768x2560 .f32) :
    out0_A_2 c i arg2 harg2 arg3 harg3 arg4 harg4 hc0 x0 x1 = k0_pay2 x0 x1 (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x128x768) proj_offsets_zero, View.readCov_unit_zero (S := S1x128x768) _ proj_offsets_zero]
  simp only [View.readAt_eq_ld, harg2.read_unread, harg3.read_unread,
    View.ld_unit_zero (S := S1x128x2560) proj_offsets_zero, View.ld_unit_zero (S := S1x768x2560) proj_offsets_zero]

/-! ## What the output holds after each point -/

/-- THE ACCUMULATION. What the output's staging buffer holds after the body at position `n`: at the
    first K-step of a modality (`n` a multiple of 8) what case A leaves, from the point's input blocks
    alone; at a later K-step what case B leaves over what this gives at `n - 1` (the buffer is not written
    back between the two). -/
def outsAt0 (c : Dev nD) : (n : ℕ) → n < cfg0.N → Vec F S1x128x768 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩) (iblk0 V c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn))

/-- At a first K-step: case A's contents. -/
theorem outsAt0_A (c : Dev nD) (t : Fin cfg0.N) (h0 : t.val % 8 = 0) :
    outsAt0 V c t.val t.isLt = out0_A_2 c (grid0.coords t) (ms0_0 t) (hs0_0 t) (ms0_1 t) (hs0_1 t) (ms0_2 t) (hs0_2 t) ((hcond0_0 t).mpr h0) (iblk0 V c 0 t) (iblk0 V c 1 t) := by
  obtain ⟨n, hn⟩ := t
  cases n with
  | zero => exact rfl
  | succ n => exact (dif_pos h0).trans rfl

/-- At a later K-step: case B's contents, over what the point before left. -/
theorem outsAt0_B (c : Dev nD) (t : Fin cfg0.N) (h0 : ¬t.val % 8 = 0) :
    outsAt0 V c t.val t.isLt = out0_B_2 c (grid0.coords t) (ms0_0 t) (hs0_0 t) (ms0_1 t) (hs0_1 t) (ms0_2 t) (hs0_2 t) (fun h => h0 ((hcond0_0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at
    point `t` each input's buffer at its block and the output's at the accumulation `outsAt0`; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later K-step the output's current staging buffer holds what the body left at the point before:
    the point is not the first, the buffer was not written back between (write-backs follow the last
    K-step of a modality only), the window is live and uncut. -/
theorem before0_2_B (c : Dev nD) (t : Fin cfg0.N) (h0 : ¬t.val % 8 = 0) (d) :
    (dat0 V c).before 2 t d = outsAt0 V c (t.val - 1) (Nat.lt_of_le_of_lt (Nat.sub_le _ _) t.isLt) := by
  have hN : t.val < 24 := lt_of_lt_of_eq t.isLt (show cfg0.N = 24 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' memrefs hold their blocks; the point's K-step says which case it
    is in; at a later K-step the output's memref holds what the point before left; so the case's run
    applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 24 := lt_of_lt_of_eq t.isLt (show cfg0.N = 24 from N_0)
  by_cases h0 : t.val % 8 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KHeads.lean ====
/- The heads' regions of the frame: pipelines 1, 2 and 3 of @main, the three logistic heads
   (one grid point each; five input windows, one output window whose staging buffer the body
   loads once, the value unused, before storing it whole). Per region, at the TensorCore's buffer
   contents `V` on entry: each window's block, the body's triple (its stores as a list of pieces
   the run finds), what the output's staging buffer holds afterwards — the skeleton's payload of
   the five input blocks —, the pipeline's proof data over the invariant `ΦA`, and the body
   obligation. -/
import proofs.«172187_j12206297055645_2_alg».proof.Proof.Gen.Kernel.Launch
import proofs.«172187_j12206297055645_2_alg».proof.Proof.Gen.Kernel.Skeleton
import proofs.«172187_j12206297055645_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-- The zero offsets of a whole-buffer access, in rank two and rank one. -/
private theorem hz2 : (![0, 0] : Fin 2 → Nat) = fun _ => 0 := funext fun a => by fin_cases a <;> rfl
private theorem hz1 : (![0] : Fin 1 → Nat) = fun _ => 0 := funext fun a => by fin_cases a <;> rfl

/-! # Region 1 of @main: pipeline 1, `cc1__head_kernel`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any
    proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any
    proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any
    proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any
    proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any whole staging memrefs -/

/-- One staging buffer of the output window, through which its contents are stated (the choice does not matter:
    a covering list of writes reads the same through any view of the shape). -/
abbrev VO1_5 : View sig .tc .vmem S128x1 .f32 := (Memref.whole cc1_stg5_0 : Memref sig .tc .vmem S128x1 .f32).view
/-- Each window's current staging memref at point `t`, as the pipeline passes it to the body, and its wholeness. -/
abbrev ms1_0 (t : Fin cfg1.N) : Memref sig .tc .vmem S128x1536 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1536 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x1 .f32 := win1_5.stage (cfg1.slots t 5)
abbrev hs1_5 (t : Fin cfg1.N) : (ms1_5 t).IsWhole := hstage1_5 ((cfg1.slots t 5).cast nbuf1_5)

set_option maxHeartbeats 1000000 in
/-- The pieces the body's stores leave in the output's staging memref (last first), with the proof that on whole
    staging memrefs — the five inputs' at contents `x0 … x4`, the output's at anything — the body runs to the
    continuation holding the inputs' as they were and the output's buffer with those pieces written. The load of the
    output's buffer reads whatever it held; nothing depends on the value read. -/
noncomputable def kernelRun1_A (c : Dev nD) (i : grid1.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    { L5 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__head_kernel i arg1 harg1 arg2 harg2 arg3 harg3 arg4 harg4 arg5 harg5 arg6 harg6) K } := by
  refine ⟨?_, fun E K => ?run⟩
  case run =>
    simp only [cc1__head_kernel_eq_skeleton]; unfold cc1__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for the output tile its block (one store of the whole shape), so they cover it. -/
theorem cover1_A_5 (c : Dev nD) (i : grid1.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) (y : S128x1.Idx) :
    ∃ pc ∈ (kernelRun1_A c i arg1 harg1 arg2 harg2 arg3 harg3 arg4 harg4 arg5 harg5 arg6 harg6 x0 x1 x2 x3 x4).1, y ∈ pc.1.set :=
  View.cover_of_tiledL (kernelRun1_A c i arg1 harg1 arg2 harg2 arg3 harg3 arg4 harg4 arg5 harg5 arg6 harg6 x0 x1 x2 x3 x4).1 S128x1.size (by sl_kernel_rfl) y

/-- What the run leaves in the output's staging buffer: its pieces read back over junk. -/
def out1_A_5 (c : Dev nD) (i : grid1.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) : Vec F S128x1 .f32 :=
  VO1_5.read (Elt F) (VO1_5.writes (Elt F) VO1_5.junk (kernelRun1_A c i arg1 harg1 arg2 harg2 arg3 harg3 arg4 harg4 arg5 harg5 arg6 harg6 x0 x1 x2 x3 x4).1)

/-- THE VALUE: what the body leaves in the output's buffer is the skeleton's payload of the five input blocks — the
    canon of one covering store at offset zero is its payload, and each load through the whole-shape rectangle at
    offset zero reads the buffer's contents. -/
theorem out1_A_5_eq (c : Dev nD) (i : grid1.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    out1_A_5 c i arg1 harg1 arg2 harg2 arg3 harg3 arg4 harg4 arg5 harg5 arg6 harg6 x0 x1 x2 x3 x4 = k1_pay1 x0 x1 x2 x3 x4 := by
  unfold out1_A_5
  rw [View.read_writes_eq_canon _ _ _ (cover1_A_5 c i arg1 harg1 arg2 harg2 arg3 harg3 arg4 harg4 arg5 harg5 arg6 harg6 x0 x1 x2 x3 x4)]
  unfold kernelRun1_A
  dsimp only
  rw [View.canon_unit_zero hz2]
  simp only [View.readAt_eq_ld, harg1.read_unread, harg2.read_unread, harg3.read_unread, harg4.read_unread, harg5.read_unread,
    View.ld_unit_zero (S := S128x1536) hz2, View.ld_unit_zero (S := S1024x1536) hz2, View.ld_unit_zero (S := S1024) hz1,
    View.ld_unit_zero (S := S1x1024) hz2, View.ld_unit_zero (S := S1) hz1]

/-! ## What the output holds after each point -/

/-- What the output's staging buffer holds after the body at point `t`: the run's contents at the point's memrefs
    and input blocks. -/
def outsAt1 (c : Dev nD) (t : Fin cfg1.N) : Vec F S128x1 .f32 :=
  out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

/-- At every point the output's staging buffer ends at the skeleton's payload of the point's five input blocks. -/
theorem outsAt1_eq (c : Dev nD) (t : Fin cfg1.N) :
    outsAt1 V c t = k1_pay1 (iblk1 V c 0 t) (iblk1 V c 1 t) (iblk1 V c 2 t) (iblk1 V c 3 t) (iblk1 V c 4 t) := by
  unfold outsAt1; exact out1_A_5_eq c _ _ _ _ _ _ _ _ _ _ _ _ _ _ _ _ _ _

/-! ## The pipeline's proof data -/

/-- The proof data of pipeline 1 on core `c`: the arrays as the region finds them (`V`); after the body at point
    `t` each input's buffer at its block and the output's at `outsAt1`; the invariant `ΦA` (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1 V c t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks, so the run applies; the invariant and the core's
    `owes` pass through unread; the output's buffer ends with the run's pieces, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outsAt1
  unfold out1_A_5
  iintro ⟨HΦ, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_A_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 of @main: pipeline 2, `cc2__head_kernel`, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any
    proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any
    proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any
    proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any
    proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any whole staging memrefs -/

/-- One staging buffer of the output window, through which its contents are stated (the choice does not matter:
    a covering list of writes reads the same through any view of the shape). -/
abbrev VO2_5 : View sig .tc .vmem S128x1 .f32 := (Memref.whole cc2_stg5_0 : Memref sig .tc .vmem S128x1 .f32).view
/-- Each window's current staging memref at point `t`, as the pipeline passes it to the body, and its wholeness. -/
abbrev ms2_0 (t : Fin cfg2.N) : Memref sig .tc .vmem S128x1536 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1536 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x1 .f32 := win2_5.stage (cfg2.slots t 5)
abbrev hs2_5 (t : Fin cfg2.N) : (ms2_5 t).IsWhole := hstage2_5 ((cfg2.slots t 5).cast nbuf2_5)

set_option maxHeartbeats 1000000 in
/-- The pieces the body's stores leave in the output's staging memref (last first), with the proof that on whole
    staging memrefs — the five inputs' at contents `x0 … x4`, the output's at anything — the body runs to the
    continuation holding the inputs' as they were and the output's buffer with those pieces written. The load of the
    output's buffer reads whatever it held; nothing depends on the value read. -/
noncomputable def kernelRun2_A (c : Dev nD) (i : grid2.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    { L5 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__head_kernel i arg1 harg1 arg2 harg2 arg3 harg3 arg4 harg4 arg5 harg5 arg6 harg6) K } := by
  refine ⟨?_, fun E K => ?run⟩
  case run =>
    simp only [cc2__head_kernel_eq_skeleton]; unfold cc2__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for the output tile its block (one store of the whole shape), so they cover it. -/
theorem cover2_A_5 (c : Dev nD) (i : grid2.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) (y : S128x1.Idx) :
    ∃ pc ∈ (kernelRun2_A c i arg1 harg1 arg2 harg2 arg3 harg3 arg4 harg4 arg5 harg5 arg6 harg6 x0 x1 x2 x3 x4).1, y ∈ pc.1.set :=
  View.cover_of_tiledL (kernelRun2_A c i arg1 harg1 arg2 harg2 arg3 harg3 arg4 harg4 arg5 harg5 arg6 harg6 x0 x1 x2 x3 x4).1 S128x1.size (by sl_kernel_rfl) y

/-- What the run leaves in the output's staging buffer: its pieces read back over junk. -/
def out2_A_5 (c : Dev nD) (i : grid2.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) : Vec F S128x1 .f32 :=
  VO2_5.read (Elt F) (VO2_5.writes (Elt F) VO2_5.junk (kernelRun2_A c i arg1 harg1 arg2 harg2 arg3 harg3 arg4 harg4 arg5 harg5 arg6 harg6 x0 x1 x2 x3 x4).1)

/-- THE VALUE: what the body leaves in the output's buffer is the skeleton's payload of the five input blocks — the
    canon of one covering store at offset zero is its payload, and each load through the whole-shape rectangle at
    offset zero reads the buffer's contents. -/
theorem out2_A_5_eq (c : Dev nD) (i : grid2.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    out2_A_5 c i arg1 harg1 arg2 harg2 arg3 harg3 arg4 harg4 arg5 harg5 arg6 harg6 x0 x1 x2 x3 x4 = k2_pay1 x0 x1 x2 x3 x4 := by
  unfold out2_A_5
  rw [View.read_writes_eq_canon _ _ _ (cover2_A_5 c i arg1 harg1 arg2 harg2 arg3 harg3 arg4 harg4 arg5 harg5 arg6 harg6 x0 x1 x2 x3 x4)]
  unfold kernelRun2_A
  dsimp only
  rw [View.canon_unit_zero hz2]
  simp only [View.readAt_eq_ld, harg1.read_unread, harg2.read_unread, harg3.read_unread, harg4.read_unread, harg5.read_unread,
    View.ld_unit_zero (S := S128x1536) hz2, View.ld_unit_zero (S := S1024x1536) hz2, View.ld_unit_zero (S := S1024) hz1,
    View.ld_unit_zero (S := S1x1024) hz2, View.ld_unit_zero (S := S1) hz1]

/-! ## What the output holds after each point -/

/-- What the output's staging buffer holds after the body at point `t`: the run's contents at the point's memrefs
    and input blocks. -/
def outsAt2 (c : Dev nD) (t : Fin cfg2.N) : Vec F S128x1 .f32 :=
  out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t) (iblk2 V c 4 t)

/-- At every point the output's staging buffer ends at the skeleton's payload of the point's five input blocks. -/
theorem outsAt2_eq (c : Dev nD) (t : Fin cfg2.N) :
    outsAt2 V c t = k2_pay1 (iblk2 V c 0 t) (iblk2 V c 1 t) (iblk2 V c 2 t) (iblk2 V c 3 t) (iblk2 V c 4 t) := by
  unfold outsAt2; exact out2_A_5_eq c _ _ _ _ _ _ _ _ _ _ _ _ _ _ _ _ _ _

/-! ## The pipeline's proof data -/

/-- The proof data of pipeline 2 on core `c`: the arrays as the region finds them (`V`); after the body at point
    `t` each input's buffer at its block and the output's at `outsAt2`; the invariant `ΦA` (the scoped rest and the
    generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outsAt2 V c t
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outsAt2 V c t := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 800000 in
/-- The body at any point: the inputs' memrefs hold their blocks, so the run applies; the invariant and the core's
    `owes` pass through unread; the output's buffer ends with the run's pieces, which cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold outsAt2
  unfold out2_A_5
  iintro ⟨HΦ, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ (iblk2 V c 0 t) (iblk2 V c 1 t) (iblk2 V c 2 t) (iblk2 V c 3 t) (iblk2 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 c _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3 of @main: pipeline 3, `cc3__head_kernel`, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any
    proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any
    proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any
    proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any
    proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any
    proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any whole staging memrefs -/

/-- One staging buffer of the output window, through which its contents are stated (the choice does not matter:
    a covering list of writes reads the same through any view of the shape). -/
abbrev VO3_5 : View sig .tc .vmem S128x1 .f32 := (Memref.whole cc3_stg5_0 : Memref sig .tc .vmem S128x1 .f32).view
/-- Each window's current staging memref at point `t`, as the pipeline passes it to the body, and its wholeness. -/
abbrev ms3_0 (t : Fin cfg3.N) : Memref sig .tc .vmem S128x1536 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1536 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x1 .f32 := win3_5.stage (cfg3.slots t 5)
abbrev hs3_5 (t : Fin cfg3.N) : (ms3_5 t).IsWhole := hstage3_5 ((cfg3.slots t 5).cast nbuf3_5)

set_option maxHeartbeats 1000000 in
/-- The pieces the body's stores leave in the output's staging memref (last first), with the proof that on whole
    staging memrefs — the five inputs' at contents `x0 … x4`, the output's at anything — the body runs to the
    continuation holding the inputs' as they were and the output's buffer with those pieces written. The load of the
    output's buffer reads whatever it held; nothing depends on the value read. -/
noncomputable def kernelRun3_A (c : Dev nD) (i : grid3.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    { L5 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc3__head_kernel i arg1 harg1 arg2 harg2 arg3 harg3 arg4 harg4 arg5 harg5 arg6 harg6) K } := by
  refine ⟨?_, fun E K => ?run⟩
  case run =>
    simp only [cc3__head_kernel_eq_skeleton]; unfold cc3__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for the output tile its block (one store of the whole shape), so they cover it. -/
theorem cover3_A_5 (c : Dev nD) (i : grid3.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) (y : S128x1.Idx) :
    ∃ pc ∈ (kernelRun3_A c i arg1 harg1 arg2 harg2 arg3 harg3 arg4 harg4 arg5 harg5 arg6 harg6 x0 x1 x2 x3 x4).1, y ∈ pc.1.set :=
  View.cover_of_tiledL (kernelRun3_A c i arg1 harg1 arg2 harg2 arg3 harg3 arg4 harg4 arg5 harg5 arg6 harg6 x0 x1 x2 x3 x4).1 S128x1.size (by sl_kernel_rfl) y

/-- What the run leaves in the output's staging buffer: its pieces read back over junk. -/
def out3_A_5 (c : Dev nD) (i : grid3.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) : Vec F S128x1 .f32 :=
  VO3_5.read (Elt F) (VO3_5.writes (Elt F) VO3_5.junk (kernelRun3_A c i arg1 harg1 arg2 harg2 arg3 harg3 arg4 harg4 arg5 harg5 arg6 harg6 x0 x1 x2 x3 x4).1)

/-- THE VALUE: what the body leaves in the output's buffer is the skeleton's payload of the five input blocks — the
    canon of one covering store at offset zero is its payload, and each load through the whole-shape rectangle at
    offset zero reads the buffer's contents. -/
theorem out3_A_5_eq (c : Dev nD) (i : grid3.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    out3_A_5 c i arg1 harg1 arg2 harg2 arg3 harg3 arg4 harg4 arg5 harg5 arg6 harg6 x0 x1 x2 x3 x4 = k3_pay1 x0 x1 x2 x3 x4 := by
  unfold out3_A_5
  rw [View.read_writes_eq_canon _ _ _ (cover3_A_5 c i arg1 harg1 arg2 harg2 arg3 harg3 arg4 harg4 arg5 harg5 arg6 harg6 x0 x1 x2 x3 x4)]
  unfold kernelRun3_A
  dsimp only
  rw [View.canon_unit_zero hz2]
  simp only [View.readAt_eq_ld, harg1.read_unread, harg2.read_unread, harg3.read_unread, harg4.read_unread, harg5.read_unread,
    View.ld_unit_zero (S := S128x1536) hz2, View.ld_unit_zero (S := S1024x1536) hz2, View.ld_unit_zero (S := S1024) hz1,
    View.ld_unit_zero (S := S1x1024) hz2, View.ld_unit_zero (S := S1) hz1]

/-! ## What the output holds after each point -/

/-- What the output's staging buffer holds after the body at point `t`: the run's contents at the point's memrefs
    and input blocks. -/
def outsAt3 (c : Dev nD) (t : Fin cfg3.N) : Vec F S128x1 .f32 :=
  out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (iblk3 V c 0 t) (iblk3 V c 1 t) (iblk3 V c 2 t) (iblk3 V c 3 t) (iblk3 V c 4 t)

/-- At every point the output's staging buffer ends at the skeleton's payload of the point's five input blocks. -/
theorem outsAt3_eq (c : Dev nD) (t : Fin cfg3.N) :
    outsAt3 V c t = k3_pay1 (iblk3 V c 0 t) (iblk3 V c 1 t) (iblk3 V c 2 t) (iblk3 V c 3 t) (iblk3 V c 4 t) := by
  unfold outsAt3; exact out3_A_5_eq c _ _ _ _ _ _ _ _ _ _ _ _ _ _ _ _ _ _

/-! ## The pipeline's proof data -/

/-- The proof data of pipeline 3 on core `c`: the arrays as the region finds them (`V`); after the body at point
    `t` each input's buffer at its block and the output's at `outsAt3`; the invariant `ΦA` (the scoped rest and the
    generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outsAt3 V c t
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outsAt3 V c t := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 800000 in
/-- The body at any point: the inputs' memrefs hold their blocks, so the run applies; the invariant and the core's
    `owes` pass through unread; the output's buffer ends with the run's pieces, which cover it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold outsAt3
  unfold out3_A_5
  iintro ⟨HΦ, Ho, ⟨%d0, H0⟩, ⟨%d1, H1⟩, ⟨%d2, H2⟩, ⟨%d3, H3⟩, ⟨%d4, H4⟩, ⟨%d5, H5⟩⟩
  iapply ((kernelRun3_A c (grid3.coords t) _ _ _ _ _ _ _ _ _ _ _ _ (iblk3 V c 0 t) (iblk3 V c 1 t) (iblk3 V c 2 t) (iblk3 V c 3 t) (iblk3 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover3_A_5 c _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.KRun.lean ====
import proofs.«172187_j12206297055645_2_alg».proof.Proof.KProj
import proofs.«172187_j12206297055645_2_alg».proof.Proof.KHeads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: host stretches and the four kernel regions, in order

The contents of a core's buffers at every boundary between two consecutive items of @main, as a fold from the launch
memory: a stretch of host operations applies them; a kernel region leaves its windows' arrays at what its write-backs
fold to and every other buffer as it found it. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- After `hostOps0_8`. -/
abbrev W9 : Dev nD → Valuation τ sig (Elt F) := fun c => StableHlo.after hostOps0_8 (W8 m ρ c)
/-- After `hostOps0_9`. -/
abbrev W10 : Dev nD → Valuation τ sig (Elt F) := fun c => StableHlo.after hostOps0_9 (W9 m ρ c)
/-- After `hostOps0_10`. -/
abbrev W11 : Dev nD → Valuation τ sig (Elt F) := fun c => StableHlo.after hostOps0_10 (W10 m ρ c)
/-- After `hostOps0_11`. -/
abbrev W12 : Dev nD → Valuation τ sig (Elt F) := fun c => StableHlo.after hostOps0_11 (W11 m ρ c)
/-- After `hostOps0_12`. -/
abbrev W13 : Dev nD → Valuation τ sig (Elt F) := fun c => StableHlo.after hostOps0_12 (W12 m ρ c)
/-- The buffers as region 0 finds them, read at the TensorCore's references. -/
abbrev V13 : (c : Dev nD) → (b : Ref sig .tc) → Buf (Elt F) ((c : Thread nD τ).loc b) := fun c b => W13 m ρ c b
/-- At region 0's exit: its windows' arrays at what the pipeline leaves, every other buffer as entered. -/
def W14 (c : Dev nD) : Valuation τ sig (Elt F) :=
  Pipeline.withArrays spec0 c (W13 m ρ c) fun w => (dat0 (V13 m ρ) c).arrAt w cfg0.N
theorem W14_arr (c : Dev nD) (w : Fin cfg0.W) :
    W14 m ρ c (Proc.devRef .tc (Pipeline.arrRef spec0 w)) = (dat0 (V13 m ρ) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m ρ c (Proc.devRef .tc b) = W13 m ρ c (Proc.devRef .tc b) := by
  unfold W14; exact Pipeline.withArrays_of_ne spec0 c _ _ b hb
abbrev V14 : (c : Dev nD) → (b : Ref sig .tc) → Buf (Elt F) ((c : Thread nD τ).loc b) := fun c b => W14 m ρ c b
theorem hF0 (c : Dev nD) (w : Fin cfg0.W) : (dat0 (V13 m ρ) c).arrAt w cfg0.N = V14 m ρ c (Pipeline.arrRef spec0 w) :=
  (W14_arr m ρ c w).symm
theorem hrest0 (c : Dev nD) : ∀ b, b ∉ Finset.univ.image (Pipeline.arrRef spec0) → V14 m ρ c b = V13 m ρ c b :=
  fun b hb => W14_of_ne m ρ c b fun w e => hb (Finset.mem_image.mpr ⟨w, Finset.mem_univ _, e⟩)
/-- After `hostOps1`. -/
abbrev W15 : Dev nD → Valuation τ sig (Elt F) := fun c => StableHlo.after hostOps1 (W14 m ρ c)
/-- After `hostOps1_1`. -/
abbrev W16 : Dev nD → Valuation τ sig (Elt F) := fun c => StableHlo.after hostOps1_1 (W15 m ρ c)
/-- After `hostOps1_2`. -/
abbrev W17 : Dev nD → Valuation τ sig (Elt F) := fun c => StableHlo.after hostOps1_2 (W16 m ρ c)
/-- After `hostOps1_3`. -/
abbrev W18 : Dev nD → Valuation τ sig (Elt F) := fun c => StableHlo.after hostOps1_3 (W17 m ρ c)
/-- After `hostOps1_4`. -/
abbrev W19 : Dev nD → Valuation τ sig (Elt F) := fun c => StableHlo.after hostOps1_4 (W18 m ρ c)
/-- After `hostOps1_5`. -/
abbrev W20 : Dev nD → Valuation τ sig (Elt F) := fun c => StableHlo.after hostOps1_5 (W19 m ρ c)
/-- After `hostOps1_6`. -/
abbrev W21 : Dev nD → Valuation τ sig (Elt F) := fun c => StableHlo.after hostOps1_6 (W20 m ρ c)
/-- The buffers as region 1 finds them, read at the TensorCore's references. -/
abbrev V21 : (c : Dev nD) → (b : Ref sig .tc) → Buf (Elt F) ((c : Thread nD τ).loc b) := fun c b => W21 m ρ c b
/-- At region 1's exit: its windows' arrays at what the pipeline leaves, every other buffer as entered. -/
def W22 (c : Dev nD) : Valuation τ sig (Elt F) :=
  Pipeline.withArrays spec1 c (W21 m ρ c) fun w => (dat1 (V21 m ρ) c).arrAt w cfg1.N
theorem W22_arr (c : Dev nD) (w : Fin cfg1.W) :
    W22 m ρ c (Proc.devRef .tc (Pipeline.arrRef spec1 w)) = (dat1 (V21 m ρ) c).arrAt w cfg1.N := by
  unfold W22; exact Pipeline.withArrays_arr spec1 launch1.win.arr_inj c _ _ w
theorem W22_of_ne (c : Dev nD) (b : Ref sig .tc) (hb : ∀ w, Pipeline.arrRef spec1 w ≠ b) :
    W22 m ρ c (Proc.devRef .tc b) = W21 m ρ c (Proc.devRef .tc b) := by
  unfold W22; exact Pipeline.withArrays_of_ne spec1 c _ _ b hb
abbrev V22 : (c : Dev nD) → (b : Ref sig .tc) → Buf (Elt F) ((c : Thread nD τ).loc b) := fun c b => W22 m ρ c b
theorem hF1 (c : Dev nD) (w : Fin cfg1.W) : (dat1 (V21 m ρ) c).arrAt w cfg1.N = V22 m ρ c (Pipeline.arrRef spec1 w) :=
  (W22_arr m ρ c w).symm
theorem hrest1 (c : Dev nD) : ∀ b, b ∉ Finset.univ.image (Pipeline.arrRef spec1) → V22 m ρ c b = V21 m ρ c b :=
  fun b hb => W22_of_ne m ρ c b fun w e => hb (Finset.mem_image.mpr ⟨w, Finset.mem_univ _, e⟩)
/-- After `hostOps2`. -/
abbrev W23 : Dev nD → Valuation τ sig (Elt F) := fun c => StableHlo.after hostOps2 (W22 m ρ c)
/-- The buffers as region 2 finds them, read at the TensorCore's references. -/
abbrev V23 : (c : Dev nD) → (b : Ref sig .tc) → Buf (Elt F) ((c : Thread nD τ).loc b) := fun c b => W23 m ρ c b
/-- At region 2's exit: its windows' arrays at what the pipeline leaves, every other buffer as entered. -/
def W24 (c : Dev nD) : Valuation τ sig (Elt F) :=
  Pipeline.withArrays spec2 c (W23 m ρ c) fun w => (dat2 (V23 m ρ) c).arrAt w cfg2.N
theorem W24_arr (c : Dev nD) (w : Fin cfg2.W) :
    W24 m ρ c (Proc.devRef .tc (Pipeline.arrRef spec2 w)) = (dat2 (V23 m ρ) c).arrAt w cfg2.N := by
  unfold W24; exact Pipeline.withArrays_arr spec2 launch2.win.arr_inj c _ _ w
theorem W24_of_ne (c : Dev nD) (b : Ref sig .tc) (hb : ∀ w, Pipeline.arrRef spec2 w ≠ b) :
    W24 m ρ c (Proc.devRef .tc b) = W23 m ρ c (Proc.devRef .tc b) := by
  unfold W24; exact Pipeline.withArrays_of_ne spec2 c _ _ b hb
abbrev V24 : (c : Dev nD) → (b : Ref sig .tc) → Buf (Elt F) ((c : Thread nD τ).loc b) := fun c b => W24 m ρ c b
theorem hF2 (c : Dev nD) (w : Fin cfg2.W) : (dat2 (V23 m ρ) c).arrAt w cfg2.N = V24 m ρ c (Pipeline.arrRef spec2 w) :=
  (W24_arr m ρ c w).symm
theorem hrest2 (c : Dev nD) : ∀ b, b ∉ Finset.univ.image (Pipeline.arrRef spec2) → V24 m ρ c b = V23 m ρ c b :=
  fun b hb => W24_of_ne m ρ c b fun w e => hb (Finset.mem_image.mpr ⟨w, Finset.mem_univ _, e⟩)
/-- After `hostOps3`. -/
abbrev W25 : Dev nD → Valuation τ sig (Elt F) := fun c => StableHlo.after hostOps3 (W24 m ρ c)
/-- The buffers as region 3 finds them, read at the TensorCore's references. -/
abbrev V25 : (c : Dev nD) → (b : Ref sig .tc) → Buf (Elt F) ((c : Thread nD τ).loc b) := fun c b => W25 m ρ c b
/-- At region 3's exit: its windows' arrays at what the pipeline leaves, every other buffer as entered. -/
def W26 (c : Dev nD) : Valuation τ sig (Elt F) :=
  Pipeline.withArrays spec3 c (W25 m ρ c) fun w => (dat3 (V25 m ρ) c).arrAt w cfg3.N
theorem W26_arr (c : Dev nD) (w : Fin cfg3.W) :
    W26 m ρ c (Proc.devRef .tc (Pipeline.arrRef spec3 w)) = (dat3 (V25 m ρ) c).arrAt w cfg3.N := by
  unfold W26; exact Pipeline.withArrays_arr spec3 launch3.win.arr_inj c _ _ w
theorem W26_of_ne (c : Dev nD) (b : Ref sig .tc) (hb : ∀ w, Pipeline.arrRef spec3 w ≠ b) :
    W26 m ρ c (Proc.devRef .tc b) = W25 m ρ c (Proc.devRef .tc b) := by
  unfold W26; exact Pipeline.withArrays_of_ne spec3 c _ _ b hb
abbrev V26 : (c : Dev nD) → (b : Ref sig .tc) → Buf (Elt F) ((c : Thread nD τ).loc b) := fun c b => W26 m ρ c b
theorem hF3 (c : Dev nD) (w : Fin cfg3.W) : (dat3 (V25 m ρ) c).arrAt w cfg3.N = V26 m ρ c (Pipeline.arrRef spec3 w) :=
  (W26_arr m ρ c w).symm
theorem hrest3 (c : Dev nD) : ∀ b, b ∉ Finset.univ.image (Pipeline.arrRef spec3) → V26 m ρ c b = V25 m ρ c b :=
  fun b hb => W26_of_ne m ρ c b fun w e => hb (Finset.mem_image.mpr ⟨w, Finset.mem_univ _, e⟩)
/-- After `hostOps4`. -/
abbrev W27 : Dev nD → Valuation τ sig (Elt F) := fun c => StableHlo.after hostOps4 (W26 m ρ c)

/-! ## The argument arrays end as launched

No host operation writes an argument (each writes its own result buffer), and a region reads an argument only through
an input window, which the pipeline leaves as it found it; so at an argument's buffer the fold walks back to the launch
memory. -/

/-- The twenty-one argument arrays. -/
abbrev argsL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

theorem keep1 (c : Dev nD) (b : Ref sig .tc) (hb : b ∈ argsL) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep2 (c : Dev nD) (b : Ref sig .tc) (hb : b ∈ argsL) :
    W2 m ρ c (Proc.devRef .tc b) = W1 m ρ c (Proc.devRef .tc b) :=
  StableHlo.after_of_forall_not_mem (b := Proc.devRef .tc b) _ _ (List.forall_iff_forall_mem.mp (by
    simp only [hostOps0_1, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep3 (c : Dev nD) (b : Ref sig .tc) (hb : b ∈ argsL) :
    W3 m ρ c (Proc.devRef .tc b) = W2 m ρ c (Proc.devRef .tc b) :=
  StableHlo.after_of_forall_not_mem (b := Proc.devRef .tc b) _ _ (List.forall_iff_forall_mem.mp (by
    simp only [hostOps0_2, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep4 (c : Dev nD) (b : Ref sig .tc) (hb : b ∈ argsL) :
    W4 m ρ c (Proc.devRef .tc b) = W3 m ρ c (Proc.devRef .tc b) :=
  StableHlo.after_of_forall_not_mem (b := Proc.devRef .tc b) _ _ (List.forall_iff_forall_mem.mp (by
    simp only [hostOps0_3, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep5 (c : Dev nD) (b : Ref sig .tc) (hb : b ∈ argsL) :
    W5 m ρ c (Proc.devRef .tc b) = W4 m ρ c (Proc.devRef .tc b) :=
  StableHlo.after_of_forall_not_mem (b := Proc.devRef .tc b) _ _ (List.forall_iff_forall_mem.mp (by
    simp only [hostOps0_4, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep6 (c : Dev nD) (b : Ref sig .tc) (hb : b ∈ argsL) :
    W6 m ρ c (Proc.devRef .tc b) = W5 m ρ c (Proc.devRef .tc b) :=
  StableHlo.after_of_forall_not_mem (b := Proc.devRef .tc b) _ _ (List.forall_iff_forall_mem.mp (by
    simp only [hostOps0_5, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep7 (c : Dev nD) (b : Ref sig .tc) (hb : b ∈ argsL) :
    W7 m ρ c (Proc.devRef .tc b) = W6 m ρ c (Proc.devRef .tc b) :=
  StableHlo.after_of_forall_not_mem (b := Proc.devRef .tc b) _ _ (List.forall_iff_forall_mem.mp (by
    simp only [hostOps0_6, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep8 (c : Dev nD) (b : Ref sig .tc) (hb : b ∈ argsL) :
    W8 m ρ c (Proc.devRef .tc b) = W7 m ρ c (Proc.devRef .tc b) :=
  StableHlo.after_of_forall_not_mem (b := Proc.devRef .tc b) _ _ (List.forall_iff_forall_mem.mp (by
    simp only [hostOps0_7, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep9 (c : Dev nD) (b : Ref sig .tc) (hb : b ∈ argsL) :
    W9 m ρ c (Proc.devRef .tc b) = W8 m ρ c (Proc.devRef .tc b) :=
  StableHlo.after_of_forall_not_mem (b := Proc.devRef .tc b) _ _ (List.forall_iff_forall_mem.mp (by
    simp only [hostOps0_8, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep10 (c : Dev nD) (b : Ref sig .tc) (hb : b ∈ argsL) :
    W10 m ρ c (Proc.devRef .tc b) = W9 m ρ c (Proc.devRef .tc b) :=
  StableHlo.after_of_forall_not_mem (b := Proc.devRef .tc b) _ _ (List.forall_iff_forall_mem.mp (by
    simp only [hostOps0_9, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep11 (c : Dev nD) (b : Ref sig .tc) (hb : b ∈ argsL) :
    W11 m ρ c (Proc.devRef .tc b) = W10 m ρ c (Proc.devRef .tc b) :=
  StableHlo.after_of_forall_not_mem (b := Proc.devRef .tc b) _ _ (List.forall_iff_forall_mem.mp (by
    simp only [hostOps0_10, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep12 (c : Dev nD) (b : Ref sig .tc) (hb : b ∈ argsL) :
    W12 m ρ c (Proc.devRef .tc b) = W11 m ρ c (Proc.devRef .tc b) :=
  StableHlo.after_of_forall_not_mem (b := Proc.devRef .tc b) _ _ (List.forall_iff_forall_mem.mp (by
    simp only [hostOps0_11, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep13 (c : Dev nD) (b : Ref sig .tc) (hb : b ∈ argsL) :
    W13 m ρ c (Proc.devRef .tc b) = W12 m ρ c (Proc.devRef .tc b) :=
  StableHlo.after_of_forall_not_mem (b := Proc.devRef .tc b) _ _ (List.forall_iff_forall_mem.mp (by
    simp only [hostOps0_12, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep14 (c : Dev nD) (b : Ref sig .tc) (hb : b ∈ argsL) :
    W14 m ρ c (Proc.devRef .tc b) = W13 m ρ c (Proc.devRef .tc b) := by
  by_cases h : ∀ w, Pipeline.arrRef spec0 w ≠ b
  · exact W14_of_ne m ρ c b h
  · obtain ⟨w, hw⟩ := not_forall.mp h
    obtain rfl := not_not.mp hw
    fin_cases w
    · exact (W14_arr m ρ c 0).trans (((dat0 (V13 m ρ) c).arrAt_in 0 rfl _).trans (A_eq0 (V13 m ρ) c 0))
    · exact (W14_arr m ρ c 1).trans (((dat0 (V13 m ρ) c).arrAt_in 1 rfl _).trans (A_eq0 (V13 m ρ) c 1))
    · exact absurd hb (by decide)
theorem keep15 (c : Dev nD) (b : Ref sig .tc) (hb : b ∈ argsL) :
    W15 m ρ c (Proc.devRef .tc b) = W14 m ρ c (Proc.devRef .tc b) :=
  StableHlo.after_of_forall_not_mem (b := Proc.devRef .tc b) _ _ (List.forall_iff_forall_mem.mp (by
    simp only [hostOps1, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep16 (c : Dev nD) (b : Ref sig .tc) (hb : b ∈ argsL) :
    W16 m ρ c (Proc.devRef .tc b) = W15 m ρ c (Proc.devRef .tc b) :=
  StableHlo.after_of_forall_not_mem (b := Proc.devRef .tc b) _ _ (List.forall_iff_forall_mem.mp (by
    simp only [hostOps1_1, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep17 (c : Dev nD) (b : Ref sig .tc) (hb : b ∈ argsL) :
    W17 m ρ c (Proc.devRef .tc b) = W16 m ρ c (Proc.devRef .tc b) :=
  StableHlo.after_of_forall_not_mem (b := Proc.devRef .tc b) _ _ (List.forall_iff_forall_mem.mp (by
    simp only [hostOps1_2, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep18 (c : Dev nD) (b : Ref sig .tc) (hb : b ∈ argsL) :
    W18 m ρ c (Proc.devRef .tc b) = W17 m ρ c (Proc.devRef .tc b) :=
  StableHlo.after_of_forall_not_mem (b := Proc.devRef .tc b) _ _ (List.forall_iff_forall_mem.mp (by
    simp only [hostOps1_3, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep19 (c : Dev nD) (b : Ref sig .tc) (hb : b ∈ argsL) :
    W19 m ρ c (Proc.devRef .tc b) = W18 m ρ c (Proc.devRef .tc b) :=
  StableHlo.after_of_forall_not_mem (b := Proc.devRef .tc b) _ _ (List.forall_iff_forall_mem.mp (by
    simp only [hostOps1_4, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep20 (c : Dev nD) (b : Ref sig .tc) (hb : b ∈ argsL) :
    W20 m ρ c (Proc.devRef .tc b) = W19 m ρ c (Proc.devRef .tc b) :=
  StableHlo.after_of_forall_not_mem (b := Proc.devRef .tc b) _ _ (List.forall_iff_forall_mem.mp (by
    simp only [hostOps1_5, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep21 (c : Dev nD) (b : Ref sig .tc) (hb : b ∈ argsL) :
    W21 m ρ c (Proc.devRef .tc b) = W20 m ρ c (Proc.devRef .tc b) :=
  StableHlo.after_of_forall_not_mem (b := Proc.devRef .tc b) _ _ (List.forall_iff_forall_mem.mp (by
    simp only [hostOps1_6, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep22 (c : Dev nD) (b : Ref sig .tc) (hb : b ∈ argsL) :
    W22 m ρ c (Proc.devRef .tc b) = W21 m ρ c (Proc.devRef .tc b) := by
  by_cases h : ∀ w, Pipeline.arrRef spec1 w ≠ b
  · exact W22_of_ne m ρ c b h
  · obtain ⟨w, hw⟩ := not_forall.mp h
    obtain rfl := not_not.mp hw
    fin_cases w
    · exact (W22_arr m ρ c 0).trans (((dat1 (V21 m ρ) c).arrAt_in 0 rfl _).trans (A_eq1 (V21 m ρ) c 0))
    · exact (W22_arr m ρ c 1).trans (((dat1 (V21 m ρ) c).arrAt_in 1 rfl _).trans (A_eq1 (V21 m ρ) c 1))
    · exact (W22_arr m ρ c 2).trans (((dat1 (V21 m ρ) c).arrAt_in 2 rfl _).trans (A_eq1 (V21 m ρ) c 2))
    · exact (W22_arr m ρ c 3).trans (((dat1 (V21 m ρ) c).arrAt_in 3 rfl _).trans (A_eq1 (V21 m ρ) c 3))
    · exact (W22_arr m ρ c 4).trans (((dat1 (V21 m ρ) c).arrAt_in 4 rfl _).trans (A_eq1 (V21 m ρ) c 4))
    · exact absurd hb (by decide)
theorem keep23 (c : Dev nD) (b : Ref sig .tc) (hb : b ∈ argsL) :
    W23 m ρ c (Proc.devRef .tc b) = W22 m ρ c (Proc.devRef .tc b) :=
  StableHlo.after_of_forall_not_mem (b := Proc.devRef .tc b) _ _ (List.forall_iff_forall_mem.mp (by
    simp only [hostOps2, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep24 (c : Dev nD) (b : Ref sig .tc) (hb : b ∈ argsL) :
    W24 m ρ c (Proc.devRef .tc b) = W23 m ρ c (Proc.devRef .tc b) := by
  by_cases h : ∀ w, Pipeline.arrRef spec2 w ≠ b
  · exact W24_of_ne m ρ c b h
  · obtain ⟨w, hw⟩ := not_forall.mp h
    obtain rfl := not_not.mp hw
    fin_cases w
    · exact (W24_arr m ρ c 0).trans (((dat2 (V23 m ρ) c).arrAt_in 0 rfl _).trans (A_eq2 (V23 m ρ) c 0))
    · exact (W24_arr m ρ c 1).trans (((dat2 (V23 m ρ) c).arrAt_in 1 rfl _).trans (A_eq2 (V23 m ρ) c 1))
    · exact (W24_arr m ρ c 2).trans (((dat2 (V23 m ρ) c).arrAt_in 2 rfl _).trans (A_eq2 (V23 m ρ) c 2))
    · exact (W24_arr m ρ c 3).trans (((dat2 (V23 m ρ) c).arrAt_in 3 rfl _).trans (A_eq2 (V23 m ρ) c 3))
    · exact (W24_arr m ρ c 4).trans (((dat2 (V23 m ρ) c).arrAt_in 4 rfl _).trans (A_eq2 (V23 m ρ) c 4))
    · exact absurd hb (by decide)
theorem keep25 (c : Dev nD) (b : Ref sig .tc) (hb : b ∈ argsL) :
    W25 m ρ c (Proc.devRef .tc b) = W24 m ρ c (Proc.devRef .tc b) :=
  StableHlo.after_of_forall_not_mem (b := Proc.devRef .tc b) _ _ (List.forall_iff_forall_mem.mp (by
    simp only [hostOps3, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep26 (c : Dev nD) (b : Ref sig .tc) (hb : b ∈ argsL) :
    W26 m ρ c (Proc.devRef .tc b) = W25 m ρ c (Proc.devRef .tc b) := by
  by_cases h : ∀ w, Pipeline.arrRef spec3 w ≠ b
  · exact W26_of_ne m ρ c b h
  · obtain ⟨w, hw⟩ := not_forall.mp h
    obtain rfl := not_not.mp hw
    fin_cases w
    · exact (W26_arr m ρ c 0).trans (((dat3 (V25 m ρ) c).arrAt_in 0 rfl _).trans (A_eq3 (V25 m ρ) c 0))
    · exact (W26_arr m ρ c 1).trans (((dat3 (V25 m ρ) c).arrAt_in 1 rfl _).trans (A_eq3 (V25 m ρ) c 1))
    · exact (W26_arr m ρ c 2).trans (((dat3 (V25 m ρ) c).arrAt_in 2 rfl _).trans (A_eq3 (V25 m ρ) c 2))
    · exact (W26_arr m ρ c 3).trans (((dat3 (V25 m ρ) c).arrAt_in 3 rfl _).trans (A_eq3 (V25 m ρ) c 3))
    · exact (W26_arr m ρ c 4).trans (((dat3 (V25 m ρ) c).arrAt_in 4 rfl _).trans (A_eq3 (V25 m ρ) c 4))
    · exact absurd hb (by decide)
theorem keep27 (c : Dev nD) (b : Ref sig .tc) (hb : b ∈ argsL) :
    W27 m ρ c (Proc.devRef .tc b) = W26 m ρ c (Proc.devRef .tc b) :=
  StableHlo.after_of_forall_not_mem (b := Proc.devRef .tc b) _ _ (List.forall_iff_forall_mem.mp (by
    simp only [hostOps4, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))

/-- An argument array holds at the end what it held at launch. -/
theorem keep_all (c : Dev nD) (b : Ref sig .tc) (hb : b ∈ argsL) :
    W27 m ρ c (Proc.devRef .tc b) = m ((c : Thread nD τ).loc b) :=
  calc W27 m ρ c (Proc.devRef .tc b)
    _ = W26 m ρ c (Proc.devRef .tc b) := keep27 m ρ c b hb
    _ = W25 m ρ c (Proc.devRef .tc b) := keep26 m ρ c b hb
    _ = W24 m ρ c (Proc.devRef .tc b) := keep25 m ρ c b hb
    _ = W23 m ρ c (Proc.devRef .tc b) := keep24 m ρ c b hb
    _ = W22 m ρ c (Proc.devRef .tc b) := keep23 m ρ c b hb
    _ = W21 m ρ c (Proc.devRef .tc b) := keep22 m ρ c b hb
    _ = W20 m ρ c (Proc.devRef .tc b) := keep21 m ρ c b hb
    _ = W19 m ρ c (Proc.devRef .tc b) := keep20 m ρ c b hb
    _ = W18 m ρ c (Proc.devRef .tc b) := keep19 m ρ c b hb
    _ = W17 m ρ c (Proc.devRef .tc b) := keep18 m ρ c b hb
    _ = W16 m ρ c (Proc.devRef .tc b) := keep17 m ρ c b hb
    _ = W15 m ρ c (Proc.devRef .tc b) := keep16 m ρ c b hb
    _ = W14 m ρ c (Proc.devRef .tc b) := keep15 m ρ c b hb
    _ = W13 m ρ c (Proc.devRef .tc b) := keep14 m ρ c b hb
    _ = W12 m ρ c (Proc.devRef .tc b) := keep13 m ρ c b hb
    _ = W11 m ρ c (Proc.devRef .tc b) := keep12 m ρ c b hb
    _ = W10 m ρ c (Proc.devRef .tc b) := keep11 m ρ c b hb
    _ = W9 m ρ c (Proc.devRef .tc b) := keep10 m ρ c b hb
    _ = W8 m ρ c (Proc.devRef .tc b) := keep9 m ρ c b hb
    _ = W7 m ρ c (Proc.devRef .tc b) := keep8 m ρ c b hb
    _ = W6 m ρ c (Proc.devRef .tc b) := keep7 m ρ c b hb
    _ = W5 m ρ c (Proc.devRef .tc b) := keep6 m ρ c b hb
    _ = W4 m ρ c (Proc.devRef .tc b) := keep5 m ρ c b hb
    _ = W3 m ρ c (Proc.devRef .tc b) := keep4 m ρ c b hb
    _ = W2 m ρ c (Proc.devRef .tc b) := keep3 m ρ c b hb
    _ = W1 m ρ c (Proc.devRef .tc b) := keep2 m ρ c b hb
    _ = W0 m ρ c (Proc.devRef .tc b) := keep1 m ρ c b hb
    _ = m ((c : Thread nD τ).loc b) := rfl

/-! ## The proof data of the four pipelines and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V13 m ρ) c
  | ⟨1, _⟩ => fun c => dat1 (V21 m ρ) c
  | ⟨2, _⟩ => fun c => dat2 (V23 m ρ) c
  | ⟨3, _⟩ => fun c => dat3 (V25 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps0_7` allocates a buffer. -/
theorem hostOps0_7_fresh : (hostOps0_7 : List (HloOp τ sig (Elt F))).Forall fun op => op.fresh = ∅ := by
  simp only [List.Forall]; repeat' constructor
/-- No operation of `hostOps0_8` allocates a buffer. -/
theorem hostOps0_8_fresh : (hostOps0_8 : List (HloOp τ sig (Elt F))).Forall fun op => op.fresh = ∅ := by
  simp only [List.Forall]; repeat' constructor
/-- No operation of `hostOps0_9` allocates a buffer. -/
theorem hostOps0_9_fresh : (hostOps0_9 : List (HloOp τ sig (Elt F))).Forall fun op => op.fresh = ∅ := by
  simp only [List.Forall]; repeat' constructor
/-- No operation of `hostOps0_10` allocates a buffer. -/
theorem hostOps0_10_fresh : (hostOps0_10 : List (HloOp τ sig (Elt F))).Forall fun op => op.fresh = ∅ := by
  simp only [List.Forall]; repeat' constructor
/-- No operation of `hostOps0_11` allocates a buffer. -/
theorem hostOps0_11_fresh : (hostOps0_11 : List (HloOp τ sig (Elt F))).Forall fun op => op.fresh = ∅ := by
  simp only [List.Forall]; repeat' constructor
/-- No operation of `hostOps0_12` allocates a buffer. -/
theorem hostOps0_12_fresh : (hostOps0_12 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps1_1` allocates a buffer. -/
theorem hostOps1_1_fresh : (hostOps1_1 : List (HloOp τ sig (Elt F))).Forall fun op => op.fresh = ∅ := by
  simp only [List.Forall]; repeat' constructor
/-- No operation of `hostOps1_2` allocates a buffer. -/
theorem hostOps1_2_fresh : (hostOps1_2 : List (HloOp τ sig (Elt F))).Forall fun op => op.fresh = ∅ := by
  simp only [List.Forall]; repeat' constructor
/-- No operation of `hostOps1_3` allocates a buffer. -/
theorem hostOps1_3_fresh : (hostOps1_3 : List (HloOp τ sig (Elt F))).Forall fun op => op.fresh = ∅ := by
  simp only [List.Forall]; repeat' constructor
/-- No operation of `hostOps1_4` allocates a buffer. -/
theorem hostOps1_4_fresh : (hostOps1_4 : List (HloOp τ sig (Elt F))).Forall fun op => op.fresh = ∅ := by
  simp only [List.Forall]; repeat' constructor
/-- No operation of `hostOps1_5` allocates a buffer. -/
theorem hostOps1_5_fresh : (hostOps1_5 : List (HloOp τ sig (Elt F))).Forall fun op => op.fresh = ∅ := by
  simp only [List.Forall]; repeat' constructor
/-- No operation of `hostOps1_6` allocates a buffer. -/
theorem hostOps1_6_fresh : (hostOps1_6 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W27 m ρ c) ∗ ∃ r, prngReg c r)

/-! ## The regions as segments -/

set_option backward.isDefEq.respectTransparency.types false in
/-- Region 0 over the thread state: entered from every unscoped buffer at `W13`, left at `W14`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V13 m ρ) c).loose
  hwaits := Pipeline.hwaits_of_owed_zero _ _ _ _ L lv 0 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec0 c (V13 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V13 m ρ c) (V14 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W21`, left at `W22`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V21 m ρ) c).loose
  hwaits := Pipeline.hwaits_of_owed_zero _ _ _ _ L lv 1 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec1 c (V21 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V21 m ρ c) (V22 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W23`, left at `W24`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V23 m ρ) c).loose
  hwaits := Pipeline.hwaits_of_owed_zero _ _ _ _ L lv 2 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec2 c (V23 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V23 m ρ c) (V24 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W25`, left at `W26`. Its arrays are split
    out of the unscoped buffers and put back at the exit contents; the generator register goes into the invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V25 m ρ) c).loose
  hwaits := Pipeline.hwaits_of_owed_zero _ _ _ _ L lv 3 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec3 c (V25 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V25 m ρ c) (V26 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 27 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .region (reg0 m ρ),
    .host (hseg hostOps1 hostOps1_sub hostOps1_fresh (W14 m ρ)),
    .host (hseg hostOps1_1 hostOps1_1_sub hostOps1_1_fresh (W15 m ρ)),
    .host (hseg hostOps1_2 hostOps1_2_sub hostOps1_2_fresh (W16 m ρ)),
    .host (hseg hostOps1_3 hostOps1_3_sub hostOps1_3_fresh (W17 m ρ)),
    .host (hseg hostOps1_4 hostOps1_4_sub hostOps1_4_fresh (W18 m ρ)),
    .host (hseg hostOps1_5 hostOps1_5_sub hostOps1_5_fresh (W19 m ρ)),
    .host (hseg hostOps1_6 hostOps1_6_sub hostOps1_6_fresh (W20 m ρ)),
    .region (reg1 m ρ),
    .host (hseg hostOps2 hostOps2_sub hostOps2_fresh (W22 m ρ)),
    .region (reg2 m ρ),
    .host (hseg hostOps3 hostOps3_sub hostOps3_fresh (W24 m ρ)),
    .region (reg3 m ρ),
    .host (hseg hostOps4 hostOps4_sub hostOps4_fresh (W26 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and in every final state each unscoped buffer holds what the fold computes at the last
    boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W27 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W27 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c => h c)

/-- THE FRAME: every weakly fair execution of @main terminates, nothing faulting, and every final state has the
    twenty-one argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (keep_all m ρ c main_arg0 (by decide)),
     (h c _ (mem_uc main_arg1 (by decide))).trans (keep_all m ρ c main_arg1 (by decide)),
     (h c _ (mem_uc main_arg2 (by decide))).trans (keep_all m ρ c main_arg2 (by decide)),
     (h c _ (mem_uc main_arg3 (by decide))).trans (keep_all m ρ c main_arg3 (by decide)),
     (h c _ (mem_uc main_arg4 (by decide))).trans (keep_all m ρ c main_arg4 (by decide)),
     (h c _ (mem_uc main_arg5 (by decide))).trans (keep_all m ρ c main_arg5 (by decide)),
     (h c _ (mem_uc main_arg6 (by decide))).trans (keep_all m ρ c main_arg6 (by decide)),
     (h c _ (mem_uc main_arg7 (by decide))).trans (keep_all m ρ c main_arg7 (by decide)),
     (h c _ (mem_uc main_arg8 (by decide))).trans (keep_all m ρ c main_arg8 (by decide)),
     (h c _ (mem_uc main_arg9 (by decide))).trans (keep_all m ρ c main_arg9 (by decide)),
     (h c _ (mem_uc main_arg10 (by decide))).trans (keep_all m ρ c main_arg10 (by decide)),
     (h c _ (mem_uc main_arg11 (by decide))).trans (keep_all m ρ c main_arg11 (by decide)),
     (h c _ (mem_uc main_arg12 (by decide))).trans (keep_all m ρ c main_arg12 (by decide)),
     (h c _ (mem_uc main_arg13 (by decide))).trans (keep_all m ρ c main_arg13 (by decide)),
     (h c _ (mem_uc main_arg14 (by decide))).trans (keep_all m ρ c main_arg14 (by decide)),
     (h c _ (mem_uc main_arg15 (by decide))).trans (keep_all m ρ c main_arg15 (by decide)),
     (h c _ (mem_uc main_arg16 (by decide))).trans (keep_all m ρ c main_arg16 (by decide)),
     (h c _ (mem_uc main_arg17 (by decide))).trans (keep_all m ρ c main_arg17 (by decide)),
     (h c _ (mem_uc main_arg18 (by decide))).trans (keep_all m ρ c main_arg18 (by decide)),
     (h c _ (mem_uc main_arg19 (by decide))).trans (keep_all m ρ c main_arg19 (by decide)),
     (h c _ (mem_uc main_arg20 (by decide))).trans (keep_all m ρ c main_arg20 (by decide))⟩) (run_all m ρ)

end Cert.Kernel.Hand

end
-- ==== Proof.KIProj.lean ====
import proofs.«172187_j12206297055645_2_alg».proof.Proof.Gen.KernelIdeal.Skeleton
import proofs.«172187_j12206297055645_2_alg».proof.Proof.Gen.KernelIdeal.Launch
import proofs.«172187_j12206297055645_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: the projection kernel on its 3 × 8 grid

The projection kernel accumulates, over the eight K-steps of each of the three modalities, a product
of its two input blocks into its output block: at the first K-step of a modality it clears the block, at
every K-step it adds the step's product to what the block holds. This module states, at the buffer
contents `V` the region is entered with, what each staging buffer holds around the body at every grid
point, and proves the body's triple there: the half of the frame that belongs to this region. -/

-- membership in a rectangle of the block's extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's current staging buffer holds its block at every point, fetched there or
    not, for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition under which the body clears its output block, from the grid coordinates: the K-step
    (coordinate 1) compared with zero, as the body computes it. -/
abbrev cond0_0 (i : grid0.Coords) : Prop := (Scalar.cmpi .ne (Scalar.extui (Scalar.cmpi .eq (BitVec.ofNat 32 (i 1).val) 0#32)) 0#32) = 1#1
/-- It holds at the first K-step of each modality: the points that are multiples of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The kernel body on any staging memrefs -/

/-- One staging buffer of the output window, through which its contents are stated (the choice does
    not matter: covering writes read back the same through any view of the shape). -/
abbrev VO0_2 : View sig .tc .vmem S1x128x768 .f32 := (Memref.whole cc0_stg2_0 : Memref sig .tc .vmem S1x128x768 .f32).view
/-- Each window's current staging memref at point `t`, as the pipeline passes it, and its wholeness. -/
abbrev ms0_0 (t : Fin cfg0.N) : Memref sig .tc .vmem S1x128x2560 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x768x2560 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x768 .f32 := win0_2.stage (cfg0.slots t 2)
abbrev hs0_2 (t : Fin cfg0.N) : (ms0_2 t).IsWhole := hstage0_2 ((cfg0.slots t 2).cast nbuf0_2)

-- (the run's proof term is large)
set_option maxHeartbeats 1000000 in
/-- CASE A, the first K-step of a modality (the body clears the block before accumulating). What the
    body's stores leave in the output's staging memref, as pieces (last first), with the proof that on
    whole staging memrefs — the inputs' at their contents, the output's at anything — the body runs to
    the continuation holding the inputs' as they were and the output's buffer with the pieces written. -/
noncomputable def kernelRun0_A (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : cond0_0 i)
    (x0 : Vec F S1x128x2560 .f32) (x1 : Vec F S1x768x2560 .f32) :
    { L2 : List (View.Piece (Elt F) S1x128x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__proj_kernel i arg2 harg2 arg3 harg3 arg4 harg4) K } := by
  refine ⟨?_, fun E K => ?run⟩
  case run =>
    simp only [cc0__proj_kernel_eq_skeleton]; unfold cc0__proj_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

-- (the run's proof term is large)
set_option maxHeartbeats 1000000 in
/-- CASE B, a later K-step (the body accumulates into what the block holds). The same, with the
    output's staging memref at its running contents `xo2`, which the body reads before it stores. -/
noncomputable def kernelRun0_B (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : ¬cond0_0 i)
    (x0 : Vec F S1x128x2560 .f32) (x1 : Vec F S1x768x2560 .f32) (xo2 : Vec F S1x128x768 .f32) :
    { L2 : List (View.Piece (Elt F) S1x128x768 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__proj_kernel i arg2 harg2 arg3 harg3 arg4 harg4) K } := by
  refine ⟨?_, fun E K => ?run⟩
  case run =>
    simp only [cc0__proj_kernel_eq_skeleton]; unfold cc0__proj_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-! ## What each case leaves in the output's staging buffer -/

/-- Case A's pieces (the clearing store and the accumulating store, each of the whole block) tile the
    block, so they cover it. -/
theorem cover0_A_2 (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : cond0_0 i)
    (x0 : Vec F S1x128x2560 .f32) (x1 : Vec F S1x768x2560 .f32) (y : S1x128x768.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x128x768.size (by sl_kernel_rfl) y

/-- What case A leaves in the output's staging buffer: its pieces read back over junk. -/
def out0_A_2 (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : cond0_0 i)
    (x0 : Vec F S1x128x2560 .f32) (x1 : Vec F S1x768x2560 .f32) : Vec F S1x128x768 .f32 :=
  VO0_2.read (Elt F) (VO0_2.writes (Elt F) VO0_2.junk (kernelRun0_A c i arg2 harg2 arg3 harg3 arg4 harg4 hc0 x0 x1).1)

/-- Case B's one piece (the accumulating store of the whole block) covers the block. -/
theorem cover0_B_2 (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : ¬cond0_0 i)
    (x0 : Vec F S1x128x2560 .f32) (x1 : Vec F S1x768x2560 .f32) (xo2 : Vec F S1x128x768 .f32) (y : S1x128x768.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x128x768.size (by sl_kernel_rfl) y

/-- What case B leaves in the output's staging buffer: its piece read back over junk. -/
def out0_B_2 (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : ¬cond0_0 i)
    (x0 : Vec F S1x128x2560 .f32) (x1 : Vec F S1x768x2560 .f32) (xo2 : Vec F S1x128x768 .f32) : Vec F S1x128x768 .f32 :=
  VO0_2.read (Elt F) (VO0_2.writes (Elt F) VO0_2.junk (kernelRun0_B c i arg2 harg2 arg3 harg3 arg4 harg4 hc0 x0 x1 xo2).1)

/-! ## The values -/

/-- The body's loads and stores go through the whole-block rectangle at zero offsets. -/
theorem proj_offsets_zero : (![0, 0, 0] : Fin 3 → Nat) = fun _ => 0 := funext fun a => by fin_cases a <;> rfl

/-- CASE B's value: over the running contents `xo2` the body leaves the payload of its one covering
    store, the step's product added to `xo2`; its loads read the whole buffers. -/
theorem out0_B_2_eq (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : ¬cond0_0 i)
    (x0 : Vec F S1x128x2560 .f32) (x1 : Vec F S1x768x2560 .f32) (xo2 : Vec F S1x128x768 .f32) :
    out0_B_2 c i arg2 harg2 arg3 harg3 arg4 harg4 hc0 x0 x1 xo2 = k0_pay2 x0 x1 xo2 := by
  unfold out0_B_2
  rw [View.read_writes_eq_canon _ _ _ (cover0_B_2 c i arg2 harg2 arg3 harg3 arg4 harg4 hc0 x0 x1 xo2)]
  unfold kernelRun0_B
  dsimp only
  rw [View.canon_unit_zero (S := S1x128x768) proj_offsets_zero]
  simp only [View.readAt_eq_ld, harg2.read_unread, harg3.read_unread, harg4.read_unread,
    View.ld_unit_zero (S := S1x128x2560) proj_offsets_zero, View.ld_unit_zero (S := S1x768x2560) proj_offsets_zero, View.ld_unit_zero (S := S1x128x768) proj_offsets_zero]

/-- CASE A's value: the body stores the zero block, reads it back, and leaves the step's product added
    to it: the accumulating store's payload over the zeros just stored. -/
theorem out0_A_2_eq (c : Dev nD) (i : grid0.Coords) (arg2 : Memref sig .tc .vmem S1x128x2560 .f32) (harg2 : arg2.IsWhole) (arg3 : Memref sig .tc .vmem S1x768x2560 .f32) (harg3 : arg3.IsWhole) (arg4 : Memref sig .tc .vmem S1x128x768 .f32) (harg4 : arg4.IsWhole) (hc0 : cond0_0 i)
    (x0 : Vec F S1x128x2560 .f32) (x1 : Vec F S1x768x2560 .f32) :
    out0_A_2 c i arg2 harg2 arg3 harg3 arg4 harg4 hc0 x0 x1 = k0_pay2 x0 x1 (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x128x768) proj_offsets_zero, View.readCov_unit_zero (S := S1x128x768) _ proj_offsets_zero]
  simp only [View.readAt_eq_ld, harg2.read_unread, harg3.read_unread,
    View.ld_unit_zero (S := S1x128x2560) proj_offsets_zero, View.ld_unit_zero (S := S1x768x2560) proj_offsets_zero]

/-! ## What the output holds after each point -/

/-- THE ACCUMULATION. What the output's staging buffer holds after the body at position `n`: at the
    first K-step of a modality (`n` a multiple of 8) what case A leaves, from the point's input blocks
    alone; at a later K-step what case B leaves over what this gives at `n - 1` (the buffer is not written
    back between the two). -/
def outsAt0 (c : Dev nD) : (n : ℕ) → n < cfg0.N → Vec F S1x128x768 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩) (iblk0 V c 1 ⟨0, hn⟩)
  | n + 1, hn =>
    if h0 : (n + 1) % 8 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn))

/-- At a first K-step: case A's contents. -/
theorem outsAt0_A (c : Dev nD) (t : Fin cfg0.N) (h0 : t.val % 8 = 0) :
    outsAt0 V c t.val t.isLt = out0_A_2 c (grid0.coords t) (ms0_0 t) (hs0_0 t) (ms0_1 t) (hs0_1 t) (ms0_2 t) (hs0_2 t) ((hcond0_0 t).mpr h0) (iblk0 V c 0 t) (iblk0 V c 1 t) := by
  obtain ⟨n, hn⟩ := t
  cases n with
  | zero => exact rfl
  | succ n => exact (dif_pos h0).trans rfl

/-- At a later K-step: case B's contents, over what the point before left. -/
theorem outsAt0_B (c : Dev nD) (t : Fin cfg0.N) (h0 : ¬t.val % 8 = 0) :
    outsAt0 V c t.val t.isLt = out0_B_2 c (grid0.coords t) (ms0_0 t) (hs0_0 t) (ms0_1 t) (hs0_1 t) (ms0_2 t) (hs0_2 t) (fun h => h0 ((hcond0_0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at
    point `t` each input's buffer at its block and the output's at the accumulation `outsAt0`; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later K-step the output's current staging buffer holds what the body left at the point before:
    the point is not the first, the buffer was not written back between (write-backs follow the last
    K-step of a modality only), the window is live and uncut. -/
theorem before0_2_B (c : Dev nD) (t : Fin cfg0.N) (h0 : ¬t.val % 8 = 0) (d) :
    (dat0 V c).before 2 t d = outsAt0 V c (t.val - 1) (Nat.lt_of_le_of_lt (Nat.sub_le _ _) t.isLt) := by
  have hN : t.val < 24 := lt_of_lt_of_eq t.isLt (show cfg0.N = 24 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' memrefs hold their blocks; the point's K-step says which case it
    is in; at a later K-step the output's memref holds what the point before left; so the case's run
    applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 24 := lt_of_lt_of_eq t.isLt (show cfg0.N = 24 from N_0)
  by_cases h0 : t.val % 8 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIHeads.lean ====
/- The heads' regions of the frame: pipelines 1, 2 and 3 of @main, the three logistic heads
   (one grid point each; five input windows, one output window whose staging buffer the body
   loads once, the value unused, before storing it whole). Per region, at the TensorCore's buffer
   contents `V` on entry: each window's block, the body's triple (its stores as a list of pieces
   the run finds), what the output's staging buffer holds afterwards — the skeleton's payload of
   the five input blocks —, the pipeline's proof data over the invariant `ΦA`, and the body
   obligation. -/
import proofs.«172187_j12206297055645_2_alg».proof.Proof.Gen.KernelIdeal.Launch
import proofs.«172187_j12206297055645_2_alg».proof.Proof.Gen.KernelIdeal.Skeleton
import proofs.«172187_j12206297055645_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-- The zero offsets of a whole-buffer access, in rank two and rank one. -/
private theorem hz2 : (![0, 0] : Fin 2 → Nat) = fun _ => 0 := funext fun a => by fin_cases a <;> rfl
private theorem hz1 : (![0] : Fin 1 → Nat) = fun _ => 0 := funext fun a => by fin_cases a <;> rfl

/-! # Region 1 of @main: pipeline 1, `cc1__head_kernel`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any
    proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any
    proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any
    proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any
    proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any whole staging memrefs -/

/-- One staging buffer of the output window, through which its contents are stated (the choice does not matter:
    a covering list of writes reads the same through any view of the shape). -/
abbrev VO1_5 : View sig .tc .vmem S128x1 .f32 := (Memref.whole cc1_stg5_0 : Memref sig .tc .vmem S128x1 .f32).view
/-- Each window's current staging memref at point `t`, as the pipeline passes it to the body, and its wholeness. -/
abbrev ms1_0 (t : Fin cfg1.N) : Memref sig .tc .vmem S128x1536 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1536 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x1 .f32 := win1_5.stage (cfg1.slots t 5)
abbrev hs1_5 (t : Fin cfg1.N) : (ms1_5 t).IsWhole := hstage1_5 ((cfg1.slots t 5).cast nbuf1_5)

set_option maxHeartbeats 1000000 in
/-- The pieces the body's stores leave in the output's staging memref (last first), with the proof that on whole
    staging memrefs — the five inputs' at contents `x0 … x4`, the output's at anything — the body runs to the
    continuation holding the inputs' as they were and the output's buffer with those pieces written. The load of the
    output's buffer reads whatever it held; nothing depends on the value read. -/
noncomputable def kernelRun1_A (c : Dev nD) (i : grid1.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    { L5 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__head_kernel i arg1 harg1 arg2 harg2 arg3 harg3 arg4 harg4 arg5 harg5 arg6 harg6) K } := by
  refine ⟨?_, fun E K => ?run⟩
  case run =>
    simp only [cc1__head_kernel_eq_skeleton]; unfold cc1__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for the output tile its block (one store of the whole shape), so they cover it. -/
theorem cover1_A_5 (c : Dev nD) (i : grid1.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) (y : S128x1.Idx) :
    ∃ pc ∈ (kernelRun1_A c i arg1 harg1 arg2 harg2 arg3 harg3 arg4 harg4 arg5 harg5 arg6 harg6 x0 x1 x2 x3 x4).1, y ∈ pc.1.set :=
  View.cover_of_tiledL (kernelRun1_A c i arg1 harg1 arg2 harg2 arg3 harg3 arg4 harg4 arg5 harg5 arg6 harg6 x0 x1 x2 x3 x4).1 S128x1.size (by sl_kernel_rfl) y

/-- What the run leaves in the output's staging buffer: its pieces read back over junk. -/
def out1_A_5 (c : Dev nD) (i : grid1.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) : Vec F S128x1 .f32 :=
  VO1_5.read (Elt F) (VO1_5.writes (Elt F) VO1_5.junk (kernelRun1_A c i arg1 harg1 arg2 harg2 arg3 harg3 arg4 harg4 arg5 harg5 arg6 harg6 x0 x1 x2 x3 x4).1)

/-- THE VALUE: what the body leaves in the output's buffer is the skeleton's payload of the five input blocks — the
    canon of one covering store at offset zero is its payload, and each load through the whole-shape rectangle at
    offset zero reads the buffer's contents. -/
theorem out1_A_5_eq (c : Dev nD) (i : grid1.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    out1_A_5 c i arg1 harg1 arg2 harg2 arg3 harg3 arg4 harg4 arg5 harg5 arg6 harg6 x0 x1 x2 x3 x4 = k1_pay1 x0 x1 x2 x3 x4 := by
  unfold out1_A_5
  rw [View.read_writes_eq_canon _ _ _ (cover1_A_5 c i arg1 harg1 arg2 harg2 arg3 harg3 arg4 harg4 arg5 harg5 arg6 harg6 x0 x1 x2 x3 x4)]
  unfold kernelRun1_A
  dsimp only
  rw [View.canon_unit_zero hz2]
  simp only [View.readAt_eq_ld, harg1.read_unread, harg2.read_unread, harg3.read_unread, harg4.read_unread, harg5.read_unread,
    View.ld_unit_zero (S := S128x1536) hz2, View.ld_unit_zero (S := S1024x1536) hz2, View.ld_unit_zero (S := S1024) hz1,
    View.ld_unit_zero (S := S1x1024) hz2, View.ld_unit_zero (S := S1) hz1]

/-! ## What the output holds after each point -/

/-- What the output's staging buffer holds after the body at point `t`: the run's contents at the point's memrefs
    and input blocks. -/
def outsAt1 (c : Dev nD) (t : Fin cfg1.N) : Vec F S128x1 .f32 :=
  out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) (iblk1 V c 3 t) (iblk1 V c 4 t)

/-- At every point the output's staging buffer ends at the skeleton's payload of the point's five input blocks. -/
theorem outsAt1_eq (c : Dev nD) (t : Fin cfg1.N) :
    outsAt1 V c t = k1_pay1 (iblk1 V c 0 t) (iblk1 V c 1 t) (iblk1 V c 2 t) (iblk1 V c 3 t) (iblk1 V c 4 t) := by
  unfold outsAt1; exact out1_A_5_eq c _ _ _ _ _ _ _ _ _ _ _ _ _ _ _ _ _ _

/-! ## The pipeline's proof data -/

/-- The proof data of pipeline 1 on core `c`: the arrays as the region finds them (`V`); after the body at point
    `t` each input's buffer at its block and the output's at `outsAt1`; the invariant `ΦA` (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1 V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1 V c t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in
/-- The body at any point: the inputs' memrefs hold their blocks, so the run applies; the invariant and the core's
    `owes` pass through unread; the output's buffer ends with the run's pieces, which cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outsAt1
  unfold out1_A_5
  iintro ⟨HΦ, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_A_5 c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 of @main: pipeline 2, `cc2__head_kernel`, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any
    proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any
    proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any
    proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any
    proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any whole staging memrefs -/

/-- One staging buffer of the output window, through which its contents are stated (the choice does not matter:
    a covering list of writes reads the same through any view of the shape). -/
abbrev VO2_5 : View sig .tc .vmem S128x1 .f32 := (Memref.whole cc2_stg5_0 : Memref sig .tc .vmem S128x1 .f32).view
/-- Each window's current staging memref at point `t`, as the pipeline passes it to the body, and its wholeness. -/
abbrev ms2_0 (t : Fin cfg2.N) : Memref sig .tc .vmem S128x1536 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1536 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x1 .f32 := win2_5.stage (cfg2.slots t 5)
abbrev hs2_5 (t : Fin cfg2.N) : (ms2_5 t).IsWhole := hstage2_5 ((cfg2.slots t 5).cast nbuf2_5)

set_option maxHeartbeats 1000000 in
/-- The pieces the body's stores leave in the output's staging memref (last first), with the proof that on whole
    staging memrefs — the five inputs' at contents `x0 … x4`, the output's at anything — the body runs to the
    continuation holding the inputs' as they were and the output's buffer with those pieces written. The load of the
    output's buffer reads whatever it held; nothing depends on the value read. -/
noncomputable def kernelRun2_A (c : Dev nD) (i : grid2.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    { L5 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__head_kernel i arg1 harg1 arg2 harg2 arg3 harg3 arg4 harg4 arg5 harg5 arg6 harg6) K } := by
  refine ⟨?_, fun E K => ?run⟩
  case run =>
    simp only [cc2__head_kernel_eq_skeleton]; unfold cc2__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for the output tile its block (one store of the whole shape), so they cover it. -/
theorem cover2_A_5 (c : Dev nD) (i : grid2.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) (y : S128x1.Idx) :
    ∃ pc ∈ (kernelRun2_A c i arg1 harg1 arg2 harg2 arg3 harg3 arg4 harg4 arg5 harg5 arg6 harg6 x0 x1 x2 x3 x4).1, y ∈ pc.1.set :=
  View.cover_of_tiledL (kernelRun2_A c i arg1 harg1 arg2 harg2 arg3 harg3 arg4 harg4 arg5 harg5 arg6 harg6 x0 x1 x2 x3 x4).1 S128x1.size (by sl_kernel_rfl) y

/-- What the run leaves in the output's staging buffer: its pieces read back over junk. -/
def out2_A_5 (c : Dev nD) (i : grid2.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) : Vec F S128x1 .f32 :=
  VO2_5.read (Elt F) (VO2_5.writes (Elt F) VO2_5.junk (kernelRun2_A c i arg1 harg1 arg2 harg2 arg3 harg3 arg4 harg4 arg5 harg5 arg6 harg6 x0 x1 x2 x3 x4).1)

/-- THE VALUE: what the body leaves in the output's buffer is the skeleton's payload of the five input blocks — the
    canon of one covering store at offset zero is its payload, and each load through the whole-shape rectangle at
    offset zero reads the buffer's contents. -/
theorem out2_A_5_eq (c : Dev nD) (i : grid2.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    out2_A_5 c i arg1 harg1 arg2 harg2 arg3 harg3 arg4 harg4 arg5 harg5 arg6 harg6 x0 x1 x2 x3 x4 = k2_pay1 x0 x1 x2 x3 x4 := by
  unfold out2_A_5
  rw [View.read_writes_eq_canon _ _ _ (cover2_A_5 c i arg1 harg1 arg2 harg2 arg3 harg3 arg4 harg4 arg5 harg5 arg6 harg6 x0 x1 x2 x3 x4)]
  unfold kernelRun2_A
  dsimp only
  rw [View.canon_unit_zero hz2]
  simp only [View.readAt_eq_ld, harg1.read_unread, harg2.read_unread, harg3.read_unread, harg4.read_unread, harg5.read_unread,
    View.ld_unit_zero (S := S128x1536) hz2, View.ld_unit_zero (S := S1024x1536) hz2, View.ld_unit_zero (S := S1024) hz1,
    View.ld_unit_zero (S := S1x1024) hz2, View.ld_unit_zero (S := S1) hz1]

/-! ## What the output holds after each point -/

/-- What the output's staging buffer holds after the body at point `t`: the run's contents at the point's memrefs
    and input blocks. -/
def outsAt2 (c : Dev nD) (t : Fin cfg2.N) : Vec F S128x1 .f32 :=
  out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t) (iblk2 V c 4 t)

/-- At every point the output's staging buffer ends at the skeleton's payload of the point's five input blocks. -/
theorem outsAt2_eq (c : Dev nD) (t : Fin cfg2.N) :
    outsAt2 V c t = k2_pay1 (iblk2 V c 0 t) (iblk2 V c 1 t) (iblk2 V c 2 t) (iblk2 V c 3 t) (iblk2 V c 4 t) := by
  unfold outsAt2; exact out2_A_5_eq c _ _ _ _ _ _ _ _ _ _ _ _ _ _ _ _ _ _

/-! ## The pipeline's proof data -/

/-- The proof data of pipeline 2 on core `c`: the arrays as the region finds them (`V`); after the body at point
    `t` each input's buffer at its block and the output's at `outsAt2`; the invariant `ΦA` (the scoped rest and the
    generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outsAt2 V c t
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outsAt2 V c t := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 800000 in
/-- The body at any point: the inputs' memrefs hold their blocks, so the run applies; the invariant and the core's
    `owes` pass through unread; the output's buffer ends with the run's pieces, which cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold outsAt2
  unfold out2_A_5
  iintro ⟨HΦ, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ (iblk2 V c 0 t) (iblk2 V c 1 t) (iblk2 V c 2 t) (iblk2 V c 3 t) (iblk2 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 c _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3 of @main: pipeline 3, `cc3__head_kernel`, at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any
    proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any
    proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any
    proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any
    proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any
    proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The kernel body on any whole staging memrefs -/

/-- One staging buffer of the output window, through which its contents are stated (the choice does not matter:
    a covering list of writes reads the same through any view of the shape). -/
abbrev VO3_5 : View sig .tc .vmem S128x1 .f32 := (Memref.whole cc3_stg5_0 : Memref sig .tc .vmem S128x1 .f32).view
/-- Each window's current staging memref at point `t`, as the pipeline passes it to the body, and its wholeness. -/
abbrev ms3_0 (t : Fin cfg3.N) : Memref sig .tc .vmem S128x1536 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1536 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x1 .f32 := win3_5.stage (cfg3.slots t 5)
abbrev hs3_5 (t : Fin cfg3.N) : (ms3_5 t).IsWhole := hstage3_5 ((cfg3.slots t 5).cast nbuf3_5)

set_option maxHeartbeats 1000000 in
/-- The pieces the body's stores leave in the output's staging memref (last first), with the proof that on whole
    staging memrefs — the five inputs' at contents `x0 … x4`, the output's at anything — the body runs to the
    continuation holding the inputs' as they were and the output's buffer with those pieces written. The load of the
    output's buffer reads whatever it held; nothing depends on the value read. -/
noncomputable def kernelRun3_A (c : Dev nD) (i : grid3.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    { L5 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc3__head_kernel i arg1 harg1 arg2 harg2 arg3 harg3 arg4 harg4 arg5 harg5 arg6 harg6) K } := by
  refine ⟨?_, fun E K => ?run⟩
  case run =>
    simp only [cc3__head_kernel_eq_skeleton]; unfold cc3__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for the output tile its block (one store of the whole shape), so they cover it. -/
theorem cover3_A_5 (c : Dev nD) (i : grid3.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) (y : S128x1.Idx) :
    ∃ pc ∈ (kernelRun3_A c i arg1 harg1 arg2 harg2 arg3 harg3 arg4 harg4 arg5 harg5 arg6 harg6 x0 x1 x2 x3 x4).1, y ∈ pc.1.set :=
  View.cover_of_tiledL (kernelRun3_A c i arg1 harg1 arg2 harg2 arg3 harg3 arg4 harg4 arg5 harg5 arg6 harg6 x0 x1 x2 x3 x4).1 S128x1.size (by sl_kernel_rfl) y

/-- What the run leaves in the output's staging buffer: its pieces read back over junk. -/
def out3_A_5 (c : Dev nD) (i : grid3.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) : Vec F S128x1 .f32 :=
  VO3_5.read (Elt F) (VO3_5.writes (Elt F) VO3_5.junk (kernelRun3_A c i arg1 harg1 arg2 harg2 arg3 harg3 arg4 harg4 arg5 harg5 arg6 harg6 x0 x1 x2 x3 x4).1)

/-- THE VALUE: what the body leaves in the output's buffer is the skeleton's payload of the five input blocks — the
    canon of one covering store at offset zero is its payload, and each load through the whole-shape rectangle at
    offset zero reads the buffer's contents. -/
theorem out3_A_5_eq (c : Dev nD) (i : grid3.Coords) (arg1 : Memref sig .tc .vmem S128x1536 .f32) (harg1 : arg1.IsWhole) (arg2 : Memref sig .tc .vmem S1024x1536 .f32) (harg2 : arg2.IsWhole) (arg3 : Memref sig .tc .vmem S1024 .f32) (harg3 : arg3.IsWhole) (arg4 : Memref sig .tc .vmem S1x1024 .f32) (harg4 : arg4.IsWhole) (arg5 : Memref sig .tc .vmem S1 .f32) (harg5 : arg5.IsWhole) (arg6 : Memref sig .tc .vmem S128x1 .f32) (harg6 : arg6.IsWhole)
    (x0 : Vec F S128x1536 .f32) (x1 : Vec F S1024x1536 .f32) (x2 : Vec F S1024 .f32) (x3 : Vec F S1x1024 .f32) (x4 : Vec F S1 .f32) :
    out3_A_5 c i arg1 harg1 arg2 harg2 arg3 harg3 arg4 harg4 arg5 harg5 arg6 harg6 x0 x1 x2 x3 x4 = k3_pay1 x0 x1 x2 x3 x4 := by
  unfold out3_A_5
  rw [View.read_writes_eq_canon _ _ _ (cover3_A_5 c i arg1 harg1 arg2 harg2 arg3 harg3 arg4 harg4 arg5 harg5 arg6 harg6 x0 x1 x2 x3 x4)]
  unfold kernelRun3_A
  dsimp only
  rw [View.canon_unit_zero hz2]
  simp only [View.readAt_eq_ld, harg1.read_unread, harg2.read_unread, harg3.read_unread, harg4.read_unread, harg5.read_unread,
    View.ld_unit_zero (S := S128x1536) hz2, View.ld_unit_zero (S := S1024x1536) hz2, View.ld_unit_zero (S := S1024) hz1,
    View.ld_unit_zero (S := S1x1024) hz2, View.ld_unit_zero (S := S1) hz1]

/-! ## What the output holds after each point -/

/-- What the output's staging buffer holds after the body at point `t`: the run's contents at the point's memrefs
    and input blocks. -/
def outsAt3 (c : Dev nD) (t : Fin cfg3.N) : Vec F S128x1 .f32 :=
  out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (iblk3 V c 0 t) (iblk3 V c 1 t) (iblk3 V c 2 t) (iblk3 V c 3 t) (iblk3 V c 4 t)

/-- At every point the output's staging buffer ends at the skeleton's payload of the point's five input blocks. -/
theorem outsAt3_eq (c : Dev nD) (t : Fin cfg3.N) :
    outsAt3 V c t = k3_pay1 (iblk3 V c 0 t) (iblk3 V c 1 t) (iblk3 V c 2 t) (iblk3 V c 3 t) (iblk3 V c 4 t) := by
  unfold outsAt3; exact out3_A_5_eq c _ _ _ _ _ _ _ _ _ _ _ _ _ _ _ _ _ _

/-! ## The pipeline's proof data -/

/-- The proof data of pipeline 3 on core `c`: the arrays as the region finds them (`V`); after the body at point
    `t` each input's buffer at its block and the output's at `outsAt3`; the invariant `ΦA` (the scoped rest and the
    generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outsAt3 V c t
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outsAt3 V c t := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 800000 in
/-- The body at any point: the inputs' memrefs hold their blocks, so the run applies; the invariant and the core's
    `owes` pass through unread; the output's buffer ends with the run's pieces, which cover it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  unfold outsAt3
  unfold out3_A_5
  iintro ⟨HΦ, Ho, ⟨%d0, H0⟩, ⟨%d1, H1⟩, ⟨%d2, H2⟩, ⟨%d3, H3⟩, ⟨%d4, H4⟩, ⟨%d5, H5⟩⟩
  iapply ((kernelRun3_A c (grid3.coords t) _ _ _ _ _ _ _ _ _ _ _ _ (iblk3 V c 0 t) (iblk3 V c 1 t) (iblk3 V c 2 t) (iblk3 V c 3 t) (iblk3 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover3_A_5 c _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KIRun.lean ====
import proofs.«172187_j12206297055645_2_alg».proof.Proof.KIProj
import proofs.«172187_j12206297055645_2_alg».proof.Proof.KIHeads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: host stretches and the four kernel regions, in order

The contents of a core's buffers at every boundary between two consecutive items of @main, as a fold from the launch
memory: a stretch of host operations applies them; a kernel region leaves its windows' arrays at what its write-backs
fold to and every other buffer as it found it. -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- After `hostOps0_8`. -/
abbrev W9 : Dev nD → Valuation τ sig (Elt F) := fun c => StableHlo.after hostOps0_8 (W8 m ρ c)
/-- After `hostOps0_9`. -/
abbrev W10 : Dev nD → Valuation τ sig (Elt F) := fun c => StableHlo.after hostOps0_9 (W9 m ρ c)
/-- After `hostOps0_10`. -/
abbrev W11 : Dev nD → Valuation τ sig (Elt F) := fun c => StableHlo.after hostOps0_10 (W10 m ρ c)
/-- After `hostOps0_11`. -/
abbrev W12 : Dev nD → Valuation τ sig (Elt F) := fun c => StableHlo.after hostOps0_11 (W11 m ρ c)
/-- After `hostOps0_12`. -/
abbrev W13 : Dev nD → Valuation τ sig (Elt F) := fun c => StableHlo.after hostOps0_12 (W12 m ρ c)
/-- The buffers as region 0 finds them, read at the TensorCore's references. -/
abbrev V13 : (c : Dev nD) → (b : Ref sig .tc) → Buf (Elt F) ((c : Thread nD τ).loc b) := fun c b => W13 m ρ c b
/-- At region 0's exit: its windows' arrays at what the pipeline leaves, every other buffer as entered. -/
def W14 (c : Dev nD) : Valuation τ sig (Elt F) :=
  Pipeline.withArrays spec0 c (W13 m ρ c) fun w => (dat0 (V13 m ρ) c).arrAt w cfg0.N
theorem W14_arr (c : Dev nD) (w : Fin cfg0.W) :
    W14 m ρ c (Proc.devRef .tc (Pipeline.arrRef spec0 w)) = (dat0 (V13 m ρ) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m ρ c (Proc.devRef .tc b) = W13 m ρ c (Proc.devRef .tc b) := by
  unfold W14; exact Pipeline.withArrays_of_ne spec0 c _ _ b hb
abbrev V14 : (c : Dev nD) → (b : Ref sig .tc) → Buf (Elt F) ((c : Thread nD τ).loc b) := fun c b => W14 m ρ c b
theorem hF0 (c : Dev nD) (w : Fin cfg0.W) : (dat0 (V13 m ρ) c).arrAt w cfg0.N = V14 m ρ c (Pipeline.arrRef spec0 w) :=
  (W14_arr m ρ c w).symm
theorem hrest0 (c : Dev nD) : ∀ b, b ∉ Finset.univ.image (Pipeline.arrRef spec0) → V14 m ρ c b = V13 m ρ c b :=
  fun b hb => W14_of_ne m ρ c b fun w e => hb (Finset.mem_image.mpr ⟨w, Finset.mem_univ _, e⟩)
/-- After `hostOps1`. -/
abbrev W15 : Dev nD → Valuation τ sig (Elt F) := fun c => StableHlo.after hostOps1 (W14 m ρ c)
/-- After `hostOps1_1`. -/
abbrev W16 : Dev nD → Valuation τ sig (Elt F) := fun c => StableHlo.after hostOps1_1 (W15 m ρ c)
/-- After `hostOps1_2`. -/
abbrev W17 : Dev nD → Valuation τ sig (Elt F) := fun c => StableHlo.after hostOps1_2 (W16 m ρ c)
/-- After `hostOps1_3`. -/
abbrev W18 : Dev nD → Valuation τ sig (Elt F) := fun c => StableHlo.after hostOps1_3 (W17 m ρ c)
/-- After `hostOps1_4`. -/
abbrev W19 : Dev nD → Valuation τ sig (Elt F) := fun c => StableHlo.after hostOps1_4 (W18 m ρ c)
/-- After `hostOps1_5`. -/
abbrev W20 : Dev nD → Valuation τ sig (Elt F) := fun c => StableHlo.after hostOps1_5 (W19 m ρ c)
/-- After `hostOps1_6`. -/
abbrev W21 : Dev nD → Valuation τ sig (Elt F) := fun c => StableHlo.after hostOps1_6 (W20 m ρ c)
/-- The buffers as region 1 finds them, read at the TensorCore's references. -/
abbrev V21 : (c : Dev nD) → (b : Ref sig .tc) → Buf (Elt F) ((c : Thread nD τ).loc b) := fun c b => W21 m ρ c b
/-- At region 1's exit: its windows' arrays at what the pipeline leaves, every other buffer as entered. -/
def W22 (c : Dev nD) : Valuation τ sig (Elt F) :=
  Pipeline.withArrays spec1 c (W21 m ρ c) fun w => (dat1 (V21 m ρ) c).arrAt w cfg1.N
theorem W22_arr (c : Dev nD) (w : Fin cfg1.W) :
    W22 m ρ c (Proc.devRef .tc (Pipeline.arrRef spec1 w)) = (dat1 (V21 m ρ) c).arrAt w cfg1.N := by
  unfold W22; exact Pipeline.withArrays_arr spec1 launch1.win.arr_inj c _ _ w
theorem W22_of_ne (c : Dev nD) (b : Ref sig .tc) (hb : ∀ w, Pipeline.arrRef spec1 w ≠ b) :
    W22 m ρ c (Proc.devRef .tc b) = W21 m ρ c (Proc.devRef .tc b) := by
  unfold W22; exact Pipeline.withArrays_of_ne spec1 c _ _ b hb
abbrev V22 : (c : Dev nD) → (b : Ref sig .tc) → Buf (Elt F) ((c : Thread nD τ).loc b) := fun c b => W22 m ρ c b
theorem hF1 (c : Dev nD) (w : Fin cfg1.W) : (dat1 (V21 m ρ) c).arrAt w cfg1.N = V22 m ρ c (Pipeline.arrRef spec1 w) :=
  (W22_arr m ρ c w).symm
theorem hrest1 (c : Dev nD) : ∀ b, b ∉ Finset.univ.image (Pipeline.arrRef spec1) → V22 m ρ c b = V21 m ρ c b :=
  fun b hb => W22_of_ne m ρ c b fun w e => hb (Finset.mem_image.mpr ⟨w, Finset.mem_univ _, e⟩)
/-- After `hostOps2`. -/
abbrev W23 : Dev nD → Valuation τ sig (Elt F) := fun c => StableHlo.after hostOps2 (W22 m ρ c)
/-- The buffers as region 2 finds them, read at the TensorCore's references. -/
abbrev V23 : (c : Dev nD) → (b : Ref sig .tc) → Buf (Elt F) ((c : Thread nD τ).loc b) := fun c b => W23 m ρ c b
/-- At region 2's exit: its windows' arrays at what the pipeline leaves, every other buffer as entered. -/
def W24 (c : Dev nD) : Valuation τ sig (Elt F) :=
  Pipeline.withArrays spec2 c (W23 m ρ c) fun w => (dat2 (V23 m ρ) c).arrAt w cfg2.N
theorem W24_arr (c : Dev nD) (w : Fin cfg2.W) :
    W24 m ρ c (Proc.devRef .tc (Pipeline.arrRef spec2 w)) = (dat2 (V23 m ρ) c).arrAt w cfg2.N := by
  unfold W24; exact Pipeline.withArrays_arr spec2 launch2.win.arr_inj c _ _ w
theorem W24_of_ne (c : Dev nD) (b : Ref sig .tc) (hb : ∀ w, Pipeline.arrRef spec2 w ≠ b) :
    W24 m ρ c (Proc.devRef .tc b) = W23 m ρ c (Proc.devRef .tc b) := by
  unfold W24; exact Pipeline.withArrays_of_ne spec2 c _ _ b hb
abbrev V24 : (c : Dev nD) → (b : Ref sig .tc) → Buf (Elt F) ((c : Thread nD τ).loc b) := fun c b => W24 m ρ c b
theorem hF2 (c : Dev nD) (w : Fin cfg2.W) : (dat2 (V23 m ρ) c).arrAt w cfg2.N = V24 m ρ c (Pipeline.arrRef spec2 w) :=
  (W24_arr m ρ c w).symm
theorem hrest2 (c : Dev nD) : ∀ b, b ∉ Finset.univ.image (Pipeline.arrRef spec2) → V24 m ρ c b = V23 m ρ c b :=
  fun b hb => W24_of_ne m ρ c b fun w e => hb (Finset.mem_image.mpr ⟨w, Finset.mem_univ _, e⟩)
/-- After `hostOps3`. -/
abbrev W25 : Dev nD → Valuation τ sig (Elt F) := fun c => StableHlo.after hostOps3 (W24 m ρ c)
/-- The buffers as region 3 finds them, read at the TensorCore's references. -/
abbrev V25 : (c : Dev nD) → (b : Ref sig .tc) → Buf (Elt F) ((c : Thread nD τ).loc b) := fun c b => W25 m ρ c b
/-- At region 3's exit: its windows' arrays at what the pipeline leaves, every other buffer as entered. -/
def W26 (c : Dev nD) : Valuation τ sig (Elt F) :=
  Pipeline.withArrays spec3 c (W25 m ρ c) fun w => (dat3 (V25 m ρ) c).arrAt w cfg3.N
theorem W26_arr (c : Dev nD) (w : Fin cfg3.W) :
    W26 m ρ c (Proc.devRef .tc (Pipeline.arrRef spec3 w)) = (dat3 (V25 m ρ) c).arrAt w cfg3.N := by
  unfold W26; exact Pipeline.withArrays_arr spec3 launch3.win.arr_inj c _ _ w
theorem W26_of_ne (c : Dev nD) (b : Ref sig .tc) (hb : ∀ w, Pipeline.arrRef spec3 w ≠ b) :
    W26 m ρ c (Proc.devRef .tc b) = W25 m ρ c (Proc.devRef .tc b) := by
  unfold W26; exact Pipeline.withArrays_of_ne spec3 c _ _ b hb
abbrev V26 : (c : Dev nD) → (b : Ref sig .tc) → Buf (Elt F) ((c : Thread nD τ).loc b) := fun c b => W26 m ρ c b
theorem hF3 (c : Dev nD) (w : Fin cfg3.W) : (dat3 (V25 m ρ) c).arrAt w cfg3.N = V26 m ρ c (Pipeline.arrRef spec3 w) :=
  (W26_arr m ρ c w).symm
theorem hrest3 (c : Dev nD) : ∀ b, b ∉ Finset.univ.image (Pipeline.arrRef spec3) → V26 m ρ c b = V25 m ρ c b :=
  fun b hb => W26_of_ne m ρ c b fun w e => hb (Finset.mem_image.mpr ⟨w, Finset.mem_univ _, e⟩)
/-- After `hostOps4`. -/
abbrev W27 : Dev nD → Valuation τ sig (Elt F) := fun c => StableHlo.after hostOps4 (W26 m ρ c)

/-! ## The argument arrays end as launched

No host operation writes an argument (each writes its own result buffer), and a region reads an argument only through
an input window, which the pipeline leaves as it found it; so at an argument's buffer the fold walks back to the launch
memory. -/

/-- The twenty-one argument arrays. -/
abbrev argsL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

theorem keep1 (c : Dev nD) (b : Ref sig .tc) (hb : b ∈ argsL) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep2 (c : Dev nD) (b : Ref sig .tc) (hb : b ∈ argsL) :
    W2 m ρ c (Proc.devRef .tc b) = W1 m ρ c (Proc.devRef .tc b) :=
  StableHlo.after_of_forall_not_mem (b := Proc.devRef .tc b) _ _ (List.forall_iff_forall_mem.mp (by
    simp only [hostOps0_1, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep3 (c : Dev nD) (b : Ref sig .tc) (hb : b ∈ argsL) :
    W3 m ρ c (Proc.devRef .tc b) = W2 m ρ c (Proc.devRef .tc b) :=
  StableHlo.after_of_forall_not_mem (b := Proc.devRef .tc b) _ _ (List.forall_iff_forall_mem.mp (by
    simp only [hostOps0_2, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep4 (c : Dev nD) (b : Ref sig .tc) (hb : b ∈ argsL) :
    W4 m ρ c (Proc.devRef .tc b) = W3 m ρ c (Proc.devRef .tc b) :=
  StableHlo.after_of_forall_not_mem (b := Proc.devRef .tc b) _ _ (List.forall_iff_forall_mem.mp (by
    simp only [hostOps0_3, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep5 (c : Dev nD) (b : Ref sig .tc) (hb : b ∈ argsL) :
    W5 m ρ c (Proc.devRef .tc b) = W4 m ρ c (Proc.devRef .tc b) :=
  StableHlo.after_of_forall_not_mem (b := Proc.devRef .tc b) _ _ (List.forall_iff_forall_mem.mp (by
    simp only [hostOps0_4, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep6 (c : Dev nD) (b : Ref sig .tc) (hb : b ∈ argsL) :
    W6 m ρ c (Proc.devRef .tc b) = W5 m ρ c (Proc.devRef .tc b) :=
  StableHlo.after_of_forall_not_mem (b := Proc.devRef .tc b) _ _ (List.forall_iff_forall_mem.mp (by
    simp only [hostOps0_5, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep7 (c : Dev nD) (b : Ref sig .tc) (hb : b ∈ argsL) :
    W7 m ρ c (Proc.devRef .tc b) = W6 m ρ c (Proc.devRef .tc b) :=
  StableHlo.after_of_forall_not_mem (b := Proc.devRef .tc b) _ _ (List.forall_iff_forall_mem.mp (by
    simp only [hostOps0_6, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep8 (c : Dev nD) (b : Ref sig .tc) (hb : b ∈ argsL) :
    W8 m ρ c (Proc.devRef .tc b) = W7 m ρ c (Proc.devRef .tc b) :=
  StableHlo.after_of_forall_not_mem (b := Proc.devRef .tc b) _ _ (List.forall_iff_forall_mem.mp (by
    simp only [hostOps0_7, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep9 (c : Dev nD) (b : Ref sig .tc) (hb : b ∈ argsL) :
    W9 m ρ c (Proc.devRef .tc b) = W8 m ρ c (Proc.devRef .tc b) :=
  StableHlo.after_of_forall_not_mem (b := Proc.devRef .tc b) _ _ (List.forall_iff_forall_mem.mp (by
    simp only [hostOps0_8, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep10 (c : Dev nD) (b : Ref sig .tc) (hb : b ∈ argsL) :
    W10 m ρ c (Proc.devRef .tc b) = W9 m ρ c (Proc.devRef .tc b) :=
  StableHlo.after_of_forall_not_mem (b := Proc.devRef .tc b) _ _ (List.forall_iff_forall_mem.mp (by
    simp only [hostOps0_9, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep11 (c : Dev nD) (b : Ref sig .tc) (hb : b ∈ argsL) :
    W11 m ρ c (Proc.devRef .tc b) = W10 m ρ c (Proc.devRef .tc b) :=
  StableHlo.after_of_forall_not_mem (b := Proc.devRef .tc b) _ _ (List.forall_iff_forall_mem.mp (by
    simp only [hostOps0_10, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep12 (c : Dev nD) (b : Ref sig .tc) (hb : b ∈ argsL) :
    W12 m ρ c (Proc.devRef .tc b) = W11 m ρ c (Proc.devRef .tc b) :=
  StableHlo.after_of_forall_not_mem (b := Proc.devRef .tc b) _ _ (List.forall_iff_forall_mem.mp (by
    simp only [hostOps0_11, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep13 (c : Dev nD) (b : Ref sig .tc) (hb : b ∈ argsL) :
    W13 m ρ c (Proc.devRef .tc b) = W12 m ρ c (Proc.devRef .tc b) :=
  StableHlo.after_of_forall_not_mem (b := Proc.devRef .tc b) _ _ (List.forall_iff_forall_mem.mp (by
    simp only [hostOps0_12, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep14 (c : Dev nD) (b : Ref sig .tc) (hb : b ∈ argsL) :
    W14 m ρ c (Proc.devRef .tc b) = W13 m ρ c (Proc.devRef .tc b) := by
  by_cases h : ∀ w, Pipeline.arrRef spec0 w ≠ b
  · exact W14_of_ne m ρ c b h
  · obtain ⟨w, hw⟩ := not_forall.mp h
    obtain rfl := not_not.mp hw
    fin_cases w
    · exact (W14_arr m ρ c 0).trans (((dat0 (V13 m ρ) c).arrAt_in 0 rfl _).trans (A_eq0 (V13 m ρ) c 0))
    · exact (W14_arr m ρ c 1).trans (((dat0 (V13 m ρ) c).arrAt_in 1 rfl _).trans (A_eq0 (V13 m ρ) c 1))
    · exact absurd hb (by decide)
theorem keep15 (c : Dev nD) (b : Ref sig .tc) (hb : b ∈ argsL) :
    W15 m ρ c (Proc.devRef .tc b) = W14 m ρ c (Proc.devRef .tc b) :=
  StableHlo.after_of_forall_not_mem (b := Proc.devRef .tc b) _ _ (List.forall_iff_forall_mem.mp (by
    simp only [hostOps1, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep16 (c : Dev nD) (b : Ref sig .tc) (hb : b ∈ argsL) :
    W16 m ρ c (Proc.devRef .tc b) = W15 m ρ c (Proc.devRef .tc b) :=
  StableHlo.after_of_forall_not_mem (b := Proc.devRef .tc b) _ _ (List.forall_iff_forall_mem.mp (by
    simp only [hostOps1_1, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep17 (c : Dev nD) (b : Ref sig .tc) (hb : b ∈ argsL) :
    W17 m ρ c (Proc.devRef .tc b) = W16 m ρ c (Proc.devRef .tc b) :=
  StableHlo.after_of_forall_not_mem (b := Proc.devRef .tc b) _ _ (List.forall_iff_forall_mem.mp (by
    simp only [hostOps1_2, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep18 (c : Dev nD) (b : Ref sig .tc) (hb : b ∈ argsL) :
    W18 m ρ c (Proc.devRef .tc b) = W17 m ρ c (Proc.devRef .tc b) :=
  StableHlo.after_of_forall_not_mem (b := Proc.devRef .tc b) _ _ (List.forall_iff_forall_mem.mp (by
    simp only [hostOps1_3, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep19 (c : Dev nD) (b : Ref sig .tc) (hb : b ∈ argsL) :
    W19 m ρ c (Proc.devRef .tc b) = W18 m ρ c (Proc.devRef .tc b) :=
  StableHlo.after_of_forall_not_mem (b := Proc.devRef .tc b) _ _ (List.forall_iff_forall_mem.mp (by
    simp only [hostOps1_4, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep20 (c : Dev nD) (b : Ref sig .tc) (hb : b ∈ argsL) :
    W20 m ρ c (Proc.devRef .tc b) = W19 m ρ c (Proc.devRef .tc b) :=
  StableHlo.after_of_forall_not_mem (b := Proc.devRef .tc b) _ _ (List.forall_iff_forall_mem.mp (by
    simp only [hostOps1_5, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep21 (c : Dev nD) (b : Ref sig .tc) (hb : b ∈ argsL) :
    W21 m ρ c (Proc.devRef .tc b) = W20 m ρ c (Proc.devRef .tc b) :=
  StableHlo.after_of_forall_not_mem (b := Proc.devRef .tc b) _ _ (List.forall_iff_forall_mem.mp (by
    simp only [hostOps1_6, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep22 (c : Dev nD) (b : Ref sig .tc) (hb : b ∈ argsL) :
    W22 m ρ c (Proc.devRef .tc b) = W21 m ρ c (Proc.devRef .tc b) := by
  by_cases h : ∀ w, Pipeline.arrRef spec1 w ≠ b
  · exact W22_of_ne m ρ c b h
  · obtain ⟨w, hw⟩ := not_forall.mp h
    obtain rfl := not_not.mp hw
    fin_cases w
    · exact (W22_arr m ρ c 0).trans (((dat1 (V21 m ρ) c).arrAt_in 0 rfl _).trans (A_eq1 (V21 m ρ) c 0))
    · exact (W22_arr m ρ c 1).trans (((dat1 (V21 m ρ) c).arrAt_in 1 rfl _).trans (A_eq1 (V21 m ρ) c 1))
    · exact (W22_arr m ρ c 2).trans (((dat1 (V21 m ρ) c).arrAt_in 2 rfl _).trans (A_eq1 (V21 m ρ) c 2))
    · exact (W22_arr m ρ c 3).trans (((dat1 (V21 m ρ) c).arrAt_in 3 rfl _).trans (A_eq1 (V21 m ρ) c 3))
    · exact (W22_arr m ρ c 4).trans (((dat1 (V21 m ρ) c).arrAt_in 4 rfl _).trans (A_eq1 (V21 m ρ) c 4))
    · exact absurd hb (by decide)
theorem keep23 (c : Dev nD) (b : Ref sig .tc) (hb : b ∈ argsL) :
    W23 m ρ c (Proc.devRef .tc b) = W22 m ρ c (Proc.devRef .tc b) :=
  StableHlo.after_of_forall_not_mem (b := Proc.devRef .tc b) _ _ (List.forall_iff_forall_mem.mp (by
    simp only [hostOps2, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep24 (c : Dev nD) (b : Ref sig .tc) (hb : b ∈ argsL) :
    W24 m ρ c (Proc.devRef .tc b) = W23 m ρ c (Proc.devRef .tc b) := by
  by_cases h : ∀ w, Pipeline.arrRef spec2 w ≠ b
  · exact W24_of_ne m ρ c b h
  · obtain ⟨w, hw⟩ := not_forall.mp h
    obtain rfl := not_not.mp hw
    fin_cases w
    · exact (W24_arr m ρ c 0).trans (((dat2 (V23 m ρ) c).arrAt_in 0 rfl _).trans (A_eq2 (V23 m ρ) c 0))
    · exact (W24_arr m ρ c 1).trans (((dat2 (V23 m ρ) c).arrAt_in 1 rfl _).trans (A_eq2 (V23 m ρ) c 1))
    · exact (W24_arr m ρ c 2).trans (((dat2 (V23 m ρ) c).arrAt_in 2 rfl _).trans (A_eq2 (V23 m ρ) c 2))
    · exact (W24_arr m ρ c 3).trans (((dat2 (V23 m ρ) c).arrAt_in 3 rfl _).trans (A_eq2 (V23 m ρ) c 3))
    · exact (W24_arr m ρ c 4).trans (((dat2 (V23 m ρ) c).arrAt_in 4 rfl _).trans (A_eq2 (V23 m ρ) c 4))
    · exact absurd hb (by decide)
theorem keep25 (c : Dev nD) (b : Ref sig .tc) (hb : b ∈ argsL) :
    W25 m ρ c (Proc.devRef .tc b) = W24 m ρ c (Proc.devRef .tc b) :=
  StableHlo.after_of_forall_not_mem (b := Proc.devRef .tc b) _ _ (List.forall_iff_forall_mem.mp (by
    simp only [hostOps3, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))
theorem keep26 (c : Dev nD) (b : Ref sig .tc) (hb : b ∈ argsL) :
    W26 m ρ c (Proc.devRef .tc b) = W25 m ρ c (Proc.devRef .tc b) := by
  by_cases h : ∀ w, Pipeline.arrRef spec3 w ≠ b
  · exact W26_of_ne m ρ c b h
  · obtain ⟨w, hw⟩ := not_forall.mp h
    obtain rfl := not_not.mp hw
    fin_cases w
    · exact (W26_arr m ρ c 0).trans (((dat3 (V25 m ρ) c).arrAt_in 0 rfl _).trans (A_eq3 (V25 m ρ) c 0))
    · exact (W26_arr m ρ c 1).trans (((dat3 (V25 m ρ) c).arrAt_in 1 rfl _).trans (A_eq3 (V25 m ρ) c 1))
    · exact (W26_arr m ρ c 2).trans (((dat3 (V25 m ρ) c).arrAt_in 2 rfl _).trans (A_eq3 (V25 m ρ) c 2))
    · exact (W26_arr m ρ c 3).trans (((dat3 (V25 m ρ) c).arrAt_in 3 rfl _).trans (A_eq3 (V25 m ρ) c 3))
    · exact (W26_arr m ρ c 4).trans (((dat3 (V25 m ρ) c).arrAt_in 4 rfl _).trans (A_eq3 (V25 m ρ) c 4))
    · exact absurd hb (by decide)
theorem keep27 (c : Dev nD) (b : Ref sig .tc) (hb : b ∈ argsL) :
    W27 m ρ c (Proc.devRef .tc b) = W26 m ρ c (Proc.devRef .tc b) :=
  StableHlo.after_of_forall_not_mem (b := Proc.devRef .tc b) _ _ (List.forall_iff_forall_mem.mp (by
    simp only [hostOps4, List.Forall, StableHlo.TRef.unary, StableHlo.TRef.binary, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (fun h => absurd (h ▸ hb) (by decide))))

/-- An argument array holds at the end what it held at launch. -/
theorem keep_all (c : Dev nD) (b : Ref sig .tc) (hb : b ∈ argsL) :
    W27 m ρ c (Proc.devRef .tc b) = m ((c : Thread nD τ).loc b) :=
  calc W27 m ρ c (Proc.devRef .tc b)
    _ = W26 m ρ c (Proc.devRef .tc b) := keep27 m ρ c b hb
    _ = W25 m ρ c (Proc.devRef .tc b) := keep26 m ρ c b hb
    _ = W24 m ρ c (Proc.devRef .tc b) := keep25 m ρ c b hb
    _ = W23 m ρ c (Proc.devRef .tc b) := keep24 m ρ c b hb
    _ = W22 m ρ c (Proc.devRef .tc b) := keep23 m ρ c b hb
    _ = W21 m ρ c (Proc.devRef .tc b) := keep22 m ρ c b hb
    _ = W20 m ρ c (Proc.devRef .tc b) := keep21 m ρ c b hb
    _ = W19 m ρ c (Proc.devRef .tc b) := keep20 m ρ c b hb
    _ = W18 m ρ c (Proc.devRef .tc b) := keep19 m ρ c b hb
    _ = W17 m ρ c (Proc.devRef .tc b) := keep18 m ρ c b hb
    _ = W16 m ρ c (Proc.devRef .tc b) := keep17 m ρ c b hb
    _ = W15 m ρ c (Proc.devRef .tc b) := keep16 m ρ c b hb
    _ = W14 m ρ c (Proc.devRef .tc b) := keep15 m ρ c b hb
    _ = W13 m ρ c (Proc.devRef .tc b) := keep14 m ρ c b hb
    _ = W12 m ρ c (Proc.devRef .tc b) := keep13 m ρ c b hb
    _ = W11 m ρ c (Proc.devRef .tc b) := keep12 m ρ c b hb
    _ = W10 m ρ c (Proc.devRef .tc b) := keep11 m ρ c b hb
    _ = W9 m ρ c (Proc.devRef .tc b) := keep10 m ρ c b hb
    _ = W8 m ρ c (Proc.devRef .tc b) := keep9 m ρ c b hb
    _ = W7 m ρ c (Proc.devRef .tc b) := keep8 m ρ c b hb
    _ = W6 m ρ c (Proc.devRef .tc b) := keep7 m ρ c b hb
    _ = W5 m ρ c (Proc.devRef .tc b) := keep6 m ρ c b hb
    _ = W4 m ρ c (Proc.devRef .tc b) := keep5 m ρ c b hb
    _ = W3 m ρ c (Proc.devRef .tc b) := keep4 m ρ c b hb
    _ = W2 m ρ c (Proc.devRef .tc b) := keep3 m ρ c b hb
    _ = W1 m ρ c (Proc.devRef .tc b) := keep2 m ρ c b hb
    _ = W0 m ρ c (Proc.devRef .tc b) := keep1 m ρ c b hb
    _ = m ((c : Thread nD τ).loc b) := rfl

/-! ## The proof data of the four pipelines and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V13 m ρ) c
  | ⟨1, _⟩ => fun c => dat1 (V21 m ρ) c
  | ⟨2, _⟩ => fun c => dat2 (V23 m ρ) c
  | ⟨3, _⟩ => fun c => dat3 (V25 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps0_7` allocates a buffer. -/
theorem hostOps0_7_fresh : (hostOps0_7 : List (HloOp τ sig (Elt F))).Forall fun op => op.fresh = ∅ := by
  simp only [List.Forall]; repeat' constructor
/-- No operation of `hostOps0_8` allocates a buffer. -/
theorem hostOps0_8_fresh : (hostOps0_8 : List (HloOp τ sig (Elt F))).Forall fun op => op.fresh = ∅ := by
  simp only [List.Forall]; repeat' constructor
/-- No operation of `hostOps0_9` allocates a buffer. -/
theorem hostOps0_9_fresh : (hostOps0_9 : List (HloOp τ sig (Elt F))).Forall fun op => op.fresh = ∅ := by
  simp only [List.Forall]; repeat' constructor
/-- No operation of `hostOps0_10` allocates a buffer. -/
theorem hostOps0_10_fresh : (hostOps0_10 : List (HloOp τ sig (Elt F))).Forall fun op => op.fresh = ∅ := by
  simp only [List.Forall]; repeat' constructor
/-- No operation of `hostOps0_11` allocates a buffer. -/
theorem hostOps0_11_fresh : (hostOps0_11 : List (HloOp τ sig (Elt F))).Forall fun op => op.fresh = ∅ := by
  simp only [List.Forall]; repeat' constructor
/-- No operation of `hostOps0_12` allocates a buffer. -/
theorem hostOps0_12_fresh : (hostOps0_12 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps1_1` allocates a buffer. -/
theorem hostOps1_1_fresh : (hostOps1_1 : List (HloOp τ sig (Elt F))).Forall fun op => op.fresh = ∅ := by
  simp only [List.Forall]; repeat' constructor
/-- No operation of `hostOps1_2` allocates a buffer. -/
theorem hostOps1_2_fresh : (hostOps1_2 : List (HloOp τ sig (Elt F))).Forall fun op => op.fresh = ∅ := by
  simp only [List.Forall]; repeat' constructor
/-- No operation of `hostOps1_3` allocates a buffer. -/
theorem hostOps1_3_fresh : (hostOps1_3 : List (HloOp τ sig (Elt F))).Forall fun op => op.fresh = ∅ := by
  simp only [List.Forall]; repeat' constructor
/-- No operation of `hostOps1_4` allocates a buffer. -/
theorem hostOps1_4_fresh : (hostOps1_4 : List (HloOp τ sig (Elt F))).Forall fun op => op.fresh = ∅ := by
  simp only [List.Forall]; repeat' constructor
/-- No operation of `hostOps1_5` allocates a buffer. -/
theorem hostOps1_5_fresh : (hostOps1_5 : List (HloOp τ sig (Elt F))).Forall fun op => op.fresh = ∅ := by
  simp only [List.Forall]; repeat' constructor
/-- No operation of `hostOps1_6` allocates a buffer. -/
theorem hostOps1_6_fresh : (hostOps1_6 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W27 m ρ c) ∗ ∃ r, prngReg c r)

/-! ## The regions as segments -/

set_option backward.isDefEq.respectTransparency.types false in
/-- Region 0 over the thread state: entered from every unscoped buffer at `W13`, left at `W14`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V13 m ρ) c).loose
  hwaits := Pipeline.hwaits_of_owed_zero _ _ _ _ L lv 0 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec0 c (V13 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V13 m ρ c) (V14 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W21`, left at `W22`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V21 m ρ) c).loose
  hwaits := Pipeline.hwaits_of_owed_zero _ _ _ _ L lv 1 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec1 c (V21 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V21 m ρ c) (V22 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W23`, left at `W24`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V23 m ρ) c).loose
  hwaits := Pipeline.hwaits_of_owed_zero _ _ _ _ L lv 2 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec2 c (V23 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V23 m ρ c) (V24 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W25`, left at `W26`. Its arrays are split
    out of the unscoped buffers and put back at the exit contents; the generator register goes into the invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V25 m ρ) c).loose
  hwaits := Pipeline.hwaits_of_owed_zero _ _ _ _ L lv 3 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec3 c (V25 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V25 m ρ c) (V26 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 27 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .region (reg0 m ρ),
    .host (hseg hostOps1 hostOps1_sub hostOps1_fresh (W14 m ρ)),
    .host (hseg hostOps1_1 hostOps1_1_sub hostOps1_1_fresh (W15 m ρ)),
    .host (hseg hostOps1_2 hostOps1_2_sub hostOps1_2_fresh (W16 m ρ)),
    .host (hseg hostOps1_3 hostOps1_3_sub hostOps1_3_fresh (W17 m ρ)),
    .host (hseg hostOps1_4 hostOps1_4_sub hostOps1_4_fresh (W18 m ρ)),
    .host (hseg hostOps1_5 hostOps1_5_sub hostOps1_5_fresh (W19 m ρ)),
    .host (hseg hostOps1_6 hostOps1_6_sub hostOps1_6_fresh (W20 m ρ)),
    .region (reg1 m ρ),
    .host (hseg hostOps2 hostOps2_sub hostOps2_fresh (W22 m ρ)),
    .region (reg2 m ρ),
    .host (hseg hostOps3 hostOps3_sub hostOps3_fresh (W24 m ρ)),
    .region (reg3 m ρ),
    .host (hseg hostOps4 hostOps4_sub hostOps4_fresh (W26 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and in every final state each unscoped buffer holds what the fold computes at the last
    boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W27 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W27 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c => h c)

/-- THE FRAME: every weakly fair execution of @main terminates, nothing faulting, and every final state has the
    twenty-one argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (keep_all m ρ c main_arg0 (by decide)),
     (h c _ (mem_uc main_arg1 (by decide))).trans (keep_all m ρ c main_arg1 (by decide)),
     (h c _ (mem_uc main_arg2 (by decide))).trans (keep_all m ρ c main_arg2 (by decide)),
     (h c _ (mem_uc main_arg3 (by decide))).trans (keep_all m ρ c main_arg3 (by decide)),
     (h c _ (mem_uc main_arg4 (by decide))).trans (keep_all m ρ c main_arg4 (by decide)),
     (h c _ (mem_uc main_arg5 (by decide))).trans (keep_all m ρ c main_arg5 (by decide)),
     (h c _ (mem_uc main_arg6 (by decide))).trans (keep_all m ρ c main_arg6 (by decide)),
     (h c _ (mem_uc main_arg7 (by decide))).trans (keep_all m ρ c main_arg7 (by decide)),
     (h c _ (mem_uc main_arg8 (by decide))).trans (keep_all m ρ c main_arg8 (by decide)),
     (h c _ (mem_uc main_arg9 (by decide))).trans (keep_all m ρ c main_arg9 (by decide)),
     (h c _ (mem_uc main_arg10 (by decide))).trans (keep_all m ρ c main_arg10 (by decide)),
     (h c _ (mem_uc main_arg11 (by decide))).trans (keep_all m ρ c main_arg11 (by decide)),
     (h c _ (mem_uc main_arg12 (by decide))).trans (keep_all m ρ c main_arg12 (by decide)),
     (h c _ (mem_uc main_arg13 (by decide))).trans (keep_all m ρ c main_arg13 (by decide)),
     (h c _ (mem_uc main_arg14 (by decide))).trans (keep_all m ρ c main_arg14 (by decide)),
     (h c _ (mem_uc main_arg15 (by decide))).trans (keep_all m ρ c main_arg15 (by decide)),
     (h c _ (mem_uc main_arg16 (by decide))).trans (keep_all m ρ c main_arg16 (by decide)),
     (h c _ (mem_uc main_arg17 (by decide))).trans (keep_all m ρ c main_arg17 (by decide)),
     (h c _ (mem_uc main_arg18 (by decide))).trans (keep_all m ρ c main_arg18 (by decide)),
     (h c _ (mem_uc main_arg19 (by decide))).trans (keep_all m ρ c main_arg19 (by decide)),
     (h c _ (mem_uc main_arg20 (by decide))).trans (keep_all m ρ c main_arg20 (by decide))⟩) (run_all m ρ)

end Cert.KernelIdeal.Hand

end
-- ==== Proof.RefSide.lean ====
import proofs.«172187_j12206297055645_2_alg».proof.Defs
import proofs.«172187_j12206297055645_2_alg».proof.Proof.Gen.ReferenceIdeal
import proofs.«172187_j12206297055645_2_alg».proof.Proof.Gen.Pre_finite_inputs
import proofs.«172187_j12206297055645_2_alg».proof.Proof.RefReadP

noncomputable section

open Idealize.ShloMosaic Idealize.ShloMosaic.TcCoe Idealize.SL.Sem

namespace Cert.Proof.RefSide

/-- The reference is a straight line of host operations: every weakly fair execution ends, nothing faults, and no
    operation writes an argument array. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2) (Cert.ReferenceIdeal.Value.run (F := Ideal) m ρ)

end Cert.Proof.RefSide

end
-- ==== Proof.KIMid.lean ====
import proofs.«172187_j12206297055645_2_alg».proof.Proof.Gen.KernelIdeal

noncomputable section

namespace Cert.KernelIdeal.Hand

open Idealize.ShloMosaic Idealize.ShloMosaic.TcCoe Idealize.SL.Sem
open Cert.KernelIdeal Cert.KernelIdeal.Facts₀ Cert.KernelIdeal.Facts

variable {F : FTy → Type} [FloatOps F]

/-! # The attention stage between the projections and the heads, as three pure functions

From the three projected pairs `VE`, `VM`, `VC` (each [128, 2, 384]): every pair is divided by its norm over the
axis of length two; the three energy tensors are the products of two normalised pairs contracted over that axis; each
energy is turned into attention weights by a softmax over its rows or its columns (maximum subtracted, exponential,
divided by the sum); each normalised pair is multiplied by two of the weight tensors, and the two products are laid
side by side into a feature row of length 1536. The operations are written once, in the order of the program's
lines; the three functions differ in the feature they return. -/

/-- The feature rows of the first pair. -/
def midE (VE VM VC : (⟨S128x2x384, .f32⟩ : BufTy).Contents (Elt F)) : (⟨S128x1536, .f32⟩ : BufTy).Contents (Elt F) :=
  have main_call6_v0 := mulf VE VE
  have main_call6_cst := (constant (F := F) S_ .f32 0x00000000#32)
  have main_call6_v1 := (fun x v => Host.reduceAdd x v reducesTo_S128x2x384_S128x384_d1 h_S_) main_call6_v0 main_call6_cst
  have main_call6_v2 := (broadcastInDim S128x1x384 ![0, 2] bcast_S128x384_S128x1x384_0_2) main_call6_v1
  have main_v21 := Host.sqrt main_call6_v2
  have main_v22 := (broadcastInDim S128x2x384 ![0, 1, 2] bcast_S128x1x384_S128x2x384_0_1_2 : (⟨S128x1x384, .f32⟩ : BufTy).Contents (Elt F) → (⟨S128x2x384, .f32⟩ : BufTy).Contents (Elt F)) main_v21
  have main_v23 := (Host.divf : (⟨S128x2x384, .f32⟩ : BufTy).Contents (Elt F) → (⟨S128x2x384, .f32⟩ : BufTy).Contents (Elt F) → (⟨S128x2x384, .f32⟩ : BufTy).Contents (Elt F)) VE main_v22
  have main_call7_v0 := mulf VM VM
  have main_call7_cst := (constant (F := F) S_ .f32 0x00000000#32)
  have main_call7_v1 := (fun x v => Host.reduceAdd x v reducesTo_S128x2x384_S128x384_d1 h_S_) main_call7_v0 main_call7_cst
  have main_call7_v2 := (broadcastInDim S128x1x384 ![0, 2] bcast_S128x384_S128x1x384_0_2) main_call7_v1
  have main_v27 := Host.sqrt main_call7_v2
  have main_v28 := (broadcastInDim S128x2x384 ![0, 1, 2] bcast_S128x1x384_S128x2x384_0_1_2 : (⟨S128x1x384, .f32⟩ : BufTy).Contents (Elt F) → (⟨S128x2x384, .f32⟩ : BufTy).Contents (Elt F)) main_v27
  have main_v29 := (Host.divf : (⟨S128x2x384, .f32⟩ : BufTy).Contents (Elt F) → (⟨S128x2x384, .f32⟩ : BufTy).Contents (Elt F) → (⟨S128x2x384, .f32⟩ : BufTy).Contents (Elt F)) VM main_v28
  have main_call8_v0 := mulf VC VC
  have main_call8_cst := (constant (F := F) S_ .f32 0x00000000#32)
  have main_call8_v1 := (fun x v => Host.reduceAdd x v reducesTo_S128x2x384_S128x384_d1 h_S_) main_call8_v0 main_call8_cst
  have main_call8_v2 := (broadcastInDim S128x1x384 ![0, 2] bcast_S128x384_S128x1x384_0_2) main_call8_v1
  have main_v33 := Host.sqrt main_call8_v2
  have main_v34 := (broadcastInDim S128x2x384 ![0, 1, 2] bcast_S128x1x384_S128x2x384_0_1_2 : (⟨S128x1x384, .f32⟩ : BufTy).Contents (Elt F) → (⟨S128x2x384, .f32⟩ : BufTy).Contents (Elt F)) main_v33
  have main_v35 := (Host.divf : (⟨S128x2x384, .f32⟩ : BufTy).Contents (Elt F) → (⟨S128x2x384, .f32⟩ : BufTy).Contents (Elt F) → (⟨S128x2x384, .f32⟩ : BufTy).Contents (Elt F)) VC main_v34
  have main_v36 := ((fun l r => Host.dotGeneral dot_S128x2x384_S128x2x384_S128x384x384_1_1_2_2_0_0 none l r) : (⟨S128x2x384, .f32⟩ : BufTy).Contents (Elt F) → (⟨S128x2x384, .f32⟩ : BufTy).Contents (Elt F) → (⟨S128x384x384, .f32⟩ : BufTy).Contents (Elt F)) main_v23 main_v29
  have main_v37 := ((fun l r => Host.dotGeneral dot_S128x2x384_S128x2x384_S128x384x384_1_1_2_2_0_0 none l r) : (⟨S128x2x384, .f32⟩ : BufTy).Contents (Elt F) → (⟨S128x2x384, .f32⟩ : BufTy).Contents (Elt F) → (⟨S128x384x384, .f32⟩ : BufTy).Contents (Elt F)) main_v23 main_v35
  have main_v38 := ((fun l r => Host.dotGeneral dot_S128x2x384_S128x2x384_S128x384x384_1_1_2_2_0_0 none l r) : (⟨S128x2x384, .f32⟩ : BufTy).Contents (Elt F) → (⟨S128x2x384, .f32⟩ : BufTy).Contents (Elt F) → (⟨S128x384x384, .f32⟩ : BufTy).Contents (Elt F)) main_v29 main_v35
  have main_cst := (constant (F := F) S_ .f32 0xFF800000#32)
  have main_v39 := ((fun x v => Host.reduce FloatOps.maximumf x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v36 main_cst
  have main_cst_5 := (constant (F := F) S_ .f32 0xFF800000#32)
  have main_v40 := (broadcastInDim S128x384 ![] bcast_S_S128x384 : (⟨S_, .f32⟩ : BufTy).Contents (Elt F) → (⟨S128x384, .f32⟩ : BufTy).Contents (Elt F)) main_cst_5
  have main_v41 := (maximumf : (⟨S128x384, .f32⟩ : BufTy).Contents (Elt F) → (⟨S128x384, .f32⟩ : BufTy).Contents (Elt F) → (⟨S128x384, .f32⟩ : BufTy).Contents (Elt F)) main_v40 main_v39
  have main_v42 := (broadcastInDim S128x1x384 ![0, 2] bcast_S128x384_S128x1x384_0_2 : (⟨S128x384, .f32⟩ : BufTy).Contents (Elt F) → (⟨S128x1x384, .f32⟩ : BufTy).Contents (Elt F)) main_v41
  have main_v43 := (broadcastInDim S128x384x384 ![0, 1, 2] bcast_S128x1x384_S128x384x384_0_1_2 : (⟨S128x1x384, .f32⟩ : BufTy).Contents (Elt F) → (⟨S128x384x384, .f32⟩ : BufTy).Contents (Elt F)) main_v42
  have main_v44 := (subf : (⟨S128x384x384, .f32⟩ : BufTy).Contents (Elt F) → (⟨S128x384x384, .f32⟩ : BufTy).Contents (Elt F) → (⟨S128x384x384, .f32⟩ : BufTy).Contents (Elt F)) main_v36 main_v43
  have main_v45 := (Host.exp : (⟨S128x384x384, .f32⟩ : BufTy).Contents (Elt F) → (⟨S128x384x384, .f32⟩ : BufTy).Contents (Elt F)) main_v44
  have main_cst_6 := (constant (F := F) S_ .f32 0x00000000#32)
  have main_v46 := ((fun x v => Host.reduceAdd x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v45 main_cst_6
  have main_v47 := (broadcastInDim S128x1x384 ![0, 2] bcast_S128x384_S128x1x384_0_2 : (⟨S128x384, .f32⟩ : BufTy).Contents (Elt F) → (⟨S128x1x384, .f32⟩ : BufTy).Contents (Elt F)) main_v46
  have main_v48 := (broadcastInDim S128x384x384 ![0, 1, 2] bcast_S128x1x384_S128x384x384_0_1_2 : (⟨S128x1x384, .f32⟩ : BufTy).Contents (Elt F) → (⟨S128x384x384, .f32⟩ : BufTy).Contents (Elt F)) main_v47
  have main_v49 := (Host.divf : (⟨S128x384x384, .f32⟩ : BufTy).Contents (Elt F) → (⟨S128x384x384, .f32⟩ : BufTy).Contents (Elt F) → (⟨S128x384x384, .f32⟩ : BufTy).Contents (Elt F)) main_v45 main_v48
  have main_cst_7 := (constant (F := F) S_ .f32 0xFF800000#32)
  have main_v50 := ((fun x v => Host.reduce FloatOps.maximumf x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v37 main_cst_7
  have main_cst_8 := (constant (F := F) S_ .f32 0xFF800000#32)
  have main_v51 := (broadcastInDim S128x384 ![] bcast_S_S128x384 : (⟨S_, .f32⟩ : BufTy).Contents (Elt F) → (⟨S128x384, .f32⟩ : BufTy).Contents (Elt F)) main_cst_8
  have main_v52 := (maximumf : (⟨S128x384, .f32⟩ : BufTy).Contents (Elt F) → (⟨S128x384, .f32⟩ : BufTy).Contents (Elt F) → (⟨S128x384, .f32⟩ : BufTy).Contents (Elt F)) main_v51 main_v50
  have main_v53 := (broadcastInDim S128x1x384 ![0, 2] bcast_S128x384_S128x1x384_0_2 : (⟨S128x384, .f32⟩ : BufTy).Contents (Elt F) → (⟨S128x1x384, .f32⟩ : BufTy).Contents (Elt F)) main_v52
  have main_v54 := (broadcastInDim S128x384x384 ![0, 1, 2] bcast_S128x1x384_S128x384x384_0_1_2 : (⟨S128x1x384, .f32⟩ : BufTy).Contents (Elt F) → (⟨S128x384x384, .f32⟩ : BufTy).Contents (Elt F)) main_v53
  have main_v55 := (subf : (⟨S128x384x384, .f32⟩ : BufTy).Contents (Elt F) → (⟨S128x384x384, .f32⟩ : BufTy).Contents (Elt F) → (⟨S128x384x384, .f32⟩ : BufTy).Contents (Elt F)) main_v37 main_v54
  have main_v56 := (Host.exp : (⟨S128x384x384, .f32⟩ : BufTy).Contents (Elt F) → (⟨S128x384x384, .f32⟩ : BufTy).Contents (Elt F)) main_v55
  have main_cst_9 := (constant (F := F) S_ .f32 0x00000000#32)
  have main_v57 := ((fun x v => Host.reduceAdd x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v56 main_cst_9
  have main_v58 := (broadcastInDim S128x1x384 ![0, 2] bcast_S128x384_S128x1x384_0_2 : (⟨S128x384, .f32⟩ : BufTy).Contents (Elt F) → (⟨S128x1x384, .f32⟩ : BufTy).Contents (Elt F)) main_v57
  have main_v59 := (broadcastInDim S128x384x384 ![0, 1, 2] bcast_S128x1x384_S128x384x384_0_1_2 : (⟨S128x1x384, .f32⟩ : BufTy).Contents (Elt F) → (⟨S128x384x384, .f32⟩ : BufTy).Contents (Elt F)) main_v58
  have main_v60 := (Host.divf : (⟨S128x384x384, .f32⟩ : BufTy).Contents (Elt F) → (⟨S128x384x384, .f32⟩ : BufTy).Contents (Elt F) → (⟨S128x384x384, .f32⟩ : BufTy).Contents (Elt F)) main_v56 main_v59
  have main_cst_10 := (constant (F := F) S_ .f32 0xFF800000#32)
  have main_v61 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v36 main_cst_10
  have main_cst_11 := (constant (F := F) S_ .f32 0xFF800000#32)
  have main_v62 := (broadcastInDim S128x384 ![] bcast_S_S128x384 : (⟨S_, .f32⟩ : BufTy).Contents (Elt F) → (⟨S128x384, .f32⟩ : BufTy).Contents (Elt F)) main_cst_11
  have main_v63 := (maximumf : (⟨S128x384, .f32⟩ : BufTy).Contents (Elt F) → (⟨S128x384, .f32⟩ : BufTy).Contents (Elt F) → (⟨S128x384, .f32⟩ : BufTy).Contents (Elt F)) main_v62 main_v61
  have main_v64 := (broadcastInDim S128x384x1 ![0, 1] bcast_S128x384_S128x384x1_0_1 : (⟨S128x384, .f32⟩ : BufTy).Contents (Elt F) → (⟨S128x384x1, .f32⟩ : BufTy).Contents (Elt F)) main_v63
  have main_v65 := (broadcastInDim S128x384x384 ![0, 1, 2] bcast_S128x384x1_S128x384x384_0_1_2 : (⟨S128x384x1, .f32⟩ : BufTy).Contents (Elt F) → (⟨S128x384x384, .f32⟩ : BufTy).Contents (Elt F)) main_v64
  have main_v66 := (subf : (⟨S128x384x384, .f32⟩ : BufTy).Contents (Elt F) → (⟨S128x384x384, .f32⟩ : BufTy).Contents (Elt F) → (⟨S128x384x384, .f32⟩ : BufTy).Contents (Elt F)) main_v36 main_v65
  have main_v67 := (Host.exp : (⟨S128x384x384, .f32⟩ : BufTy).Contents (Elt F) → (⟨S128x384x384, .f32⟩ : BufTy).Contents (Elt F)) main_v66
  have main_cst_12 := (constant (F := F) S_ .f32 0x00000000#32)
  have main_v68 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v67 main_cst_12
  have main_v69 := (broadcastInDim S128x384x1 ![0, 1] bcast_S128x384_S128x384x1_0_1 : (⟨S128x384, .f32⟩ : BufTy).Contents (Elt F) → (⟨S128x384x1, .f32⟩ : BufTy).Contents (Elt F)) main_v68
  have main_v70 := (broadcastInDim S128x384x384 ![0, 1, 2] bcast_S128x384x1_S128x384x384_0_1_2 : (⟨S128x384x1, .f32⟩ : BufTy).Contents (Elt F) → (⟨S128x384x384, .f32⟩ : BufTy).Contents (Elt F)) main_v69
  have main_v71 := (Host.divf : (⟨S128x384x384, .f32⟩ : BufTy).Contents (Elt F) → (⟨S128x384x384, .f32⟩ : BufTy).Contents (Elt F) → (⟨S128x384x384, .f32⟩ : BufTy).Contents (Elt F)) main_v67 main_v70
  have main_v72 := ((transpose S128x384x384 [0, 2, 1] · transposes_S128x384x384_S128x384x384_0_2_1) : (⟨S128x384x384, .f32⟩ : BufTy).Contents (Elt F) → (⟨S128x384x384, .f32⟩ : BufTy).Contents (Elt F)) main_v71
  have main_cst_13 := (constant (F := F) S_ .f32 0xFF800000#32)
  have main_v73 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v38 main_cst_13
  have main_cst_14 := (constant (F := F) S_ .f32 0xFF800000#32)
  have main_v74 := (broadcastInDim S128x384 ![] bcast_S_S128x384 : (⟨S_, .f32⟩ : BufTy).Contents (Elt F) → (⟨S128x384, .f32⟩ : BufTy).Contents (Elt F)) main_cst_14
  have main_v75 := (maximumf : (⟨S128x384, .f32⟩ : BufTy).Contents (Elt F) → (⟨S128x384, .f32⟩ : BufTy).Contents (Elt F) → (⟨S128x384, .f32⟩ : BufTy).Contents (Elt F)) main_v74 main_v73
  have main_v76 := (broadcastInDim S128x384x1 ![0, 1] bcast_S128x384_S128x384x1_0_1 : (⟨S128x384, .f32⟩ : BufTy).Contents (Elt F) → (⟨S128x384x1, .f32⟩ : BufTy).Contents (Elt F)) main_v75
  have main_v77 := (broadcastInDim S128x384x384 ![0, 1, 2] bcast_S128x384x1_S128x384x384_0_1_2 : (⟨S128x384x1, .f32⟩ : BufTy).Contents (Elt F) → (⟨S128x384x384, .f32⟩ : BufTy).Contents (Elt F)) main_v76
  have main_v78 := (subf : (⟨S128x384x384, .f32⟩ : BufTy).Contents (Elt F) → (⟨S128x384x384, .f32⟩ : BufTy).Contents (Elt F) → (⟨S128x384x384, .f32⟩ : BufTy).Contents (Elt F)) main_v38 main_v77
  have main_v79 := (Host.exp : (⟨S128x384x384, .f32⟩ : BufTy).Contents (Elt F) → (⟨S128x384x384, .f32⟩ : BufTy).Contents (Elt F)) main_v78
  have main_cst_15 := (constant (F := F) S_ .f32 0x00000000#32)
  have main_v80 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v79 main_cst_15
  have main_v81 := (broadcastInDim S128x384x1 ![0, 1] bcast_S128x384_S128x384x1_0_1 : (⟨S128x384, .f32⟩ : BufTy).Contents (Elt F) → (⟨S128x384x1, .f32⟩ : BufTy).Contents (Elt F)) main_v80
  have main_v82 := (broadcastInDim S128x384x384 ![0, 1, 2] bcast_S128x384x1_S128x384x384_0_1_2 : (⟨S128x384x1, .f32⟩ : BufTy).Contents (Elt F) → (⟨S128x384x384, .f32⟩ : BufTy).Contents (Elt F)) main_v81
  have main_v83 := (Host.divf : (⟨S128x384x384, .f32⟩ : BufTy).Contents (Elt F) → (⟨S128x384x384, .f32⟩ : BufTy).Contents (Elt F) → (⟨S128x384x384, .f32⟩ : BufTy).Contents (Elt F)) main_v79 main_v82
  have main_cst_16 := (constant (F := F) S_ .f32 0xFF800000#32)
  have main_v84 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v37 main_cst_16
  have main_cst_17 := (constant (F := F) S_ .f32 0xFF800000#32)
  have main_v85 := (broadcastInDim S128x384 ![] bcast_S_S128x384 : (⟨S_, .f32⟩ : BufTy).Contents (Elt F) → (⟨S128x384, .f32⟩ : BufTy).Contents (Elt F)) main_cst_17
  have main_v86 := (maximumf : (⟨S128x384, .f32⟩ : BufTy).Contents (Elt F) → (⟨S128x384, .f32⟩ : BufTy).Contents (Elt F) → (⟨S128x384, .f32⟩ : BufTy).Contents (Elt F)) main_v85 main_v84
  have main_v87 := (broadcastInDim S128x384x1 ![0, 1] bcast_S128x384_S128x384x1_0_1 : (⟨S128x384, .f32⟩ : BufTy).Contents (Elt F) → (⟨S128x384x1, .f32⟩ : BufTy).Contents (Elt F)) main_v86
  have main_v88 := (broadcastInDim S128x384x384 ![0, 1, 2] bcast_S128x384x1_S128x384x384_0_1_2 : (⟨S128x384x1, .f32⟩ : BufTy).Contents (Elt F) → (⟨S128x384x384, .f32⟩ : BufTy).Contents (Elt F)) main_v87
  have main_v89 := (subf : (⟨S128x384x384, .f32⟩ : BufTy).Contents (Elt F) → (⟨S128x384x384, .f32⟩ : BufTy).Contents (Elt F) → (⟨S128x384x384, .f32⟩ : BufTy).Contents (Elt F)) main_v37 main_v88
  have main_v90 := (Host.exp : (⟨S128x384x384, .f32⟩ : BufTy).Contents (Elt F) → (⟨S128x384x384, .f32⟩ : BufTy).Contents (Elt F)) main_v89
  have main_cst_18 := (constant (F := F) S_ .f32 0x00000000#32)
  have main_v91 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v90 main_cst_18
  have main_v92 := (broadcastInDim S128x384x1 ![0, 1] bcast_S128x384_S128x384x1_0_1 : (⟨S128x384, .f32⟩ : BufTy).Contents (Elt F) → (⟨S128x384x1, .f32⟩ : BufTy).Contents (Elt F)) main_v91
  have main_v93 := (broadcastInDim S128x384x384 ![0, 1, 2] bcast_S128x384x1_S128x384x384_0_1_2 : (⟨S128x384x1, .f32⟩ : BufTy).Contents (Elt F) → (⟨S128x384x384, .f32⟩ : BufTy).Contents (Elt F)) main_v92
  have main_v94 := (Host.divf : (⟨S128x384x384, .f32⟩ : BufTy).Contents (Elt F) → (⟨S128x384x384, .f32⟩ : BufTy).Contents (Elt F) → (⟨S128x384x384, .f32⟩ : BufTy).Contents (Elt F)) main_v90 main_v93
  have main_v95 := ((transpose S128x384x384 [0, 2, 1] · transposes_S128x384x384_S128x384x384_0_2_1) : (⟨S128x384x384, .f32⟩ : BufTy).Contents (Elt F) → (⟨S128x384x384, .f32⟩ : BufTy).Contents (Elt F)) main_v94
  have main_cst_19 := (constant (F := F) S_ .f32 0xFF800000#32)
  have main_v96 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v38 main_cst_19
  have main_cst_20 := (constant (F := F) S_ .f32 0xFF800000#32)
  have main_v97 := (broadcastInDim S128x384 ![] bcast_S_S128x384 : (⟨S_, .f32⟩ : BufTy).Contents (Elt F) → (⟨S128x384, .f32⟩ : BufTy).Contents (Elt F)) main_cst_20
  have main_v98 := (maximumf : (⟨S128x384, .f32⟩ : BufTy).Contents (Elt F) → (⟨S128x384, .f32⟩ : BufTy).Contents (Elt F) → (⟨S128x384, .f32⟩ : BufTy).Contents (Elt F)) main_v97 main_v96
  have main_v99 := (broadcastInDim S128x384x1 ![0, 1] bcast_S128x384_S128x384x1_0_1 : (⟨S128x384, .f32⟩ : BufTy).Contents (Elt F) → (⟨S128x384x1, .f32⟩ : BufTy).Contents (Elt F)) main_v98
  have main_v100 := (broadcastInDim S128x384x384 ![0, 1, 2] bcast_S128x384x1_S128x384x384_0_1_2 : (⟨S128x384x1, .f32⟩ : BufTy).Contents (Elt F) → (⟨S128x384x384, .f32⟩ : BufTy).Contents (Elt F)) main_v99
  have main_v101 := (subf : (⟨S128x384x384, .f32⟩ : BufTy).Contents (Elt F) → (⟨S128x384x384, .f32⟩ : BufTy).Contents (Elt F) → (⟨S128x384x384, .f32⟩ : BufTy).Contents (Elt F)) main_v38 main_v100
  have main_v102 := (Host.exp : (⟨S128x384x384, .f32⟩ : BufTy).Contents (Elt F) → (⟨S128x384x384, .f32⟩ : BufTy).Contents (Elt F)) main_v101
  have main_cst_21 := (constant (F := F) S_ .f32 0x00000000#32)
  have main_v103 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v102 main_cst_21
  have main_v104 := (broadcastInDim S128x384x1 ![0, 1] bcast_S128x384_S128x384x1_0_1 : (⟨S128x384, .f32⟩ : BufTy).Contents (Elt F) → (⟨S128x384x1, .f32⟩ : BufTy).Contents (Elt F)) main_v103
  have main_v105 := (broadcastInDim S128x384x384 ![0, 1, 2] bcast_S128x384x1_S128x384x384_0_1_2 : (⟨S128x384x1, .f32⟩ : BufTy).Contents (Elt F) → (⟨S128x384x384, .f32⟩ : BufTy).Contents (Elt F)) main_v104
  have main_v106 := (Host.divf : (⟨S128x384x384, .f32⟩ : BufTy).Contents (Elt F) → (⟨S128x384x384, .f32⟩ : BufTy).Contents (Elt F) → (⟨S128x384x384, .f32⟩ : BufTy).Contents (Elt F)) main_v102 main_v105
  have main_v107 := ((transpose S128x384x384 [0, 2, 1] · transposes_S128x384x384_S128x384x384_0_2_1) : (⟨S128x384x384, .f32⟩ : BufTy).Contents (Elt F) → (⟨S128x384x384, .f32⟩ : BufTy).Contents (Elt F)) main_v106
  have main_v108 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v23 main_v49
  have main_v109 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v23 main_v60
  have main_v110 := ((fun a b => concatenate S128x4x384 1 [⟨S128x2x384, a⟩, ⟨S128x2x384, b⟩] concatenates_S128x2x384_S128x2x384_S128x4x384_d1) : (⟨S128x2x384, .f32⟩ : BufTy).Contents (Elt F) → (⟨S128x2x384, .f32⟩ : BufTy).Contents (Elt F) → (⟨S128x4x384, .f32⟩ : BufTy).Contents (Elt F)) main_v108 main_v109
  have main_v111 := (shapeCast _ · shapeCasts_S128x4x384_S128x1536) main_v110
  have main_v112 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v29 main_v72
  have main_v113 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v29 main_v83
  have main_v114 := ((fun a b => concatenate S128x4x384 1 [⟨S128x2x384, a⟩, ⟨S128x2x384, b⟩] concatenates_S128x2x384_S128x2x384_S128x4x384_d1) : (⟨S128x2x384, .f32⟩ : BufTy).Contents (Elt F) → (⟨S128x2x384, .f32⟩ : BufTy).Contents (Elt F) → (⟨S128x4x384, .f32⟩ : BufTy).Contents (Elt F)) main_v112 main_v113
  have main_v115 := (shapeCast _ · shapeCasts_S128x4x384_S128x1536) main_v114
  have main_v116 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v35 main_v95
  have main_v117 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v35 main_v107
  have main_v118 := ((fun a b => concatenate S128x4x384 1 [⟨S128x2x384, a⟩, ⟨S128x2x384, b⟩] concatenates_S128x2x384_S128x2x384_S128x4x384_d1) : (⟨S128x2x384, .f32⟩ : BufTy).Contents (Elt F) → (⟨S128x2x384, .f32⟩ : BufTy).Contents (Elt F) → (⟨S128x4x384, .f32⟩ : BufTy).Contents (Elt F)) main_v116 main_v117
  have main_v119 := (shapeCast _ · shapeCasts_S128x4x384_S128x1536) main_v118
  main_v111

/-- The feature rows of the second pair. -/
def midM (VE VM VC : (⟨S128x2x384, .f32⟩ : BufTy).Contents (Elt F)) : (⟨S128x1536, .f32⟩ : BufTy).Contents (Elt F) :=
  have main_call6_v0 := mulf VE VE
  have main_call6_cst := (constant (F := F) S_ .f32 0x00000000#32)
  have main_call6_v1 := (fun x v => Host.reduceAdd x v reducesTo_S128x2x384_S128x384_d1 h_S_) main_call6_v0 main_call6_cst
  have main_call6_v2 := (broadcastInDim S128x1x384 ![0, 2] bcast_S128x384_S128x1x384_0_2) main_call6_v1
  have main_v21 := Host.sqrt main_call6_v2
  have main_v22 := (broadcastInDim S128x2x384 ![0, 1, 2] bcast_S128x1x384_S128x2x384_0_1_2 : (⟨S128x1x384, .f32⟩ : BufTy).Contents (Elt F) → (⟨S128x2x384, .f32⟩ : BufTy).Contents (Elt F)) main_v21
  have main_v23 := (Host.divf : (⟨S128x2x384, .f32⟩ : BufTy).Contents (Elt F) → (⟨S128x2x384, .f32⟩ : BufTy).Contents (Elt F) → (⟨S128x2x384, .f32⟩ : BufTy).Contents (Elt F)) VE main_v22
  have main_call7_v0 := mulf VM VM
  have main_call7_cst := (constant (F := F) S_ .f32 0x00000000#32)
  have main_call7_v1 := (fun x v => Host.reduceAdd x v reducesTo_S128x2x384_S128x384_d1 h_S_) main_call7_v0 main_call7_cst
  have main_call7_v2 := (broadcastInDim S128x1x384 ![0, 2] bcast_S128x384_S128x1x384_0_2) main_call7_v1
  have main_v27 := Host.sqrt main_call7_v2
  have main_v28 := (broadcastInDim S128x2x384 ![0, 1, 2] bcast_S128x1x384_S128x2x384_0_1_2 : (⟨S128x1x384, .f32⟩ : BufTy).Contents (Elt F) → (⟨S128x2x384, .f32⟩ : BufTy).Contents (Elt F)) main_v27
  have main_v29 := (Host.divf : (⟨S128x2x384, .f32⟩ : BufTy).Contents (Elt F) → (⟨S128x2x384, .f32⟩ : BufTy).Contents (Elt F) → (⟨S128x2x384, .f32⟩ : BufTy).Contents (Elt F)) VM main_v28
  have main_call8_v0 := mulf VC VC
  have main_call8_cst := (constant (F := F) S_ .f32 0x00000000#32)
  have main_call8_v1 := (fun x v => Host.reduceAdd x v reducesTo_S128x2x384_S128x384_d1 h_S_) main_call8_v0 main_call8_cst
  have main_call8_v2 := (broadcastInDim S128x1x384 ![0, 2] bcast_S128x384_S128x1x384_0_2) main_call8_v1
  have main_v33 := Host.sqrt main_call8_v2
  have main_v34 := (broadcastInDim S128x2x384 ![0, 1, 2] bcast_S128x1x384_S128x2x384_0_1_2 : (⟨S128x1x384, .f32⟩ : BufTy).Contents (Elt F) → (⟨S128x2x384, .f32⟩ : BufTy).Contents (Elt F)) main_v33
  have main_v35 := (Host.divf : (⟨S128x2x384, .f32⟩ : BufTy).Contents (Elt F) → (⟨S128x2x384, .f32⟩ : BufTy).Contents (Elt F) → (⟨S128x2x384, .f32⟩ : BufTy).Contents (Elt F)) VC main_v34
  have main_v36 := ((fun l r => Host.dotGeneral dot_S128x2x384_S128x2x384_S128x384x384_1_1_2_2_0_0 none l r) : (⟨S128x2x384, .f32⟩ : BufTy).Contents (Elt F) → (⟨S128x2x384, .f32⟩ : BufTy).Contents (Elt F) → (⟨S128x384x384, .f32⟩ : BufTy).Contents (Elt F)) main_v23 main_v29
  have main_v37 := ((fun l r => Host.dotGeneral dot_S128x2x384_S128x2x384_S128x384x384_1_1_2_2_0_0 none l r) : (⟨S128x2x384, .f32⟩ : BufTy).Contents (Elt F) → (⟨S128x2x384, .f32⟩ : BufTy).Contents (Elt F) → (⟨S128x384x384, .f32⟩ : BufTy).Contents (Elt F)) main_v23 main_v35
  have main_v38 := ((fun l r => Host.dotGeneral dot_S128x2x384_S128x2x384_S128x384x384_1_1_2_2_0_0 none l r) : (⟨S128x2x384, .f32⟩ : BufTy).Contents (Elt F) → (⟨S128x2x384, .f32⟩ : BufTy).Contents (Elt F) → (⟨S128x384x384, .f32⟩ : BufTy).Contents (Elt F)) main_v29 main_v35
  have main_cst := (constant (F := F) S_ .f32 0xFF800000#32)
  have main_v39 := ((fun x v => Host.reduce FloatOps.maximumf x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v36 main_cst
  have main_cst_5 := (constant (F := F) S_ .f32 0xFF800000#32)
  have main_v40 := (broadcastInDim S128x384 ![] bcast_S_S128x384 : (⟨S_, .f32⟩ : BufTy).Contents (Elt F) → (⟨S128x384, .f32⟩ : BufTy).Contents (Elt F)) main_cst_5
  have main_v41 := (maximumf : (⟨S128x384, .f32⟩ : BufTy).Contents (Elt F) → (⟨S128x384, .f32⟩ : BufTy).Contents (Elt F) → (⟨S128x384, .f32⟩ : BufTy).Contents (Elt F)) main_v40 main_v39
  have main_v42 := (broadcastInDim S128x1x384 ![0, 2] bcast_S128x384_S128x1x384_0_2 : (⟨S128x384, .f32⟩ : BufTy).Contents (Elt F) → (⟨S128x1x384, .f32⟩ : BufTy).Contents (Elt F)) main_v41
  have main_v43 := (broadcastInDim S128x384x384 ![0, 1, 2] bcast_S128x1x384_S128x384x384_0_1_2 : (⟨S128x1x384, .f32⟩ : BufTy).Contents (Elt F) → (⟨S128x384x384, .f32⟩ : BufTy).Contents (Elt F)) main_v42
  have main_v44 := (subf : (⟨S128x384x384, .f32⟩ : BufTy).Contents (Elt F) → (⟨S128x384x384, .f32⟩ : BufTy).Contents (Elt F) → (⟨S128x384x384, .f32⟩ : BufTy).Contents (Elt F)) main_v36 main_v43
  have main_v45 := (Host.exp : (⟨S128x384x384, .f32⟩ : BufTy).Contents (Elt F) → (⟨S128x384x384, .f32⟩ : BufTy).Contents (Elt F)) main_v44
  have main_cst_6 := (constant (F := F) S_ .f32 0x00000000#32)
  have main_v46 := ((fun x v => Host.reduceAdd x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v45 main_cst_6
  have main_v47 := (broadcastInDim S128x1x384 ![0, 2] bcast_S128x384_S128x1x384_0_2 : (⟨S128x384, .f32⟩ : BufTy).Contents (Elt F) → (⟨S128x1x384, .f32⟩ : BufTy).Contents (Elt F)) main_v46
  have main_v48 := (broadcastInDim S128x384x384 ![0, 1, 2] bcast_S128x1x384_S128x384x384_0_1_2 : (⟨S128x1x384, .f32⟩ : BufTy).Contents (Elt F) → (⟨S128x384x384, .f32⟩ : BufTy).Contents (Elt F)) main_v47
  have main_v49 := (Host.divf : (⟨S128x384x384, .f32⟩ : BufTy).Contents (Elt F) → (⟨S128x384x384, .f32⟩ : BufTy).Contents (Elt F) → (⟨S128x384x384, .f32⟩ : BufTy).Contents (Elt F)) main_v45 main_v48
  have main_cst_7 := (constant (F := F) S_ .f32 0xFF800000#32)
  have main_v50 := ((fun x v => Host.reduce FloatOps.maximumf x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v37 main_cst_7
  have main_cst_8 := (constant (F := F) S_ .f32 0xFF800000#32)
  have main_v51 := (broadcastInDim S128x384 ![] bcast_S_S128x384 : (⟨S_, .f32⟩ : BufTy).Contents (Elt F) → (⟨S128x384, .f32⟩ : BufTy).Contents (Elt F)) main_cst_8
  have main_v52 := (maximumf : (⟨S128x384, .f32⟩ : BufTy).Contents (Elt F) → (⟨S128x384, .f32⟩ : BufTy).Contents (Elt F) → (⟨S128x384, .f32⟩ : BufTy).Contents (Elt F)) main_v51 main_v50
  have main_v53 := (broadcastInDim S128x1x384 ![0, 2] bcast_S128x384_S128x1x384_0_2 : (⟨S128x384, .f32⟩ : BufTy).Contents (Elt F) → (⟨S128x1x384, .f32⟩ : BufTy).Contents (Elt F)) main_v52
  have main_v54 := (broadcastInDim S128x384x384 ![0, 1, 2] bcast_S128x1x384_S128x384x384_0_1_2 : (⟨S128x1x384, .f32⟩ : BufTy).Contents (Elt F) → (⟨S128x384x384, .f32⟩ : BufTy).Contents (Elt F)) main_v53
  have main_v55 := (subf : (⟨S128x384x384, .f32⟩ : BufTy).Contents (Elt F) → (⟨S128x384x384, .f32⟩ : BufTy).Contents (Elt F) → (⟨S128x384x384, .f32⟩ : BufTy).Contents (Elt F)) main_v37 main_v54
  have main_v56 := (Host.exp : (⟨S128x384x384, .f32⟩ : BufTy).Contents (Elt F) → (⟨S128x384x384, .f32⟩ : BufTy).Contents (Elt F)) main_v55
  have main_cst_9 := (constant (F := F) S_ .f32 0x00000000#32)
  have main_v57 := ((fun x v => Host.reduceAdd x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v56 main_cst_9
  have main_v58 := (broadcastInDim S128x1x384 ![0, 2] bcast_S128x384_S128x1x384_0_2 : (⟨S128x384, .f32⟩ : BufTy).Contents (Elt F) → (⟨S128x1x384, .f32⟩ : BufTy).Contents (Elt F)) main_v57
  have main_v59 := (broadcastInDim S128x384x384 ![0, 1, 2] bcast_S128x1x384_S128x384x384_0_1_2 : (⟨S128x1x384, .f32⟩ : BufTy).Contents (Elt F) → (⟨S128x384x384, .f32⟩ : BufTy).Contents (Elt F)) main_v58
  have main_v60 := (Host.divf : (⟨S128x384x384, .f32⟩ : BufTy).Contents (Elt F) → (⟨S128x384x384, .f32⟩ : BufTy).Contents (Elt F) → (⟨S128x384x384, .f32⟩ : BufTy).Contents (Elt F)) main_v56 main_v59
  have main_cst_10 := (constant (F := F) S_ .f32 0xFF800000#32)
  have main_v61 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v36 main_cst_10
  have main_cst_11 := (constant (F := F) S_ .f32 0xFF800000#32)
  have main_v62 := (broadcastInDim S128x384 ![] bcast_S_S128x384 : (⟨S_, .f32⟩ : BufTy).Contents (Elt F) → (⟨S128x384, .f32⟩ : BufTy).Contents (Elt F)) main_cst_11
  have main_v63 := (maximumf : (⟨S128x384, .f32⟩ : BufTy).Contents (Elt F) → (⟨S128x384, .f32⟩ : BufTy).Contents (Elt F) → (⟨S128x384, .f32⟩ : BufTy).Contents (Elt F)) main_v62 main_v61
  have main_v64 := (broadcastInDim S128x384x1 ![0, 1] bcast_S128x384_S128x384x1_0_1 : (⟨S128x384, .f32⟩ : BufTy).Contents (Elt F) → (⟨S128x384x1, .f32⟩ : BufTy).Contents (Elt F)) main_v63
  have main_v65 := (broadcastInDim S128x384x384 ![0, 1, 2] bcast_S128x384x1_S128x384x384_0_1_2 : (⟨S128x384x1, .f32⟩ : BufTy).Contents (Elt F) → (⟨S128x384x384, .f32⟩ : BufTy).Contents (Elt F)) main_v64
  have main_v66 := (subf : (⟨S128x384x384, .f32⟩ : BufTy).Contents (Elt F) → (⟨S128x384x384, .f32⟩ : BufTy).Contents (Elt F) → (⟨S128x384x384, .f32⟩ : BufTy).Contents (Elt F)) main_v36 main_v65
  have main_v67 := (Host.exp : (⟨S128x384x384, .f32⟩ : BufTy).Contents (Elt F) → (⟨S128x384x384, .f32⟩ : BufTy).Contents (Elt F)) main_v66
  have main_cst_12 := (constant (F := F) S_ .f32 0x00000000#32)
  have main_v68 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v67 main_cst_12
  have main_v69 := (broadcastInDim S128x384x1 ![0, 1] bcast_S128x384_S128x384x1_0_1 : (⟨S128x384, .f32⟩ : BufTy).Contents (Elt F) → (⟨S128x384x1, .f32⟩ : BufTy).Contents (Elt F)) main_v68
  have main_v70 := (broadcastInDim S128x384x384 ![0, 1, 2] bcast_S128x384x1_S128x384x384_0_1_2 : (⟨S128x384x1, .f32⟩ : BufTy).Contents (Elt F) → (⟨S128x384x384, .f32⟩ : BufTy).Contents (Elt F)) main_v69
  have main_v71 := (Host.divf : (⟨S128x384x384, .f32⟩ : BufTy).Contents (Elt F) → (⟨S128x384x384, .f32⟩ : BufTy).Contents (Elt F) → (⟨S128x384x384, .f32⟩ : BufTy).Contents (Elt F)) main_v67 main_v70
  have main_v72 := ((transpose S128x384x384 [0, 2, 1] · transposes_S128x384x384_S128x384x384_0_2_1) : (⟨S128x384x384, .f32⟩ : BufTy).Contents (Elt F) → (⟨S128x384x384, .f32⟩ : BufTy).Contents (Elt F)) main_v71
  have main_cst_13 := (constant (F := F) S_ .f32 0xFF800000#32)
  have main_v73 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v38 main_cst_13
  have main_cst_14 := (constant (F := F) S_ .f32 0xFF800000#32)
  have main_v74 := (broadcastInDim S128x384 ![] bcast_S_S128x384 : (⟨S_, .f32⟩ : BufTy).Contents (Elt F) → (⟨S128x384, .f32⟩ : BufTy).Contents (Elt F)) main_cst_14
  have main_v75 := (maximumf : (⟨S128x384, .f32⟩ : BufTy).Contents (Elt F) → (⟨S128x384, .f32⟩ : BufTy).Contents (Elt F) → (⟨S128x384, .f32⟩ : BufTy).Contents (Elt F)) main_v74 main_v73
  have main_v76 := (broadcastInDim S128x384x1 ![0, 1] bcast_S128x384_S128x384x1_0_1 : (⟨S128x384, .f32⟩ : BufTy).Contents (Elt F) → (⟨S128x384x1, .f32⟩ : BufTy).Contents (Elt F)) main_v75
  have main_v77 := (broadcastInDim S128x384x384 ![0, 1, 2] bcast_S128x384x1_S128x384x384_0_1_2 : (⟨S128x384x1, .f32⟩ : BufTy).Contents (Elt F) → (⟨S128x384x384, .f32⟩ : BufTy).Contents (Elt F)) main_v76
  have main_v78 := (subf : (⟨S128x384x384, .f32⟩ : BufTy).Contents (Elt F) → (⟨S128x384x384, .f32⟩ : BufTy).Contents (Elt F) → (⟨S128x384x384, .f32⟩ : BufTy).Contents (Elt F)) main_v38 main_v77
  have main_v79 := (Host.exp : (⟨S128x384x384, .f32⟩ : BufTy).Contents (Elt F) → (⟨S128x384x384, .f32⟩ : BufTy).Contents (Elt F)) main_v78
  have main_cst_15 := (constant (F := F) S_ .f32 0x00000000#32)
  have main_v80 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v79 main_cst_15
  have main_v81 := (broadcastInDim S128x384x1 ![0, 1] bcast_S128x384_S128x384x1_0_1 : (⟨S128x384, .f32⟩ : BufTy).Contents (Elt F) → (⟨S128x384x1, .f32⟩ : BufTy).Contents (Elt F)) main_v80
  have main_v82 := (broadcastInDim S128x384x384 ![0, 1, 2] bcast_S128x384x1_S128x384x384_0_1_2 : (⟨S128x384x1, .f32⟩ : BufTy).Contents (Elt F) → (⟨S128x384x384, .f32⟩ : BufTy).Contents (Elt F)) main_v81
  have main_v83 := (Host.divf : (⟨S128x384x384, .f32⟩ : BufTy).Contents (Elt F) → (⟨S128x384x384, .f32⟩ : BufTy).Contents (Elt F) → (⟨S128x384x384, .f32⟩ : BufTy).Contents (Elt F)) main_v79 main_v82
  have main_cst_16 := (constant (F := F) S_ .f32 0xFF800000#32)
  have main_v84 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v37 main_cst_16
  have main_cst_17 := (constant (F := F) S_ .f32 0xFF800000#32)
  have main_v85 := (broadcastInDim S128x384 ![] bcast_S_S128x384 : (⟨S_, .f32⟩ : BufTy).Contents (Elt F) → (⟨S128x384, .f32⟩ : BufTy).Contents (Elt F)) main_cst_17
  have main_v86 := (maximumf : (⟨S128x384, .f32⟩ : BufTy).Contents (Elt F) → (⟨S128x384, .f32⟩ : BufTy).Contents (Elt F) → (⟨S128x384, .f32⟩ : BufTy).Contents (Elt F)) main_v85 main_v84
  have main_v87 := (broadcastInDim S128x384x1 ![0, 1] bcast_S128x384_S128x384x1_0_1 : (⟨S128x384, .f32⟩ : BufTy).Contents (Elt F) → (⟨S128x384x1, .f32⟩ : BufTy).Contents (Elt F)) main_v86
  have main_v88 := (broadcastInDim S128x384x384 ![0, 1, 2] bcast_S128x384x1_S128x384x384_0_1_2 : (⟨S128x384x1, .f32⟩ : BufTy).Contents (Elt F) → (⟨S128x384x384, .f32⟩ : BufTy).Contents (Elt F)) main_v87
  have main_v89 := (subf : (⟨S128x384x384, .f32⟩ : BufTy).Contents (Elt F) → (⟨S128x384x384, .f32⟩ : BufTy).Contents (Elt F) → (⟨S128x384x384, .f32⟩ : BufTy).Contents (Elt F)) main_v37 main_v88
  have main_v90 := (Host.exp : (⟨S128x384x384, .f32⟩ : BufTy).Contents (Elt F) → (⟨S128x384x384, .f32⟩ : BufTy).Contents (Elt F)) main_v89
  have main_cst_18 := (constant (F := F) S_ .f32 0x00000000#32)
  have main_v91 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v90 main_cst_18
  have main_v92 := (broadcastInDim S128x384x1 ![0, 1] bcast_S128x384_S128x384x1_0_1 : (⟨S128x384, .f32⟩ : BufTy).Contents (Elt F) → (⟨S128x384x1, .f32⟩ : BufTy).Contents (Elt F)) main_v91
  have main_v93 := (broadcastInDim S128x384x384 ![0, 1, 2] bcast_S128x384x1_S128x384x384_0_1_2 : (⟨S128x384x1, .f32⟩ : BufTy).Contents (Elt F) → (⟨S128x384x384, .f32⟩ : BufTy).Contents (Elt F)) main_v92
  have main_v94 := (Host.divf : (⟨S128x384x384, .f32⟩ : BufTy).Contents (Elt F) → (⟨S128x384x384, .f32⟩ : BufTy).Contents (Elt F) → (⟨S128x384x384, .f32⟩ : BufTy).Contents (Elt F)) main_v90 main_v93
  have main_v95 := ((transpose S128x384x384 [0, 2, 1] · transposes_S128x384x384_S128x384x384_0_2_1) : (⟨S128x384x384, .f32⟩ : BufTy).Contents (Elt F) → (⟨S128x384x384, .f32⟩ : BufTy).Contents (Elt F)) main_v94
  have main_cst_19 := (constant (F := F) S_ .f32 0xFF800000#32)
  have main_v96 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v38 main_cst_19
  have main_cst_20 := (constant (F := F) S_ .f32 0xFF800000#32)
  have main_v97 := (broadcastInDim S128x384 ![] bcast_S_S128x384 : (⟨S_, .f32⟩ : BufTy).Contents (Elt F) → (⟨S128x384, .f32⟩ : BufTy).Contents (Elt F)) main_cst_20
  have main_v98 := (maximumf : (⟨S128x384, .f32⟩ : BufTy).Contents (Elt F) → (⟨S128x384, .f32⟩ : BufTy).Contents (Elt F) → (⟨S128x384, .f32⟩ : BufTy).Contents (Elt F)) main_v97 main_v96
  have main_v99 := (broadcastInDim S128x384x1 ![0, 1] bcast_S128x384_S128x384x1_0_1 : (⟨S128x384, .f32⟩ : BufTy).Contents (Elt F) → (⟨S128x384x1, .f32⟩ : BufTy).Contents (Elt F)) main_v98
  have main_v100 := (broadcastInDim S128x384x384 ![0, 1, 2] bcast_S128x384x1_S128x384x384_0_1_2 : (⟨S128x384x1, .f32⟩ : BufTy).Contents (Elt F) → (⟨S128x384x384, .f32⟩ : BufTy).Contents (Elt F)) main_v99
  have main_v101 := (subf : (⟨S128x384x384, .f32⟩ : BufTy).Contents (Elt F) → (⟨S128x384x384, .f32⟩ : BufTy).Contents (Elt F) → (⟨S128x384x384, .f32⟩ : BufTy).Contents (Elt F)) main_v38 main_v100
  have main_v102 := (Host.exp : (⟨S128x384x384, .f32⟩ : BufTy).Contents (Elt F) → (⟨S128x384x384, .f32⟩ : BufTy).Contents (Elt F)) main_v101
  have main_cst_21 := (constant (F := F) S_ .f32 0x00000000#32)
  have main_v103 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v102 main_cst_21
  have main_v104 := (broadcastInDim S128x384x1 ![0, 1] bcast_S128x384_S128x384x1_0_1 : (⟨S128x384, .f32⟩ : BufTy).Contents (Elt F) → (⟨S128x384x1, .f32⟩ : BufTy).Contents (Elt F)) main_v103
  have main_v105 := (broadcastInDim S128x384x384 ![0, 1, 2] bcast_S128x384x1_S128x384x384_0_1_2 : (⟨S128x384x1, .f32⟩ : BufTy).Contents (Elt F) → (⟨S128x384x384, .f32⟩ : BufTy).Contents (Elt F)) main_v104
  have main_v106 := (Host.divf : (⟨S128x384x384, .f32⟩ : BufTy).Contents (Elt F) → (⟨S128x384x384, .f32⟩ : BufTy).Contents (Elt F) → (⟨S128x384x384, .f32⟩ : BufTy).Contents (Elt F)) main_v102 main_v105
  have main_v107 := ((transpose S128x384x384 [0, 2, 1] · transposes_S128x384x384_S128x384x384_0_2_1) : (⟨S128x384x384, .f32⟩ : BufTy).Contents (Elt F) → (⟨S128x384x384, .f32⟩ : BufTy).Contents (Elt F)) main_v106
  have main_v108 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v23 main_v49
  have main_v109 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v23 main_v60
  have main_v110 := ((fun a b => concatenate S128x4x384 1 [⟨S128x2x384, a⟩, ⟨S128x2x384, b⟩] concatenates_S128x2x384_S128x2x384_S128x4x384_d1) : (⟨S128x2x384, .f32⟩ : BufTy).Contents (Elt F) → (⟨S128x2x384, .f32⟩ : BufTy).Contents (Elt F) → (⟨S128x4x384, .f32⟩ : BufTy).Contents (Elt F)) main_v108 main_v109
  have main_v111 := (shapeCast _ · shapeCasts_S128x4x384_S128x1536) main_v110
  have main_v112 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v29 main_v72
  have main_v113 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v29 main_v83
  have main_v114 := ((fun a b => concatenate S128x4x384 1 [⟨S128x2x384, a⟩, ⟨S128x2x384, b⟩] concatenates_S128x2x384_S128x2x384_S128x4x384_d1) : (⟨S128x2x384, .f32⟩ : BufTy).Contents (Elt F) → (⟨S128x2x384, .f32⟩ : BufTy).Contents (Elt F) → (⟨S128x4x384, .f32⟩ : BufTy).Contents (Elt F)) main_v112 main_v113
  have main_v115 := (shapeCast _ · shapeCasts_S128x4x384_S128x1536) main_v114
  have main_v116 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v35 main_v95
  have main_v117 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v35 main_v107
  have main_v118 := ((fun a b => concatenate S128x4x384 1 [⟨S128x2x384, a⟩, ⟨S128x2x384, b⟩] concatenates_S128x2x384_S128x2x384_S128x4x384_d1) : (⟨S128x2x384, .f32⟩ : BufTy).Contents (Elt F) → (⟨S128x2x384, .f32⟩ : BufTy).Contents (Elt F) → (⟨S128x4x384, .f32⟩ : BufTy).Contents (Elt F)) main_v116 main_v117
  have main_v119 := (shapeCast _ · shapeCasts_S128x4x384_S128x1536) main_v118
  main_v115

/-- The feature rows of the third pair. -/
def midC (VE VM VC : (⟨S128x2x384, .f32⟩ : BufTy).Contents (Elt F)) : (⟨S128x1536, .f32⟩ : BufTy).Contents (Elt F) :=
  have main_call6_v0 := mulf VE VE
  have main_call6_cst := (constant (F := F) S_ .f32 0x00000000#32)
  have main_call6_v1 := (fun x v => Host.reduceAdd x v reducesTo_S128x2x384_S128x384_d1 h_S_) main_call6_v0 main_call6_cst
  have main_call6_v2 := (broadcastInDim S128x1x384 ![0, 2] bcast_S128x384_S128x1x384_0_2) main_call6_v1
  have main_v21 := Host.sqrt main_call6_v2
  have main_v22 := (broadcastInDim S128x2x384 ![0, 1, 2] bcast_S128x1x384_S128x2x384_0_1_2 : (⟨S128x1x384, .f32⟩ : BufTy).Contents (Elt F) → (⟨S128x2x384, .f32⟩ : BufTy).Contents (Elt F)) main_v21
  have main_v23 := (Host.divf : (⟨S128x2x384, .f32⟩ : BufTy).Contents (Elt F) → (⟨S128x2x384, .f32⟩ : BufTy).Contents (Elt F) → (⟨S128x2x384, .f32⟩ : BufTy).Contents (Elt F)) VE main_v22
  have main_call7_v0 := mulf VM VM
  have main_call7_cst := (constant (F := F) S_ .f32 0x00000000#32)
  have main_call7_v1 := (fun x v => Host.reduceAdd x v reducesTo_S128x2x384_S128x384_d1 h_S_) main_call7_v0 main_call7_cst
  have main_call7_v2 := (broadcastInDim S128x1x384 ![0, 2] bcast_S128x384_S128x1x384_0_2) main_call7_v1
  have main_v27 := Host.sqrt main_call7_v2
  have main_v28 := (broadcastInDim S128x2x384 ![0, 1, 2] bcast_S128x1x384_S128x2x384_0_1_2 : (⟨S128x1x384, .f32⟩ : BufTy).Contents (Elt F) → (⟨S128x2x384, .f32⟩ : BufTy).Contents (Elt F)) main_v27
  have main_v29 := (Host.divf : (⟨S128x2x384, .f32⟩ : BufTy).Contents (Elt F) → (⟨S128x2x384, .f32⟩ : BufTy).Contents (Elt F) → (⟨S128x2x384, .f32⟩ : BufTy).Contents (Elt F)) VM main_v28
  have main_call8_v0 := mulf VC VC
  have main_call8_cst := (constant (F := F) S_ .f32 0x00000000#32)
  have main_call8_v1 := (fun x v => Host.reduceAdd x v reducesTo_S128x2x384_S128x384_d1 h_S_) main_call8_v0 main_call8_cst
  have main_call8_v2 := (broadcastInDim S128x1x384 ![0, 2] bcast_S128x384_S128x1x384_0_2) main_call8_v1
  have main_v33 := Host.sqrt main_call8_v2
  have main_v34 := (broadcastInDim S128x2x384 ![0, 1, 2] bcast_S128x1x384_S128x2x384_0_1_2 : (⟨S128x1x384, .f32⟩ : BufTy).Contents (Elt F) → (⟨S128x2x384, .f32⟩ : BufTy).Contents (Elt F)) main_v33
  have main_v35 := (Host.divf : (⟨S128x2x384, .f32⟩ : BufTy).Contents (Elt F) → (⟨S128x2x384, .f32⟩ : BufTy).Contents (Elt F) → (⟨S128x2x384, .f32⟩ : BufTy).Contents (Elt F)) VC main_v34
  have main_v36 := ((fun l r => Host.dotGeneral dot_S128x2x384_S128x2x384_S128x384x384_1_1_2_2_0_0 none l r) : (⟨S128x2x384, .f32⟩ : BufTy).Contents (Elt F) → (⟨S128x2x384, .f32⟩ : BufTy).Contents (Elt F) → (⟨S128x384x384, .f32⟩ : BufTy).Contents (Elt F)) main_v23 main_v29
  have main_v37 := ((fun l r => Host.dotGeneral dot_S128x2x384_S128x2x384_S128x384x384_1_1_2_2_0_0 none l r) : (⟨S128x2x384, .f32⟩ : BufTy).Contents (Elt F) → (⟨S128x2x384, .f32⟩ : BufTy).Contents (Elt F) → (⟨S128x384x384, .f32⟩ : BufTy).Contents (Elt F)) main_v23 main_v35
  have main_v38 := ((fun l r => Host.dotGeneral dot_S128x2x384_S128x2x384_S128x384x384_1_1_2_2_0_0 none l r) : (⟨S128x2x384, .f32⟩ : BufTy).Contents (Elt F) → (⟨S128x2x384, .f32⟩ : BufTy).Contents (Elt F) → (⟨S128x384x384, .f32⟩ : BufTy).Contents (Elt F)) main_v29 main_v35
  have main_cst := (constant (F := F) S_ .f32 0xFF800000#32)
  have main_v39 := ((fun x v => Host.reduce FloatOps.maximumf x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v36 main_cst
  have main_cst_5 := (constant (F := F) S_ .f32 0xFF800000#32)
  have main_v40 := (broadcastInDim S128x384 ![] bcast_S_S128x384 : (⟨S_, .f32⟩ : BufTy).Contents (Elt F) → (⟨S128x384, .f32⟩ : BufTy).Contents (Elt F)) main_cst_5
  have main_v41 := (maximumf : (⟨S128x384, .f32⟩ : BufTy).Contents (Elt F) → (⟨S128x384, .f32⟩ : BufTy).Contents (Elt F) → (⟨S128x384, .f32⟩ : BufTy).Contents (Elt F)) main_v40 main_v39
  have main_v42 := (broadcastInDim S128x1x384 ![0, 2] bcast_S128x384_S128x1x384_0_2 : (⟨S128x384, .f32⟩ : BufTy).Contents (Elt F) → (⟨S128x1x384, .f32⟩ : BufTy).Contents (Elt F)) main_v41
  have main_v43 := (broadcastInDim S128x384x384 ![0, 1, 2] bcast_S128x1x384_S128x384x384_0_1_2 : (⟨S128x1x384, .f32⟩ : BufTy).Contents (Elt F) → (⟨S128x384x384, .f32⟩ : BufTy).Contents (Elt F)) main_v42
  have main_v44 := (subf : (⟨S128x384x384, .f32⟩ : BufTy).Contents (Elt F) → (⟨S128x384x384, .f32⟩ : BufTy).Contents (Elt F) → (⟨S128x384x384, .f32⟩ : BufTy).Contents (Elt F)) main_v36 main_v43
  have main_v45 := (Host.exp : (⟨S128x384x384, .f32⟩ : BufTy).Contents (Elt F) → (⟨S128x384x384, .f32⟩ : BufTy).Contents (Elt F)) main_v44
  have main_cst_6 := (constant (F := F) S_ .f32 0x00000000#32)
  have main_v46 := ((fun x v => Host.reduceAdd x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v45 main_cst_6
  have main_v47 := (broadcastInDim S128x1x384 ![0, 2] bcast_S128x384_S128x1x384_0_2 : (⟨S128x384, .f32⟩ : BufTy).Contents (Elt F) → (⟨S128x1x384, .f32⟩ : BufTy).Contents (Elt F)) main_v46
  have main_v48 := (broadcastInDim S128x384x384 ![0, 1, 2] bcast_S128x1x384_S128x384x384_0_1_2 : (⟨S128x1x384, .f32⟩ : BufTy).Contents (Elt F) → (⟨S128x384x384, .f32⟩ : BufTy).Contents (Elt F)) main_v47
  have main_v49 := (Host.divf : (⟨S128x384x384, .f32⟩ : BufTy).Contents (Elt F) → (⟨S128x384x384, .f32⟩ : BufTy).Contents (Elt F) → (⟨S128x384x384, .f32⟩ : BufTy).Contents (Elt F)) main_v45 main_v48
  have main_cst_7 := (constant (F := F) S_ .f32 0xFF800000#32)
  have main_v50 := ((fun x v => Host.reduce FloatOps.maximumf x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v37 main_cst_7
  have main_cst_8 := (constant (F := F) S_ .f32 0xFF800000#32)
  have main_v51 := (broadcastInDim S128x384 ![] bcast_S_S128x384 : (⟨S_, .f32⟩ : BufTy).Contents (Elt F) → (⟨S128x384, .f32⟩ : BufTy).Contents (Elt F)) main_cst_8
  have main_v52 := (maximumf : (⟨S128x384, .f32⟩ : BufTy).Contents (Elt F) → (⟨S128x384, .f32⟩ : BufTy).Contents (Elt F) → (⟨S128x384, .f32⟩ : BufTy).Contents (Elt F)) main_v51 main_v50
  have main_v53 := (broadcastInDim S128x1x384 ![0, 2] bcast_S128x384_S128x1x384_0_2 : (⟨S128x384, .f32⟩ : BufTy).Contents (Elt F) → (⟨S128x1x384, .f32⟩ : BufTy).Contents (Elt F)) main_v52
  have main_v54 := (broadcastInDim S128x384x384 ![0, 1, 2] bcast_S128x1x384_S128x384x384_0_1_2 : (⟨S128x1x384, .f32⟩ : BufTy).Contents (Elt F) → (⟨S128x384x384, .f32⟩ : BufTy).Contents (Elt F)) main_v53
  have main_v55 := (subf : (⟨S128x384x384, .f32⟩ : BufTy).Contents (Elt F) → (⟨S128x384x384, .f32⟩ : BufTy).Contents (Elt F) → (⟨S128x384x384, .f32⟩ : BufTy).Contents (Elt F)) main_v37 main_v54
  have main_v56 := (Host.exp : (⟨S128x384x384, .f32⟩ : BufTy).Contents (Elt F) → (⟨S128x384x384, .f32⟩ : BufTy).Contents (Elt F)) main_v55
  have main_cst_9 := (constant (F := F) S_ .f32 0x00000000#32)
  have main_v57 := ((fun x v => Host.reduceAdd x v reducesTo_S128x384x384_S128x384_d1 h_S_) : (⟨S128x384x384, .f32⟩ : BufTy).Contents (Elt F) → (⟨S_, .f32⟩ : BufTy).Contents (Elt F) → (⟨S128x384, .f32⟩ : BufTy).Contents (Elt F)) main_v56 main_cst_9
  have main_v58 := (broadcastInDim S128x1x384 ![0, 2] bcast_S128x384_S128x1x384_0_2 : (⟨S128x384, .f32⟩ : BufTy).Contents (Elt F) → (⟨S128x1x384, .f32⟩ : BufTy).Contents (Elt F)) main_v57
  have main_v59 := (broadcastInDim S128x384x384 ![0, 1, 2] bcast_S128x1x384_S128x384x384_0_1_2 : (⟨S128x1x384, .f32⟩ : BufTy).Contents (Elt F) → (⟨S128x384x384, .f32⟩ : BufTy).Contents (Elt F)) main_v58
  have main_v60 := (Host.divf : (⟨S128x384x384, .f32⟩ : BufTy).Contents (Elt F) → (⟨S128x384x384, .f32⟩ : BufTy).Contents (Elt F) → (⟨S128x384x384, .f32⟩ : BufTy).Contents (Elt F)) main_v56 main_v59
  have main_cst_10 := (constant (F := F) S_ .f32 0xFF800000#32)
  have main_v61 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v36 main_cst_10
  have main_cst_11 := (constant (F := F) S_ .f32 0xFF800000#32)
  have main_v62 := (broadcastInDim S128x384 ![] bcast_S_S128x384 : (⟨S_, .f32⟩ : BufTy).Contents (Elt F) → (⟨S128x384, .f32⟩ : BufTy).Contents (Elt F)) main_cst_11
  have main_v63 := (maximumf : (⟨S128x384, .f32⟩ : BufTy).Contents (Elt F) → (⟨S128x384, .f32⟩ : BufTy).Contents (Elt F) → (⟨S128x384, .f32⟩ : BufTy).Contents (Elt F)) main_v62 main_v61
  have main_v64 := (broadcastInDim S128x384x1 ![0, 1] bcast_S128x384_S128x384x1_0_1 : (⟨S128x384, .f32⟩ : BufTy).Contents (Elt F) → (⟨S128x384x1, .f32⟩ : BufTy).Contents (Elt F)) main_v63
  have main_v65 := (broadcastInDim S128x384x384 ![0, 1, 2] bcast_S128x384x1_S128x384x384_0_1_2 : (⟨S128x384x1, .f32⟩ : BufTy).Contents (Elt F) → (⟨S128x384x384, .f32⟩ : BufTy).Contents (Elt F)) main_v64
  have main_v66 := (subf : (⟨S128x384x384, .f32⟩ : BufTy).Contents (Elt F) → (⟨S128x384x384, .f32⟩ : BufTy).Contents (Elt F) → (⟨S128x384x384, .f32⟩ : BufTy).Contents (Elt F)) main_v36 main_v65
  have main_v67 := (Host.exp : (⟨S128x384x384, .f32⟩ : BufTy).Contents (Elt F) → (⟨S128x384x384, .f32⟩ : BufTy).Contents (Elt F)) main_v66
  have main_cst_12 := (constant (F := F) S_ .f32 0x00000000#32)
  have main_v68 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v67 main_cst_12
  have main_v69 := (broadcastInDim S128x384x1 ![0, 1] bcast_S128x384_S128x384x1_0_1 : (⟨S128x384, .f32⟩ : BufTy).Contents (Elt F) → (⟨S128x384x1, .f32⟩ : BufTy).Contents (Elt F)) main_v68
  have main_v70 := (broadcastInDim S128x384x384 ![0, 1, 2] bcast_S128x384x1_S128x384x384_0_1_2 : (⟨S128x384x1, .f32⟩ : BufTy).Contents (Elt F) → (⟨S128x384x384, .f32⟩ : BufTy).Contents (Elt F)) main_v69
  have main_v71 := (Host.divf : (⟨S128x384x384, .f32⟩ : BufTy).Contents (Elt F) → (⟨S128x384x384, .f32⟩ : BufTy).Contents (Elt F) → (⟨S128x384x384, .f32⟩ : BufTy).Contents (Elt F)) main_v67 main_v70
  have main_v72 := ((transpose S128x384x384 [0, 2, 1] · transposes_S128x384x384_S128x384x384_0_2_1) : (⟨S128x384x384, .f32⟩ : BufTy).Contents (Elt F) → (⟨S128x384x384, .f32⟩ : BufTy).Contents (Elt F)) main_v71
  have main_cst_13 := (constant (F := F) S_ .f32 0xFF800000#32)
  have main_v73 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v38 main_cst_13
  have main_cst_14 := (constant (F := F) S_ .f32 0xFF800000#32)
  have main_v74 := (broadcastInDim S128x384 ![] bcast_S_S128x384 : (⟨S_, .f32⟩ : BufTy).Contents (Elt F) → (⟨S128x384, .f32⟩ : BufTy).Contents (Elt F)) main_cst_14
  have main_v75 := (maximumf : (⟨S128x384, .f32⟩ : BufTy).Contents (Elt F) → (⟨S128x384, .f32⟩ : BufTy).Contents (Elt F) → (⟨S128x384, .f32⟩ : BufTy).Contents (Elt F)) main_v74 main_v73
  have main_v76 := (broadcastInDim S128x384x1 ![0, 1] bcast_S128x384_S128x384x1_0_1 : (⟨S128x384, .f32⟩ : BufTy).Contents (Elt F) → (⟨S128x384x1, .f32⟩ : BufTy).Contents (Elt F)) main_v75
  have main_v77 := (broadcastInDim S128x384x384 ![0, 1, 2] bcast_S128x384x1_S128x384x384_0_1_2 : (⟨S128x384x1, .f32⟩ : BufTy).Contents (Elt F) → (⟨S128x384x384, .f32⟩ : BufTy).Contents (Elt F)) main_v76
  have main_v78 := (subf : (⟨S128x384x384, .f32⟩ : BufTy).Contents (Elt F) → (⟨S128x384x384, .f32⟩ : BufTy).Contents (Elt F) → (⟨S128x384x384, .f32⟩ : BufTy).Contents (Elt F)) main_v38 main_v77
  have main_v79 := (Host.exp : (⟨S128x384x384, .f32⟩ : BufTy).Contents (Elt F) → (⟨S128x384x384, .f32⟩ : BufTy).Contents (Elt F)) main_v78
  have main_cst_15 := (constant (F := F) S_ .f32 0x00000000#32)
  have main_v80 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v79 main_cst_15
  have main_v81 := (broadcastInDim S128x384x1 ![0, 1] bcast_S128x384_S128x384x1_0_1 : (⟨S128x384, .f32⟩ : BufTy).Contents (Elt F) → (⟨S128x384x1, .f32⟩ : BufTy).Contents (Elt F)) main_v80
  have main_v82 := (broadcastInDim S128x384x384 ![0, 1, 2] bcast_S128x384x1_S128x384x384_0_1_2 : (⟨S128x384x1, .f32⟩ : BufTy).Contents (Elt F) → (⟨S128x384x384, .f32⟩ : BufTy).Contents (Elt F)) main_v81
  have main_v83 := (Host.divf : (⟨S128x384x384, .f32⟩ : BufTy).Contents (Elt F) → (⟨S128x384x384, .f32⟩ : BufTy).Contents (Elt F) → (⟨S128x384x384, .f32⟩ : BufTy).Contents (Elt F)) main_v79 main_v82
  have main_cst_16 := (constant (F := F) S_ .f32 0xFF800000#32)
  have main_v84 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v37 main_cst_16
  have main_cst_17 := (constant (F := F) S_ .f32 0xFF800000#32)
  have main_v85 := (broadcastInDim S128x384 ![] bcast_S_S128x384 : (⟨S_, .f32⟩ : BufTy).Contents (Elt F) → (⟨S128x384, .f32⟩ : BufTy).Contents (Elt F)) main_cst_17
  have main_v86 := (maximumf : (⟨S128x384, .f32⟩ : BufTy).Contents (Elt F) → (⟨S128x384, .f32⟩ : BufTy).Contents (Elt F) → (⟨S128x384, .f32⟩ : BufTy).Contents (Elt F)) main_v85 main_v84
  have main_v87 := (broadcastInDim S128x384x1 ![0, 1] bcast_S128x384_S128x384x1_0_1 : (⟨S128x384, .f32⟩ : BufTy).Contents (Elt F) → (⟨S128x384x1, .f32⟩ : BufTy).Contents (Elt F)) main_v86
  have main_v88 := (broadcastInDim S128x384x384 ![0, 1, 2] bcast_S128x384x1_S128x384x384_0_1_2 : (⟨S128x384x1, .f32⟩ : BufTy).Contents (Elt F) → (⟨S128x384x384, .f32⟩ : BufTy).Contents (Elt F)) main_v87
  have main_v89 := (subf : (⟨S128x384x384, .f32⟩ : BufTy).Contents (Elt F) → (⟨S128x384x384, .f32⟩ : BufTy).Contents (Elt F) → (⟨S128x384x384, .f32⟩ : BufTy).Contents (Elt F)) main_v37 main_v88
  have main_v90 := (Host.exp : (⟨S128x384x384, .f32⟩ : BufTy).Contents (Elt F) → (⟨S128x384x384, .f32⟩ : BufTy).Contents (Elt F)) main_v89
  have main_cst_18 := (constant (F := F) S_ .f32 0x00000000#32)
  have main_v91 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v90 main_cst_18
  have main_v92 := (broadcastInDim S128x384x1 ![0, 1] bcast_S128x384_S128x384x1_0_1 : (⟨S128x384, .f32⟩ : BufTy).Contents (Elt F) → (⟨S128x384x1, .f32⟩ : BufTy).Contents (Elt F)) main_v91
  have main_v93 := (broadcastInDim S128x384x384 ![0, 1, 2] bcast_S128x384x1_S128x384x384_0_1_2 : (⟨S128x384x1, .f32⟩ : BufTy).Contents (Elt F) → (⟨S128x384x384, .f32⟩ : BufTy).Contents (Elt F)) main_v92
  have main_v94 := (Host.divf : (⟨S128x384x384, .f32⟩ : BufTy).Contents (Elt F) → (⟨S128x384x384, .f32⟩ : BufTy).Contents (Elt F) → (⟨S128x384x384, .f32⟩ : BufTy).Contents (Elt F)) main_v90 main_v93
  have main_v95 := ((transpose S128x384x384 [0, 2, 1] · transposes_S128x384x384_S128x384x384_0_2_1) : (⟨S128x384x384, .f32⟩ : BufTy).Contents (Elt F) → (⟨S128x384x384, .f32⟩ : BufTy).Contents (Elt F)) main_v94
  have main_cst_19 := (constant (F := F) S_ .f32 0xFF800000#32)
  have main_v96 := ((fun x v => Host.reduce FloatOps.maximumf x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v38 main_cst_19
  have main_cst_20 := (constant (F := F) S_ .f32 0xFF800000#32)
  have main_v97 := (broadcastInDim S128x384 ![] bcast_S_S128x384 : (⟨S_, .f32⟩ : BufTy).Contents (Elt F) → (⟨S128x384, .f32⟩ : BufTy).Contents (Elt F)) main_cst_20
  have main_v98 := (maximumf : (⟨S128x384, .f32⟩ : BufTy).Contents (Elt F) → (⟨S128x384, .f32⟩ : BufTy).Contents (Elt F) → (⟨S128x384, .f32⟩ : BufTy).Contents (Elt F)) main_v97 main_v96
  have main_v99 := (broadcastInDim S128x384x1 ![0, 1] bcast_S128x384_S128x384x1_0_1 : (⟨S128x384, .f32⟩ : BufTy).Contents (Elt F) → (⟨S128x384x1, .f32⟩ : BufTy).Contents (Elt F)) main_v98
  have main_v100 := (broadcastInDim S128x384x384 ![0, 1, 2] bcast_S128x384x1_S128x384x384_0_1_2 : (⟨S128x384x1, .f32⟩ : BufTy).Contents (Elt F) → (⟨S128x384x384, .f32⟩ : BufTy).Contents (Elt F)) main_v99
  have main_v101 := (subf : (⟨S128x384x384, .f32⟩ : BufTy).Contents (Elt F) → (⟨S128x384x384, .f32⟩ : BufTy).Contents (Elt F) → (⟨S128x384x384, .f32⟩ : BufTy).Contents (Elt F)) main_v38 main_v100
  have main_v102 := (Host.exp : (⟨S128x384x384, .f32⟩ : BufTy).Contents (Elt F) → (⟨S128x384x384, .f32⟩ : BufTy).Contents (Elt F)) main_v101
  have main_cst_21 := (constant (F := F) S_ .f32 0x00000000#32)
  have main_v103 := ((fun x v => Host.reduceAdd x v reducesTo_S128x384x384_S128x384_d2 h_S_) : (⟨S128x384x384, .f32⟩ : BufTy).Contents (Elt F) → (⟨S_, .f32⟩ : BufTy).Contents (Elt F) → (⟨S128x384, .f32⟩ : BufTy).Contents (Elt F)) main_v102 main_cst_21
  have main_v104 := (broadcastInDim S128x384x1 ![0, 1] bcast_S128x384_S128x384x1_0_1 : (⟨S128x384, .f32⟩ : BufTy).Contents (Elt F) → (⟨S128x384x1, .f32⟩ : BufTy).Contents (Elt F)) main_v103
  have main_v105 := (broadcastInDim S128x384x384 ![0, 1, 2] bcast_S128x384x1_S128x384x384_0_1_2 : (⟨S128x384x1, .f32⟩ : BufTy).Contents (Elt F) → (⟨S128x384x384, .f32⟩ : BufTy).Contents (Elt F)) main_v104
  have main_v106 := (Host.divf : (⟨S128x384x384, .f32⟩ : BufTy).Contents (Elt F) → (⟨S128x384x384, .f32⟩ : BufTy).Contents (Elt F) → (⟨S128x384x384, .f32⟩ : BufTy).Contents (Elt F)) main_v102 main_v105
  have main_v107 := ((transpose S128x384x384 [0, 2, 1] · transposes_S128x384x384_S128x384x384_0_2_1) : (⟨S128x384x384, .f32⟩ : BufTy).Contents (Elt F) → (⟨S128x384x384, .f32⟩ : BufTy).Contents (Elt F)) main_v106
  have main_v108 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v23 main_v49
  have main_v109 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v23 main_v60
  have main_v110 := ((fun a b => concatenate S128x4x384 1 [⟨S128x2x384, a⟩, ⟨S128x2x384, b⟩] concatenates_S128x2x384_S128x2x384_S128x4x384_d1) : (⟨S128x2x384, .f32⟩ : BufTy).Contents (Elt F) → (⟨S128x2x384, .f32⟩ : BufTy).Contents (Elt F) → (⟨S128x4x384, .f32⟩ : BufTy).Contents (Elt F)) main_v108 main_v109
  have main_v111 := (shapeCast _ · shapeCasts_S128x4x384_S128x1536) main_v110
  have main_v112 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v29 main_v72
  have main_v113 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v29 main_v83
  have main_v114 := ((fun a b => concatenate S128x4x384 1 [⟨S128x2x384, a⟩, ⟨S128x2x384, b⟩] concatenates_S128x2x384_S128x2x384_S128x4x384_d1) : (⟨S128x2x384, .f32⟩ : BufTy).Contents (Elt F) → (⟨S128x2x384, .f32⟩ : BufTy).Contents (Elt F) → (⟨S128x4x384, .f32⟩ : BufTy).Contents (Elt F)) main_v112 main_v113
  have main_v115 := (shapeCast _ · shapeCasts_S128x4x384_S128x1536) main_v114
  have main_v116 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v35 main_v95
  have main_v117 := ((fun l r => Host.dotGeneral dot_S128x2x384_S128x384x384_S128x2x384_2_1_1_2_0_0 none l r) : (⟨S128x2x384, .f32⟩ : BufTy).Contents (Elt F) → (⟨S128x384x384, .f32⟩ : BufTy).Contents (Elt F) → (⟨S128x2x384, .f32⟩ : BufTy).Contents (Elt F)) main_v35 main_v107
  have main_v118 := ((fun a b => concatenate S128x4x384 1 [⟨S128x2x384, a⟩, ⟨S128x2x384, b⟩] concatenates_S128x2x384_S128x2x384_S128x4x384_d1) : (⟨S128x2x384, .f32⟩ : BufTy).Contents (Elt F) → (⟨S128x2x384, .f32⟩ : BufTy).Contents (Elt F) → (⟨S128x4x384, .f32⟩ : BufTy).Contents (Elt F)) main_v116 main_v117
  have main_v119 := (shapeCast _ · shapeCasts_S128x4x384_S128x1536) main_v118
  main_v119

end Cert.KernelIdeal.Hand

end
-- ==== Proof.KIOperands.lean ====
import proofs.«172187_j12206297055645_2_alg».proof.Proof.Gen.KernelIdeal

noncomputable section

namespace Cert.KernelIdeal.Hand

open Idealize.ShloMosaic Idealize.ShloMosaic.TcCoe Idealize.SL.Sem
open Cert.KernelIdeal Cert.KernelIdeal.Facts₀ Cert.KernelIdeal.Facts

variable {F : FTy → Type} [FloatOps F]

/-! # The two operands of the projection kernel, as pure functions of the arguments

Each of the three sample matrices [128, 20000] is padded with 480 columns of the value the program converts from the
integer 0, stood up as [1, 128, 20480], and the three are stacked along the new axis. Each pair of weight matrices
[384, 20000] is joined into [768, 20000] (the first above the second), padded and stacked the same way. The operations
are written in the order of the program's lines. -/

/-- The stacked, padded samples. -/
def stackX (x0 x1 x2 : (⟨S128x20000, .f32⟩ : BufTy).Contents (Elt F)) : (⟨S3x128x20480, .f32⟩ : BufTy).Contents (Elt F) :=
  have main_c := (constantI S_ 32 0#32)
  have main_call0_v0 := (sitofp .f32) main_c
  have main_v0 := (fun x v => pad S128x20480 ![0, 0] ![0, 480] ![0, 0] x v pads_S128x20000_S128x20480_000_04800 h_S_) x0 main_call0_v0
  have main_c_0 := (constantI S_ 32 0#32)
  have main_call1_v0 := (sitofp .f32) main_c_0
  have main_v1 := (fun x v => pad S128x20480 ![0, 0] ![0, 480] ![0, 0] x v pads_S128x20000_S128x20480_000_04800 h_S_) x1 main_call1_v0
  have main_c_1 := (constantI S_ 32 0#32)
  have main_call2_v0 := (sitofp .f32) main_c_1
  have main_v2 := (fun x v => pad S128x20480 ![0, 0] ![0, 480] ![0, 0] x v pads_S128x20000_S128x20480_000_04800 h_S_) x2 main_call2_v0
  have main_v3 := (broadcastInDim S1x128x20480 ![1, 2] bcast_S128x20480_S1x128x20480_1_2 : (⟨S128x20480, .f32⟩ : BufTy).Contents (Elt F) → (⟨S1x128x20480, .f32⟩ : BufTy).Contents (Elt F)) main_v0
  have main_v4 := (broadcastInDim S1x128x20480 ![1, 2] bcast_S128x20480_S1x128x20480_1_2 : (⟨S128x20480, .f32⟩ : BufTy).Contents (Elt F) → (⟨S1x128x20480, .f32⟩ : BufTy).Contents (Elt F)) main_v1
  have main_v5 := (broadcastInDim S1x128x20480 ![1, 2] bcast_S128x20480_S1x128x20480_1_2 : (⟨S128x20480, .f32⟩ : BufTy).Contents (Elt F) → (⟨S1x128x20480, .f32⟩ : BufTy).Contents (Elt F)) main_v2
  have main_v6 := concatenate S3x128x20480 0 [⟨S1x128x20480, main_v3⟩, ⟨S1x128x20480, main_v4⟩, ⟨S1x128x20480, main_v5⟩] concatenates_S1x128x20480_S1x128x20480_S1x128x20480_S3x128x20480_d0
  main_v6

/-- The stacked, padded, pairwise joined weights. -/
def stackW (w3 w4 w5 w6 w7 w8 : (⟨S384x20000, .f32⟩ : BufTy).Contents (Elt F)) : (⟨S3x768x20480, .f32⟩ : BufTy).Contents (Elt F) :=
  have main_v7 := ((fun a b => concatenate S768x20000 0 [⟨S384x20000, a⟩, ⟨S384x20000, b⟩] concatenates_S384x20000_S384x20000_S768x20000_d0) : (⟨S384x20000, .f32⟩ : BufTy).Contents (Elt F) → (⟨S384x20000, .f32⟩ : BufTy).Contents (Elt F) → (⟨S768x20000, .f32⟩ : BufTy).Contents (Elt F)) w3 w4
  have main_c_2 := (constantI S_ 32 0#32)
  have main_call3_v0 := (sitofp .f32) main_c_2
  have main_v8 := (fun x v => pad S768x20480 ![0, 0] ![0, 480] ![0, 0] x v pads_S768x20000_S768x20480_000_04800 h_S_) main_v7 main_call3_v0
  have main_v9 := ((fun a b => concatenate S768x20000 0 [⟨S384x20000, a⟩, ⟨S384x20000, b⟩] concatenates_S384x20000_S384x20000_S768x20000_d0) : (⟨S384x20000, .f32⟩ : BufTy).Contents (Elt F) → (⟨S384x20000, .f32⟩ : BufTy).Contents (Elt F) → (⟨S768x20000, .f32⟩ : BufTy).Contents (Elt F)) w5 w6
  have main_c_3 := (constantI S_ 32 0#32)
  have main_call4_v0 := (sitofp .f32) main_c_3
  have main_v10 := (fun x v => pad S768x20480 ![0, 0] ![0, 480] ![0, 0] x v pads_S768x20000_S768x20480_000_04800 h_S_) main_v9 main_call4_v0
  have main_v11 := ((fun a b => concatenate S768x20000 0 [⟨S384x20000, a⟩, ⟨S384x20000, b⟩] concatenates_S384x20000_S384x20000_S768x20000_d0) : (⟨S384x20000, .f32⟩ : BufTy).Contents (Elt F) → (⟨S384x20000, .f32⟩ : BufTy).Contents (Elt F) → (⟨S768x20000, .f32⟩ : BufTy).Contents (Elt F)) w7 w8
  have main_c_4 := (constantI S_ 32 0#32)
  have main_call5_v0 := (sitofp .f32) main_c_4
  have main_v12 := (fun x v => pad S768x20480 ![0, 0] ![0, 480] ![0, 0] x v pads_S768x20000_S768x20480_000_04800 h_S_) main_v11 main_call5_v0
  have main_v13 := (broadcastInDim S1x768x20480 ![1, 2] bcast_S768x20480_S1x768x20480_1_2 : (⟨S768x20480, .f32⟩ : BufTy).Contents (Elt F) → (⟨S1x768x20480, .f32⟩ : BufTy).Contents (Elt F)) main_v8
  have main_v14 := (broadcastInDim S1x768x20480 ![1, 2] bcast_S768x20480_S1x768x20480_1_2 : (⟨S768x20480, .f32⟩ : BufTy).Contents (Elt F) → (⟨S1x768x20480, .f32⟩ : BufTy).Contents (Elt F)) main_v10
  have main_v15 := (broadcastInDim S1x768x20480 ![1, 2] bcast_S768x20480_S1x768x20480_1_2 : (⟨S768x20480, .f32⟩ : BufTy).Contents (Elt F) → (⟨S1x768x20480, .f32⟩ : BufTy).Contents (Elt F)) main_v12
  have main_v16 := concatenate S3x768x20480 0 [⟨S1x768x20480, main_v13⟩, ⟨S1x768x20480, main_v14⟩, ⟨S1x768x20480, main_v15⟩] concatenates_S1x768x20480_S1x768x20480_S1x768x20480_S3x768x20480_d0
  main_v16

end Cert.KernelIdeal.Hand

end
-- ==== Proof.KIPairs.lean ====
import proofs.«172187_j12206297055645_2_alg».proof.Proof.Gen.KernelIdeal

noncomputable section

namespace Cert.KernelIdeal.Hand

open Idealize.ShloMosaic Idealize.ShloMosaic.TcCoe Idealize.SL.Sem
open Cert.KernelIdeal Cert.KernelIdeal.Facts₀ Cert.KernelIdeal.Facts

variable {F : FTy → Type} [FloatOps F]

/-! # A modality's projected pair cut out of the projection array

The projection array is [3, 128, 768]: modality, sample, and the 768 = 2 · 384 outputs of the two joined weight
matrices. Modality `i`'s pair [128, 2, 384] is slab `i`, with its last axis split in two: entry `(b, k, q)` of the
pair is entry `(i, b, 384 k + q)` of the array. The three cuts are written with the program's own operations (a slice
of one slab, the leading unit axis dropped, the last axis split). -/

def pairE (P : (⟨S3x128x768, .f32⟩ : BufTy).Contents (Elt F)) : (⟨S128x2x384, .f32⟩ : BufTy).Contents (Elt F) :=
  shapeCast _ (shapeCast _ (extractStridedSlice S1x128x768 ![0, 0, 0] P slices_S3x128x768_S1x128x768_0_0_0) shapeCasts_S1x128x768_S128x768) shapeCasts_S128x768_S128x2x384
def pairM (P : (⟨S3x128x768, .f32⟩ : BufTy).Contents (Elt F)) : (⟨S128x2x384, .f32⟩ : BufTy).Contents (Elt F) :=
  shapeCast _ (shapeCast _ (extractStridedSlice S1x128x768 ![1, 0, 0] P slices_S3x128x768_S1x128x768_1_0_0) shapeCasts_S1x128x768_S128x768) shapeCasts_S128x768_S128x2x384
def pairC (P : (⟨S3x128x768, .f32⟩ : BufTy).Contents (Elt F)) : (⟨S128x2x384, .f32⟩ : BufTy).Contents (Elt F) :=
  shapeCast _ (shapeCast _ (extractStridedSlice S1x128x768 ![2, 0, 0] P slices_S3x128x768_S1x128x768_2_0_0) shapeCasts_S1x128x768_S128x768) shapeCasts_S128x768_S128x2x384

end Cert.KernelIdeal.Hand

end
-- ==== Proof.KIProjFinal.lean ====
import proofs.«172187_j12206297055645_2_alg».proof.Proof.KIProj
import Idealize.ShloMosaic.Lib.Pipeline.Value
import Idealize.ShloMosaic.Lib.ValueIdx
import Idealize.ShloMosaic.Lib.ValueLayout
import Idealize.ShloMosaic.PureOps.Ideal.Laws

/-! # Region 0: what the projection kernel leaves in its result array

Over the eight K-steps of a modality the output block holds a running payload: cleared at the first
K-step, the step's product added at every K-step. The block is written back after the last K-step of
each modality, so the result array ends holding, modality by modality, the running payload after that
modality's last K-step. At the ideal instance the eight partial sums of a modality regroup into one sum
over the 20480 columns of the two input arrays' contraction axis. -/

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

section Blocks
variable (V : (c : Dev nD) → (b : Ref sig .tc) → Buf (Elt F) ((c : Thread nD τ).loc b))

/-! ## The running payload -/

/-- The running payload after point `n`: at the first K-step of a modality the step's product over the
    zero block, at a later K-step the step's product over the running payload of the point before. -/
def chain0 (c : Dev nD) : (n : ℕ) → n < cfg0.N → Vec F S1x128x768 .f32
  | 0, hn => k0_pay2 (iblk0 V c 0 ⟨0, hn⟩) (iblk0 V c 1 ⟨0, hn⟩) (k0_pay1 (F := F))
  | n + 1, hn =>
    if (n + 1) % 8 = 0 then
      k0_pay2 (iblk0 V c 0 ⟨n + 1, hn⟩) (iblk0 V c 1 ⟨n + 1, hn⟩) (k0_pay1 (F := F))
    else
      k0_pay2 (iblk0 V c 0 ⟨n + 1, hn⟩) (iblk0 V c 1 ⟨n + 1, hn⟩) (chain0 c n (Nat.lt_of_succ_lt hn))

/-- At a first K-step. -/
theorem chain0_first (c : Dev nD) (n : ℕ) (hn : n < cfg0.N) (h0 : n % 8 = 0) :
    chain0 V c n hn = k0_pay2 (iblk0 V c 0 ⟨n, hn⟩) (iblk0 V c 1 ⟨n, hn⟩) (k0_pay1 (F := F)) := by
  cases n with
  | zero => rfl
  | succ n => exact if_pos h0

/-- At a later K-step. -/
theorem chain0_later (c : Dev nD) (n : ℕ) (hn : n + 1 < cfg0.N) (h0 : ¬(n + 1) % 8 = 0) :
    chain0 V c (n + 1) hn = k0_pay2 (iblk0 V c 0 ⟨n + 1, hn⟩) (iblk0 V c 1 ⟨n + 1, hn⟩) (chain0 V c n (Nat.lt_of_succ_lt hn)) :=
  if_neg h0

/-- The running payload depends on the point's number alone. -/
theorem chain0_congr (c : Dev nD) {n n' : ℕ} (e : n = n') (hn : n < cfg0.N) (hn' : n' < cfg0.N) :
    chain0 V c n hn = chain0 V c n' hn' := by subst e; rfl

/-- The same read at an index. -/
theorem chain0_apply_congr (c : Dev nD) {n n' : ℕ} (e : n = n') (hn : n < cfg0.N) (hn' : n' < cfg0.N)
    {y y' : S1x128x768.Idx} (ey : y = y') : chain0 V c n hn y = chain0 V c n' hn' y' := by subst e; subst ey; rfl

/-- What the output's staging buffer holds after point `n` is the running payload: by induction on the
    point, each case's contents being the payload of its covering store. -/
theorem outsAt0_eq (c : Dev nD) : ∀ (n : ℕ) (h : n < cfg0.N), outsAt0 V c n h = chain0 V c n h
  | 0, h => (outsAt0_A V c ⟨0, h⟩ rfl).trans (out0_A_2_eq ..)
  | n + 1, h => by
    by_cases h0 : (n + 1) % 8 = 0
    · rw [outsAt0_A V c ⟨n + 1, h⟩ h0, out0_A_2_eq, chain0_first V c (n + 1) h h0]
    · rw [outsAt0_B V c ⟨n + 1, h⟩ h0, out0_B_2_eq, chain0_later V c n h h0]
      show k0_pay2 _ _ (outsAt0 V c n _) = k0_pay2 _ _ (chain0 V c n _)
      rw [outsAt0_eq c n]

/-! ## The result array -/

/-- The result array after the region: plane `mi` is the running payload after the last K-step of
    modality `mi`, point `8 mi + 7`. -/
def G0 (c : Dev nD) : Buf (Elt F) ((c : Thread nD τ).loc main_v17) :=
  fun i : S3x128x768.Idx =>
    chain0 V c (8 * (i 0).val + 7) (by
      have h : (i 0).val < 3 := (i 0).isLt
      have hN : cfg0.N = 24 := N_0
      omega)
      (ix3 (n0 := 1) (n1 := 128) (n2 := 768) 0 (i 1) (i 2))

/-- Read at coordinates. -/
theorem G0_apply (c : Dev nD) (mi : Fin 3) (b : Fin 128) (j : Fin 768) (h : 8 * mi.val + 7 < cfg0.N) :
    G0 V c (ix3 mi b j) = chain0 V c (8 * mi.val + 7) h (ix3 0 b j) := rfl

/-- The block indices of the three windows, decided over the grid: the modality is the point's number
    over 8, the K-step its remainder. -/
theorem idx_facts0 : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = 0 :=
  (by decide +kernel : ∀ t : Fin grid0.N, _)

/-- What a write-back writes is its block of `G0`: write-backs follow the last K-step of a modality,
    whose block is the modality's plane. -/
theorem flushed0_eq (c : Dev nD) (t : Fin cfg0.N) (hf : (cfg0.win 2).flush t = true) :
    (dat0 V c).flushed 2 t = ((cfg0.win 2).blk t).view.read (Elt F) (G0 V c) := by
  have hN : cfg0.N = 24 := N_0
  have h7 : t.val % 8 = 7 := (flush0_2 t).mp hf
  obtain ⟨-, -, -, -, -, -, e0, e1, e2⟩ := idx_facts0 t
  show (cfg0.win 2).cut (grid0.coords t) ((dat0 V c).after 2 t) = _
  rw [after0_2, outsAt0_eq]
  funext y
  rw [View.read_apply]
  show chain0 V c t.val t.isLt y = G0 V c (((cfg0.win 2).blk t).view.emb y)
  have hy0 : (y 0).val < 1 := (y 0).isLt
  unfold G0
  refine chain0_apply_congr V c ?_ _ _ ?_
  · show t.val = 8 * (win0_2.index t (0 : Fin 3) * 1 + 1 * (y 0).val) + 7
    rw [e0]; omega
  · funext a
    apply Fin.ext
    match a with
    | ⟨0, _⟩ => show (y 0).val = 0; omega
    | ⟨1, _⟩ => show (y 1).val = win0_2.index t (1 : Fin 3) * 128 + 1 * (y 1).val; rw [e1]; omega
    | ⟨2, _⟩ => show (y 2).val = win0_2.index t (2 : Fin 3) * 768 + 1 * (y 2).val; rw [e2]; omega

/-- An index of the array is in point `t`'s block iff each coordinate is in the block's range. -/
theorem mem_blk0_2 (t : Fin cfg0.N) (i : S3x128x768.Idx) :
    i ∈ ((cfg0.win 2).blk t).view.set ↔ ∀ a : Fin 3, win0_2.index t a * S1x128x768.size a ≤ (i a).val ∧ (i a).val < win0_2.index t a * S1x128x768.size a + S1x128x768.size a := by
  show i ∈ ((View.whole main_v17).slice (win0_2.rect t)).set ↔ _
  rw [View.set_slice_whole, Rect.mem_set_unit]
  exact Iff.rfl

/-- So the result array ends holding `G0`: plane `mi` is covered by the write-back after point `8 mi + 7`. -/
theorem final0 (c : Dev nD) : (dat0 V c).arrAt 2 cfg0.N = G0 V c :=
  (dat0 V c).arrAt_eq_of_cover 2 (G0 V c) (flushed0_eq V c) fun i => by
    have hN : cfg0.N = 24 := N_0
    have h0 : (i 0 : Nat) < 3 := (i 0).isLt
    have h1 : (i 1 : Nat) < 128 := (i 1).isLt
    have h2 : (i 2 : Nat) < 768 := (i 2).isLt
    refine ⟨⟨8 * (i 0).val + 7, by omega⟩, (flush0_2 _).mpr (by show (8 * (i 0).val + 7) % 8 = 7; omega), ?_⟩
    obtain ⟨-, -, -, -, -, -, e0, e1, e2⟩ := idx_facts0 ⟨8 * (i 0).val + 7, by omega⟩
    rw [mem_blk0_2]
    intro a
    match a with
    | ⟨0, _⟩ => show win0_2.index _ (0 : Fin 3) * 1 ≤ (i 0).val ∧ (i 0).val < win0_2.index _ (0 : Fin 3) * 1 + 1
                rw [e0]; show (8 * (i 0).val + 7) / 8 * 1 ≤ (i 0).val ∧ (i 0).val < (8 * (i 0).val + 7) / 8 * 1 + 1; omega
    | ⟨1, _⟩ => show win0_2.index _ (1 : Fin 3) * 128 ≤ (i 1).val ∧ (i 1).val < win0_2.index _ (1 : Fin 3) * 128 + 128
                rw [e1]; omega
    | ⟨2, _⟩ => show win0_2.index _ (2 : Fin 3) * 768 ≤ (i 2).val ∧ (i 2).val < win0_2.index _ (2 : Fin 3) * 768 + 768
                rw [e2]; omega

end Blocks

/-! ## The accumulating store's payload at an index, at the ideal instance -/

section Payload

/-- The product's contraction: one axis of 2560 columns, axis 1 of both operands. -/
abbrev projDot := dot_S128x2560_S768x2560_S128x768_1_1_0_0_n_n

/-- The left operand's index at output index `(b, j)` and contraction position `q`: row `b`. -/
theorem projDot_lhs_0 (y : S128x768.Idx) (q : projDot.contr.Idx) : (projDot.lhsIdx y q 0).val = (y 0).val := by
  unfold DotDims.lhsIdx
  rw [dif_neg (show ¬(0 : Fin S128x2560.rank) ∈ projDot.lhsBatch by decide), dif_pos (show (0 : Fin S128x2560.rank) ∈ projDot.lhsNonContracting by decide)]
  rfl
/-- … column the contraction position. -/
theorem projDot_lhs_1 (y : S128x768.Idx) (q : projDot.contr.Idx) : (projDot.lhsIdx y q 1).val = (q ⟨0, by decide⟩).val :=
  projDot.lhsIdx_val_of_single rfl y q
/-- The right operand's index: row `j`, -/
theorem projDot_rhs_0 (y : S128x768.Idx) (q : projDot.contr.Idx) : (projDot.rhsIdx y q 0).val = (y 1).val := by
  unfold DotDims.rhsIdx
  rw [dif_neg (show ¬(0 : Fin S768x2560.rank) ∈ projDot.rhsBatch by decide), dif_pos (show (0 : Fin S768x2560.rank) ∈ projDot.rhsNonContracting by decide)]
  rfl
/-- … column the contraction position. -/
theorem projDot_rhs_1 (y : S128x768.Idx) (q : projDot.contr.Idx) : (projDot.rhsIdx y q 1).val = (q ⟨0, by decide⟩).val :=
  projDot.rhsIdx_val_of_single rfl y q

/-- THE PAYLOAD AT AN INDEX. At the ideal instance the accumulating store's payload, read at `(0, b, j)`,
    is the block's previous element there plus the step's product: the sum over the 2560 columns of the step
    of row `b` of the first input block times row `j` of the second (the narrowing to bf16 is the identity on
    extended reals, the product accumulates into a zero block, the unit leading axis is dropped and restored). -/
theorem k0_pay2_apply (x0 : Vec Ideal S1x128x2560 .f32) (x1 : Vec Ideal S1x768x2560 .f32) (xo : Vec Ideal S1x128x768 .f32)
    (b : Fin 128) (j : Fin 768) :
    k0_pay2 (F := Ideal) x0 x1 xo (ix3 (0 : Fin 1) b j)
      = xo (ix3 (0 : Fin 1) b j) + ∑ i : Fin 2560, x0 (ix3 (0 : Fin 1) b i) * x1 (ix3 (0 : Fin 1) j i) := by
  unfold k0_pay2
  refine (shapeCast_ab_1ab_apply _ _ (0 : Fin 1) b j).trans ?_
  refine (addf_apply _ _ _).trans ?_
  refine congrArg₂ (· + ·) (shapeCast_1ab_ab_apply _ _ b j) ?_
  refine (Ideal.matmul_constant_zero_apply projDot none _ _ _).trans ?_
  rw [← Equiv.sum_comp (contrEquiv1 projDot 2560 rfl rfl).symm]
  refine Finset.sum_congr rfl fun k _ => ?_
  have hk := contrEquiv1_symm_val projDot 2560 rfl rfl k
  have el : projDot.lhsIdx (ix2 b j) ((contrEquiv1 projDot 2560 rfl rfl).symm k) = ix2 b k := funext fun a => Fin.ext (by
    match a with
    | ⟨0, _⟩ => exact projDot_lhs_0 _ _
    | ⟨1, _⟩ => exact (projDot_lhs_1 _ _).trans hk)
  have er : projDot.rhsIdx (ix2 b j) ((contrEquiv1 projDot 2560 rfl rfl).symm k) = ix2 j k := funext fun a => Fin.ext (by
    match a with
    | ⟨0, _⟩ => exact projDot_rhs_0 _ _
    | ⟨1, _⟩ => exact (projDot_rhs_1 _ _).trans hk)
  rw [el, er]
  refine congrArg₂ (· * ·) ?_ ?_
  · exact Eq.trans (truncf_apply (ψ := .bf16) _ _ _) (shapeCast_1ab_ab_apply _ _ b k)
  · exact Eq.trans (truncf_apply (ψ := .bf16) _ _ _) (shapeCast_1ab_ab_apply _ _ j k)

end Payload

/-! ## Eight partial sums are one sum -/

section Regroup
variable {M : Type*} [AddCommMonoid M]

/-- A sum over 20480 = 8 × 2560 consecutive numbers is the sum, over the 8 stretches of 2560, of each
    stretch's sum. -/
theorem sum_stretches (g : ℕ → M) :
    ∑ n : Fin 20480, g n.val = ∑ k : Fin 8, ∑ i : Fin 2560, g (2560 * k.val + i.val) := by
  have h := Equiv.sum_comp (finProdFinEquiv (m := 8) (n := 2560)) (fun n : Fin (8 * 2560) => g n.val)
  rw [show (∑ n : Fin 20480, g n.val) = ∑ n : Fin (8 * 2560), g n.val from rfl, ← h, Fintype.sum_prod_type]
  refine Finset.sum_congr rfl fun k _ => Finset.sum_congr rfl fun i _ => ?_
  show g (finProdFinEquiv (k, i)).val = _
  rw [finProdFinEquiv_apply_val, Nat.add_comm]

/-- The same with the stretches counted by a range of naturals. -/
theorem sum_stretches_range (g : ℕ → M) :
    ∑ n : Fin 20480, g n.val = ∑ k ∈ Finset.range 8, ∑ i : Fin 2560, g (2560 * k + i.val) := by
  rw [sum_stretches, Finset.sum_range]

end Regroup

section Ideal
variable (V : (c : Dev nD) → (b : Ref sig .tc) → Buf (Elt Ideal) ((c : Thread nD τ).loc b))

/-! ## The input blocks as stretches of the input arrays -/

/-- The first input array as the region finds it: three modality planes of 128 rows by 20480 columns. -/
abbrev projX (c : Dev nD) : Vec Ideal S3x128x20480 .f32 := V c main_v6
/-- The second input array as the region finds it: three modality planes of 768 rows by 20480 columns. -/
abbrev projW (c : Dev nD) : Vec Ideal S3x768x20480 .f32 := V c main_v16
/-- The result array after the region: three modality planes of 128 rows by 768 columns. -/
abbrev projOut (c : Dev nD) : Vec Ideal S3x128x768 .f32 := (dat0 (F := Ideal) V c).arrAt 2 cfg0.N
/-- The two input windows' blocks at point `t`. -/
abbrev projBlk0 (c : Dev nD) (t : Fin cfg0.N) : Vec Ideal S1x128x2560 .f32 := iblk0 V c 0 t
abbrev projBlk1 (c : Dev nD) (t : Fin cfg0.N) : Vec Ideal S1x768x2560 .f32 := iblk0 V c 1 t

/-- The first input window's block at point `t`, modality `t / 8` and K-step `t % 8`, is the stretch of
    2560 columns from column `2560 (t % 8)` of the modality's plane of the first input array. -/
theorem iblk0_0_apply (c : Dev nD) (t : Fin cfg0.N) (x : S1x128x2560.Idx) (k : S3x128x20480.Idx)
    (hk0 : (k 0).val = t.val / 8) (hk1 : (k 1).val = (x 1).val) (hk2 : (k 2).val = 2560 * (t.val % 8) + (x 2).val) :
    (iblk0 V c 0 t : Vec Ideal S1x128x2560 .f32) x = projX V c k := by
  obtain ⟨e0, e1, e2, -⟩ := idx_facts0 t
  have hx0 : (x 0).val < 1 := (x 0).isLt
  unfold iblk0
  rw [View.read_apply]
  show V c main_v6 _ = V c main_v6 _
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 128 + 1 * (x 1).val = (k 1).val; rw [e1, hk1]; omega
  | ⟨2, _⟩ => show win0_0.index t (2 : Fin 3) * 2560 + 1 * (x 2).val = (k 2).val; rw [e2, hk2]; omega

/-- The same for the second input window and the second input array. -/
theorem iblk0_1_apply (c : Dev nD) (t : Fin cfg0.N) (x : S1x768x2560.Idx) (k : S3x768x20480.Idx)
    (hk0 : (k 0).val = t.val / 8) (hk1 : (k 1).val = (x 1).val) (hk2 : (k 2).val = 2560 * (t.val % 8) + (x 2).val) :
    (iblk0 V c 1 t : Vec Ideal S1x768x2560 .f32) x = projW V c k := by
  obtain ⟨-, -, -, e0, e1, e2, -⟩ := idx_facts0 t
  have hx0 : (x 0).val < 1 := (x 0).isLt
  unfold iblk0
  rw [View.read_apply]
  show V c main_v16 _ = V c main_v16 _
  congr 1
  funext a
  apply Fin.ext
  match a with
  | ⟨0, _⟩ => show win0_1.index t (0 : Fin 3) * 1 + 1 * (x 0).val = (k 0).val; rw [e0, hk0]; omega
  | ⟨1, _⟩ => show win0_1.index t (1 : Fin 3) * 768 + 1 * (x 1).val = (k 1).val; rw [e1, hk1]; omega
  | ⟨2, _⟩ => show win0_1.index t (2 : Fin 3) * 2560 + 1 * (x 2).val = (k 2).val; rw [e2, hk2]; omega

/-! ## The running payload is a partial sum -/

/-- The term of the contraction at column `n`, for modality `mi`, row `b` of the first input array and row
    `j` of the second; zero past the arrays' 20480 columns (never read: a total function of the column). -/
def term0 (c : Dev nD) (mi : Fin 3) (b : Fin 128) (j : Fin 768) (n : ℕ) : EReal :=
  if h : n < 20480 then
    projX V c (ix3 mi b ⟨n, h⟩) * projW V c (ix3 mi j ⟨n, h⟩)
  else 0

/-- The zero block at an index is zero. -/
theorem k0_pay1_apply (y : S1x128x768.Idx) : k0_pay1 (F := Ideal) y = 0 := by
  unfold k0_pay1
  show Ideal.ofBits .f32 0x00000000#32 = 0
  exact Ideal.ofBits_zero_f32

/-- The step's product at point `8 mi + k`, K-step `k` of modality `mi`, is the partial sum over stretch `k`. -/
theorem step0_eq (c : Dev nD) (mi : Fin 3) (b : Fin 128) (j : Fin 768) (k : ℕ) (hk : k < 8) (h : 8 * mi.val + k < cfg0.N) :
    ∑ i : Fin 2560, projBlk0 V c ⟨8 * mi.val + k, h⟩ (ix3 (0 : Fin 1) b i) * projBlk1 V c ⟨8 * mi.val + k, h⟩ (ix3 (0 : Fin 1) j i)
      = ∑ i : Fin 2560, term0 V c mi b j (2560 * k + i.val) := by
  refine Finset.sum_congr rfl fun i _ => ?_
  have hi : 2560 * k + i.val < 20480 := by have := i.isLt; omega
  have hd : (8 * mi.val + k) / 8 = mi.val := by omega
  have hm : (8 * mi.val + k) % 8 = k := by omega
  unfold term0
  rw [dif_pos hi]
  refine congrArg₂ (· * ·) ?_ ?_
  · exact iblk0_0_apply V c ⟨8 * mi.val + k, h⟩ (ix3 (0 : Fin 1) b i) (ix3 mi b ⟨2560 * k + i.val, hi⟩) hd.symm rfl (by show 2560 * k + i.val = 2560 * ((8 * mi.val + k) % 8) + i.val; rw [hm])
  · exact iblk0_1_apply V c ⟨8 * mi.val + k, h⟩ (ix3 (0 : Fin 1) j i) (ix3 mi j ⟨2560 * k + i.val, hi⟩) hd.symm rfl (by show 2560 * k + i.val = 2560 * ((8 * mi.val + k) % 8) + i.val; rw [hm])

/-- After K-step `k` of modality `mi` the running payload at `(0, b, j)` is the sum of the partial sums over
    the stretches `0 … k`: by induction on the K-step, the first over the zero block. -/
theorem chain0_ideal (c : Dev nD) (mi : Fin 3) (b : Fin 128) (j : Fin 768) :
    ∀ (k : ℕ) (hk : k < 8) (h : 8 * mi.val + k < cfg0.N),
      chain0 V c (8 * mi.val + k) h (ix3 (0 : Fin 1) b j) = ∑ k' ∈ Finset.range (k + 1), ∑ i : Fin 2560, term0 V c mi b j (2560 * k' + i.val)
  | 0, hk, h => by
    rw [chain0_first V c _ h (by omega)]
    refine (k0_pay2_apply _ _ _ b j).trans ?_
    rw [k0_pay1_apply, zero_add, Finset.sum_range_one]
    exact step0_eq V c mi b j 0 hk h
  | k + 1, hk, h => by
    have hN : cfg0.N = 24 := N_0
    have h' : 8 * mi.val + k < cfg0.N := by omega
    rw [chain0_congr V c (show 8 * mi.val + (k + 1) = (8 * mi.val + k) + 1 from rfl) h (by omega),
      chain0_later V c (8 * mi.val + k) (by omega) (by omega)]
    refine (k0_pay2_apply _ _ _ b j).trans ?_
    rw [Finset.sum_range_succ]
    exact congrArg₂ (· + ·) (chain0_ideal c mi b j k (by omega) h') (step0_eq V c mi b j (k + 1) hk (by omega))

/-! ## The result array at the ideal instance -/

/-- THE PROJECTION. After the region the result array holds, at `(mi, b, j)`, the sum over the 20480
    columns of row `b` of modality `mi`'s plane of the first input array times row `j` of modality `mi`'s
    plane of the second: the eight K-steps' partial sums, added in order onto zero, regrouped — the extended
    reals being a commutative monoid under addition. -/
theorem final0_ideal (c : Dev nD) (mi : Fin 3) (b : Fin 128) (j : Fin 768) :
    projOut V c (ix3 mi b j)
      = ∑ n : Fin 20480, projX V c (ix3 mi b n) * projW V c (ix3 mi j n) := by
  have hN : cfg0.N = 24 := N_0
  have h : 8 * mi.val + 7 < cfg0.N := by have := mi.isLt; omega
  refine (congrFun (final0 V c) (ix3 mi b j)).trans ?_
  refine (G0_apply V c mi b j h).trans ?_
  refine (chain0_ideal V c mi b j 7 (by omega) h).trans ?_
  refine (sum_stretches_range (term0 V c mi b j)).symm.trans ?_
  refine Finset.sum_congr rfl fun n _ => ?_
  unfold term0
  rw [dif_pos n.isLt]

end Ideal

end Cert.KernelIdeal.Hand

end
-- ==== Proof.KIHeadFinal.lean ====
/- The heads' regions, read: each input window's one block is its whole array, and the output array ends at the
   skeleton's payload of the five input arrays as the region finds them (its one write-back covers it). -/
import proofs.«172187_j12206297055645_2_alg».proof.Proof.KIHeads

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

section Regions
variable (V : (c : Dev nD) → (b : Ref sig .tc) → Buf (Elt F) ((c : Thread nD τ).loc b))

/-! # Region 1 -/

/-- Input window 0's block at the one grid point is the whole array `main_v111`: block index zero, block extents the array's. -/
theorem iblk1_whole_0 (c : Dev nD) (t : Fin cfg1.N) : iblk1 V c 0 t = V c main_v111 := by
  obtain rfl := fin_N1 t
  unfold iblk1
  have hz' : (fun a => win1_0.index t1_0 a * main_v111.ty.shape.size a) = fun _ => 0 := funext fun a => by fin_cases a <;> decide +kernel
  exact Memref.read_access_unit_zero (Elt F) main_v111 hz' (fun a => by rw [congrFun hz' a]; simp) (V c main_v111)

/-- Input window 1's block at the one grid point is the whole array `main_arg9`: block index zero, block extents the array's. -/
theorem iblk1_whole_1 (c : Dev nD) (t : Fin cfg1.N) : iblk1 V c 1 t = V c main_arg9 := by
  obtain rfl := fin_N1 t
  unfold iblk1
  have hz' : (fun a => win1_1.index t1_0 a * main_arg9.ty.shape.size a) = fun _ => 0 := funext fun a => by fin_cases a <;> decide +kernel
  exact Memref.read_access_unit_zero (Elt F) main_arg9 hz' (fun a => by rw [congrFun hz' a]; simp) (V c main_arg9)

/-- Input window 2's block at the one grid point is the whole array `main_arg10`: block index zero, block extents the array's. -/
theorem iblk1_whole_2 (c : Dev nD) (t : Fin cfg1.N) : iblk1 V c 2 t = V c main_arg10 := by
  obtain rfl := fin_N1 t
  unfold iblk1
  have hz' : (fun a => win1_2.index t1_0 a * main_arg10.ty.shape.size a) = fun _ => 0 := funext fun a => by fin_cases a <;> decide +kernel
  exact Memref.read_access_unit_zero (Elt F) main_arg10 hz' (fun a => by rw [congrFun hz' a]; simp) (V c main_arg10)

/-- Input window 3's block at the one grid point is the whole array `main_arg15`: block index zero, block extents the array's. -/
theorem iblk1_whole_3 (c : Dev nD) (t : Fin cfg1.N) : iblk1 V c 3 t = V c main_arg15 := by
  obtain rfl := fin_N1 t
  unfold iblk1
  have hz' : (fun a => win1_3.index t1_0 a * main_arg15.ty.shape.size a) = fun _ => 0 := funext fun a => by fin_cases a <;> decide +kernel
  exact Memref.read_access_unit_zero (Elt F) main_arg15 hz' (fun a => by rw [congrFun hz' a]; simp) (V c main_arg15)

/-- Input window 4's block at the one grid point is the whole array `main_arg16`: block index zero, block extents the array's. -/
theorem iblk1_whole_4 (c : Dev nD) (t : Fin cfg1.N) : iblk1 V c 4 t = V c main_arg16 := by
  obtain rfl := fin_N1 t
  unfold iblk1
  have hz' : (fun a => win1_4.index t1_0 a * main_arg16.ty.shape.size a) = fun _ => 0 := funext fun a => by fin_cases a <;> decide +kernel
  exact Memref.read_access_unit_zero (Elt F) main_arg16 hz' (fun a => by rw [congrFun hz' a]; simp) (V c main_arg16)

/-- The head's result: the payload of the five input arrays, as contents of the output array `main_v120`. -/
abbrev result1 (c : Dev nD) : Buf (Elt F) ((c : Thread nD τ).loc main_v120) := k1_pay1 (V c main_v111) (V c main_arg9) (V c main_arg10) (V c main_arg15) (V c main_arg16)

/-- The one write-back, at the one point, writes it: block (0, 0) of the [128, 1] array read through zero offsets is the array. -/
theorem flushed_eq1 (c : Dev nD) (t : Fin cfg1.N) (hf : (cfg1.win 5).flush t = true) :
    (dat1 V c).flushed 5 t = ((cfg1.win 5).blk t).view.read (Elt F) (result1 V c) := by
  obtain rfl := fin_N1 t
  show (cfg1.win 5).cut (grid1.coords t1_0) ((dat1 V c).after 5 t1_0) = _
  rw [after1_5, outsAt1_eq, iblk1_whole_0, iblk1_whole_1, iblk1_whole_2, iblk1_whole_3, iblk1_whole_4]
  have hz' : (fun a => win1_5.index t1_0 a * main_v120.ty.shape.size a) = fun _ => 0 := funext fun a => by fin_cases a <;> decide +kernel
  exact (Memref.read_access_unit_zero (Elt F) main_v120 hz' (fun a => by rw [congrFun hz' a]; simp) (result1 V c)).symm

/-- So the output array ends holding the payload of the input arrays: the one point's block covers it. -/
theorem final1 (c : Dev nD) : (dat1 V c).arrAt 5 cfg1.N = k1_pay1 (V c main_v111) (V c main_arg9) (V c main_arg10) (V c main_arg15) (V c main_arg16) :=
  (dat1 V c).arrAt_eq_of_cover 5 (result1 V c) (flushed_eq1 V c) fun i =>
    ⟨t1_0, flush1_5 t1_0, by
      show i ∈ ((View.whole main_v120).slice (win1_5.rect t1_0)).set
      rw [View.set_slice_whole, Rect.mem_set_unit]
      intro a
      have h0 : (i 0 : Nat) < 128 := (i 0).isLt
      have h1 : (i 1 : Nat) < 1 := (i 1).isLt
      match a with
      | ⟨0, _⟩ => show win1_5.index t1_0 0 * win1_5.size 0 ≤ (i 0 : Nat) ∧ (i 0 : Nat) < win1_5.index t1_0 0 * win1_5.size 0 + win1_5.xsize (grid1.coords t1_0) 0
                  rw [show win1_5.index t1_0 0 * win1_5.size 0 = 0 from by decide +kernel, show win1_5.xsize (grid1.coords t1_0) 0 = 128 from by decide +kernel]; omega
      | ⟨1, _⟩ => show win1_5.index t1_0 1 * win1_5.size 1 ≤ (i 1 : Nat) ∧ (i 1 : Nat) < win1_5.index t1_0 1 * win1_5.size 1 + win1_5.xsize (grid1.coords t1_0) 1
                  rw [show win1_5.index t1_0 1 * win1_5.size 1 = 0 from by decide +kernel, show win1_5.xsize (grid1.coords t1_0) 1 = 1 from by decide +kernel]; omega⟩

/-! # Region 2 -/

/-- Input window 0's block at the one grid point is the whole array `main_v115`: block index zero, block extents the array's. -/
theorem iblk2_whole_0 (c : Dev nD) (t : Fin cfg2.N) : iblk2 V c 0 t = V c main_v115 := by
  obtain rfl := fin_N2 t
  unfold iblk2
  have hz' : (fun a => win2_0.index t2_0 a * main_v115.ty.shape.size a) = fun _ => 0 := funext fun a => by fin_cases a <;> decide +kernel
  exact Memref.read_access_unit_zero (Elt F) main_v115 hz' (fun a => by rw [congrFun hz' a]; simp) (V c main_v115)

/-- Input window 1's block at the one grid point is the whole array `main_arg11`: block index zero, block extents the array's. -/
theorem iblk2_whole_1 (c : Dev nD) (t : Fin cfg2.N) : iblk2 V c 1 t = V c main_arg11 := by
  obtain rfl := fin_N2 t
  unfold iblk2
  have hz' : (fun a => win2_1.index t2_0 a * main_arg11.ty.shape.size a) = fun _ => 0 := funext fun a => by fin_cases a <;> decide +kernel
  exact Memref.read_access_unit_zero (Elt F) main_arg11 hz' (fun a => by rw [congrFun hz' a]; simp) (V c main_arg11)

/-- Input window 2's block at the one grid point is the whole array `main_arg12`: block index zero, block extents the array's. -/
theorem iblk2_whole_2 (c : Dev nD) (t : Fin cfg2.N) : iblk2 V c 2 t = V c main_arg12 := by
  obtain rfl := fin_N2 t
  unfold iblk2
  have hz' : (fun a => win2_2.index t2_0 a * main_arg12.ty.shape.size a) = fun _ => 0 := funext fun a => by fin_cases a <;> decide +kernel
  exact Memref.read_access_unit_zero (Elt F) main_arg12 hz' (fun a => by rw [congrFun hz' a]; simp) (V c main_arg12)

/-- Input window 3's block at the one grid point is the whole array `main_arg17`: block index zero, block extents the array's. -/
theorem iblk2_whole_3 (c : Dev nD) (t : Fin cfg2.N) : iblk2 V c 3 t = V c main_arg17 := by
  obtain rfl := fin_N2 t
  unfold iblk2
  have hz' : (fun a => win2_3.index t2_0 a * main_arg17.ty.shape.size a) = fun _ => 0 := funext fun a => by fin_cases a <;> decide +kernel
  exact Memref.read_access_unit_zero (Elt F) main_arg17 hz' (fun a => by rw [congrFun hz' a]; simp) (V c main_arg17)

/-- Input window 4's block at the one grid point is the whole array `main_arg18`: block index zero, block extents the array's. -/
theorem iblk2_whole_4 (c : Dev nD) (t : Fin cfg2.N) : iblk2 V c 4 t = V c main_arg18 := by
  obtain rfl := fin_N2 t
  unfold iblk2
  have hz' : (fun a => win2_4.index t2_0 a * main_arg18.ty.shape.size a) = fun _ => 0 := funext fun a => by fin_cases a <;> decide +kernel
  exact Memref.read_access_unit_zero (Elt F) main_arg18 hz' (fun a => by rw [congrFun hz' a]; simp) (V c main_arg18)

/-- The head's result: the payload of the five input arrays, as contents of the output array `main_v122`. -/
abbrev result2 (c : Dev nD) : Buf (Elt F) ((c : Thread nD τ).loc main_v122) := k2_pay1 (V c main_v115) (V c main_arg11) (V c main_arg12) (V c main_arg17) (V c main_arg18)

/-- The one write-back, at the one point, writes it: block (0, 0) of the [128, 1] array read through zero offsets is the array. -/
theorem flushed_eq2 (c : Dev nD) (t : Fin cfg2.N) (hf : (cfg2.win 5).flush t = true) :
    (dat2 V c).flushed 5 t = ((cfg2.win 5).blk t).view.read (Elt F) (result2 V c) := by
  obtain rfl := fin_N2 t
  show (cfg2.win 5).cut (grid2.coords t2_0) ((dat2 V c).after 5 t2_0) = _
  rw [after2_5, outsAt2_eq, iblk2_whole_0, iblk2_whole_1, iblk2_whole_2, iblk2_whole_3, iblk2_whole_4]
  have hz' : (fun a => win2_5.index t2_0 a * main_v122.ty.shape.size a) = fun _ => 0 := funext fun a => by fin_cases a <;> decide +kernel
  exact (Memref.read_access_unit_zero (Elt F) main_v122 hz' (fun a => by rw [congrFun hz' a]; simp) (result2 V c)).symm

/-- So the output array ends holding the payload of the input arrays: the one point's block covers it. -/
theorem final2 (c : Dev nD) : (dat2 V c).arrAt 5 cfg2.N = k2_pay1 (V c main_v115) (V c main_arg11) (V c main_arg12) (V c main_arg17) (V c main_arg18) :=
  (dat2 V c).arrAt_eq_of_cover 5 (result2 V c) (flushed_eq2 V c) fun i =>
    ⟨t2_0, flush2_5 t2_0, by
      show i ∈ ((View.whole main_v122).slice (win2_5.rect t2_0)).set
      rw [View.set_slice_whole, Rect.mem_set_unit]
      intro a
      have h0 : (i 0 : Nat) < 128 := (i 0).isLt
      have h1 : (i 1 : Nat) < 1 := (i 1).isLt
      match a with
      | ⟨0, _⟩ => show win2_5.index t2_0 0 * win2_5.size 0 ≤ (i 0 : Nat) ∧ (i 0 : Nat) < win2_5.index t2_0 0 * win2_5.size 0 + win2_5.xsize (grid2.coords t2_0) 0
                  rw [show win2_5.index t2_0 0 * win2_5.size 0 = 0 from by decide +kernel, show win2_5.xsize (grid2.coords t2_0) 0 = 128 from by decide +kernel]; omega
      | ⟨1, _⟩ => show win2_5.index t2_0 1 * win2_5.size 1 ≤ (i 1 : Nat) ∧ (i 1 : Nat) < win2_5.index t2_0 1 * win2_5.size 1 + win2_5.xsize (grid2.coords t2_0) 1
                  rw [show win2_5.index t2_0 1 * win2_5.size 1 = 0 from by decide +kernel, show win2_5.xsize (grid2.coords t2_0) 1 = 1 from by decide +kernel]; omega⟩

/-! # Region 3 -/

/-- Input window 0's block at the one grid point is the whole array `main_v119`: block index zero, block extents the array's. -/
theorem iblk3_whole_0 (c : Dev nD) (t : Fin cfg3.N) : iblk3 V c 0 t = V c main_v119 := by
  obtain rfl := fin_N3 t
  unfold iblk3
  have hz' : (fun a => win3_0.index t3_0 a * main_v119.ty.shape.size a) = fun _ => 0 := funext fun a => by fin_cases a <;> decide +kernel
  exact Memref.read_access_unit_zero (Elt F) main_v119 hz' (fun a => by rw [congrFun hz' a]; simp) (V c main_v119)

/-- Input window 1's block at the one grid point is the whole array `main_arg13`: block index zero, block extents the array's. -/
theorem iblk3_whole_1 (c : Dev nD) (t : Fin cfg3.N) : iblk3 V c 1 t = V c main_arg13 := by
  obtain rfl := fin_N3 t
  unfold iblk3
  have hz' : (fun a => win3_1.index t3_0 a * main_arg13.ty.shape.size a) = fun _ => 0 := funext fun a => by fin_cases a <;> decide +kernel
  exact Memref.read_access_unit_zero (Elt F) main_arg13 hz' (fun a => by rw [congrFun hz' a]; simp) (V c main_arg13)

/-- Input window 2's block at the one grid point is the whole array `main_arg14`: block index zero, block extents the array's. -/
theorem iblk3_whole_2 (c : Dev nD) (t : Fin cfg3.N) : iblk3 V c 2 t = V c main_arg14 := by
  obtain rfl := fin_N3 t
  unfold iblk3
  have hz' : (fun a => win3_2.index t3_0 a * main_arg14.ty.shape.size a) = fun _ => 0 := funext fun a => by fin_cases a <;> decide +kernel
  exact Memref.read_access_unit_zero (Elt F) main_arg14 hz' (fun a => by rw [congrFun hz' a]; simp) (V c main_arg14)

/-- Input window 3's block at the one grid point is the whole array `main_arg19`: block index zero, block extents the array's. -/
theorem iblk3_whole_3 (c : Dev nD) (t : Fin cfg3.N) : iblk3 V c 3 t = V c main_arg19 := by
  obtain rfl := fin_N3 t
  unfold iblk3
  have hz' : (fun a => win3_3.index t3_0 a * main_arg19.ty.shape.size a) = fun _ => 0 := funext fun a => by fin_cases a <;> decide +kernel
  exact Memref.read_access_unit_zero (Elt F) main_arg19 hz' (fun a => by rw [congrFun hz' a]; simp) (V c main_arg19)

/-- Input window 4's block at the one grid point is the whole array `main_arg20`: block index zero, block extents the array's. -/
theorem iblk3_whole_4 (c : Dev nD) (t : Fin cfg3.N) : iblk3 V c 4 t = V c main_arg20 := by
  obtain rfl := fin_N3 t
  unfold iblk3
  have hz' : (fun a => win3_4.index t3_0 a * main_arg20.ty.shape.size a) = fun _ => 0 := funext fun a => by fin_cases a <;> decide +kernel
  exact Memref.read_access_unit_zero (Elt F) main_arg20 hz' (fun a => by rw [congrFun hz' a]; simp) (V c main_arg20)

/-- The head's result: the payload of the five input arrays, as contents of the output array `main_v124`. -/
abbrev result3 (c : Dev nD) : Buf (Elt F) ((c : Thread nD τ).loc main_v124) := k3_pay1 (V c main_v119) (V c main_arg13) (V c main_arg14) (V c main_arg19) (V c main_arg20)

/-- The one write-back, at the one point, writes it: block (0, 0) of the [128, 1] array read through zero offsets is the array. -/
theorem flushed_eq3 (c : Dev nD) (t : Fin cfg3.N) (hf : (cfg3.win 5).flush t = true) :
    (dat3 V c).flushed 5 t = ((cfg3.win 5).blk t).view.read (Elt F) (result3 V c) := by
  obtain rfl := fin_N3 t
  show (cfg3.win 5).cut (grid3.coords t3_0) ((dat3 V c).after 5 t3_0) = _
  rw [after3_5, outsAt3_eq, iblk3_whole_0, iblk3_whole_1, iblk3_whole_2, iblk3_whole_3, iblk3_whole_4]
  have hz' : (fun a => win3_5.index t3_0 a * main_v124.ty.shape.size a) = fun _ => 0 := funext fun a => by fin_cases a <;> decide +kernel
  exact (Memref.read_access_unit_zero (Elt F) main_v124 hz' (fun a => by rw [congrFun hz' a]; simp) (result3 V c)).symm

/-- So the output array ends holding the payload of the input arrays: the one point's block covers it. -/
theorem final3 (c : Dev nD) : (dat3 V c).arrAt 5 cfg3.N = k3_pay1 (V c main_v119) (V c main_arg13) (V c main_arg14) (V c main_arg19) (V c main_arg20) :=
  (dat3 V c).arrAt_eq_of_cover 5 (result3 V c) (flushed_eq3 V c) fun i =>
    ⟨t3_0, flush3_5 t3_0, by
      show i ∈ ((View.whole main_v124).slice (win3_5.rect t3_0)).set
      rw [View.set_slice_whole, Rect.mem_set_unit]
      intro a
      have h0 : (i 0 : Nat) < 128 := (i 0).isLt
      have h1 : (i 1 : Nat) < 1 := (i 1).isLt
      match a with
      | ⟨0, _⟩ => show win3_5.index t3_0 0 * win3_5.size 0 ≤ (i 0 : Nat) ∧ (i 0 : Nat) < win3_5.index t3_0 0 * win3_5.size 0 + win3_5.xsize (grid3.coords t3_0) 0
                  rw [show win3_5.index t3_0 0 * win3_5.size 0 = 0 from by decide +kernel, show win3_5.xsize (grid3.coords t3_0) 0 = 128 from by decide +kernel]; omega
      | ⟨1, _⟩ => show win3_5.index t3_0 1 * win3_5.size 1 ≤ (i 1 : Nat) ∧ (i 1 : Nat) < win3_5.index t3_0 1 * win3_5.size 1 + win3_5.xsize (grid3.coords t3_0) 1
                  rw [show win3_5.index t3_0 1 * win3_5.size 1 = 0 from by decide +kernel, show win3_5.xsize (grid3.coords t3_0) 1 = 1 from by decide +kernel]; omega⟩

end Regions

end Cert.KernelIdeal.Hand

end
-- ==== Proof.KIValue.lean ====
import proofs.«172187_j12206297055645_2_alg».proof.Proof.KIRun
import proofs.«172187_j12206297055645_2_alg».proof.Proof.KIMid
import proofs.«172187_j12206297055645_2_alg».proof.Proof.KIOperands
import proofs.«172187_j12206297055645_2_alg».proof.Proof.KIPairs
import proofs.«172187_j12206297055645_2_alg».proof.Proof.KIProjFinal
import proofs.«172187_j12206297055645_2_alg».proof.Proof.KIHeadFinal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the three result arrays hold at the end, as terms of the launch memory

The fold of the run is read at the three result buffers: a result is the reshape of a head region's output array,
which is the head payload of that region's five operand arrays; four of them are arguments, the fifth is the feature
array, which the host lines after the projection region compute from that region's output array; and that array is
what the projection region's write-backs leave, from operands the host lines before it compute from the arguments. -/

/-- An argument array holds at boundary 13 what it held at launch. -/
theorem keep_to13 (c : Dev nD) (b : Ref sig .tc) (hb : b ∈ argsL) :
    W13 m ρ c (Proc.devRef .tc b) = m ((c : Thread nD τ).loc b) :=
  calc W13 m ρ c (Proc.devRef .tc b)
    _ = W12 m ρ c (Proc.devRef .tc b) := keep13 m ρ c b hb
    _ = W11 m ρ c (Proc.devRef .tc b) := keep12 m ρ c b hb
    _ = W10 m ρ c (Proc.devRef .tc b) := keep11 m ρ c b hb
    _ = W9 m ρ c (Proc.devRef .tc b) := keep10 m ρ c b hb
    _ = W8 m ρ c (Proc.devRef .tc b) := keep9 m ρ c b hb
    _ = W7 m ρ c (Proc.devRef .tc b) := keep8 m ρ c b hb
    _ = W6 m ρ c (Proc.devRef .tc b) := keep7 m ρ c b hb
    _ = W5 m ρ c (Proc.devRef .tc b) := keep6 m ρ c b hb
    _ = W4 m ρ c (Proc.devRef .tc b) := keep5 m ρ c b hb
    _ = W3 m ρ c (Proc.devRef .tc b) := keep4 m ρ c b hb
    _ = W2 m ρ c (Proc.devRef .tc b) := keep3 m ρ c b hb
    _ = W1 m ρ c (Proc.devRef .tc b) := keep2 m ρ c b hb
    _ = W0 m ρ c (Proc.devRef .tc b) := keep1 m ρ c b hb
    _ = m ((c : Thread nD τ).loc b) := rfl

/-- An argument array holds at boundary 21 what it held at launch. -/
theorem keep_to21 (c : Dev nD) (b : Ref sig .tc) (hb : b ∈ argsL) :
    W21 m ρ c (Proc.devRef .tc b) = m ((c : Thread nD τ).loc b) :=
  calc W21 m ρ c (Proc.devRef .tc b)
    _ = W20 m ρ c (Proc.devRef .tc b) := keep21 m ρ c b hb
    _ = W19 m ρ c (Proc.devRef .tc b) := keep20 m ρ c b hb
    _ = W18 m ρ c (Proc.devRef .tc b) := keep19 m ρ c b hb
    _ = W17 m ρ c (Proc.devRef .tc b) := keep18 m ρ c b hb
    _ = W16 m ρ c (Proc.devRef .tc b) := keep17 m ρ c b hb
    _ = W15 m ρ c (Proc.devRef .tc b) := keep16 m ρ c b hb
    _ = W14 m ρ c (Proc.devRef .tc b) := keep15 m ρ c b hb
    _ = W13 m ρ c (Proc.devRef .tc b) := keep14 m ρ c b hb
    _ = W12 m ρ c (Proc.devRef .tc b) := keep13 m ρ c b hb
    _ = W11 m ρ c (Proc.devRef .tc b) := keep12 m ρ c b hb
    _ = W10 m ρ c (Proc.devRef .tc b) := keep11 m ρ c b hb
    _ = W9 m ρ c (Proc.devRef .tc b) := keep10 m ρ c b hb
    _ = W8 m ρ c (Proc.devRef .tc b) := keep9 m ρ c b hb
    _ = W7 m ρ c (Proc.devRef .tc b) := keep8 m ρ c b hb
    _ = W6 m ρ c (Proc.devRef .tc b) := keep7 m ρ c b hb
    _ = W5 m ρ c (Proc.devRef .tc b) := keep6 m ρ c b hb
    _ = W4 m ρ c (Proc.devRef .tc b) := keep5 m ρ c b hb
    _ = W3 m ρ c (Proc.devRef .tc b) := keep4 m ρ c b hb
    _ = W2 m ρ c (Proc.devRef .tc b) := keep3 m ρ c b hb
    _ = W1 m ρ c (Proc.devRef .tc b) := keep2 m ρ c b hb
    _ = W0 m ρ c (Proc.devRef .tc b) := keep1 m ρ c b hb
    _ = m ((c : Thread nD τ).loc b) := rfl

/-- An argument array holds at boundary 23 what it held at launch. -/
theorem keep_to23 (c : Dev nD) (b : Ref sig .tc) (hb : b ∈ argsL) :
    W23 m ρ c (Proc.devRef .tc b) = m ((c : Thread nD τ).loc b) :=
  calc W23 m ρ c (Proc.devRef .tc b)
    _ = W22 m ρ c (Proc.devRef .tc b) := keep23 m ρ c b hb
    _ = W21 m ρ c (Proc.devRef .tc b) := keep22 m ρ c b hb
    _ = W20 m ρ c (Proc.devRef .tc b) := keep21 m ρ c b hb
    _ = W19 m ρ c (Proc.devRef .tc b) := keep20 m ρ c b hb
    _ = W18 m ρ c (Proc.devRef .tc b) := keep19 m ρ c b hb
    _ = W17 m ρ c (Proc.devRef .tc b) := keep18 m ρ c b hb
    _ = W16 m ρ c (Proc.devRef .tc b) := keep17 m ρ c b hb
    _ = W15 m ρ c (Proc.devRef .tc b) := keep16 m ρ c b hb
    _ = W14 m ρ c (Proc.devRef .tc b) := keep15 m ρ c b hb
    _ = W13 m ρ c (Proc.devRef .tc b) := keep14 m ρ c b hb
    _ = W12 m ρ c (Proc.devRef .tc b) := keep13 m ρ c b hb
    _ = W11 m ρ c (Proc.devRef .tc b) := keep12 m ρ c b hb
    _ = W10 m ρ c (Proc.devRef .tc b) := keep11 m ρ c b hb
    _ = W9 m ρ c (Proc.devRef .tc b) := keep10 m ρ c b hb
    _ = W8 m ρ c (Proc.devRef .tc b) := keep9 m ρ c b hb
    _ = W7 m ρ c (Proc.devRef .tc b) := keep8 m ρ c b hb
    _ = W6 m ρ c (Proc.devRef .tc b) := keep7 m ρ c b hb
    _ = W5 m ρ c (Proc.devRef .tc b) := keep6 m ρ c b hb
    _ = W4 m ρ c (Proc.devRef .tc b) := keep5 m ρ c b hb
    _ = W3 m ρ c (Proc.devRef .tc b) := keep4 m ρ c b hb
    _ = W2 m ρ c (Proc.devRef .tc b) := keep3 m ρ c b hb
    _ = W1 m ρ c (Proc.devRef .tc b) := keep2 m ρ c b hb
    _ = W0 m ρ c (Proc.devRef .tc b) := keep1 m ρ c b hb
    _ = m ((c : Thread nD τ).loc b) := rfl

/-- An argument array holds at boundary 25 what it held at launch. -/
theorem keep_to25 (c : Dev nD) (b : Ref sig .tc) (hb : b ∈ argsL) :
    W25 m ρ c (Proc.devRef .tc b) = m ((c : Thread nD τ).loc b) :=
  calc W25 m ρ c (Proc.devRef .tc b)
    _ = W24 m ρ c (Proc.devRef .tc b) := keep25 m ρ c b hb
    _ = W23 m ρ c (Proc.devRef .tc b) := keep24 m ρ c b hb
    _ = W22 m ρ c (Proc.devRef .tc b) := keep23 m ρ c b hb
    _ = W21 m ρ c (Proc.devRef .tc b) := keep22 m ρ c b hb
    _ = W20 m ρ c (Proc.devRef .tc b) := keep21 m ρ c b hb
    _ = W19 m ρ c (Proc.devRef .tc b) := keep20 m ρ c b hb
    _ = W18 m ρ c (Proc.devRef .tc b) := keep19 m ρ c b hb
    _ = W17 m ρ c (Proc.devRef .tc b) := keep18 m ρ c b hb
    _ = W16 m ρ c (Proc.devRef .tc b) := keep17 m ρ c b hb
    _ = W15 m ρ c (Proc.devRef .tc b) := keep16 m ρ c b hb
    _ = W14 m ρ c (Proc.devRef .tc b) := keep15 m ρ c b hb
    _ = W13 m ρ c (Proc.devRef .tc b) := keep14 m ρ c b hb
    _ = W12 m ρ c (Proc.devRef .tc b) := keep13 m ρ c b hb
    _ = W11 m ρ c (Proc.devRef .tc b) := keep12 m ρ c b hb
    _ = W10 m ρ c (Proc.devRef .tc b) := keep11 m ρ c b hb
    _ = W9 m ρ c (Proc.devRef .tc b) := keep10 m ρ c b hb
    _ = W8 m ρ c (Proc.devRef .tc b) := keep9 m ρ c b hb
    _ = W7 m ρ c (Proc.devRef .tc b) := keep8 m ρ c b hb
    _ = W6 m ρ c (Proc.devRef .tc b) := keep7 m ρ c b hb
    _ = W5 m ρ c (Proc.devRef .tc b) := keep6 m ρ c b hb
    _ = W4 m ρ c (Proc.devRef .tc b) := keep5 m ρ c b hb
    _ = W3 m ρ c (Proc.devRef .tc b) := keep4 m ρ c b hb
    _ = W2 m ρ c (Proc.devRef .tc b) := keep3 m ρ c b hb
    _ = W1 m ρ c (Proc.devRef .tc b) := keep2 m ρ c b hb
    _ = W0 m ρ c (Proc.devRef .tc b) := keep1 m ρ c b hb
    _ = m ((c : Thread nD τ).loc b) := rfl

/-- A three-operand host operation's result at its own buffer, each operand's contents read at its own reference
    (the form in which the operands' own contents can be evaluated further). -/
theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

open StableHlo in
/-- Evaluate a line of host operations at one buffer, a three-operand operation by `nary3_result`. -/
macro "after_results3" : tactic =>
  `(tactic| (simp only [after_cons, after_nil]
             repeat (first
               | rw [nullary_result] | rw [unary_result] | rw [binary_result] | rw [ternary_result] | rw [quaternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-! ## The projection region's operands and output -/

set_option maxHeartbeats 4000000 in
/-- The first operand of the projection region is the stacked, padded samples. -/
theorem X_eq (c : Dev nD) : V13 m ρ c main_v6
    = stackX (m ((c : Thread nD τ).loc main_arg0)) (m ((c : Thread nD τ).loc main_arg1)) (m ((c : Thread nD τ).loc main_arg2)) := by
  show StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))) (Proc.devRef .tc main_v6) = _
  simp only [hostOps0, hostOps0_1, hostOps0_2, hostOps0_3, hostOps0_4, hostOps0_5, hostOps0_6, hostOps0_7, hostOps0_8, hostOps0_9, hostOps0_10, hostOps0_11, hostOps0_12, StableHlo.TRef.unary, StableHlo.TRef.binary, StableHlo.TRef.nullary]
  after_results3
  rfl

set_option maxHeartbeats 4000000 in
/-- The second operand of the projection region is the stacked, padded, pairwise joined weights. -/
theorem Wt_eq (c : Dev nD) : V13 m ρ c main_v16
    = stackW (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  show StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c))))))))))))) (Proc.devRef .tc main_v16) = _
  simp only [hostOps0, hostOps0_1, hostOps0_2, hostOps0_3, hostOps0_4, hostOps0_5, hostOps0_6, hostOps0_7, hostOps0_8, hostOps0_9, hostOps0_10, hostOps0_11, hostOps0_12, StableHlo.TRef.unary, StableHlo.TRef.binary, StableHlo.TRef.nullary]
  after_results3
  rfl

/-- The projection array: what the projection region leaves in its output array. -/
abbrev projArr (c : Dev nD) : Buf (Elt F) ((c : Thread nD τ).loc main_v17) := W14 m ρ c (Proc.devRef .tc main_v17)

theorem projArr_eq (c : Dev nD) : projArr m ρ c = G0 (V13 m ρ) c :=
  (W14_arr m ρ c 2).trans (final0 (V13 m ρ) c)

/-- A two-piece concatenation depends on its pieces' contents only: the form in which a simplification pass may
    rewrite inside the pieces. -/
theorem concatenate_pair_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

attribute [local congr] concatenate_pair_congr

/-! ## The three feature arrays -/

set_option maxRecDepth 65536 in
set_option maxHeartbeats 4000000 in
/-- The first head's feature array is the attention stage's first function of the three projected pairs. -/
theorem feat_e (c : Dev nD) : W21 m ρ c (Proc.devRef .tc main_v111)
    = midE (pairE (projArr m ρ c)) (pairM (projArr m ρ c)) (pairC (projArr m ρ c)) := by
  show StableHlo.after hostOps1_6 (StableHlo.after hostOps1_5 (StableHlo.after hostOps1_4 (StableHlo.after hostOps1_3 (StableHlo.after hostOps1_2 (StableHlo.after hostOps1_1 (StableHlo.after hostOps1 (W14 m ρ c))))))) (Proc.devRef .tc main_v111) = _
  simp only [hostOps1, hostOps1_1, hostOps1_2, hostOps1_3, hostOps1_4, hostOps1_5, hostOps1_6, StableHlo.TRef.unary, StableHlo.TRef.binary, StableHlo.TRef.nullary]
  after_results_simp
  unfold midE
  dsimp only
  rfl

set_option maxRecDepth 65536 in
set_option maxHeartbeats 4000000 in
theorem feat_m (c : Dev nD) : W21 m ρ c (Proc.devRef .tc main_v115)
    = midM (pairE (projArr m ρ c)) (pairM (projArr m ρ c)) (pairC (projArr m ρ c)) := by
  show StableHlo.after hostOps1_6 (StableHlo.after hostOps1_5 (StableHlo.after hostOps1_4 (StableHlo.after hostOps1_3 (StableHlo.after hostOps1_2 (StableHlo.after hostOps1_1 (StableHlo.after hostOps1 (W14 m ρ c))))))) (Proc.devRef .tc main_v115) = _
  simp only [hostOps1, hostOps1_1, hostOps1_2, hostOps1_3, hostOps1_4, hostOps1_5, hostOps1_6, StableHlo.TRef.unary, StableHlo.TRef.binary, StableHlo.TRef.nullary]
  after_results_simp
  unfold midM
  dsimp only
  rfl

set_option maxRecDepth 65536 in
set_option maxHeartbeats 4000000 in
theorem feat_c (c : Dev nD) : W21 m ρ c (Proc.devRef .tc main_v119)
    = midC (pairE (projArr m ρ c)) (pairM (projArr m ρ c)) (pairC (projArr m ρ c)) := by
  show StableHlo.after hostOps1_6 (StableHlo.after hostOps1_5 (StableHlo.after hostOps1_4 (StableHlo.after hostOps1_3 (StableHlo.after hostOps1_2 (StableHlo.after hostOps1_1 (StableHlo.after hostOps1 (W14 m ρ c))))))) (Proc.devRef .tc main_v119) = _
  simp only [hostOps1, hostOps1_1, hostOps1_2, hostOps1_3, hostOps1_4, hostOps1_5, hostOps1_6, StableHlo.TRef.unary, StableHlo.TRef.binary, StableHlo.TRef.nullary]
  after_results_simp
  unfold midC
  dsimp only
  rfl

/-! ## The three results -/

/-- The first result: the reshape of the first head region's output array, the head payload of the first feature
    array and of the arguments `W2_e`, `b2_e`, `W3_e`, `b3_e`. -/
theorem res1_eq (c : Dev nD) : W27 m ρ c (Proc.devRef .tc main_v121)
    = shapeCast _ (k1_pay1 (W21 m ρ c (Proc.devRef .tc main_v111)) (m ((c : Thread nD τ).loc main_arg9)) (m ((c : Thread nD τ).loc main_arg10)) (m ((c : Thread nD τ).loc main_arg15)) (m ((c : Thread nD τ).loc main_arg16))) Gen.shapeCasts_S128x1_S128 :=
  calc W27 m ρ c (Proc.devRef .tc main_v121)
    _ = W26 m ρ c (Proc.devRef .tc main_v121) := by show StableHlo.after hostOps4 (W26 m ρ c) (Proc.devRef .tc main_v121) = _; simp only [hostOps4]; after_results3
    _ = W25 m ρ c (Proc.devRef .tc main_v121) := W26_of_ne m ρ c main_v121 (by decide)
    _ = W24 m ρ c (Proc.devRef .tc main_v121) := by show StableHlo.after hostOps3 (W24 m ρ c) (Proc.devRef .tc main_v121) = _; simp only [hostOps3]; after_results3
    _ = W23 m ρ c (Proc.devRef .tc main_v121) := W24_of_ne m ρ c main_v121 (by decide)
    _ = shapeCast _ (W22 m ρ c (Proc.devRef .tc main_v120)) Gen.shapeCasts_S128x1_S128 := by
          show StableHlo.after hostOps2 (W22 m ρ c) (Proc.devRef .tc main_v121) = _; simp only [hostOps2]; after_results3; rfl
    _ = shapeCast _ ((dat1 (V21 m ρ) c).arrAt 5 cfg1.N) Gen.shapeCasts_S128x1_S128 := by rw [← W22_arr m ρ c 5]
    _ = _ := by
          rw [final1 (V21 m ρ) c]
          show shapeCast _ (k1_pay1 (W21 m ρ c (Proc.devRef .tc main_v111)) (W21 m ρ c (Proc.devRef .tc main_arg9)) (W21 m ρ c (Proc.devRef .tc main_arg10))
            (W21 m ρ c (Proc.devRef .tc main_arg15)) (W21 m ρ c (Proc.devRef .tc main_arg16))) _ = _
          rw [keep_to21 m ρ c main_arg9 (by decide), keep_to21 m ρ c main_arg10 (by decide), keep_to21 m ρ c main_arg15 (by decide), keep_to21 m ρ c main_arg16 (by decide)]

/-- The second head's feature array is untouched between the end of the attention stage and its region. -/
theorem feat_m_kept (c : Dev nD) : W23 m ρ c (Proc.devRef .tc main_v115) = W21 m ρ c (Proc.devRef .tc main_v115) :=
  calc W23 m ρ c (Proc.devRef .tc main_v115)
    _ = W22 m ρ c (Proc.devRef .tc main_v115) := by show StableHlo.after hostOps2 (W22 m ρ c) (Proc.devRef .tc main_v115) = _; simp only [hostOps2]; after_results3
    _ = W21 m ρ c (Proc.devRef .tc main_v115) := W22_of_ne m ρ c main_v115 (by decide)

theorem res2_eq (c : Dev nD) : W27 m ρ c (Proc.devRef .tc main_v123)
    = shapeCast _ (k2_pay1 (W21 m ρ c (Proc.devRef .tc main_v115)) (m ((c : Thread nD τ).loc main_arg11)) (m ((c : Thread nD τ).loc main_arg12)) (m ((c : Thread nD τ).loc main_arg17)) (m ((c : Thread nD τ).loc main_arg18))) Gen.shapeCasts_S128x1_S128 :=
  calc W27 m ρ c (Proc.devRef .tc main_v123)
    _ = W26 m ρ c (Proc.devRef .tc main_v123) := by show StableHlo.after hostOps4 (W26 m ρ c) (Proc.devRef .tc main_v123) = _; simp only [hostOps4]; after_results3
    _ = W25 m ρ c (Proc.devRef .tc main_v123) := W26_of_ne m ρ c main_v123 (by decide)
    _ = shapeCast _ (W24 m ρ c (Proc.devRef .tc main_v122)) Gen.shapeCasts_S128x1_S128 := by
          show StableHlo.after hostOps3 (W24 m ρ c) (Proc.devRef .tc main_v123) = _; simp only [hostOps3]; after_results3; rfl
    _ = shapeCast _ ((dat2 (V23 m ρ) c).arrAt 5 cfg2.N) Gen.shapeCasts_S128x1_S128 := by rw [← W24_arr m ρ c 5]
    _ = _ := by
          rw [final2 (V23 m ρ) c]
          show shapeCast _ (k2_pay1 (W23 m ρ c (Proc.devRef .tc main_v115)) (W23 m ρ c (Proc.devRef .tc main_arg11)) (W23 m ρ c (Proc.devRef .tc main_arg12))
            (W23 m ρ c (Proc.devRef .tc main_arg17)) (W23 m ρ c (Proc.devRef .tc main_arg18))) _ = _
          rw [feat_m_kept m ρ c, keep_to23 m ρ c main_arg11 (by decide), keep_to23 m ρ c main_arg12 (by decide), keep_to23 m ρ c main_arg17 (by decide), keep_to23 m ρ c main_arg18 (by decide)]

/-- The third head's feature array is untouched between the end of the attention stage and its region. -/
theorem feat_c_kept (c : Dev nD) : W25 m ρ c (Proc.devRef .tc main_v119) = W21 m ρ c (Proc.devRef .tc main_v119) :=
  calc W25 m ρ c (Proc.devRef .tc main_v119)
    _ = W24 m ρ c (Proc.devRef .tc main_v119) := by show StableHlo.after hostOps3 (W24 m ρ c) (Proc.devRef .tc main_v119) = _; simp only [hostOps3]; after_results3
    _ = W23 m ρ c (Proc.devRef .tc main_v119) := W24_of_ne m ρ c main_v119 (by decide)
    _ = W22 m ρ c (Proc.devRef .tc main_v119) := by show StableHlo.after hostOps2 (W22 m ρ c) (Proc.devRef .tc main_v119) = _; simp only [hostOps2]; after_results3
    _ = W21 m ρ c (Proc.devRef .tc main_v119) := W22_of_ne m ρ c main_v119 (by decide)

theorem res3_eq (c : Dev nD) : W27 m ρ c (Proc.devRef .tc main_v125)
    = shapeCast _ (k3_pay1 (W21 m ρ c (Proc.devRef .tc main_v119)) (m ((c : Thread nD τ).loc main_arg13)) (m ((c : Thread nD τ).loc main_arg14)) (m ((c : Thread nD τ).loc main_arg19)) (m ((c : Thread nD τ).loc main_arg20))) Gen.shapeCasts_S128x1_S128 :=
  calc W27 m ρ c (Proc.devRef .tc main_v125)
    _ = shapeCast _ (W26 m ρ c (Proc.devRef .tc main_v124)) Gen.shapeCasts_S128x1_S128 := by
          show StableHlo.after hostOps4 (W26 m ρ c) (Proc.devRef .tc main_v125) = _; simp only [hostOps4]; after_results3; rfl
    _ = shapeCast _ ((dat3 (V25 m ρ) c).arrAt 5 cfg3.N) Gen.shapeCasts_S128x1_S128 := by rw [← W26_arr m ρ c 5]
    _ = _ := by
          rw [final3 (V25 m ρ) c]
          show shapeCast _ (k3_pay1 (W25 m ρ c (Proc.devRef .tc main_v119)) (W25 m ρ c (Proc.devRef .tc main_arg13)) (W25 m ρ c (Proc.devRef .tc main_arg14))
            (W25 m ρ c (Proc.devRef .tc main_arg19)) (W25 m ρ c (Proc.devRef .tc main_arg20))) _ = _
          rw [feat_c_kept m ρ c, keep_to25 m ρ c main_arg13 (by decide), keep_to25 m ρ c main_arg14 (by decide), keep_to25 m ρ c main_arg19 (by decide), keep_to25 m ρ c main_arg20 (by decide)]

end Cert.KernelIdeal.Hand

end
-- ==== Proof.KIPairsApply.lean ====
import proofs.«172187_j12206297055645_2_alg».proof.Proof.KIPairs
import Idealize.ShloMosaic.Lib.Pipeline.Value
import Idealize.ShloMosaic.Lib.ValueIdx
import Idealize.ShloMosaic.Lib.ValueLayout

/-! # The three modality pairs read at an index

Entry `(b, k, q)` of modality `i`'s pair is entry `(i, b, 384 k + q)` of the projection array: the slab
is plane `i`; dropping the unit leading axis and splitting the last axis 768 = 2 · 384 keep the row-major
position of an entry. -/

noncomputable section

namespace Cert.KernelIdeal.Hand

open Idealize.ShloMosaic Idealize.ShloMosaic.TcCoe Idealize.SL.Sem
open Idealize.ShloMosaic.ValueIdx
open Cert.KernelIdeal Cert.KernelIdeal.Facts₀ Cert.KernelIdeal.Facts

/-! ## A modality's pair read at an index -/

section Pairs
variable {F : FTy → Type} [FloatOps F]

/-- The first modality's pair at `(b, k, q)` is the projection array at `(0, b, 384 k + q)`: the slab is plane 0, the dropped unit axis and the split of the last axis keep the row-major position. -/
theorem pairE_apply (P : (⟨S3x128x768, .f32⟩ : BufTy).Contents (Elt F)) (b : Fin 128) (k : Fin 2) (q : Fin 384) :
    pairE P (ix3 b k q) = P (ix3 (0 : Fin 3) b ⟨384 * k.val + q.val, by have := k.isLt; have := q.isLt; omega⟩) := by
  have hk := k.isLt
  have hq := q.isLt
  unfold pairE
  refine (shapeCast_apply _ _ (ix3 b k q) (ix2 b (⟨384 * k.val + q.val, by omega⟩ : Fin 768)) ?_).trans ?_
  · rw [Shape.rowMajor_val_two, Shape.rowMajor_val_three]
    show b.val * 768 + (384 * k.val + q.val) = (b.val * 2 + k.val) * 384 + q.val
    omega
  refine (shapeCast_1ab_ab_apply _ _ b _).trans ?_
  refine extractStridedSlice_apply _ _ _ _ _ fun a => ?_
  match a with
  | ⟨0, _⟩ => rfl
  | ⟨1, _⟩ => show b.val = 0 + b.val; omega
  | ⟨2, _⟩ => show 384 * k.val + q.val = 0 + (384 * k.val + q.val); omega

/-- The second modality's pair at `(b, k, q)` is the projection array at `(1, b, 384 k + q)`. -/
theorem pairM_apply (P : (⟨S3x128x768, .f32⟩ : BufTy).Contents (Elt F)) (b : Fin 128) (k : Fin 2) (q : Fin 384) :
    pairM P (ix3 b k q) = P (ix3 (1 : Fin 3) b ⟨384 * k.val + q.val, by have := k.isLt; have := q.isLt; omega⟩) := by
  have hk := k.isLt
  have hq := q.isLt
  unfold pairM
  refine (shapeCast_apply _ _ (ix3 b k q) (ix2 b (⟨384 * k.val + q.val, by omega⟩ : Fin 768)) ?_).trans ?_
  · rw [Shape.rowMajor_val_two, Shape.rowMajor_val_three]
    show b.val * 768 + (384 * k.val + q.val) = (b.val * 2 + k.val) * 384 + q.val
    omega
  refine (shapeCast_1ab_ab_apply _ _ b _).trans ?_
  refine extractStridedSlice_apply _ _ _ _ _ fun a => ?_
  match a with
  | ⟨0, _⟩ => rfl
  | ⟨1, _⟩ => show b.val = 0 + b.val; omega
  | ⟨2, _⟩ => show 384 * k.val + q.val = 0 + (384 * k.val + q.val); omega

/-- The third modality's pair at `(b, k, q)` is the projection array at `(2, b, 384 k + q)`. -/
theorem pairC_apply (P : (⟨S3x128x768, .f32⟩ : BufTy).Contents (Elt F)) (b : Fin 128) (k : Fin 2) (q : Fin 384) :
    pairC P (ix3 b k q) = P (ix3 (2 : Fin 3) b ⟨384 * k.val + q.val, by have := k.isLt; have := q.isLt; omega⟩) := by
  have hk := k.isLt
  have hq := q.isLt
  unfold pairC
  refine (shapeCast_apply _ _ (ix3 b k q) (ix2 b (⟨384 * k.val + q.val, by omega⟩ : Fin 768)) ?_).trans ?_
  · rw [Shape.rowMajor_val_two, Shape.rowMajor_val_three]
    show b.val * 768 + (384 * k.val + q.val) = (b.val * 2 + k.val) * 384 + q.val
    omega
  refine (shapeCast_1ab_ab_apply _ _ b _).trans ?_
  refine extractStridedSlice_apply _ _ _ _ _ fun a => ?_
  match a with
  | ⟨0, _⟩ => rfl
  | ⟨1, _⟩ => show b.val = 0 + b.val; omega
  | ⟨2, _⟩ => show 384 * k.val + q.val = 0 + (384 * k.val + q.val); omega

end Pairs

end Cert.KernelIdeal.Hand

end
-- ==== Proof.KIProjFinal2.lean ====
import proofs.«172187_j12206297055645_2_alg».proof.Proof.KIProjFinal
import proofs.«172187_j12206297055645_2_alg».proof.Proof.KIPairsApply

/-! # The three modality pairs as sums over the contraction axis

Entry `(b, k, q)` of modality `i`'s pair, cut out of the result array the projection kernel leaves, is
at the ideal instance the sum over the 20480 columns of row `b` of plane `i` of the first input array
times row `384 k + q` of plane `i` of the second. -/

set_option maxRecDepth 16384

noncomputable section

open scoped BigOperators

namespace Cert.KernelIdeal.Hand

open Idealize.ShloMosaic Idealize.ShloMosaic.TcCoe
open Idealize.SL Idealize.SL.Sem
open Idealize.ShloMosaic.Pipeline (Dat)
open Idealize.ShloMosaic.ValueIdx
open Cert.KernelIdeal Cert.KernelIdeal.Gen

section PairSums
variable (V : (c : Dev nD) → (b : Ref sig .tc) → Buf (Elt Ideal) ((c : Thread nD τ).loc b))

/-- The first modality's pair: the pair's entry is the result array's at `(0, b, 384 k + q)`, which is the sum. -/
theorem pairE_sum (c : Dev nD) (b : Fin 128) (k : Fin 2) (q : Fin 384) :
    pairE (F := Ideal) (projOut V c) (ix3 b k q)
      = ∑ n : Fin 20480, projX V c (ix3 (0 : Fin 3) b n) * projW V c (ix3 (0 : Fin 3) (⟨384 * k.val + q.val, by have := k.isLt; have := q.isLt; omega⟩ : Fin 768) n) :=
  (pairE_apply (F := Ideal) (projOut V c) b k q).trans (final0_ideal V c (0 : Fin 3) b _)

/-- The second modality's pair. -/
theorem pairM_sum (c : Dev nD) (b : Fin 128) (k : Fin 2) (q : Fin 384) :
    pairM (F := Ideal) (projOut V c) (ix3 b k q)
      = ∑ n : Fin 20480, projX V c (ix3 (1 : Fin 3) b n) * projW V c (ix3 (1 : Fin 3) (⟨384 * k.val + q.val, by have := k.isLt; have := q.isLt; omega⟩ : Fin 768) n) :=
  (pairM_apply (F := Ideal) (projOut V c) b k q).trans (final0_ideal V c (1 : Fin 3) b _)

/-- The third modality's pair. -/
theorem pairC_sum (c : Dev nD) (b : Fin 128) (k : Fin 2) (q : Fin 384) :
    pairC (F := Ideal) (projOut V c) (ix3 b k q)
      = ∑ n : Fin 20480, projX V c (ix3 (2 : Fin 3) b n) * projW V c (ix3 (2 : Fin 3) (⟨384 * k.val + q.val, by have := k.isLt; have := q.isLt; omega⟩ : Fin 768) n) :=
  (pairC_apply (F := Ideal) (projOut V c) b k q).trans (final0_ideal V c (2 : Fin 3) b _)

end PairSums

end Cert.KernelIdeal.Hand

end
-- ==== Proof.LibPadSum.lean ====
import Mathlib.Algebra.BigOperators.Fin

/-! # Sums of zero-padded sequences

General facts about finite sums in a commutative additive monoid, used to compare a contraction over a zero-padded
axis with the contraction over the unpadded axis. -/

namespace Cert.LibPadSum

open Finset

/-- A sum over `Fin M` of a function that vanishes at every index from `N` on is its sum over the first `N` indices. -/
theorem sum_fin_of_zero_tail {α : Type*} [AddCommMonoid α] {N M : ℕ} (h : N ≤ M) (f : Fin M → α)
    (hf : ∀ n : Fin M, N ≤ n.val → f n = 0) :
    ∑ n : Fin M, f n = ∑ n : Fin N, f (Fin.castLE h n) := by
  obtain ⟨d, rfl⟩ := Nat.exists_eq_add_of_le h
  rw [Fin.sum_univ_add]
  have h0 : ∑ i : Fin d, f (Fin.natAdd N i) = 0 := Finset.sum_eq_zero fun i _ => hf _ (by simp)
  rw [h0, add_zero]
  rfl

/-- The same with the summand given on the natural numbers: only the indices below `N` contribute. -/
theorem sum_fin_castLE {α : Type*} [AddCommMonoid α] {N M : ℕ} (h : N ≤ M) (g : ℕ → α)
    (hg : ∀ n, N ≤ n → n < M → g n = 0) :
    ∑ n : Fin M, g n.val = ∑ n : Fin N, g n.val :=
  sum_fin_of_zero_tail h (fun n => g n.val) (fun n hn => hg n.val hn n.isLt)

end Cert.LibPadSum
-- ==== Proof.ProjLaw.lean ====
import proofs.«172187_j12206297055645_2_alg».proof.Proof.KIOperands
import proofs.«172187_j12206297055645_2_alg».proof.Proof.LibPadSum
import proofs.«172187_j12206297055645_2_alg».proof.Proof.RefReadP
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal Cert.KernelIdeal.Facts₀ Cert.KernelIdeal.Facts

variable {F : FTy → Type} [FloatOps F]

/-! # The projection law

The projection kernel contracts, for each of the three modalities `i`, the stacked samples `X[i] : [128, 20480]` with the
stacked weights `Wt[i] : [768, 20480]` over the last axis. Both operands are zero beyond column 20000, so the contraction
is the one over the 20000 genuine columns, and rows `384 * k2 + q` of `Wt[i]` are the rows `q` of the `k2`-th weight
matrix of the `i`-th pair. Over the extended reals this is, element by element, the reference's pair of projections
`x @ Wx.T`, `x @ Wy.T` of the modality, stood side by side along a middle axis of extent 2.

The file reads the two stacked operands at an index (`stackX_apply`, `stackW_apply`, `stackW_apply_row`), removes the
padding from the contraction (`stack_sum`), reads the reference's joined projections at an index (`ref_v6_apply`,
`ref_v16_apply`, `ref_v26_apply`), and concludes (`proj_law_e`, `proj_law_m`, `proj_law_c`). -/

/-! ## The layout operations at an index -/

/-- The samples padded with 480 columns, read at `(b, n)`: the operand at `(b, n)` for `n < 20000`, the padding value beyond. -/
theorem pad128_apply {α : Type} (x : S128x20000.Idx → α) (v : S_.Idx → α) (b : Fin 128) (n : Fin 20480) :
    pad S128x20480 ![0, 0] ![0, 480] ![0, 0] x v pads_S128x20000_S128x20480_000_04800 h_S_ (ix2 b n)
      = if h : n.val < 20000 then x (ix2 b ⟨n.val, h⟩) else v (Shape.Idx.first h_S_) := by
  unfold pad
  by_cases h : n.val < 20000
  · rw [dif_pos h, dif_pos]
    · refine congrArg x (funext fun a => Fin.ext ?_)
      match a with
      | ⟨0, _⟩ => simp
      | ⟨1, _⟩ => simp
    · intro a
      match a with
      | ⟨0, _⟩ => simp [Nat.mod_one]
      | ⟨1, _⟩ => simp [Nat.mod_one]; exact h
  · rw [dif_neg h, dif_neg]
    intro hall
    have := (hall 1).2.2
    simp at this
    exact h this

/-- The joined weights padded with 480 columns, read at `(b, n)`: the operand at `(b, n)` for `n < 20000`, the padding value
    beyond. -/
theorem pad768_apply {α : Type} (x : S768x20000.Idx → α) (v : S_.Idx → α) (b : Fin 768) (n : Fin 20480) :
    pad S768x20480 ![0, 0] ![0, 480] ![0, 0] x v pads_S768x20000_S768x20480_000_04800 h_S_ (ix2 b n)
      = if h : n.val < 20000 then x (ix2 b ⟨n.val, h⟩) else v (Shape.Idx.first h_S_) := by
  unfold pad
  by_cases h : n.val < 20000
  · rw [dif_pos h, dif_pos]
    · refine congrArg x (funext fun a => Fin.ext ?_)
      match a with
      | ⟨0, _⟩ => simp
      | ⟨1, _⟩ => simp
    · intro a
      match a with
      | ⟨0, _⟩ => simp [Nat.mod_one]
      | ⟨1, _⟩ => simp [Nat.mod_one]; exact h
  · rw [dif_neg h, dif_neg]
    intro hall
    have := (hall 1).2.2
    simp at this
    exact h this

/-- Three `[128, 20480]` matrices, each stood up as `[1, 128, 20480]` and stacked along the new axis, read at `(i, b, n)`: the
    `i`-th matrix at `(b, n)`. -/
theorem stack128_apply {α : Type} (y0 y1 y2 : S128x20480.Idx → α) (i : Fin 3) (b : Fin 128) (n : Fin 20480) :
    concatenate S3x128x20480 0 [⟨S1x128x20480, broadcastInDim S1x128x20480 ![1, 2] bcast_S128x20480_S1x128x20480_1_2 y0⟩,
        ⟨S1x128x20480, broadcastInDim S1x128x20480 ![1, 2] bcast_S128x20480_S1x128x20480_1_2 y1⟩,
        ⟨S1x128x20480, broadcastInDim S1x128x20480 ![1, 2] bcast_S128x20480_S1x128x20480_1_2 y2⟩]
        concatenates_S1x128x20480_S1x128x20480_S1x128x20480_S3x128x20480_d0 (ix3 i b n)
      = (![y0, y1, y2] i) (ix2 b n) := by
  have hb : ∀ (y : S128x20480.Idx → α),
      broadcastInDim S1x128x20480 ![1, 2] bcast_S128x20480_S1x128x20480_1_2 y (ix3 (0 : Fin 1) b n) = y (ix2 b n) := fun y =>
    broadcastInDim_apply _ bcast_S128x20480_S1x128x20480_1_2 y _ (ix2 b n) (fun a => match a with
      | ⟨0, _⟩ => by show b.val = if (128 : Nat) = 1 then 0 else b.val; rw [if_neg (by decide)]
      | ⟨1, _⟩ => by show n.val = if (20480 : Nat) = 1 then 0 else n.val; rw [if_neg (by decide)])
  match i with
  | ⟨0, _⟩ =>
    refine (concatenate_apply_piece (0 : Fin S3x128x20480.rank) [⟨S1x128x20480, _⟩, ⟨S1x128x20480, _⟩, ⟨S1x128x20480, _⟩] concatenates_S1x128x20480_S1x128x20480_S1x128x20480_S3x128x20480_d0 _ 0 (by simp) S1x128x20480 _ rfl rfl 0 rfl (ix3 (0 : Fin 1) b n) ?_ rfl).trans (hb y0)
    intro a ha
    match a with
    | ⟨0, _⟩ => exact absurd rfl ha
    | ⟨1, _⟩ => rfl
    | ⟨2, _⟩ => rfl
  | ⟨1, _⟩ =>
    refine (concatenate_apply_piece (0 : Fin S3x128x20480.rank) [⟨S1x128x20480, _⟩, ⟨S1x128x20480, _⟩, ⟨S1x128x20480, _⟩] concatenates_S1x128x20480_S1x128x20480_S1x128x20480_S3x128x20480_d0 _ 1 (by simp) S1x128x20480 _ rfl rfl 1 rfl (ix3 (0 : Fin 1) b n) ?_ rfl).trans (hb y1)
    intro a ha
    match a with
    | ⟨0, _⟩ => exact absurd rfl ha
    | ⟨1, _⟩ => rfl
    | ⟨2, _⟩ => rfl
  | ⟨2, _⟩ =>
    refine (concatenate_apply_piece (0 : Fin S3x128x20480.rank) [⟨S1x128x20480, _⟩, ⟨S1x128x20480, _⟩, ⟨S1x128x20480, _⟩] concatenates_S1x128x20480_S1x128x20480_S1x128x20480_S3x128x20480_d0 _ 2 (by simp) S1x128x20480 _ rfl rfl 2 rfl (ix3 (0 : Fin 1) b n) ?_ rfl).trans (hb y2)
    intro a ha
    match a with
    | ⟨0, _⟩ => exact absurd rfl ha
    | ⟨1, _⟩ => rfl
    | ⟨2, _⟩ => rfl

/-- Two `[384, 20000]` matrices joined along the rows, read at `(j, n)`: the first at `(j, n)` for `j < 384`, the second at
    `(j - 384, n)` otherwise. -/
theorem join384_apply {α : Type} (u v : S384x20000.Idx → α) (j : Fin 768) (n : Fin 20000) :
    concatenate S768x20000 0 [⟨S384x20000, u⟩, ⟨S384x20000, v⟩] concatenates_S384x20000_S384x20000_S768x20000_d0 (ix2 j n)
      = if hj : j.val < 384 then u (ix2 ⟨j.val, hj⟩ n) else v (ix2 ⟨j.val - 384, by omega⟩ n) := by
  by_cases hj : j.val < 384
  · rw [dif_pos hj]
    exact concatenate_pair_apply_left (0 : Fin S768x20000.rank) u v concatenates_S384x20000_S384x20000_S768x20000_d0 (ix2 j n) rfl
      (ix2 ⟨j.val, hj⟩ n) (fun c => match c with | ⟨0, _⟩ => rfl | ⟨1, _⟩ => rfl)
  · rw [dif_neg hj]
    exact concatenate_pair_apply_right (0 : Fin S768x20000.rank) u v concatenates_S384x20000_S384x20000_S768x20000_d0 (ix2 j n) rfl rfl
      (ix2 ⟨j.val - 384, by omega⟩ n) (fun c hc => match c with | ⟨0, _⟩ => absurd rfl hc | ⟨1, _⟩ => rfl)
      (by show j.val - 384 + 384 = j.val; omega)

/-- Three `[768, 20480]` matrices, each stood up as `[1, 768, 20480]` and stacked along the new axis, read at `(i, b, n)`: the
    `i`-th matrix at `(b, n)`. -/
theorem stack768_apply {α : Type} (y0 y1 y2 : S768x20480.Idx → α) (i : Fin 3) (b : Fin 768) (n : Fin 20480) :
    concatenate S3x768x20480 0 [⟨S1x768x20480, broadcastInDim S1x768x20480 ![1, 2] bcast_S768x20480_S1x768x20480_1_2 y0⟩,
        ⟨S1x768x20480, broadcastInDim S1x768x20480 ![1, 2] bcast_S768x20480_S1x768x20480_1_2 y1⟩,
        ⟨S1x768x20480, broadcastInDim S1x768x20480 ![1, 2] bcast_S768x20480_S1x768x20480_1_2 y2⟩]
        concatenates_S1x768x20480_S1x768x20480_S1x768x20480_S3x768x20480_d0 (ix3 i b n)
      = (![y0, y1, y2] i) (ix2 b n) := by
  have hb : ∀ (y : S768x20480.Idx → α),
      broadcastInDim S1x768x20480 ![1, 2] bcast_S768x20480_S1x768x20480_1_2 y (ix3 (0 : Fin 1) b n) = y (ix2 b n) := fun y =>
    broadcastInDim_apply _ bcast_S768x20480_S1x768x20480_1_2 y _ (ix2 b n) (fun a => match a with
      | ⟨0, _⟩ => by show b.val = if (768 : Nat) = 1 then 0 else b.val; rw [if_neg (by decide)]
      | ⟨1, _⟩ => by show n.val = if (20480 : Nat) = 1 then 0 else n.val; rw [if_neg (by decide)])
  match i with
  | ⟨0, _⟩ =>
    refine (concatenate_apply_piece (0 : Fin S3x768x20480.rank) [⟨S1x768x20480, _⟩, ⟨S1x768x20480, _⟩, ⟨S1x768x20480, _⟩] concatenates_S1x768x20480_S1x768x20480_S1x768x20480_S3x768x20480_d0 _ 0 (by simp) S1x768x20480 _ rfl rfl 0 rfl (ix3 (0 : Fin 1) b n) ?_ rfl).trans (hb y0)
    intro a ha
    match a with
    | ⟨0, _⟩ => exact absurd rfl ha
    | ⟨1, _⟩ => rfl
    | ⟨2, _⟩ => rfl
  | ⟨1, _⟩ =>
    refine (concatenate_apply_piece (0 : Fin S3x768x20480.rank) [⟨S1x768x20480, _⟩, ⟨S1x768x20480, _⟩, ⟨S1x768x20480, _⟩] concatenates_S1x768x20480_S1x768x20480_S1x768x20480_S3x768x20480_d0 _ 1 (by simp) S1x768x20480 _ rfl rfl 1 rfl (ix3 (0 : Fin 1) b n) ?_ rfl).trans (hb y1)
    intro a ha
    match a with
    | ⟨0, _⟩ => exact absurd rfl ha
    | ⟨1, _⟩ => rfl
    | ⟨2, _⟩ => rfl
  | ⟨2, _⟩ =>
    refine (concatenate_apply_piece (0 : Fin S3x768x20480.rank) [⟨S1x768x20480, _⟩, ⟨S1x768x20480, _⟩, ⟨S1x768x20480, _⟩] concatenates_S1x768x20480_S1x768x20480_S1x768x20480_S3x768x20480_d0 _ 2 (by simp) S1x768x20480 _ rfl rfl 2 rfl (ix3 (0 : Fin 1) b n) ?_ rfl).trans (hb y2)
    intro a ha
    match a with
    | ⟨0, _⟩ => exact absurd rfl ha
    | ⟨1, _⟩ => rfl
    | ⟨2, _⟩ => rfl

/-- The padding value, the integer 0 converted, is 0 in the extended reals. -/
theorem padValue_apply (j : S_.Idx) :
    (sitofp (F := Ideal) .f32 (constantI S_ 32 0#32)) j = (0 : EReal) := by
  show (((0#32 : BitVec 32).toInt : ℝ) : EReal) = 0
  simp

/-- **The stacked samples at an index**: slot `i`, row `b`, column `n` is the `i`-th sample matrix at `(b, n)` for
    `n < 20000`, and `0` on the padding. -/
theorem stackX_apply (x0 x1 x2 : (⟨S128x20000, .f32⟩ : BufTy).Contents (Elt Ideal)) (i : Fin 3) (b : Fin 128) (n : Fin 20480) :
    stackX (F := Ideal) x0 x1 x2 (ix3 i b n)
      = if h : n.val < 20000 then (![x0, x1, x2] i) (ix2 b ⟨n.val, h⟩) else 0 := by
  unfold stackX
  refine (stack128_apply _ _ _ i b n).trans ?_
  match i with
  | ⟨0, _⟩ =>
    refine (pad128_apply x0 _ b n).trans ?_
    by_cases h : n.val < 20000
    · rw [dif_pos h, dif_pos h]; rfl
    · rw [dif_neg h, dif_neg h]; exact padValue_apply _
  | ⟨1, _⟩ =>
    refine (pad128_apply x1 _ b n).trans ?_
    by_cases h : n.val < 20000
    · rw [dif_pos h, dif_pos h]; rfl
    · rw [dif_neg h, dif_neg h]; exact padValue_apply _
  | ⟨2, _⟩ =>
    refine (pad128_apply x2 _ b n).trans ?_
    by_cases h : n.val < 20000
    · rw [dif_pos h, dif_pos h]; rfl
    · rw [dif_neg h, dif_neg h]; exact padValue_apply _

/-- **The stacked weights at an index**: slot `i`, row `j`, column `n` is, for `n < 20000`, the first matrix of the `i`-th pair
    at `(j, n)` when `j < 384` and the second at `(j - 384, n)` otherwise; `0` on the padding. -/
theorem stackW_apply (w3 w4 w5 w6 w7 w8 : (⟨S384x20000, .f32⟩ : BufTy).Contents (Elt Ideal)) (i : Fin 3) (j : Fin 768) (n : Fin 20480) :
    stackW (F := Ideal) w3 w4 w5 w6 w7 w8 (ix3 i j n)
      = if h : n.val < 20000 then
          (if hj : j.val < 384 then (![w3, w5, w7] i) (ix2 ⟨j.val, hj⟩ ⟨n.val, h⟩)
            else (![w4, w6, w8] i) (ix2 ⟨j.val - 384, by omega⟩ ⟨n.val, h⟩))
        else 0 := by
  unfold stackW
  refine (stack768_apply _ _ _ i j n).trans ?_
  match i with
  | ⟨0, _⟩ =>
    refine (pad768_apply _ _ j n).trans ?_
    by_cases h : n.val < 20000
    · rw [dif_pos h, dif_pos h]; exact join384_apply w3 w4 j ⟨n.val, h⟩
    · rw [dif_neg h, dif_neg h]; exact padValue_apply _
  | ⟨1, _⟩ =>
    refine (pad768_apply _ _ j n).trans ?_
    by_cases h : n.val < 20000
    · rw [dif_pos h, dif_pos h]; exact join384_apply w5 w6 j ⟨n.val, h⟩
    · rw [dif_neg h, dif_neg h]; exact padValue_apply _
  | ⟨2, _⟩ =>
    refine (pad768_apply _ _ j n).trans ?_
    by_cases h : n.val < 20000
    · rw [dif_pos h, dif_pos h]; exact join384_apply w7 w8 j ⟨n.val, h⟩
    · rw [dif_neg h, dif_neg h]; exact padValue_apply _

/-- Row `384 * k2 + q` of slot `i` of the stacked weights is row `q` of the `k2`-th matrix of the `i`-th pair. -/
theorem stackW_apply_row (w3 w4 w5 w6 w7 w8 : (⟨S384x20000, .f32⟩ : BufTy).Contents (Elt Ideal)) (i : Fin 3) (k2 : Fin 2) (q : Fin 384)
    (n : Fin 20480) :
    stackW (F := Ideal) w3 w4 w5 w6 w7 w8 (ix3 i (⟨384 * k2.val + q.val, by omega⟩ : Fin 768) n)
      = if h : n.val < 20000 then (![![w3, w4], ![w5, w6], ![w7, w8]] i k2) (ix2 q ⟨n.val, h⟩) else 0 := by
  rw [stackW_apply]
  by_cases h : n.val < 20000
  · rw [dif_pos h, dif_pos h]
    match k2 with
    | ⟨0, _⟩ =>
      rw [dif_pos (show 384 * 0 + q.val < 384 by omega)]
      have e : (⟨384 * 0 + q.val, by omega⟩ : Fin 384) = q := Fin.ext (by simp)
      rw [e]
      match i with
      | ⟨0, _⟩ => rfl
      | ⟨1, _⟩ => rfl
      | ⟨2, _⟩ => rfl
    | ⟨1, _⟩ =>
      rw [dif_neg (show ¬ 384 * 1 + q.val < 384 by omega)]
      have e : (⟨384 * 1 + q.val - 384, by omega⟩ : Fin 384) = q := Fin.ext (by simp)
      rw [e]
      match i with
      | ⟨0, _⟩ => rfl
      | ⟨1, _⟩ => rfl
      | ⟨2, _⟩ => rfl
  · rw [dif_neg h, dif_neg h]

/-! ## The contraction over the padded axis -/

/-- The contraction of slot `i` of the stacked operands over the padded axis is the contraction of the `i`-th sample
    matrix with the `k2`-th weight matrix of the `i`-th pair over the unpadded axis. -/
theorem stack_sum (x0 x1 x2 : (⟨S128x20000, .f32⟩ : BufTy).Contents (Elt Ideal))
    (w3 w4 w5 w6 w7 w8 : (⟨S384x20000, .f32⟩ : BufTy).Contents (Elt Ideal)) (i : Fin 3) (b : Fin 128) (k2 : Fin 2) (q : Fin 384) :
    (∑ n : Fin 20480, stackX (F := Ideal) x0 x1 x2 (ix3 i b n)
        * stackW (F := Ideal) w3 w4 w5 w6 w7 w8 (ix3 i (⟨384 * k2.val + q.val, by omega⟩ : Fin 768) n))
      = ∑ n : Fin 20000, (![x0, x1, x2] i) (ix2 b n) * (![![w3, w4], ![w5, w6], ![w7, w8]] i k2) (ix2 q n) := by
  rw [Cert.LibPadSum.sum_fin_of_zero_tail (show 20000 ≤ 20480 by decide)]
  · refine Finset.sum_congr rfl fun n _ => ?_
    rw [stackX_apply, stackW_apply_row, dif_pos (show (Fin.castLE (show 20000 ≤ 20480 by decide) n).val < 20000 from n.isLt),
      dif_pos (show (Fin.castLE (show 20000 ≤ 20480 by decide) n).val < 20000 from n.isLt)]
    rfl
  · intro n hn
    rw [stackX_apply, stackW_apply_row, dif_neg (by omega), dif_neg (by omega)]
    exact mul_zero _

/-! ## The reference's projections at an index -/

open Cert.ReferenceIdeal.Read in
/-- The first modality's pair of projections at `(b, k2, q)`: the contraction of the samples' row `b` with row `q` of the `k2`-th weight matrix. -/
theorem ref_v6_apply (x0 : (⟨S128x20000, .f32⟩ : BufTy).Contents (Elt Ideal))
    (w3 w4 : (⟨S384x20000, .f32⟩ : BufTy).Contents (Elt Ideal)) (b : Fin 128) (k2 : Fin 2) (q : Fin 384) :
    Cert.ReferenceIdeal.Read.val_main_v6 (F := Ideal) x0 w3 w4 (ix3 b k2 q)
      = ∑ n : Fin 20000, x0 (ix2 b n) * (![w3, w4] k2) (ix2 q n) := by
  unfold Cert.ReferenceIdeal.Read.val_main_v6
  match k2 with
  | ⟨0, _⟩ =>
    rw [concatenate_pair_apply_left (s₁ := Cert.ReferenceIdeal.S128x1x384) (s₂ := Cert.ReferenceIdeal.S128x1x384) (1 : Fin Cert.ReferenceIdeal.S128x2x384.rank) _ _ _ (ix3 b (⟨0, by decide⟩ : Fin 2) q) rfl (ix3 b (0 : Fin 1) q)
      (fun c => match c with | ⟨0, _⟩ => rfl | ⟨1, _⟩ => rfl | ⟨2, _⟩ => rfl)]
    rw [val_main_v4_apply, val_main_v1_apply]
    refine Finset.sum_congr rfl fun n _ => ?_
    rw [val_main_v0_apply]
    have el : lidx_main_v1 (idx_main_v4 (ix3 b (0 : Fin 1) q)) n = ix2 b n :=
      funext fun a => match a with | ⟨0, _⟩ => rfl | ⟨1, _⟩ => rfl
    have er : idx_main_v0 (ridx_main_v1 (idx_main_v4 (ix3 b (0 : Fin 1) q)) n) = ix2 q n :=
      funext fun a => match a with | ⟨0, _⟩ => rfl | ⟨1, _⟩ => rfl
    rw [el, er]
    rfl
  | ⟨1, _⟩ =>
    rw [concatenate_pair_apply_right (s₁ := Cert.ReferenceIdeal.S128x1x384) (s₂ := Cert.ReferenceIdeal.S128x1x384) (1 : Fin Cert.ReferenceIdeal.S128x2x384.rank) _ _ _ (ix3 b (⟨1, by decide⟩ : Fin 2) q) rfl rfl (ix3 b (0 : Fin 1) q)
      (fun c hc => match c with | ⟨0, _⟩ => rfl | ⟨1, _⟩ => absurd rfl hc | ⟨2, _⟩ => rfl) rfl]
    rw [val_main_v5_apply, val_main_v3_apply]
    refine Finset.sum_congr rfl fun n _ => ?_
    rw [val_main_v2_apply]
    have el : lidx_main_v3 (idx_main_v5 (ix3 b (0 : Fin 1) q)) n = ix2 b n :=
      funext fun a => match a with | ⟨0, _⟩ => rfl | ⟨1, _⟩ => rfl
    have er : idx_main_v2 (ridx_main_v3 (idx_main_v5 (ix3 b (0 : Fin 1) q)) n) = ix2 q n :=
      funext fun a => match a with | ⟨0, _⟩ => rfl | ⟨1, _⟩ => rfl
    rw [el, er]
    rfl

open Cert.ReferenceIdeal.Read in
/-- The second modality's pair of projections at `(b, k2, q)`. -/
theorem ref_v16_apply (x1 : (⟨S128x20000, .f32⟩ : BufTy).Contents (Elt Ideal))
    (w5 w6 : (⟨S384x20000, .f32⟩ : BufTy).Contents (Elt Ideal)) (b : Fin 128) (k2 : Fin 2) (q : Fin 384) :
    Cert.ReferenceIdeal.Read.val_main_v16 (F := Ideal) x1 w5 w6 (ix3 b k2 q)
      = ∑ n : Fin 20000, x1 (ix2 b n) * (![w5, w6] k2) (ix2 q n) := by
  unfold Cert.ReferenceIdeal.Read.val_main_v16
  match k2 with
  | ⟨0, _⟩ =>
    rw [concatenate_pair_apply_left (s₁ := Cert.ReferenceIdeal.S128x1x384) (s₂ := Cert.ReferenceIdeal.S128x1x384) (1 : Fin Cert.ReferenceIdeal.S128x2x384.rank) _ _ _ (ix3 b (⟨0, by decide⟩ : Fin 2) q) rfl (ix3 b (0 : Fin 1) q)
      (fun c => match c with | ⟨0, _⟩ => rfl | ⟨1, _⟩ => rfl | ⟨2, _⟩ => rfl)]
    rw [val_main_v14_apply, val_main_v11_apply]
    refine Finset.sum_congr rfl fun n _ => ?_
    rw [val_main_v10_apply]
    have el : lidx_main_v11 (idx_main_v14 (ix3 b (0 : Fin 1) q)) n = ix2 b n :=
      funext fun a => match a with | ⟨0, _⟩ => rfl | ⟨1, _⟩ => rfl
    have er : idx_main_v10 (ridx_main_v11 (idx_main_v14 (ix3 b (0 : Fin 1) q)) n) = ix2 q n :=
      funext fun a => match a with | ⟨0, _⟩ => rfl | ⟨1, _⟩ => rfl
    rw [el, er]
    rfl
  | ⟨1, _⟩ =>
    rw [concatenate_pair_apply_right (s₁ := Cert.ReferenceIdeal.S128x1x384) (s₂ := Cert.ReferenceIdeal.S128x1x384) (1 : Fin Cert.ReferenceIdeal.S128x2x384.rank) _ _ _ (ix3 b (⟨1, by decide⟩ : Fin 2) q) rfl rfl (ix3 b (0 : Fin 1) q)
      (fun c hc => match c with | ⟨0, _⟩ => rfl | ⟨1, _⟩ => absurd rfl hc | ⟨2, _⟩ => rfl) rfl]
    rw [val_main_v15_apply, val_main_v13_apply]
    refine Finset.sum_congr rfl fun n _ => ?_
    rw [val_main_v12_apply]
    have el : lidx_main_v13 (idx_main_v15 (ix3 b (0 : Fin 1) q)) n = ix2 b n :=
      funext fun a => match a with | ⟨0, _⟩ => rfl | ⟨1, _⟩ => rfl
    have er : idx_main_v12 (ridx_main_v13 (idx_main_v15 (ix3 b (0 : Fin 1) q)) n) = ix2 q n :=
      funext fun a => match a with | ⟨0, _⟩ => rfl | ⟨1, _⟩ => rfl
    rw [el, er]
    rfl

open Cert.ReferenceIdeal.Read in
/-- The third modality's pair of projections at `(b, k2, q)`. -/
theorem ref_v26_apply (x2 : (⟨S128x20000, .f32⟩ : BufTy).Contents (Elt Ideal))
    (w7 w8 : (⟨S384x20000, .f32⟩ : BufTy).Contents (Elt Ideal)) (b : Fin 128) (k2 : Fin 2) (q : Fin 384) :
    Cert.ReferenceIdeal.Read.val_main_v26 (F := Ideal) x2 w7 w8 (ix3 b k2 q)
      = ∑ n : Fin 20000, x2 (ix2 b n) * (![w7, w8] k2) (ix2 q n) := by
  unfold Cert.ReferenceIdeal.Read.val_main_v26
  match k2 with
  | ⟨0, _⟩ =>
    rw [concatenate_pair_apply_left (s₁ := Cert.ReferenceIdeal.S128x1x384) (s₂ := Cert.ReferenceIdeal.S128x1x384) (1 : Fin Cert.ReferenceIdeal.S128x2x384.rank) _ _ _ (ix3 b (⟨0, by decide⟩ : Fin 2) q) rfl (ix3 b (0 : Fin 1) q)
      (fun c => match c with | ⟨0, _⟩ => rfl | ⟨1, _⟩ => rfl | ⟨2, _⟩ => rfl)]
    rw [val_main_v24_apply, val_main_v21_apply]
    refine Finset.sum_congr rfl fun n _ => ?_
    rw [val_main_v20_apply]
    have el : lidx_main_v21 (idx_main_v24 (ix3 b (0 : Fin 1) q)) n = ix2 b n :=
      funext fun a => match a with | ⟨0, _⟩ => rfl | ⟨1, _⟩ => rfl
    have er : idx_main_v20 (ridx_main_v21 (idx_main_v24 (ix3 b (0 : Fin 1) q)) n) = ix2 q n :=
      funext fun a => match a with | ⟨0, _⟩ => rfl | ⟨1, _⟩ => rfl
    rw [el, er]
    rfl
  | ⟨1, _⟩ =>
    rw [concatenate_pair_apply_right (s₁ := Cert.ReferenceIdeal.S128x1x384) (s₂ := Cert.ReferenceIdeal.S128x1x384) (1 : Fin Cert.ReferenceIdeal.S128x2x384.rank) _ _ _ (ix3 b (⟨1, by decide⟩ : Fin 2) q) rfl rfl (ix3 b (0 : Fin 1) q)
      (fun c hc => match c with | ⟨0, _⟩ => rfl | ⟨1, _⟩ => absurd rfl hc | ⟨2, _⟩ => rfl) rfl]
    rw [val_main_v25_apply, val_main_v23_apply]
    refine Finset.sum_congr rfl fun n _ => ?_
    rw [val_main_v22_apply]
    have el : lidx_main_v23 (idx_main_v25 (ix3 b (0 : Fin 1) q)) n = ix2 b n :=
      funext fun a => match a with | ⟨0, _⟩ => rfl | ⟨1, _⟩ => rfl
    have er : idx_main_v22 (ridx_main_v23 (idx_main_v25 (ix3 b (0 : Fin 1) q)) n) = ix2 q n :=
      funext fun a => match a with | ⟨0, _⟩ => rfl | ⟨1, _⟩ => rfl
    rw [el, er]
    rfl

/-! ## The projection law -/

/-- **The projection law, first modality**: slot 0 of the stacked operands contracted over the padded axis is the reference's pair of projections of the first modality. -/
theorem proj_law_e (x0 x1 x2 : (⟨S128x20000, .f32⟩ : BufTy).Contents (Elt Ideal))
    (w3 w4 w5 w6 w7 w8 : (⟨S384x20000, .f32⟩ : BufTy).Contents (Elt Ideal)) (b : Fin 128) (k2 : Fin 2) (q : Fin 384) :
    (∑ n : Fin 20480, stackX (F := Ideal) x0 x1 x2 (ix3 0 b n)
        * stackW (F := Ideal) w3 w4 w5 w6 w7 w8 (ix3 0 (⟨384 * k2.val + q.val, by omega⟩ : Fin 768) n))
      = Cert.ReferenceIdeal.Read.val_main_v6 (F := Ideal) x0 w3 w4 (ix3 b k2 q) := by
  rw [stack_sum, ref_v6_apply]
  rfl

/-- **The projection law, second modality** (slot 1). -/
theorem proj_law_m (x0 x1 x2 : (⟨S128x20000, .f32⟩ : BufTy).Contents (Elt Ideal))
    (w3 w4 w5 w6 w7 w8 : (⟨S384x20000, .f32⟩ : BufTy).Contents (Elt Ideal)) (b : Fin 128) (k2 : Fin 2) (q : Fin 384) :
    (∑ n : Fin 20480, stackX (F := Ideal) x0 x1 x2 (ix3 1 b n)
        * stackW (F := Ideal) w3 w4 w5 w6 w7 w8 (ix3 1 (⟨384 * k2.val + q.val, by omega⟩ : Fin 768) n))
      = Cert.ReferenceIdeal.Read.val_main_v16 (F := Ideal) x1 w5 w6 (ix3 b k2 q) := by
  rw [stack_sum, ref_v16_apply]
  rfl

/-- **The projection law, third modality** (slot 2). -/
theorem proj_law_c (x0 x1 x2 : (⟨S128x20000, .f32⟩ : BufTy).Contents (Elt Ideal))
    (w3 w4 w5 w6 w7 w8 : (⟨S384x20000, .f32⟩ : BufTy).Contents (Elt Ideal)) (b : Fin 128) (k2 : Fin 2) (q : Fin 384) :
    (∑ n : Fin 20480, stackX (F := Ideal) x0 x1 x2 (ix3 2 b n)
        * stackW (F := Ideal) w3 w4 w5 w6 w7 w8 (ix3 2 (⟨384 * k2.val + q.val, by omega⟩ : Fin 768) n))
      = Cert.ReferenceIdeal.Read.val_main_v26 (F := Ideal) x2 w7 w8 (ix3 b k2 q) := by
  rw [stack_sum, ref_v26_apply]
  rfl

end Cert.KernelIdeal.Hand

end
-- ==== Proof.MidRef.lean ====
import proofs.«172187_j12206297055645_2_alg».proof.Proof.KIMid
import proofs.«172187_j12206297055645_2_alg».proof.Proof.RefReadP

noncomputable section

open Idealize.ShloMosaic Idealize.ShloMosaic.TcCoe Idealize.SL.Sem

namespace Cert.Proof.MidRef

/-! # The reference's attention stage is the kernel's

Between its projections and its heads the reference applies, line for line, the operations the kernel's host side
applies between its projection region and its head regions: the three feature arrays are the same three functions of
the three projected pairs. -/

/-- A two-piece concatenation depends on its pieces' contents only: the form in which a simplification pass may
    rewrite inside the pieces. -/
theorem concatenate_pair_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

attribute [local congr] concatenate_pair_congr

variable (x0 x1 x2 : (⟨Cert.ReferenceIdeal.S128x20000, .f32⟩ : BufTy).Contents (Elt Ideal)) (x3 x4 x5 x6 x7 x8 : (⟨Cert.ReferenceIdeal.S384x20000, .f32⟩ : BufTy).Contents (Elt Ideal))

set_option maxRecDepth 65536 in
set_option maxHeartbeats 4000000 in
theorem feat_e : Cert.ReferenceIdeal.Read.val_main_v105 (F := Ideal) x0 x1 x2 x3 x4 x5 x6 x7 x8
    = Cert.KernelIdeal.Hand.midE (F := Ideal) (Cert.ReferenceIdeal.Read.val_main_v6 (F := Ideal) x0 x3 x4)
        (Cert.ReferenceIdeal.Read.val_main_v16 (F := Ideal) x1 x5 x6) (Cert.ReferenceIdeal.Read.val_main_v26 (F := Ideal) x2 x7 x8) := by
  unfold Cert.KernelIdeal.Hand.midE
  dsimp only
  simp only [Cert.ReferenceIdeal.Read.val_main_call0_v0, Cert.ReferenceIdeal.Read.val_main_call0_cst, Cert.ReferenceIdeal.Read.val_main_call0_v1, Cert.ReferenceIdeal.Read.val_main_call0_v2, Cert.ReferenceIdeal.Read.val_main_v7, Cert.ReferenceIdeal.Read.val_main_v8, Cert.ReferenceIdeal.Read.val_main_v9, Cert.ReferenceIdeal.Read.val_main_call1_v0, Cert.ReferenceIdeal.Read.val_main_call1_cst, Cert.ReferenceIdeal.Read.val_main_call1_v1, Cert.ReferenceIdeal.Read.val_main_call1_v2, Cert.ReferenceIdeal.Read.val_main_v17, Cert.ReferenceIdeal.Read.val_main_v18, Cert.ReferenceIdeal.Read.val_main_v19, Cert.ReferenceIdeal.Read.val_main_call2_v0, Cert.ReferenceIdeal.Read.val_main_call2_cst, Cert.ReferenceIdeal.Read.val_main_call2_v1, Cert.ReferenceIdeal.Read.val_main_call2_v2, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_cst, Cert.ReferenceIdeal.Read.val_main_v33, Cert.ReferenceIdeal.Read.val_main_cst_0, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_cst_1, Cert.ReferenceIdeal.Read.val_main_v40, Cert.ReferenceIdeal.Read.val_main_v41, Cert.ReferenceIdeal.Read.val_main_v42, Cert.ReferenceIdeal.Read.val_main_v43, Cert.ReferenceIdeal.Read.val_main_cst_2, Cert.ReferenceIdeal.Read.val_main_v44, Cert.ReferenceIdeal.Read.val_main_cst_3, Cert.ReferenceIdeal.Read.val_main_v45, Cert.ReferenceIdeal.Read.val_main_v46, Cert.ReferenceIdeal.Read.val_main_v47, Cert.ReferenceIdeal.Read.val_main_v48, Cert.ReferenceIdeal.Read.val_main_v49, Cert.ReferenceIdeal.Read.val_main_v50, Cert.ReferenceIdeal.Read.val_main_cst_4, Cert.ReferenceIdeal.Read.val_main_v51, Cert.ReferenceIdeal.Read.val_main_v52, Cert.ReferenceIdeal.Read.val_main_v53, Cert.ReferenceIdeal.Read.val_main_v54, Cert.ReferenceIdeal.Read.val_main_cst_5, Cert.ReferenceIdeal.Read.val_main_v55, Cert.ReferenceIdeal.Read.val_main_cst_6, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_v61, Cert.ReferenceIdeal.Read.val_main_cst_7, Cert.ReferenceIdeal.Read.val_main_v62, Cert.ReferenceIdeal.Read.val_main_v63, Cert.ReferenceIdeal.Read.val_main_v64, Cert.ReferenceIdeal.Read.val_main_v65, Cert.ReferenceIdeal.Read.val_main_v66, Cert.ReferenceIdeal.Read.val_main_cst_8, Cert.ReferenceIdeal.Read.val_main_v67, Cert.ReferenceIdeal.Read.val_main_cst_9, Cert.ReferenceIdeal.Read.val_main_v68, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_cst_10, Cert.ReferenceIdeal.Read.val_main_v74, Cert.ReferenceIdeal.Read.val_main_v75, Cert.ReferenceIdeal.Read.val_main_v76, Cert.ReferenceIdeal.Read.val_main_v77, Cert.ReferenceIdeal.Read.val_main_cst_11, Cert.ReferenceIdeal.Read.val_main_v78, Cert.ReferenceIdeal.Read.val_main_cst_12, Cert.ReferenceIdeal.Read.val_main_v79, Cert.ReferenceIdeal.Read.val_main_v80, Cert.ReferenceIdeal.Read.val_main_v81, Cert.ReferenceIdeal.Read.val_main_v82, Cert.ReferenceIdeal.Read.val_main_v83, Cert.ReferenceIdeal.Read.val_main_v84, Cert.ReferenceIdeal.Read.val_main_cst_13, Cert.ReferenceIdeal.Read.val_main_v85, Cert.ReferenceIdeal.Read.val_main_v86, Cert.ReferenceIdeal.Read.val_main_v87, Cert.ReferenceIdeal.Read.val_main_v88, Cert.ReferenceIdeal.Read.val_main_v89, Cert.ReferenceIdeal.Read.val_main_cst_14, Cert.ReferenceIdeal.Read.val_main_v90, Cert.ReferenceIdeal.Read.val_main_cst_15, Cert.ReferenceIdeal.Read.val_main_v91, Cert.ReferenceIdeal.Read.val_main_v92, Cert.ReferenceIdeal.Read.val_main_v93, Cert.ReferenceIdeal.Read.val_main_v94, Cert.ReferenceIdeal.Read.val_main_v95, Cert.ReferenceIdeal.Read.val_main_v96, Cert.ReferenceIdeal.Read.val_main_cst_16, Cert.ReferenceIdeal.Read.val_main_v97, Cert.ReferenceIdeal.Read.val_main_v98, Cert.ReferenceIdeal.Read.val_main_v99, Cert.ReferenceIdeal.Read.val_main_v100, Cert.ReferenceIdeal.Read.val_main_v101, Cert.ReferenceIdeal.Read.val_main_v102, Cert.ReferenceIdeal.Read.val_main_v103, Cert.ReferenceIdeal.Read.val_main_v104, Cert.ReferenceIdeal.Read.val_main_v105, Cert.ReferenceIdeal.Read.val_main_v106, Cert.ReferenceIdeal.Read.val_main_v107, Cert.ReferenceIdeal.Read.val_main_v108, Cert.ReferenceIdeal.Read.val_main_v109, Cert.ReferenceIdeal.Read.val_main_v110, Cert.ReferenceIdeal.Read.val_main_v111, Cert.ReferenceIdeal.Read.val_main_v112, Cert.ReferenceIdeal.Read.val_main_v113]
  rfl

set_option maxRecDepth 65536 in
set_option maxHeartbeats 4000000 in
theorem feat_m : Cert.ReferenceIdeal.Read.val_main_v109 (F := Ideal) x0 x1 x2 x3 x4 x5 x6 x7 x8
    = Cert.KernelIdeal.Hand.midM (F := Ideal) (Cert.ReferenceIdeal.Read.val_main_v6 (F := Ideal) x0 x3 x4)
        (Cert.ReferenceIdeal.Read.val_main_v16 (F := Ideal) x1 x5 x6) (Cert.ReferenceIdeal.Read.val_main_v26 (F := Ideal) x2 x7 x8) := by
  unfold Cert.KernelIdeal.Hand.midM
  dsimp only
  simp only [Cert.ReferenceIdeal.Read.val_main_call0_v0, Cert.ReferenceIdeal.Read.val_main_call0_cst, Cert.ReferenceIdeal.Read.val_main_call0_v1, Cert.ReferenceIdeal.Read.val_main_call0_v2, Cert.ReferenceIdeal.Read.val_main_v7, Cert.ReferenceIdeal.Read.val_main_v8, Cert.ReferenceIdeal.Read.val_main_v9, Cert.ReferenceIdeal.Read.val_main_call1_v0, Cert.ReferenceIdeal.Read.val_main_call1_cst, Cert.ReferenceIdeal.Read.val_main_call1_v1, Cert.ReferenceIdeal.Read.val_main_call1_v2, Cert.ReferenceIdeal.Read.val_main_v17, Cert.ReferenceIdeal.Read.val_main_v18, Cert.ReferenceIdeal.Read.val_main_v19, Cert.ReferenceIdeal.Read.val_main_call2_v0, Cert.ReferenceIdeal.Read.val_main_call2_cst, Cert.ReferenceIdeal.Read.val_main_call2_v1, Cert.ReferenceIdeal.Read.val_main_call2_v2, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_cst, Cert.ReferenceIdeal.Read.val_main_v33, Cert.ReferenceIdeal.Read.val_main_cst_0, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_cst_1, Cert.ReferenceIdeal.Read.val_main_v40, Cert.ReferenceIdeal.Read.val_main_v41, Cert.ReferenceIdeal.Read.val_main_v42, Cert.ReferenceIdeal.Read.val_main_v43, Cert.ReferenceIdeal.Read.val_main_cst_2, Cert.ReferenceIdeal.Read.val_main_v44, Cert.ReferenceIdeal.Read.val_main_cst_3, Cert.ReferenceIdeal.Read.val_main_v45, Cert.ReferenceIdeal.Read.val_main_v46, Cert.ReferenceIdeal.Read.val_main_v47, Cert.ReferenceIdeal.Read.val_main_v48, Cert.ReferenceIdeal.Read.val_main_v49, Cert.ReferenceIdeal.Read.val_main_v50, Cert.ReferenceIdeal.Read.val_main_cst_4, Cert.ReferenceIdeal.Read.val_main_v51, Cert.ReferenceIdeal.Read.val_main_v52, Cert.ReferenceIdeal.Read.val_main_v53, Cert.ReferenceIdeal.Read.val_main_v54, Cert.ReferenceIdeal.Read.val_main_cst_5, Cert.ReferenceIdeal.Read.val_main_v55, Cert.ReferenceIdeal.Read.val_main_cst_6, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_v61, Cert.ReferenceIdeal.Read.val_main_cst_7, Cert.ReferenceIdeal.Read.val_main_v62, Cert.ReferenceIdeal.Read.val_main_v63, Cert.ReferenceIdeal.Read.val_main_v64, Cert.ReferenceIdeal.Read.val_main_v65, Cert.ReferenceIdeal.Read.val_main_v66, Cert.ReferenceIdeal.Read.val_main_cst_8, Cert.ReferenceIdeal.Read.val_main_v67, Cert.ReferenceIdeal.Read.val_main_cst_9, Cert.ReferenceIdeal.Read.val_main_v68, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_cst_10, Cert.ReferenceIdeal.Read.val_main_v74, Cert.ReferenceIdeal.Read.val_main_v75, Cert.ReferenceIdeal.Read.val_main_v76, Cert.ReferenceIdeal.Read.val_main_v77, Cert.ReferenceIdeal.Read.val_main_cst_11, Cert.ReferenceIdeal.Read.val_main_v78, Cert.ReferenceIdeal.Read.val_main_cst_12, Cert.ReferenceIdeal.Read.val_main_v79, Cert.ReferenceIdeal.Read.val_main_v80, Cert.ReferenceIdeal.Read.val_main_v81, Cert.ReferenceIdeal.Read.val_main_v82, Cert.ReferenceIdeal.Read.val_main_v83, Cert.ReferenceIdeal.Read.val_main_v84, Cert.ReferenceIdeal.Read.val_main_cst_13, Cert.ReferenceIdeal.Read.val_main_v85, Cert.ReferenceIdeal.Read.val_main_v86, Cert.ReferenceIdeal.Read.val_main_v87, Cert.ReferenceIdeal.Read.val_main_v88, Cert.ReferenceIdeal.Read.val_main_v89, Cert.ReferenceIdeal.Read.val_main_cst_14, Cert.ReferenceIdeal.Read.val_main_v90, Cert.ReferenceIdeal.Read.val_main_cst_15, Cert.ReferenceIdeal.Read.val_main_v91, Cert.ReferenceIdeal.Read.val_main_v92, Cert.ReferenceIdeal.Read.val_main_v93, Cert.ReferenceIdeal.Read.val_main_v94, Cert.ReferenceIdeal.Read.val_main_v95, Cert.ReferenceIdeal.Read.val_main_v96, Cert.ReferenceIdeal.Read.val_main_cst_16, Cert.ReferenceIdeal.Read.val_main_v97, Cert.ReferenceIdeal.Read.val_main_v98, Cert.ReferenceIdeal.Read.val_main_v99, Cert.ReferenceIdeal.Read.val_main_v100, Cert.ReferenceIdeal.Read.val_main_v101, Cert.ReferenceIdeal.Read.val_main_v102, Cert.ReferenceIdeal.Read.val_main_v103, Cert.ReferenceIdeal.Read.val_main_v104, Cert.ReferenceIdeal.Read.val_main_v105, Cert.ReferenceIdeal.Read.val_main_v106, Cert.ReferenceIdeal.Read.val_main_v107, Cert.ReferenceIdeal.Read.val_main_v108, Cert.ReferenceIdeal.Read.val_main_v109, Cert.ReferenceIdeal.Read.val_main_v110, Cert.ReferenceIdeal.Read.val_main_v111, Cert.ReferenceIdeal.Read.val_main_v112, Cert.ReferenceIdeal.Read.val_main_v113]
  rfl

set_option maxRecDepth 65536 in
set_option maxHeartbeats 4000000 in
theorem feat_c : Cert.ReferenceIdeal.Read.val_main_v113 (F := Ideal) x0 x1 x2 x3 x4 x5 x6 x7 x8
    = Cert.KernelIdeal.Hand.midC (F := Ideal) (Cert.ReferenceIdeal.Read.val_main_v6 (F := Ideal) x0 x3 x4)
        (Cert.ReferenceIdeal.Read.val_main_v16 (F := Ideal) x1 x5 x6) (Cert.ReferenceIdeal.Read.val_main_v26 (F := Ideal) x2 x7 x8) := by
  unfold Cert.KernelIdeal.Hand.midC
  dsimp only
  simp only [Cert.ReferenceIdeal.Read.val_main_call0_v0, Cert.ReferenceIdeal.Read.val_main_call0_cst, Cert.ReferenceIdeal.Read.val_main_call0_v1, Cert.ReferenceIdeal.Read.val_main_call0_v2, Cert.ReferenceIdeal.Read.val_main_v7, Cert.ReferenceIdeal.Read.val_main_v8, Cert.ReferenceIdeal.Read.val_main_v9, Cert.ReferenceIdeal.Read.val_main_call1_v0, Cert.ReferenceIdeal.Read.val_main_call1_cst, Cert.ReferenceIdeal.Read.val_main_call1_v1, Cert.ReferenceIdeal.Read.val_main_call1_v2, Cert.ReferenceIdeal.Read.val_main_v17, Cert.ReferenceIdeal.Read.val_main_v18, Cert.ReferenceIdeal.Read.val_main_v19, Cert.ReferenceIdeal.Read.val_main_call2_v0, Cert.ReferenceIdeal.Read.val_main_call2_cst, Cert.ReferenceIdeal.Read.val_main_call2_v1, Cert.ReferenceIdeal.Read.val_main_call2_v2, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_cst, Cert.ReferenceIdeal.Read.val_main_v33, Cert.ReferenceIdeal.Read.val_main_cst_0, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_cst_1, Cert.ReferenceIdeal.Read.val_main_v40, Cert.ReferenceIdeal.Read.val_main_v41, Cert.ReferenceIdeal.Read.val_main_v42, Cert.ReferenceIdeal.Read.val_main_v43, Cert.ReferenceIdeal.Read.val_main_cst_2, Cert.ReferenceIdeal.Read.val_main_v44, Cert.ReferenceIdeal.Read.val_main_cst_3, Cert.ReferenceIdeal.Read.val_main_v45, Cert.ReferenceIdeal.Read.val_main_v46, Cert.ReferenceIdeal.Read.val_main_v47, Cert.ReferenceIdeal.Read.val_main_v48, Cert.ReferenceIdeal.Read.val_main_v49, Cert.ReferenceIdeal.Read.val_main_v50, Cert.ReferenceIdeal.Read.val_main_cst_4, Cert.ReferenceIdeal.Read.val_main_v51, Cert.ReferenceIdeal.Read.val_main_v52, Cert.ReferenceIdeal.Read.val_main_v53, Cert.ReferenceIdeal.Read.val_main_v54, Cert.ReferenceIdeal.Read.val_main_cst_5, Cert.ReferenceIdeal.Read.val_main_v55, Cert.ReferenceIdeal.Read.val_main_cst_6, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_v61, Cert.ReferenceIdeal.Read.val_main_cst_7, Cert.ReferenceIdeal.Read.val_main_v62, Cert.ReferenceIdeal.Read.val_main_v63, Cert.ReferenceIdeal.Read.val_main_v64, Cert.ReferenceIdeal.Read.val_main_v65, Cert.ReferenceIdeal.Read.val_main_v66, Cert.ReferenceIdeal.Read.val_main_cst_8, Cert.ReferenceIdeal.Read.val_main_v67, Cert.ReferenceIdeal.Read.val_main_cst_9, Cert.ReferenceIdeal.Read.val_main_v68, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_cst_10, Cert.ReferenceIdeal.Read.val_main_v74, Cert.ReferenceIdeal.Read.val_main_v75, Cert.ReferenceIdeal.Read.val_main_v76, Cert.ReferenceIdeal.Read.val_main_v77, Cert.ReferenceIdeal.Read.val_main_cst_11, Cert.ReferenceIdeal.Read.val_main_v78, Cert.ReferenceIdeal.Read.val_main_cst_12, Cert.ReferenceIdeal.Read.val_main_v79, Cert.ReferenceIdeal.Read.val_main_v80, Cert.ReferenceIdeal.Read.val_main_v81, Cert.ReferenceIdeal.Read.val_main_v82, Cert.ReferenceIdeal.Read.val_main_v83, Cert.ReferenceIdeal.Read.val_main_v84, Cert.ReferenceIdeal.Read.val_main_cst_13, Cert.ReferenceIdeal.Read.val_main_v85, Cert.ReferenceIdeal.Read.val_main_v86, Cert.ReferenceIdeal.Read.val_main_v87, Cert.ReferenceIdeal.Read.val_main_v88, Cert.ReferenceIdeal.Read.val_main_v89, Cert.ReferenceIdeal.Read.val_main_cst_14, Cert.ReferenceIdeal.Read.val_main_v90, Cert.ReferenceIdeal.Read.val_main_cst_15, Cert.ReferenceIdeal.Read.val_main_v91, Cert.ReferenceIdeal.Read.val_main_v92, Cert.ReferenceIdeal.Read.val_main_v93, Cert.ReferenceIdeal.Read.val_main_v94, Cert.ReferenceIdeal.Read.val_main_v95, Cert.ReferenceIdeal.Read.val_main_v96, Cert.ReferenceIdeal.Read.val_main_cst_16, Cert.ReferenceIdeal.Read.val_main_v97, Cert.ReferenceIdeal.Read.val_main_v98, Cert.ReferenceIdeal.Read.val_main_v99, Cert.ReferenceIdeal.Read.val_main_v100, Cert.ReferenceIdeal.Read.val_main_v101, Cert.ReferenceIdeal.Read.val_main_v102, Cert.ReferenceIdeal.Read.val_main_v103, Cert.ReferenceIdeal.Read.val_main_v104, Cert.ReferenceIdeal.Read.val_main_v105, Cert.ReferenceIdeal.Read.val_main_v106, Cert.ReferenceIdeal.Read.val_main_v107, Cert.ReferenceIdeal.Read.val_main_v108, Cert.ReferenceIdeal.Read.val_main_v109, Cert.ReferenceIdeal.Read.val_main_v110, Cert.ReferenceIdeal.Read.val_main_v111, Cert.ReferenceIdeal.Read.val_main_v112, Cert.ReferenceIdeal.Read.val_main_v113]
  rfl

end Cert.Proof.MidRef

end
-- ==== Proof.HeadLaw.lean ====
/- The head law at the ideal values. A head is: the product of the features [128, 1536] with the first
   weights [1024, 1536] contracted over the 1536 columns, plus the first bias as a row, clipped below at
   zero, times the second weights' row, summed over the 1024 lanes, plus the second bias, through the
   logistic function. The kernel's payload and the reference's chain of host operations both read, at row
   `b`, as ONE closed form (`headAt`); so the reference's result is the payload recast to a vector. -/
import proofs.«172187_j12206297055645_2_alg».proof.Proof.Gen.KernelIdeal.Skeleton
import proofs.«172187_j12206297055645_2_alg».proof.Proof.RefReadP
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Hand

open Idealize.ShloMosaic Idealize.ShloMosaic.ValueIdx
open Cert.KernelIdeal.Gen

/-! ## The closed form -/

/-- The head's value at row `b`: the logistic of `Σₖ max (Σⱼ f[b,j]·w2[k,j] + b2[k]) 0 · w3[0,k] + b3[0]`. -/
def headAt (f : Vec Ideal S128x1536 .f32) (w2 : Vec Ideal S1024x1536 .f32) (b2 : Vec Ideal S1024 .f32)
    (w3 : Vec Ideal S1x1024 .f32) (b3 : Vec Ideal S1 .f32) (b : Fin 128) : EReal :=
  Ideal.logistic ((∑ k : Fin 1024, max ((∑ j : Fin 1536, f (ix2 b j) * w2 (ix2 k j)) + b2 (ix1 k)) 0 * w3 (ix2 (0 : Fin 1) k))
    + b3 (ix1 (0 : Fin 1)))

/-! ## The kernel's payload at an index -/

/-- The matmul's operand indices at output index `i` and contraction index `q`: row `i 0` of the left operand,
    row `i 1` of the right, column `q` of both. -/
private theorem lhs0 (i : S128x1024.Idx) (q : dot_S128x1536_S1024x1536_S128x1024_1_1_0_0_n_n.contr.Idx) : (dot_S128x1536_S1024x1536_S128x1024_1_1_0_0_n_n.lhsIdx i q 0).val = (i 0).val := by
  unfold DotDims.lhsIdx
  rw [dif_neg (show ¬(0 : Fin S128x1536.rank) ∈ dot_S128x1536_S1024x1536_S128x1024_1_1_0_0_n_n.lhsBatch by decide), dif_pos (show (0 : Fin S128x1536.rank) ∈ dot_S128x1536_S1024x1536_S128x1024_1_1_0_0_n_n.lhsNonContracting by decide)]
  rfl
private theorem lhs1 (i : S128x1024.Idx) (q : dot_S128x1536_S1024x1536_S128x1024_1_1_0_0_n_n.contr.Idx) : (dot_S128x1536_S1024x1536_S128x1024_1_1_0_0_n_n.lhsIdx i q 1).val = (q ⟨0, by decide⟩).val :=
  dot_S128x1536_S1024x1536_S128x1024_1_1_0_0_n_n.lhsIdx_val_of_single rfl i q
private theorem rhs0 (i : S128x1024.Idx) (q : dot_S128x1536_S1024x1536_S128x1024_1_1_0_0_n_n.contr.Idx) : (dot_S128x1536_S1024x1536_S128x1024_1_1_0_0_n_n.rhsIdx i q 0).val = (i 1).val := by
  unfold DotDims.rhsIdx
  rw [dif_neg (show ¬(0 : Fin S1024x1536.rank) ∈ dot_S128x1536_S1024x1536_S128x1024_1_1_0_0_n_n.rhsBatch by decide), dif_pos (show (0 : Fin S1024x1536.rank) ∈ dot_S128x1536_S1024x1536_S128x1024_1_1_0_0_n_n.rhsNonContracting by decide)]
  rfl
private theorem rhs1 (i : S128x1024.Idx) (q : dot_S128x1536_S1024x1536_S128x1024_1_1_0_0_n_n.contr.Idx) : (dot_S128x1536_S1024x1536_S128x1024_1_1_0_0_n_n.rhsIdx i q 1).val = (q ⟨0, by decide⟩).val :=
  dot_S128x1536_S1024x1536_S128x1024_1_1_0_0_n_n.rhsIdx_val_of_single rfl i q

/-- The payload's matmul into the zero accumulator, read at `(b, k)`: the sum over the columns. The format changes
    are the identity on extended reals. -/
private theorem mm_apply (f : Vec Ideal S128x1536 .f32) (w2 : Vec Ideal S1024x1536 .f32) (h1 : S128x1536.ShapeCasts S128x1536)
    (h2 : FTy.bits .bf16 < FTy.bits .f32) (b : Fin 128) (k : Fin 1024) :
    matmul (F := Ideal) dot_S128x1536_S1024x1536_S128x1024_1_1_0_0_n_n none (truncf (F := Ideal) .bf16 (shapeCast S128x1536 f h1) h2) (truncf (F := Ideal) .bf16 w2 h2) (constant (F := Ideal) S128x1024 .f32 0x00000000#32) (ix2 b k)
      = ∑ j : Fin 1536, f (ix2 b j) * w2 (ix2 k j) := by
  rw [shapeCast_self]
  simp only [matmul]
  rw [Ideal.matmul_constant_zero_apply, ← Equiv.sum_comp (contrEquiv1 dot_S128x1536_S1024x1536_S128x1024_1_1_0_0_n_n 1536 rfl rfl).symm]
  refine Finset.sum_congr rfl fun j _ => ?_
  have hj := contrEquiv1_symm_val dot_S128x1536_S1024x1536_S128x1024_1_1_0_0_n_n 1536 rfl rfl j
  have el : dot_S128x1536_S1024x1536_S128x1024_1_1_0_0_n_n.lhsIdx (ix2 b k) ((contrEquiv1 dot_S128x1536_S1024x1536_S128x1024_1_1_0_0_n_n 1536 rfl rfl).symm j) = ix2 b j := funext fun a => Fin.ext (by
    match a with
    | ⟨0, _⟩ => exact lhs0 _ _
    | ⟨1, _⟩ => exact (lhs1 _ _).trans hj)
  have er : dot_S128x1536_S1024x1536_S128x1024_1_1_0_0_n_n.rhsIdx (ix2 b k) ((contrEquiv1 dot_S128x1536_S1024x1536_S128x1024_1_1_0_0_n_n 1536 rfl rfl).symm j) = ix2 k j := funext fun a => Fin.ext (by
    match a with
    | ⟨0, _⟩ => exact rhs0 _ _
    | ⟨1, _⟩ => exact (rhs1 _ _).trans hj)
  rw [el, er]
  rfl

/-- The lane sum read at row `b`: the sum over the 1024 lanes. -/
private theorem red_apply (v : FVec Ideal S128x1024 .f32) (h : S128x1024.Reduces [1] S128) (hφ : FKind.Formats .f32)
    (hacc : (0x00000000#32 : BitVec 32) = FKind.add.neutral .f32 hφ) (b : Fin 128) :
    multiReduction .add [1] S128 v 0x00000000#32 h hφ hacc (ix1 b) = ∑ k : Fin 1024, v (ix2 b k) := by
  rw [Ideal.multiReduction_add_single]
  refine Finset.sum_congr rfl fun k _ => congrArg v (funext fun a => Fin.ext ?_)
  match a with
  | ⟨0, _⟩ => rfl
  | ⟨1, _⟩ => rfl

/-- A vector recast to a one-column matrix reads its own element. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A one-column matrix recast to a vector reads its own element. -/
private theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

private theorem logistic_apply {s : Shape} (x : FVec Ideal s .f32) (i : s.Idx) : logistic x i = Ideal.logistic (x i) := rfl

/-- THE PAYLOAD AT A ROW: the closed form. -/
theorem head_pay_apply (f : Vec Ideal S128x1536 .f32) (w2 : Vec Ideal S1024x1536 .f32) (b2 : Vec Ideal S1024 .f32)
    (w3 : Vec Ideal S1x1024 .f32) (b3 : Vec Ideal S1 .f32) (b : Fin 128) (u : Fin 1) :
    k1_pay1 (F := Ideal) f w2 b2 w3 b3 (ix2 b u) = headAt f w2 b2 w3 b3 b := by
  obtain rfl : u = 0 := Subsingleton.elim _ _
  unfold k1_pay1 headAt
  dsimp only
  rw [logistic_apply, addf_apply, shapeCast_a_a1_apply]
  refine congrArg Ideal.logistic (congrArg₂ (· + ·) ((red_apply _ _ _ _ b).trans (Finset.sum_congr rfl fun k _ => ?_)) ?_)
  · rw [mulf_apply, maximumf_apply, addf_apply, mm_apply, broadcastTo_1b_ab_apply, broadcastTo_1b_ab_apply, shapeCast_a_1a_apply, broadcast_apply]
    rw [show (FloatOps.ofBits (F := Ideal) .f32 0x00000000#32) = (0 : EReal) from Ideal.ofBits_zero_f32]
  · rw [broadcastTo_1b_ab_apply, shapeCast_a_1a_apply]

/-- The three heads' payloads are one function. -/
theorem k2_pay1_eq : k2_pay1 (F := Ideal) = k1_pay1 (F := Ideal) := rfl
theorem k3_pay1_eq : k3_pay1 (F := Ideal) = k1_pay1 (F := Ideal) := rfl

/-! ## Head 1: the reference's chain at an index -/

section Ref1
open ReferenceIdeal.Read in
/-- THE REFERENCE'S HEAD 1 AT A ROW: the same closed form, of the reference's features and the head's four parameters. -/
theorem ref1_apply (x0 x1 x2 : (⟨ReferenceIdeal.S128x20000, .f32⟩ : BufTy).Contents (Elt Ideal)) (x3 x4 x5 x6 x7 x8 : (⟨ReferenceIdeal.S384x20000, .f32⟩ : BufTy).Contents (Elt Ideal)) (x9 : (⟨ReferenceIdeal.S1024x1536, .f32⟩ : BufTy).Contents (Elt Ideal)) (x10 : (⟨ReferenceIdeal.S1024, .f32⟩ : BufTy).Contents (Elt Ideal)) (x15 : (⟨ReferenceIdeal.S1x1024, .f32⟩ : BufTy).Contents (Elt Ideal)) (x16 : (⟨ReferenceIdeal.S1, .f32⟩ : BufTy).Contents (Elt Ideal)) (b : Fin 128) :
    ReferenceIdeal.Read.val_main_v131 (F := Ideal) x0 x1 x2 x3 x4 x5 x6 x7 x8 x9 x10 x15 x16 (ix1 b)
      = headAt (ReferenceIdeal.Read.val_main_v105 (F := Ideal) x0 x1 x2 x3 x4 x5 x6 x7 x8) x9 x10 x15 x16 b := by
  have one : Ideal.ofBits .f32 0x3F800000#32 = 1 := IdealRules.sign_bit.ideal_onePat .f32
  have hI : ReferenceIdeal.Read.idx_main_v131 (ix1 b) = ix2 b (0 : Fin 1) := funext fun a => Fin.ext (by
    match a with
    | ⟨0, _⟩ => exact Nat.div_one _
    | ⟨1, _⟩ => rfl)
  rw [val_main_v131_apply, hI, val_main_v130_apply, val_main_v129_apply, val_main_cst_18_apply, val_main_v128_apply, val_main_v127_apply, val_main_cst_17_apply,
    val_main_v126_apply, val_main_v125_apply, val_main_v124_apply, val_main_v121_apply, val_main_v123_apply, val_main_v122_apply]
  unfold headAt
  show Ideal.div (Ideal.ofBits .f32 0x3F800000#32) (Ideal.ofBits .f32 0x3F800000#32 + Ideal.exp (-(_ + _))) = Ideal.div 1 (1 + Ideal.exp (-(_ + _)))
  rw [one]
  refine congrArg (fun z : EReal => Ideal.div 1 (1 + Ideal.exp (-z))) (congrArg₂ (· + ·) (Finset.sum_congr rfl fun k _ => ?_) (congrArg x16 ?_))
  · have hl : ReferenceIdeal.Read.lidx_main_v121 (ix2 b (0 : Fin 1)) k = ix2 b k := funext fun a => by
      match a with
      | ⟨0, _⟩ => rfl
      | ⟨1, _⟩ => rfl
    have hr : ReferenceIdeal.Read.idx_main_v120 (ReferenceIdeal.Read.ridx_main_v121 (ix2 b (0 : Fin 1)) k) = ix2 (0 : Fin 1) k := funext fun a => by
      match a with
      | ⟨0, _⟩ => rfl
      | ⟨1, _⟩ => rfl
    have hb : ReferenceIdeal.Read.idx_main_v116 (ReferenceIdeal.Read.idx_main_v117 (ix2 b k)) = ix1 k := funext fun a => by
      match a with
      | ⟨0, _⟩ => rfl
    rw [hl, val_main_v119_apply, val_main_v120_apply, hr, val_main_v118_apply, val_main_call3_v0_apply, val_main_call3_cst_apply, val_main_v115_apply, val_main_v117_apply, val_main_v116_apply, hb]
    show max ((∑ j : Fin 1536, _) + _) (Ideal.ofBits .f32 0x00000000#32) * _ = _
    rw [Ideal.ofBits_zero_f32]
    refine congrArg (fun z : EReal => max (z + x10 (ix1 k)) 0 * x15 (ix2 (0 : Fin 1) k)) (Finset.sum_congr rfl fun j _ => ?_)
    have hlj : ReferenceIdeal.Read.lidx_main_v115 (ix2 b k) j = ix2 b j := funext fun a => by
      match a with
      | ⟨0, _⟩ => rfl
      | ⟨1, _⟩ => rfl
    have hrj : ReferenceIdeal.Read.idx_main_v114 (ReferenceIdeal.Read.ridx_main_v115 (ix2 b k) j) = ix2 k j := funext fun a => by
      match a with
      | ⟨0, _⟩ => rfl
      | ⟨1, _⟩ => rfl
    rw [hlj, val_main_v114_apply, hrj]
  · funext a
    match a with
    | ⟨0, _⟩ => rfl

/-- THE HEAD LAW, head 1: the reference's result is the kernel's payload of the reference's features, recast to a vector. -/
theorem head1 (x0 x1 x2 : (⟨ReferenceIdeal.S128x20000, .f32⟩ : BufTy).Contents (Elt Ideal)) (x3 x4 x5 x6 x7 x8 : (⟨ReferenceIdeal.S384x20000, .f32⟩ : BufTy).Contents (Elt Ideal)) (x9 : (⟨ReferenceIdeal.S1024x1536, .f32⟩ : BufTy).Contents (Elt Ideal)) (x10 : (⟨ReferenceIdeal.S1024, .f32⟩ : BufTy).Contents (Elt Ideal)) (x15 : (⟨ReferenceIdeal.S1x1024, .f32⟩ : BufTy).Contents (Elt Ideal)) (x16 : (⟨ReferenceIdeal.S1, .f32⟩ : BufTy).Contents (Elt Ideal)) :
    ReferenceIdeal.Read.val_main_v131 (F := Ideal) x0 x1 x2 x3 x4 x5 x6 x7 x8 x9 x10 x15 x16
      = shapeCast S128 (k1_pay1 (F := Ideal) (ReferenceIdeal.Read.val_main_v105 (F := Ideal) x0 x1 x2 x3 x4 x5 x6 x7 x8) x9 x10 x15 x16) shapeCasts_S128x1_S128 := by
  funext i
  obtain ⟨b, rfl⟩ : ∃ b, i = ix1 b := ⟨i 0, eq_ix1 i⟩
  rw [ref1_apply, shapeCast_a1_a_apply, head_pay_apply]
end Ref1

/-! ## Head 2: the reference's chain at an index -/

section Ref2
open ReferenceIdeal.Read in
/-- THE REFERENCE'S HEAD 2 AT A ROW: the same closed form, of the reference's features and the head's four parameters. -/
theorem ref2_apply (x0 x1 x2 : (⟨ReferenceIdeal.S128x20000, .f32⟩ : BufTy).Contents (Elt Ideal)) (x3 x4 x5 x6 x7 x8 : (⟨ReferenceIdeal.S384x20000, .f32⟩ : BufTy).Contents (Elt Ideal)) (x11 : (⟨ReferenceIdeal.S1024x1536, .f32⟩ : BufTy).Contents (Elt Ideal)) (x12 : (⟨ReferenceIdeal.S1024, .f32⟩ : BufTy).Contents (Elt Ideal)) (x17 : (⟨ReferenceIdeal.S1x1024, .f32⟩ : BufTy).Contents (Elt Ideal)) (x18 : (⟨ReferenceIdeal.S1, .f32⟩ : BufTy).Contents (Elt Ideal)) (b : Fin 128) :
    ReferenceIdeal.Read.val_main_v149 (F := Ideal) x0 x1 x2 x3 x4 x5 x6 x7 x8 x11 x12 x17 x18 (ix1 b)
      = headAt (ReferenceIdeal.Read.val_main_v109 (F := Ideal) x0 x1 x2 x3 x4 x5 x6 x7 x8) x11 x12 x17 x18 b := by
  have one : Ideal.ofBits .f32 0x3F800000#32 = 1 := IdealRules.sign_bit.ideal_onePat .f32
  have hI : ReferenceIdeal.Read.idx_main_v149 (ix1 b) = ix2 b (0 : Fin 1) := funext fun a => Fin.ext (by
    match a with
    | ⟨0, _⟩ => exact Nat.div_one _
    | ⟨1, _⟩ => rfl)
  rw [val_main_v149_apply, hI, val_main_v148_apply, val_main_v147_apply, val_main_cst_20_apply, val_main_v146_apply, val_main_v145_apply, val_main_cst_19_apply,
    val_main_v144_apply, val_main_v143_apply, val_main_v142_apply, val_main_v139_apply, val_main_v141_apply, val_main_v140_apply]
  unfold headAt
  show Ideal.div (Ideal.ofBits .f32 0x3F800000#32) (Ideal.ofBits .f32 0x3F800000#32 + Ideal.exp (-(_ + _))) = Ideal.div 1 (1 + Ideal.exp (-(_ + _)))
  rw [one]
  refine congrArg (fun z : EReal => Ideal.div 1 (1 + Ideal.exp (-z))) (congrArg₂ (· + ·) (Finset.sum_congr rfl fun k _ => ?_) (congrArg x18 ?_))
  · have hl : ReferenceIdeal.Read.lidx_main_v139 (ix2 b (0 : Fin 1)) k = ix2 b k := funext fun a => by
      match a with
      | ⟨0, _⟩ => rfl
      | ⟨1, _⟩ => rfl
    have hr : ReferenceIdeal.Read.idx_main_v138 (ReferenceIdeal.Read.ridx_main_v139 (ix2 b (0 : Fin 1)) k) = ix2 (0 : Fin 1) k := funext fun a => by
      match a with
      | ⟨0, _⟩ => rfl
      | ⟨1, _⟩ => rfl
    have hb : ReferenceIdeal.Read.idx_main_v134 (ReferenceIdeal.Read.idx_main_v135 (ix2 b k)) = ix1 k := funext fun a => by
      match a with
      | ⟨0, _⟩ => rfl
    rw [hl, val_main_v137_apply, val_main_v138_apply, hr, val_main_v136_apply, val_main_call4_v0_apply, val_main_call4_cst_apply, val_main_v133_apply, val_main_v135_apply, val_main_v134_apply, hb]
    show max ((∑ j : Fin 1536, _) + _) (Ideal.ofBits .f32 0x00000000#32) * _ = _
    rw [Ideal.ofBits_zero_f32]
    refine congrArg (fun z : EReal => max (z + x12 (ix1 k)) 0 * x17 (ix2 (0 : Fin 1) k)) (Finset.sum_congr rfl fun j _ => ?_)
    have hlj : ReferenceIdeal.Read.lidx_main_v133 (ix2 b k) j = ix2 b j := funext fun a => by
      match a with
      | ⟨0, _⟩ => rfl
      | ⟨1, _⟩ => rfl
    have hrj : ReferenceIdeal.Read.idx_main_v132 (ReferenceIdeal.Read.ridx_main_v133 (ix2 b k) j) = ix2 k j := funext fun a => by
      match a with
      | ⟨0, _⟩ => rfl
      | ⟨1, _⟩ => rfl
    rw [hlj, val_main_v132_apply, hrj]
  · funext a
    match a with
    | ⟨0, _⟩ => rfl

/-- THE HEAD LAW, head 2: the reference's result is the kernel's payload of the reference's features, recast to a vector. -/
theorem head2 (x0 x1 x2 : (⟨ReferenceIdeal.S128x20000, .f32⟩ : BufTy).Contents (Elt Ideal)) (x3 x4 x5 x6 x7 x8 : (⟨ReferenceIdeal.S384x20000, .f32⟩ : BufTy).Contents (Elt Ideal)) (x11 : (⟨ReferenceIdeal.S1024x1536, .f32⟩ : BufTy).Contents (Elt Ideal)) (x12 : (⟨ReferenceIdeal.S1024, .f32⟩ : BufTy).Contents (Elt Ideal)) (x17 : (⟨ReferenceIdeal.S1x1024, .f32⟩ : BufTy).Contents (Elt Ideal)) (x18 : (⟨ReferenceIdeal.S1, .f32⟩ : BufTy).Contents (Elt Ideal)) :
    ReferenceIdeal.Read.val_main_v149 (F := Ideal) x0 x1 x2 x3 x4 x5 x6 x7 x8 x11 x12 x17 x18
      = shapeCast S128 (k2_pay1 (F := Ideal) (ReferenceIdeal.Read.val_main_v109 (F := Ideal) x0 x1 x2 x3 x4 x5 x6 x7 x8) x11 x12 x17 x18) shapeCasts_S128x1_S128 := by
  funext i
  obtain ⟨b, rfl⟩ : ∃ b, i = ix1 b := ⟨i 0, eq_ix1 i⟩
  rw [ref2_apply, shapeCast_a1_a_apply, k2_pay1_eq, head_pay_apply]
end Ref2

/-! ## Head 3: the reference's chain at an index -/

section Ref3
open ReferenceIdeal.Read in
/-- THE REFERENCE'S HEAD 3 AT A ROW: the same closed form, of the reference's features and the head's four parameters. -/
theorem ref3_apply (x0 x1 x2 : (⟨ReferenceIdeal.S128x20000, .f32⟩ : BufTy).Contents (Elt Ideal)) (x3 x4 x5 x6 x7 x8 : (⟨ReferenceIdeal.S384x20000, .f32⟩ : BufTy).Contents (Elt Ideal)) (x13 : (⟨ReferenceIdeal.S1024x1536, .f32⟩ : BufTy).Contents (Elt Ideal)) (x14 : (⟨ReferenceIdeal.S1024, .f32⟩ : BufTy).Contents (Elt Ideal)) (x19 : (⟨ReferenceIdeal.S1x1024, .f32⟩ : BufTy).Contents (Elt Ideal)) (x20 : (⟨ReferenceIdeal.S1, .f32⟩ : BufTy).Contents (Elt Ideal)) (b : Fin 128) :
    ReferenceIdeal.Read.val_main_v167 (F := Ideal) x0 x1 x2 x3 x4 x5 x6 x7 x8 x13 x14 x19 x20 (ix1 b)
      = headAt (ReferenceIdeal.Read.val_main_v113 (F := Ideal) x0 x1 x2 x3 x4 x5 x6 x7 x8) x13 x14 x19 x20 b := by
  have one : Ideal.ofBits .f32 0x3F800000#32 = 1 := IdealRules.sign_bit.ideal_onePat .f32
  have hI : ReferenceIdeal.Read.idx_main_v167 (ix1 b) = ix2 b (0 : Fin 1) := funext fun a => Fin.ext (by
    match a with
    | ⟨0, _⟩ => exact Nat.div_one _
    | ⟨1, _⟩ => rfl)
  rw [val_main_v167_apply, hI, val_main_v166_apply, val_main_v165_apply, val_main_cst_22_apply, val_main_v164_apply, val_main_v163_apply, val_main_cst_21_apply,
    val_main_v162_apply, val_main_v161_apply, val_main_v160_apply, val_main_v157_apply, val_main_v159_apply, val_main_v158_apply]
  unfold headAt
  show Ideal.div (Ideal.ofBits .f32 0x3F800000#32) (Ideal.ofBits .f32 0x3F800000#32 + Ideal.exp (-(_ + _))) = Ideal.div 1 (1 + Ideal.exp (-(_ + _)))
  rw [one]
  refine congrArg (fun z : EReal => Ideal.div 1 (1 + Ideal.exp (-z))) (congrArg₂ (· + ·) (Finset.sum_congr rfl fun k _ => ?_) (congrArg x20 ?_))
  · have hl : ReferenceIdeal.Read.lidx_main_v157 (ix2 b (0 : Fin 1)) k = ix2 b k := funext fun a => by
      match a with
      | ⟨0, _⟩ => rfl
      | ⟨1, _⟩ => rfl
    have hr : ReferenceIdeal.Read.idx_main_v156 (ReferenceIdeal.Read.ridx_main_v157 (ix2 b (0 : Fin 1)) k) = ix2 (0 : Fin 1) k := funext fun a => by
      match a with
      | ⟨0, _⟩ => rfl
      | ⟨1, _⟩ => rfl
    have hb : ReferenceIdeal.Read.idx_main_v152 (ReferenceIdeal.Read.idx_main_v153 (ix2 b k)) = ix1 k := funext fun a => by
      match a with
      | ⟨0, _⟩ => rfl
    rw [hl, val_main_v155_apply, val_main_v156_apply, hr, val_main_v154_apply, val_main_call5_v0_apply, val_main_call5_cst_apply, val_main_v151_apply, val_main_v153_apply, val_main_v152_apply, hb]
    show max ((∑ j : Fin 1536, _) + _) (Ideal.ofBits .f32 0x00000000#32) * _ = _
    rw [Ideal.ofBits_zero_f32]
    refine congrArg (fun z : EReal => max (z + x14 (ix1 k)) 0 * x19 (ix2 (0 : Fin 1) k)) (Finset.sum_congr rfl fun j _ => ?_)
    have hlj : ReferenceIdeal.Read.lidx_main_v151 (ix2 b k) j = ix2 b j := funext fun a => by
      match a with
      | ⟨0, _⟩ => rfl
      | ⟨1, _⟩ => rfl
    have hrj : ReferenceIdeal.Read.idx_main_v150 (ReferenceIdeal.Read.ridx_main_v151 (ix2 b k) j) = ix2 k j := funext fun a => by
      match a with
      | ⟨0, _⟩ => rfl
      | ⟨1, _⟩ => rfl
    rw [hlj, val_main_v150_apply, hrj]
  · funext a
    match a with
    | ⟨0, _⟩ => rfl

/-- THE HEAD LAW, head 3: the reference's result is the kernel's payload of the reference's features, recast to a vector. -/
theorem head3 (x0 x1 x2 : (⟨ReferenceIdeal.S128x20000, .f32⟩ : BufTy).Contents (Elt Ideal)) (x3 x4 x5 x6 x7 x8 : (⟨ReferenceIdeal.S384x20000, .f32⟩ : BufTy).Contents (Elt Ideal)) (x13 : (⟨ReferenceIdeal.S1024x1536, .f32⟩ : BufTy).Contents (Elt Ideal)) (x14 : (⟨ReferenceIdeal.S1024, .f32⟩ : BufTy).Contents (Elt Ideal)) (x19 : (⟨ReferenceIdeal.S1x1024, .f32⟩ : BufTy).Contents (Elt Ideal)) (x20 : (⟨ReferenceIdeal.S1, .f32⟩ : BufTy).Contents (Elt Ideal)) :
    ReferenceIdeal.Read.val_main_v167 (F := Ideal) x0 x1 x2 x3 x4 x5 x6 x7 x8 x13 x14 x19 x20
      = shapeCast S128 (k3_pay1 (F := Ideal) (ReferenceIdeal.Read.val_main_v113 (F := Ideal) x0 x1 x2 x3 x4 x5 x6 x7 x8) x13 x14 x19 x20) shapeCasts_S128x1_S128 := by
  funext i
  obtain ⟨b, rfl⟩ : ∃ b, i = ix1 b := ⟨i 0, eq_ix1 i⟩
  rw [ref3_apply, shapeCast_a1_a_apply, k3_pay1_eq, head_pay_apply]
end Ref3

end Cert.KernelIdeal.Hand

end
-- ==== Proof.Algebraic.lean ====
import proofs.«172187_j12206297055645_2_alg».proof.Defs
import proofs.«172187_j12206297055645_2_alg».proof.Proof.KIValue
import proofs.«172187_j12206297055645_2_alg».proof.Proof.KIProjFinal2
import proofs.«172187_j12206297055645_2_alg».proof.Proof.ProjLaw
import proofs.«172187_j12206297055645_2_alg».proof.Proof.MidRef
import proofs.«172187_j12206297055645_2_alg».proof.Proof.HeadLaw
import proofs.«172187_j12206297055645_2_alg».proof.Proof.RefSide

noncomputable section

open Idealize.ShloMosaic Idealize.ShloMosaic.TcCoe Idealize.SL.Sem
open Idealize.ShloMosaic.ValueIdx

namespace Cert.Proof.Alg

variable (m : (ℓ : Loc Cert.KernelIdeal.nD Cert.KernelIdeal.τ Cert.KernelIdeal.sig) → Buf (Elt Ideal) ℓ) (ρ : Dev Cert.KernelIdeal.nD → PrngReg)

/-! # The idealized kernel and the idealized reference compute the same three vectors

Over the extended reals: a projected pair of the kernel — eight partial products over blocks of a zero-padded axis of
length 20480, added into a block that starts at zero — is the reference's pair of products over the axis of length
20000, because the padded terms are `0 · 0` and addition is associative and commutative; the attention stage is the
same sequence of operations on both sides; and a head of the kernel — a product into a zero accumulator, a row added,
the maximum with zero, a row-wise product summed along the lanes, a scalar added, the logistic function — is the
reference's head, whose logistic is spelt `1 / (1 + exp (-x))`. -/

/-- Modality 0's projected pair is the reference's. -/
theorem pairE_ref (c : Dev Cert.KernelIdeal.nD) : Cert.KernelIdeal.Hand.pairE (F := Ideal) (Cert.KernelIdeal.Hand.projArr m ρ c) = Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  funext i
  obtain ⟨b, k, q, rfl⟩ : ∃ (b : Fin 128) (k : Fin 2) (q : Fin 384), i = ix3 b k q := ⟨i 0, i 1, i 2, eq_ix3 i⟩
  have hP : Cert.KernelIdeal.Hand.projArr m ρ c = Cert.KernelIdeal.Hand.projOut (Cert.KernelIdeal.Hand.V13 m ρ) c := Cert.KernelIdeal.Hand.W14_arr m ρ c 2
  have hX : Cert.KernelIdeal.Hand.projX (Cert.KernelIdeal.Hand.V13 m ρ) c = Cert.KernelIdeal.Hand.stackX (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := Cert.KernelIdeal.Hand.X_eq m ρ c
  have hW : Cert.KernelIdeal.Hand.projW (Cert.KernelIdeal.Hand.V13 m ρ) c = Cert.KernelIdeal.Hand.stackW (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := Cert.KernelIdeal.Hand.Wt_eq m ρ c
  rw [hP, Cert.KernelIdeal.Hand.pairE_sum (Cert.KernelIdeal.Hand.V13 m ρ) c b k q, hX, hW]
  exact Cert.KernelIdeal.Hand.proj_law_e _ _ _ _ _ _ _ _ _ b k q

/-- Modality 1's projected pair is the reference's. -/
theorem pairM_ref (c : Dev Cert.KernelIdeal.nD) : Cert.KernelIdeal.Hand.pairM (F := Ideal) (Cert.KernelIdeal.Hand.projArr m ρ c) = Cert.ReferenceIdeal.Read.val_main_v16 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  funext i
  obtain ⟨b, k, q, rfl⟩ : ∃ (b : Fin 128) (k : Fin 2) (q : Fin 384), i = ix3 b k q := ⟨i 0, i 1, i 2, eq_ix3 i⟩
  have hP : Cert.KernelIdeal.Hand.projArr m ρ c = Cert.KernelIdeal.Hand.projOut (Cert.KernelIdeal.Hand.V13 m ρ) c := Cert.KernelIdeal.Hand.W14_arr m ρ c 2
  have hX : Cert.KernelIdeal.Hand.projX (Cert.KernelIdeal.Hand.V13 m ρ) c = Cert.KernelIdeal.Hand.stackX (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := Cert.KernelIdeal.Hand.X_eq m ρ c
  have hW : Cert.KernelIdeal.Hand.projW (Cert.KernelIdeal.Hand.V13 m ρ) c = Cert.KernelIdeal.Hand.stackW (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := Cert.KernelIdeal.Hand.Wt_eq m ρ c
  rw [hP, Cert.KernelIdeal.Hand.pairM_sum (Cert.KernelIdeal.Hand.V13 m ρ) c b k q, hX, hW]
  exact Cert.KernelIdeal.Hand.proj_law_m _ _ _ _ _ _ _ _ _ b k q

/-- Modality 2's projected pair is the reference's. -/
theorem pairC_ref (c : Dev Cert.KernelIdeal.nD) : Cert.KernelIdeal.Hand.pairC (F := Ideal) (Cert.KernelIdeal.Hand.projArr m ρ c) = Cert.ReferenceIdeal.Read.val_main_v26 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext i
  obtain ⟨b, k, q, rfl⟩ : ∃ (b : Fin 128) (k : Fin 2) (q : Fin 384), i = ix3 b k q := ⟨i 0, i 1, i 2, eq_ix3 i⟩
  have hP : Cert.KernelIdeal.Hand.projArr m ρ c = Cert.KernelIdeal.Hand.projOut (Cert.KernelIdeal.Hand.V13 m ρ) c := Cert.KernelIdeal.Hand.W14_arr m ρ c 2
  have hX : Cert.KernelIdeal.Hand.projX (Cert.KernelIdeal.Hand.V13 m ρ) c = Cert.KernelIdeal.Hand.stackX (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := Cert.KernelIdeal.Hand.X_eq m ρ c
  have hW : Cert.KernelIdeal.Hand.projW (Cert.KernelIdeal.Hand.V13 m ρ) c = Cert.KernelIdeal.Hand.stackW (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := Cert.KernelIdeal.Hand.Wt_eq m ρ c
  rw [hP, Cert.KernelIdeal.Hand.pairC_sum (Cert.KernelIdeal.Hand.V13 m ρ) c b k q, hX, hW]
  exact Cert.KernelIdeal.Hand.proj_law_c _ _ _ _ _ _ _ _ _ b k q

/-- The kernel's first result is the reference's first stage-by-stage value of the same arguments. -/
theorem res1_ref (c : Dev Cert.KernelIdeal.nD) : Cert.KernelIdeal.Hand.W27 m ρ c (Proc.devRef .tc Cert.KernelIdeal.main_v121)
    = Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  rw [Cert.KernelIdeal.Hand.res1_eq m ρ c, Cert.KernelIdeal.Hand.feat_e m ρ c, pairE_ref m ρ c, pairM_ref m ρ c, pairC_ref m ρ c, ← Cert.Proof.MidRef.feat_e]
  exact (Cert.KernelIdeal.Hand.head1 _ _ _ _ _ _ _ _ _ _ _ _ _).symm

theorem res2_ref (c : Dev Cert.KernelIdeal.nD) : Cert.KernelIdeal.Hand.W27 m ρ c (Proc.devRef .tc Cert.KernelIdeal.main_v123)
    = Cert.ReferenceIdeal.Read.val_main_v149 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) := by
  rw [Cert.KernelIdeal.Hand.res2_eq m ρ c, Cert.KernelIdeal.Hand.feat_m m ρ c, pairE_ref m ρ c, pairM_ref m ρ c, pairC_ref m ρ c, ← Cert.Proof.MidRef.feat_m]
  exact (Cert.KernelIdeal.Hand.head2 _ _ _ _ _ _ _ _ _ _ _ _ _).symm

theorem res3_ref (c : Dev Cert.KernelIdeal.nD) : Cert.KernelIdeal.Hand.W27 m ρ c (Proc.devRef .tc Cert.KernelIdeal.main_v125)
    = Cert.ReferenceIdeal.Read.val_main_v167 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  rw [Cert.KernelIdeal.Hand.res3_eq m ρ c, Cert.KernelIdeal.Hand.feat_c m ρ c, pairE_ref m ρ c, pairM_ref m ρ c, pairC_ref m ρ c, ← Cert.Proof.MidRef.feat_c]
  exact (Cert.KernelIdeal.Hand.head3 _ _ _ _ _ _ _ _ _ _ _ _ _).symm

/-- Both idealized programs run, from memories that agree on the arguments, to equal results. -/
theorem algebraic : Cert.algebraic_KernelIdeal_ReferenceIdeal := by
  intro m ρ m' ρ' _ hagree
  refine ⟨fun c => Cert.KernelIdeal.Hand.W27 m ρ c (Proc.devRef .tc Cert.KernelIdeal.main_v121), fun c => Cert.KernelIdeal.Hand.W27 m ρ c (Proc.devRef .tc Cert.KernelIdeal.main_v123),
    fun c => Cert.KernelIdeal.Hand.W27 m ρ c (Proc.devRef .tc Cert.KernelIdeal.main_v125), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v121 (by decide)), h c _ (Cert.KernelIdeal.Hand.mem_uc Cert.KernelIdeal.main_v123 (by decide)), h c _ (Cert.KernelIdeal.Hand.mem_uc Cert.KernelIdeal.main_v125 (by decide)),
      (h c _ (Cert.KernelIdeal.Hand.mem_uc Cert.KernelIdeal.main_arg0 (by decide))).trans (Cert.KernelIdeal.Hand.keep_all m ρ c Cert.KernelIdeal.main_arg0 (by decide)),
      (h c _ (Cert.KernelIdeal.Hand.mem_uc Cert.KernelIdeal.main_arg1 (by decide))).trans (Cert.KernelIdeal.Hand.keep_all m ρ c Cert.KernelIdeal.main_arg1 (by decide)),
      (h c _ (Cert.KernelIdeal.Hand.mem_uc Cert.KernelIdeal.main_arg2 (by decide))).trans (Cert.KernelIdeal.Hand.keep_all m ρ c Cert.KernelIdeal.main_arg2 (by decide)),
      (h c _ (Cert.KernelIdeal.Hand.mem_uc Cert.KernelIdeal.main_arg3 (by decide))).trans (Cert.KernelIdeal.Hand.keep_all m ρ c Cert.KernelIdeal.main_arg3 (by decide)),
      (h c _ (Cert.KernelIdeal.Hand.mem_uc Cert.KernelIdeal.main_arg4 (by decide))).trans (Cert.KernelIdeal.Hand.keep_all m ρ c Cert.KernelIdeal.main_arg4 (by decide)),
      (h c _ (Cert.KernelIdeal.Hand.mem_uc Cert.KernelIdeal.main_arg5 (by decide))).trans (Cert.KernelIdeal.Hand.keep_all m ρ c Cert.KernelIdeal.main_arg5 (by decide)),
      (h c _ (Cert.KernelIdeal.Hand.mem_uc Cert.KernelIdeal.main_arg6 (by decide))).trans (Cert.KernelIdeal.Hand.keep_all m ρ c Cert.KernelIdeal.main_arg6 (by decide)),
      (h c _ (Cert.KernelIdeal.Hand.mem_uc Cert.KernelIdeal.main_arg7 (by decide))).trans (Cert.KernelIdeal.Hand.keep_all m ρ c Cert.KernelIdeal.main_arg7 (by decide)),
      (h c _ (Cert.KernelIdeal.Hand.mem_uc Cert.KernelIdeal.main_arg8 (by decide))).trans (Cert.KernelIdeal.Hand.keep_all m ρ c Cert.KernelIdeal.main_arg8 (by decide)),
      (h c _ (Cert.KernelIdeal.Hand.mem_uc Cert.KernelIdeal.main_arg9 (by decide))).trans (Cert.KernelIdeal.Hand.keep_all m ρ c Cert.KernelIdeal.main_arg9 (by decide)),
      (h c _ (Cert.KernelIdeal.Hand.mem_uc Cert.KernelIdeal.main_arg10 (by decide))).trans (Cert.KernelIdeal.Hand.keep_all m ρ c Cert.KernelIdeal.main_arg10 (by decide)),
      (h c _ (Cert.KernelIdeal.Hand.mem_uc Cert.KernelIdeal.main_arg11 (by decide))).trans (Cert.KernelIdeal.Hand.keep_all m ρ c Cert.KernelIdeal.main_arg11 (by decide)),
      (h c _ (Cert.KernelIdeal.Hand.mem_uc Cert.KernelIdeal.main_arg12 (by decide))).trans (Cert.KernelIdeal.Hand.keep_all m ρ c Cert.KernelIdeal.main_arg12 (by decide)),
      (h c _ (Cert.KernelIdeal.Hand.mem_uc Cert.KernelIdeal.main_arg13 (by decide))).trans (Cert.KernelIdeal.Hand.keep_all m ρ c Cert.KernelIdeal.main_arg13 (by decide)),
      (h c _ (Cert.KernelIdeal.Hand.mem_uc Cert.KernelIdeal.main_arg14 (by decide))).trans (Cert.KernelIdeal.Hand.keep_all m ρ c Cert.KernelIdeal.main_arg14 (by decide)),
      (h c _ (Cert.KernelIdeal.Hand.mem_uc Cert.KernelIdeal.main_arg15 (by decide))).trans (Cert.KernelIdeal.Hand.keep_all m ρ c Cert.KernelIdeal.main_arg15 (by decide)),
      (h c _ (Cert.KernelIdeal.Hand.mem_uc Cert.KernelIdeal.main_arg16 (by decide))).trans (Cert.KernelIdeal.Hand.keep_all m ρ c Cert.KernelIdeal.main_arg16 (by decide)),
      (h c _ (Cert.KernelIdeal.Hand.mem_uc Cert.KernelIdeal.main_arg17 (by decide))).trans (Cert.KernelIdeal.Hand.keep_all m ρ c Cert.KernelIdeal.main_arg17 (by decide)),
      (h c _ (Cert.KernelIdeal.Hand.mem_uc Cert.KernelIdeal.main_arg18 (by decide))).trans (Cert.KernelIdeal.Hand.keep_all m ρ c Cert.KernelIdeal.main_arg18 (by decide)),
      (h c _ (Cert.KernelIdeal.Hand.mem_uc Cert.KernelIdeal.main_arg19 (by decide))).trans (Cert.KernelIdeal.Hand.keep_all m ρ c Cert.KernelIdeal.main_arg19 (by decide)),
      (h c _ (Cert.KernelIdeal.Hand.mem_uc Cert.KernelIdeal.main_arg20 (by decide))).trans (Cert.KernelIdeal.Hand.keep_all m ρ c Cert.KernelIdeal.main_arg20 (by decide))⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6, a7, a8, a9, a10, a11, a12, a13, a14, a15, a16, a17, a18, a19, a20⟩ := hagree c
    refine ⟨?_, ?_, ?_, hargs⟩
    · exact (h0.trans (Cert.ReferenceIdeal.Read.val_main_v131_eq m' c)).trans (by rw [a0, a1, a2, a3, a4, a5, a6, a7, a8, a9, a10, a15, a16]; exact (res1_ref m ρ c).symm)
    · exact (h1.trans (Cert.ReferenceIdeal.Read.val_main_v149_eq m' c)).trans (by rw [a0, a1, a2, a3, a4, a5, a6, a7, a8, a11, a12, a17, a18]; exact (res2_ref m ρ c).symm)
    · exact (h2.trans (Cert.ReferenceIdeal.Read.val_main_v167_eq m' c)).trans (by rw [a0, a1, a2, a3, a4, a5, a6, a7, a8, a13, a14, a19, a20]; exact (res3_ref m ρ c).symm)

end Cert.Proof.Alg

end
-- ==== Proof.lean ====
/-
  The certificate of one multi-modal classifier: three zero-padded sample matrices and three pairs of weight matrices go
  through ONE projection kernel (a grid of three modalities by eight blocks of the contracted axis, the output block of
  a modality zeroed at its first block and added to at the others), the host normalises the three projected pairs and
  runs the attention stage, and three head kernels (one grid point each) turn a feature array into a vector of
  probabilities. Claimed: each program runs to the end without a fault and leaves its arguments as they were; the
  idealization rewrote nothing; and at the extended reals the idealized kernel and the idealized reference end with
  equal results.

  The frames of the two kernel programs are the launch of @main as a list of segments — a stretch of host operations
  after another, the four kernel regions between them — each region's body run once per case of its control flow
  (Proof/KIProj, Proof/KIHeads at the extended reals; Proof/KProj, Proof/KHeads at machine words) and the segments
  composed in order (Proof/KIRun, Proof/KRun). The reference is a straight line of host operations (Proof/RefSide).
  The equality of the results (Proof/Algebraic) rests on three facts: a contraction over a zero-padded axis cut in
  blocks is the contraction over the unpadded axis (Proof/KIProjFinal, Proof/ProjLaw, Proof/LibPadSum); the attention
  stage is the same sequence of operations on both sides (Proof/KIMid, Proof/MidRef); a head kernel's payload is the
  reference's head, whose logistic function is spelt 1 / (1 + exp (-x)) (Proof/KIHeadFinal, Proof/HeadLaw).
-/
import proofs.«172187_j12206297055645_2_alg».proof.Defs
import proofs.«172187_j12206297055645_2_alg».proof.Proof.Gen.Kernel
import proofs.«172187_j12206297055645_2_alg».proof.Proof.Gen.KernelIdeal
import proofs.«172187_j12206297055645_2_alg».proof.Proof.Gen.ReferenceIdeal
import proofs.«172187_j12206297055645_2_alg».proof.Proof.Gen.Pre_finite_inputs
import proofs.«172187_j12206297055645_2_alg».proof.Proof.KRun
import proofs.«172187_j12206297055645_2_alg».proof.Proof.KIRun
import proofs.«172187_j12206297055645_2_alg».proof.Proof.RefSide
import proofs.«172187_j12206297055645_2_alg».proof.Proof.Algebraic

noncomputable section

namespace Cert.Proof

open Idealize.ShloMosaic Idealize.SL.Sem

/-- The word-level kernel runs and leaves its arguments as they were. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, Cert.Proof.RefSide.frame_ri, trivial, Cert.Proof.Alg.algebraic⟩

end Cert.Proof

end
